-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S100000x64 : Shape := ⟨2, ![100000, 64]⟩
abbrev S4x64x128 : Shape := ⟨3, ![4, 64, 128]⟩
abbrev S64x128 : Shape := ⟨2, ![64, 128]⟩
abbrev S128 : Shape := ⟨1, ![128]⟩
abbrev S4x128x64 : Shape := ⟨3, ![4, 128, 64]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x128 : S_.BroadcastsInDim S4x64x128 (![] : Fin 0 → Fin S4x64x128.rank)
  reducesTo_S4x64x128_S_d0_1_2 : S4x64x128.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4x128x64 : S_.BroadcastsInDim S4x128x64 (![] : Fin 0 → Fin S4x128x64.rank)
  reducesTo_S4x128x64_S_d0_1_2 : S4x128x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S128x64 .f32) (main_arg12 : FVec F S64 .f32) (main_v33 : IVec S_ 1) : IVec S_ 1 :=
  let main_v34 : FVec F S128x64 .f32 := Host.absf main_arg11
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg8 : FVec F S128 .f32) (main_arg9 : FVec F S128 .f32) (main_arg10 : FVec F S4x128x64 .f32) (main_arg11 : FVec F S128x64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4x128x64 .f32 := Host.absf main_arg10
  let main_cst_10 : FVec F S_ .f32 := constant S_ .f32 0x7F800000#32
  let main_v30 : FVec F S4x128x64 .f32 := broadcastInDim S4x128x64 ![] bcast_S_S4x128x64 main_cst_10
  let main_v31 : IVec S4x128x64 1 := cmpf .olt main_v29 main_v30
  let main_c_11 : IVec S_ 1 := constantI S_ 1 1#1
  let main_v32 : IVec S_ 1 := (fun x v => Host.reduce IntOp.andi x v reducesTo_S4x128x64_S_d0_1_2 h_S_) main_v31 main_c_11
  let main_v33 : IVec S_ 1 := andi main_v28 main_v32
  fn_part2 (F := F) main_arg11 main_arg12 main_v33

def fn {F : FTy → Type} [FloatOps F] (main_arg0 : IVec S2x800000 32) (main_arg1 : IVec S2x800000 32) (main_arg2 : IVec S2x800000 32) (main_arg3 : IVec S2x800000 32) (main_arg4 : FVec F S100000x64 .f32) (main_arg5 : FVec F S4x64x128 .f32) (main_arg6 : FVec F S64x128 .f32) (main_arg7 : FVec F S128 .f32) (main_arg8 : FVec F S128 .f32) (main_arg9 : FVec F S128 .f32) (main_arg10 : FVec F S4x128x64 .f32) (main_arg11 : FVec F S128x64 .f32) (main_arg12 : FVec F S64 .f32) : IVec S_ 1 :=
  let main_v0 : FVec F S100000x64 .f32 := Host.absf main_arg4
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x128 .f32 := Host.absf main_arg5
  let main_cst_0 : FVec F S_ .f32 := constant S_ .f32 0x7F800000#32
  let main_v5 : FVec F S4x64x128 .f32 := broadcastInDim S4x64x128 ![] bcast_S_S4x64x128 main_cst_0
  let main_v6 : IVec S4x64x128 1 := cmpf .olt main_v4 main_v5
  let main_c_1 : IVec S_ 1 := constantI S_ 1 1#1
  let main_v7 : IVec S_ 1 := (fun x v => Host.reduce IntOp.andi x v reducesTo_S4x64x128_S_d0_1_2 h_S_) main_v6 main_c_1
  let main_v8 : IVec S_ 1 := andi main_v3 main_v7
  let main_v9 : FVec F S64x128 .f32 := Host.absf main_arg6
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_v13 main_v16
-- ==== Kernel.lean ====
abbrev S2x800000 : Shape := ⟨2, ![2, 800000]⟩
abbrev S100000x64 : Shape := ⟨2, ![100000, 64]⟩
abbrev S4x64x128 : Shape := ⟨3, ![4, 64, 128]⟩
abbrev S64x128 : Shape := ⟨2, ![64, 128]⟩
abbrev S128 : Shape := ⟨1, ![128]⟩
abbrev S4x128x64 : Shape := ⟨3, ![4, 128, 64]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x64 : Shape := ⟨2, ![800000, 64]⟩
abbrev S100000x1 : Shape := ⟨2, ![100000, 1]⟩
abbrev S100000x256 : Shape := ⟨2, ![100000, 256]⟩
abbrev S100000x128 : Shape := ⟨2, ![100000, 128]⟩
abbrev S4000x64 : Shape := ⟨2, ![4000, 64]⟩
abbrev S4000x256 : Shape := ⟨2, ![4000, 256]⟩
abbrev S4000x128 : Shape := ⟨2, ![4000, 128]⟩
abbrev S1x128 : Shape := ⟨2, ![1, 128]⟩
abbrev S1x64x128 : Shape := ⟨3, ![1, 64, 128]⟩
abbrev S800000x128 : Shape := ⟨2, ![800000, 128]⟩
abbrev S100000x512 : Shape := ⟨2, ![100000, 512]⟩
abbrev S4000x512 : Shape := ⟨2, ![4000, 512]⟩
abbrev S1x64 : Shape := ⟨2, ![1, 64]⟩
abbrev S1x128x64 : Shape := ⟨3, ![1, 128, 64]⟩

abbrev nBuf : Space → Nat
  | .hbm => 214
  | .vmem => 30
  | .smem => 0
  | _ => 0

abbrev hbmTy0_0 (i : Nat) : BufTy := match i % 128 with
  | 0 => ⟨S2x800000, .i32⟩
  | 1 => ⟨S2x800000, .i32⟩
  | 2 => ⟨S2x800000, .i32⟩
  | 3 => ⟨S2x800000, .i32⟩
  | 4 => ⟨S100000x64, .f32⟩
  | 5 => ⟨S4x64x128, .f32⟩
  | 6 => ⟨S64x128, .f32⟩
  | 7 => ⟨S128, .f32⟩
  | 8 => ⟨S128, .f32⟩
  | 9 => ⟨S128, .f32⟩
  | 10 => ⟨S4x128x64, .f32⟩
  | 11 => ⟨S128x64, .f32⟩
  | 12 => ⟨S64, .f32⟩
  | 13 => ⟨S1x800000, .i32⟩
  | 14 => ⟨S800000, .i32⟩
  | 15 => ⟨S1x800000, .i32⟩
  | 16 => ⟨S800000, .i32⟩
  | 17 => ⟨S1x800000, .i32⟩
  | 18 => ⟨S800000, .i32⟩
  | 19 => ⟨S1x800000, .i32⟩
  | 20 => ⟨S800000, .i32⟩
  | 21 => ⟨S1x800000, .i32⟩
  | 22 => ⟨S800000, .i32⟩
  | 23 => ⟨S1x800000, .i32⟩
  | 24 => ⟨S800000, .i32⟩
  | 25 => ⟨S1x800000, .i32⟩
  | 26 => ⟨S800000, .i32⟩
  | 27 => ⟨S1x800000, .i32⟩
  | 28 => ⟨S800000, .i32⟩
  | 29 => ⟨S_, .f32⟩
  | 30 => ⟨S800000, .f32⟩
  | 31 => ⟨S_, .f32⟩
  | 32 => ⟨S100000, .f32⟩
  | 33 => ⟨S800000x1, .i32⟩
  | 34 => ⟨S100000, .f32⟩
  | 35 => ⟨S_, .f32⟩
  | 36 => ⟨S100000, .f32⟩
  | 37 => ⟨S100000, .f32⟩
  | 38 => ⟨S_, .f32⟩
  | 39 => ⟨S100000, .f32⟩
  | 40 => ⟨S100000, .f32⟩
  | 41 => ⟨S_, .f32⟩
  | 42 => ⟨S100000, .f32⟩
  | 43 => ⟨S800000x1, .i32⟩
  | 44 => ⟨S100000, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .f32⟩
  | 61 => ⟨S_, .f32⟩
  | 62 => ⟨S100000, .f32⟩
  | 63 => ⟨S800000x1, .i32⟩
  | 64 => ⟨S100000, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .f32⟩
  | 81 => ⟨S100000x64, .f32⟩
  | 82 => ⟨S800000x1, .i32⟩
  | 83 => ⟨S100000x64, .f32⟩
  | 84 => ⟨S100000x1, .f32⟩
  | 85 => ⟨S100000x64, .f32⟩
  | 86 => ⟨S100000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S100000x64, .f32⟩
  | 98 => ⟨S800000x1, .i32⟩
  | 99 => ⟨S100000x64, .f32⟩
  | 100 => ⟨S100000x1, .f32⟩
  | 101 => ⟨S100000x64, .f32⟩
  | 102 => ⟨S100000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .f32⟩
  | 113 => ⟨S100000x64, .f32⟩
  | 114 => ⟨S800000x1, .i32⟩
  | 115 => ⟨S100000x64, .f32⟩
  | 116 => ⟨S100000x1, .f32⟩
  | 117 => ⟨S100000x64, .f32⟩
  | 118 => ⟨S100000x64, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x64, .f32⟩
  | _ => ⟨S2x800000, .i32⟩

abbrev hbmTy0_1 (i : Nat) : BufTy := match i % 128 with
  | 0 => ⟨S_, .f32⟩
  | 1 => ⟨S100000x64, .f32⟩
  | 2 => ⟨S800000x1, .i32⟩
  | 3 => ⟨S100000x64, .f32⟩
  | 4 => ⟨S100000x1, .f32⟩
  | 5 => ⟨S100000x64, .f32⟩
  | 6 => ⟨S100000x64, .f32⟩
  | 7 => ⟨S100000x256, .f32⟩
  | 8 => ⟨S100000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S100000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S100000x128, .f32⟩
  | 31 => ⟨S800000x1, .i32⟩
  | 32 => ⟨S100000x128, .f32⟩
  | 33 => ⟨S100000x1, .f32⟩
  | 34 => ⟨S100000x128, .f32⟩
  | 35 => ⟨S100000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S100000x1, .f32⟩
  | 50 => ⟨S100000x128, .f32⟩
  | 51 => ⟨S100000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S100000x128, .f32⟩
  | 63 => ⟨S800000x1, .i32⟩
  | 64 => ⟨S100000x128, .f32⟩
  | 65 => ⟨S100000x1, .f32⟩
  | 66 => ⟨S100000x128, .f32⟩
  | 67 => ⟨S100000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S100000x128, .f32⟩
  | 79 => ⟨S800000x1, .i32⟩
  | 80 => ⟨S100000x128, .f32⟩
  | 81 => ⟨S100000x1, .f32⟩
  | 82 => ⟨S100000x128, .f32⟩
  | 83 => ⟨S100000x128, .f32⟩
  | 84 => ⟨S100000x512, .f32⟩
  | 85 => ⟨S100000x64, .f32⟩
  | _ => ⟨S2x800000, .i32⟩

abbrev hbmTy (i : Nat) : BufTy := match i / 128 with
  | 0 => hbmTy0_0 i
  | 1 => hbmTy0_1 i
  | _ => ⟨S2x800000, .i32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x256, .f32⟩
  | .local _ .vmem, ⟨3, _⟩ => ⟨S4000x256, .f32⟩
  | .local _ .vmem, ⟨4, _⟩ => ⟨S64x128, .f32⟩
  | .local _ .vmem, ⟨5, _⟩ => ⟨S4x64x128, .f32⟩
  | .local _ .vmem, ⟨6, _⟩ => ⟨S128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S1x128, .f32⟩
  | .local _ .vmem, ⟨16, _⟩ => ⟨S1x128, .f32⟩
  | .local _ .vmem, ⟨17, _⟩ => ⟨S128, .f32⟩
  | .local _ .vmem, ⟨18, _⟩ => ⟨S128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x512, .f32⟩
  | .local _ .vmem, ⟨24, _⟩ => ⟨S4000x512, .f32⟩
  | .local _ .vmem, ⟨25, _⟩ => ⟨S128x64, .f32⟩
  | .local _ .vmem, ⟨26, _⟩ => ⟨S4x128x64, .f32⟩
  | .local _ .vmem, ⟨27, _⟩ => ⟨S64, .f32⟩
  | .local _ .vmem, ⟨28, _⟩ => ⟨S4000x64, .f32⟩
  | .local _ .vmem, ⟨29, _⟩ => ⟨S4000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_c : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_14 : Ref sig .tc := ⟨.hbm, 87, rfl⟩
abbrev main_v58 : Ref sig .tc := ⟨.hbm, 88, rfl⟩
abbrev main_v59 : Ref sig .tc := ⟨.hbm, 89, rfl⟩
abbrev main_c_15 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_19 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_c_21 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_22 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99_0 : Ref sig .tc := ⟨.hbm, 137, rfl⟩
abbrev main_v99_1 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_cst_24 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_25 : Ref sig .tc := ⟨.hbm, 148, rfl⟩
abbrev main_v107 : Ref sig .tc := ⟨.hbm, 149, rfl⟩
abbrev main_v108 : Ref sig .tc := ⟨.hbm, 150, rfl⟩
abbrev main_c_26 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_27 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_28 : Ref sig .tc := ⟨.hbm, 164, rfl⟩
abbrev main_v120 : Ref sig .tc := ⟨.hbm, 165, rfl⟩
abbrev main_v121 : Ref sig .tc := ⟨.hbm, 166, rfl⟩
abbrev main_c_29 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_30 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_31 : Ref sig .tc := ⟨.hbm, 180, rfl⟩
abbrev main_v133 : Ref sig .tc := ⟨.hbm, 181, rfl⟩
abbrev main_v134 : Ref sig .tc := ⟨.hbm, 182, rfl⟩
abbrev main_c_32 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_33 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_c_34 : Ref sig .tc := ⟨.hbm, 196, rfl⟩
abbrev main_v146 : Ref sig .tc := ⟨.hbm, 197, rfl⟩
abbrev main_v147 : Ref sig .tc := ⟨.hbm, 198, rfl⟩
abbrev main_c_35 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_36 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4x128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x64_S100000x256_d1 : Shape.Concatenates [S100000x64, S100000x64, S100000x64, S100000x64] S100000x256 1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  slices_S4000x256_o0_0_S4000x64 : S4000x256.Slices ![0, 0] S4000x64
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  slices_S4000x256_o0_64_S4000x64 : S4000x256.Slices ![0, 64] S4000x64
  inb_S4x64x128_S1x64x128_1_0_0 : ∀ a, (![1, 0, 0] : Fin 3 → Nat) a + S1x64x128.size a ≤ S4x64x128.size a
  slices_S4000x256_o0_128_S4000x64 : S4000x256.Slices ![0, 128] S4000x64
  inb_S4x64x128_S1x64x128_2_0_0 : ∀ a, (![2, 0, 0] : Fin 3 → Nat) a + S1x64x128.size a ≤ S4x64x128.size a
  slices_S4000x256_o0_192_S4000x64 : S4000x256.Slices ![0, 192] S4000x64
  inb_S4x64x128_S1x64x128_3_0_0 : ∀ a, (![3, 0, 0] : Fin 3 → Nat) a + S1x64x128.size a ≤ S4x64x128.size a
  inb_S4000x128_S4000x128_0_0 : ∀ a, (![0, 0] : Fin 2 → Nat) a + S4000x128.size a ≤ S4000x128.size a
  h_S4000x128 : 0 < S4000x128.numel
  inb_S1x128_S1x128_0_0 : ∀ a, (![0, 0] : Fin 2 → Nat) a + S1x128.size a ≤ S1x128.size a
  h_S1x128 : 0 < S1x128.numel
  shapeCasts_S4000x128_S4000x128 : S4000x128.ShapeCasts S4000x128
  shapeCasts_S1x128_S1x128 : S1x128.ShapeCasts S1x128
  reduces_S4000x128_S128 : S4000x128.Reduces [0] S128
  bcast_S_S1x128 : S_.BroadcastsInDim S1x128 (![] : Fin 0 → Fin S1x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  concatenates_S100000x128_S100000x128_S100000x128_S100000x128_S100000x512_d1 : Shape.Concatenates [S100000x128, S100000x128, S100000x128, S100000x128] S100000x512 1
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  slices_S4000x512_o0_0_S4000x128 : S4000x512.Slices ![0, 0] S4000x128
  inb_S4x128x64_S1x128x64_0_0_0 : ∀ a, (![0, 0, 0] : Fin 3 → Nat) a + S1x128x64.size a ≤ S4x128x64.size a
  h_S1x128x64 : 0 < S1x128x64.numel
  shapeCasts_S1x128x64_S128x64 : S1x128x64.ShapeCasts S128x64
  slices_S4000x512_o0_128_S4000x128 : S4000x512.Slices ![0, 128] S4000x128
  inb_S4x128x64_S1x128x64_1_0_0 : ∀ a, (![1, 0, 0] : Fin 3 → Nat) a + S1x128x64.size a ≤ S4x128x64.size a
  slices_S4000x512_o0_256_S4000x128 : S4000x512.Slices ![0, 256] S4000x128
  inb_S4x128x64_S1x128x64_2_0_0 : ∀ a, (![2, 0, 0] : Fin 3 → Nat) a + S1x128x64.size a ≤ S4x128x64.size a
  slices_S4000x512_o0_384_S4000x128 : S4000x512.Slices ![0, 384] S4000x128
  inb_S4x128x64_S1x128x64_3_0_0 : ∀ a, (![3, 0, 0] : Fin 3 → Nat) a + S1x128x64.size a ≤ S4x128x64.size a
  scatter_S100000_S800000x1_S800000_n_0_0_1_wf : ScatterDims.WF S100000 S800000x1 S800000 [] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S4000x64_S64x128_S4000x128_1_0_0_1_n_n_wf : DotDims.WF S4000x64 S64x128 S4000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S100000x256.size a
  hwx0_1 : ∀ i : grid0.Coords, EltTy.bits .f32 = 32 ∨ (Rect.block (s := S100000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x128.size a ≤ S4x64x128.size a
  hwx0_3 : ∀ i : grid0.Coords, EltTy.bits .f32 = 32 ∨ (Rect.block (s := S4x64x128) S4x64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x512.size a ≤ S100000x512.size a
  hwx3_1 : ∀ i : grid3.Coords, EltTy.bits .f32 = 32 ∨ (Rect.block (s := S100000x512) S4000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4x128x64.size a ≤ S4x128x64.size a
  hwx3_3 : ∀ i : grid3.Coords, EltTy.bits .f32 = 32 ∨ (Rect.block (s := S4x128x64) S4x128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg4) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v97) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S4x64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v98) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v98) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v99_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v99_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v98) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v101) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v105) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v106) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v106) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v159) S4000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S4x128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v160) S4000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S2x800000 : Shape := ⟨2, ![2, 800000]⟩
abbrev S100000x64 : Shape := ⟨2, ![100000, 64]⟩
abbrev S4x64x128 : Shape := ⟨3, ![4, 64, 128]⟩
abbrev S64x128 : Shape := ⟨2, ![64, 128]⟩
abbrev S128 : Shape := ⟨1, ![128]⟩
abbrev S4x128x64 : Shape := ⟨3, ![4, 128, 64]⟩
abbrev S128x64 : Shape := ⟨2, ![128, 64]⟩
abbrev S64 : Shape := ⟨1, ![64]⟩
abbrev S100000x128 : Shape := ⟨2, ![100000, 128]⟩
abbrev S1x128 : Shape := ⟨2, ![1, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64x128 : Shape := ⟨3, ![1, 64, 128]⟩
abbrev S800000x128 : Shape := ⟨2, ![800000, 128]⟩
abbrev S100000 : Shape := ⟨1, ![100000]⟩
abbrev S100000x1 : Shape := ⟨2, ![100000, 1]⟩
abbrev S1x64 : Shape := ⟨2, ![1, 64]⟩
abbrev S1x128x64 : Shape := ⟨3, ![1, 128, 64]⟩

abbrev nBuf : Space → Nat
  | .hbm => 344
  | .vmem => 0
  | .smem => 0
  | _ => 0

abbrev hbmTy0_0 (i : Nat) : BufTy := match i % 128 with
  | 0 => ⟨S2x800000, .i32⟩
  | 1 => ⟨S2x800000, .i32⟩
  | 2 => ⟨S2x800000, .i32⟩
  | 3 => ⟨S2x800000, .i32⟩
  | 4 => ⟨S100000x64, .f32⟩
  | 5 => ⟨S4x64x128, .f32⟩
  | 6 => ⟨S64x128, .f32⟩
  | 7 => ⟨S128, .f32⟩
  | 8 => ⟨S128, .f32⟩
  | 9 => ⟨S128, .f32⟩
  | 10 => ⟨S4x128x64, .f32⟩
  | 11 => ⟨S128x64, .f32⟩
  | 12 => ⟨S64, .f32⟩
  | 13 => ⟨S100000x128, .f32⟩
  | 14 => ⟨S1x128, .f32⟩
  | 15 => ⟨S100000x128, .f32⟩
  | 16 => ⟨S100000x128, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S1x64x128, .f32⟩
  | 31 => ⟨S64x128, .f32⟩
  | 32 => ⟨S800000x128, .f32⟩
  | 33 => ⟨S_, .f32⟩
  | 34 => ⟨S100000x128, .f32⟩
  | 35 => ⟨S800000x1, .i32⟩
  | 36 => ⟨S100000x128, .f32⟩
  | 37 => ⟨S_, .f32⟩
  | 38 => ⟨S800000, .f32⟩
  | 39 => ⟨S_, .f32⟩
  | 40 => ⟨S100000, .f32⟩
  | 41 => ⟨S800000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x800000, .i32⟩
  | 51 => ⟨S800000, .i32⟩
  | 52 => ⟨S1x800000, .i32⟩
  | 53 => ⟨S800000, .i32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S1x64x128, .f32⟩
  | 64 => ⟨S64x128, .f32⟩
  | 65 => ⟨S800000x128, .f32⟩
  | 66 => ⟨S_, .f32⟩
  | 67 => ⟨S100000x128, .f32⟩
  | 68 => ⟨S800000x1, .i32⟩
  | 69 => ⟨S100000x128, .f32⟩
  | 70 => ⟨S_, .f32⟩
  | 71 => ⟨S800000, .f32⟩
  | 72 => ⟨S_, .f32⟩
  | 73 => ⟨S100000, .f32⟩
  | 74 => ⟨S800000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S1x800000, .i32⟩
  | 84 => ⟨S800000, .i32⟩
  | 85 => ⟨S1x800000, .i32⟩
  | 86 => ⟨S800000, .i32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S1x64x128, .f32⟩
  | 97 => ⟨S64x128, .f32⟩
  | 98 => ⟨S800000x128, .f32⟩
  | 99 => ⟨S_, .f32⟩
  | 100 => ⟨S100000x128, .f32⟩
  | 101 => ⟨S800000x1, .i32⟩
  | 102 => ⟨S100000x128, .f32⟩
  | 103 => ⟨S_, .f32⟩
  | 104 => ⟨S800000, .f32⟩
  | 105 => ⟨S_, .f32⟩
  | 106 => ⟨S100000, .f32⟩
  | 107 => ⟨S800000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x128, .f32⟩
  | 114 => ⟨S100000x128, .f32⟩
  | 115 => ⟨S100000x128, .f32⟩
  | 116 => ⟨S1x800000, .i32⟩
  | 117 => ⟨S800000, .i32⟩
  | 118 => ⟨S1x800000, .i32⟩
  | 119 => ⟨S800000, .i32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S2x800000, .i32⟩

abbrev hbmTy0_1 (i : Nat) : BufTy := match i % 128 with
  | 0 => ⟨S800000x64, .f32⟩
  | 1 => ⟨S1x64x128, .f32⟩
  | 2 => ⟨S64x128, .f32⟩
  | 3 => ⟨S800000x128, .f32⟩
  | 4 => ⟨S_, .f32⟩
  | 5 => ⟨S100000x128, .f32⟩
  | 6 => ⟨S800000x1, .i32⟩
  | 7 => ⟨S100000x128, .f32⟩
  | 8 => ⟨S_, .f32⟩
  | 9 => ⟨S800000, .f32⟩
  | 10 => ⟨S_, .f32⟩
  | 11 => ⟨S100000, .f32⟩
  | 12 => ⟨S800000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S100000x128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S100000x128, .f32⟩
  | 34 => ⟨S100000x128, .f32⟩
  | 35 => ⟨S100000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .i1⟩
  | 68 => ⟨S_, .f32⟩
  | 69 => ⟨S100000x128, .f32⟩
  | 70 => ⟨S100000x128, .i1⟩
  | 71 => ⟨S_, .f32⟩
  | 72 => ⟨S_, .f32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S100000x64, .f32⟩
  | 81 => ⟨S1x64, .f32⟩
  | 82 => ⟨S100000x64, .f32⟩
  | 83 => ⟨S100000x64, .f32⟩
  | 84 => ⟨S1x800000, .i32⟩
  | 85 => ⟨S800000, .i32⟩
  | 86 => ⟨S1x800000, .i32⟩
  | 87 => ⟨S800000, .i32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S1x128x64, .f32⟩
  | 98 => ⟨S128x64, .f32⟩
  | 99 => ⟨S800000x64, .f32⟩
  | 100 => ⟨S_, .f32⟩
  | 101 => ⟨S100000x64, .f32⟩
  | 102 => ⟨S800000x1, .i32⟩
  | 103 => ⟨S100000x64, .f32⟩
  | 104 => ⟨S_, .f32⟩
  | 105 => ⟨S800000, .f32⟩
  | 106 => ⟨S_, .f32⟩
  | 107 => ⟨S100000, .f32⟩
  | 108 => ⟨S800000x1, .i32⟩
  | 109 => ⟨S100000, .f32⟩
  | 110 => ⟨S_, .f32⟩
  | 111 => ⟨S100000, .f32⟩
  | 112 => ⟨S100000, .f32⟩
  | 113 => ⟨S100000x1, .f32⟩
  | 114 => ⟨S100000x64, .f32⟩
  | 115 => ⟨S100000x64, .f32⟩
  | 116 => ⟨S100000x64, .f32⟩
  | 117 => ⟨S1x800000, .i32⟩
  | 118 => ⟨S800000, .i32⟩
  | 119 => ⟨S1x800000, .i32⟩
  | 120 => ⟨S800000, .i32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S2x800000, .i32⟩

abbrev hbmTy0_2 (i : Nat) : BufTy := match i % 128 with
  | 0 => ⟨S800000x1, .i32⟩
  | 1 => ⟨S800000x128, .f32⟩
  | 2 => ⟨S1x128x64, .f32⟩
  | 3 => ⟨S128x64, .f32⟩
  | 4 => ⟨S800000x64, .f32⟩
  | 5 => ⟨S_, .f32⟩
  | 6 => ⟨S100000x64, .f32⟩
  | 7 => ⟨S800000x1, .i32⟩
  | 8 => ⟨S100000x64, .f32⟩
  | 9 => ⟨S_, .f32⟩
  | 10 => ⟨S800000, .f32⟩
  | 11 => ⟨S_, .f32⟩
  | 12 => ⟨S100000, .f32⟩
  | 13 => ⟨S800000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x64, .f32⟩
  | 20 => ⟨S100000x64, .f32⟩
  | 21 => ⟨S100000x64, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S1x128x64, .f32⟩
  | 36 => ⟨S128x64, .f32⟩
  | 37 => ⟨S800000x64, .f32⟩
  | 38 => ⟨S_, .f32⟩
  | 39 => ⟨S100000x64, .f32⟩
  | 40 => ⟨S800000x1, .i32⟩
  | 41 => ⟨S100000x64, .f32⟩
  | 42 => ⟨S_, .f32⟩
  | 43 => ⟨S800000, .f32⟩
  | 44 => ⟨S_, .f32⟩
  | 45 => ⟨S100000, .f32⟩
  | 46 => ⟨S800000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x64, .f32⟩
  | 53 => ⟨S100000x64, .f32⟩
  | 54 => ⟨S100000x64, .f32⟩
  | 55 => ⟨S1x800000, .i32⟩
  | 56 => ⟨S800000, .i32⟩
  | 57 => ⟨S1x800000, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S1x128x64, .f32⟩
  | 69 => ⟨S128x64, .f32⟩
  | 70 => ⟨S800000x64, .f32⟩
  | 71 => ⟨S_, .f32⟩
  | 72 => ⟨S100000x64, .f32⟩
  | 73 => ⟨S800000x1, .i32⟩
  | 74 => ⟨S100000x64, .f32⟩
  | 75 => ⟨S_, .f32⟩
  | 76 => ⟨S800000, .f32⟩
  | 77 => ⟨S_, .f32⟩
  | 78 => ⟨S100000, .f32⟩
  | 79 => ⟨S800000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x64, .f32⟩
  | 86 => ⟨S100000x64, .f32⟩
  | 87 => ⟨S100000x64, .f32⟩
  | _ => ⟨S2x800000, .i32⟩

abbrev hbmTy (i : Nat) : BufTy := match i / 128 with
  | 0 => hbmTy0_0 i
  | 1 => hbmTy0_1 i
  | 2 => hbmTy0_2 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_10 : Ref sig .tc := ⟨.hbm, 87, rfl⟩
abbrev main_v62 : Ref sig .tc := ⟨.hbm, 88, rfl⟩
abbrev main_v63 : Ref sig .tc := ⟨.hbm, 89, rfl⟩
abbrev main_c_11 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_c_16 : Ref sig .tc := ⟨.hbm, 120, rfl⟩
abbrev main_v89 : Ref sig .tc := ⟨.hbm, 121, rfl⟩
abbrev main_v90 : Ref sig .tc := ⟨.hbm, 122, rfl⟩
abbrev main_c_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_19 : Ref sig .tc := ⟨.hbm, 136, rfl⟩
abbrev main_v102 : Ref sig .tc := ⟨.hbm, 137, rfl⟩
abbrev main_cst_20 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_21 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_22 : Ref sig .tc := ⟨.hbm, 149, rfl⟩
abbrev main_v112 : Ref sig .tc := ⟨.hbm, 150, rfl⟩
abbrev main_cst_23 : Ref sig .tc := ⟨.hbm, 151, rfl⟩
abbrev main_v113 : Ref sig .tc := ⟨.hbm, 152, rfl⟩
abbrev main_v114 : Ref sig .tc := ⟨.hbm, 153, rfl⟩
abbrev main_c_24 : Ref sig .tc := ⟨.hbm, 154, rfl⟩
abbrev main_call0_cst : Ref sig .tc := ⟨.hbm, 155, rfl⟩
abbrev main_call0_v0 : Ref sig .tc := ⟨.hbm, 156, rfl⟩
abbrev main_call0_v1 : Ref sig .tc := ⟨.hbm, 157, rfl⟩
abbrev main_call0_cst_0 : Ref sig .tc := ⟨.hbm, 158, rfl⟩
abbrev main_call0_v2 : Ref sig .tc := ⟨.hbm, 159, rfl⟩
abbrev main_call0_v3 : Ref sig .tc := ⟨.hbm, 160, rfl⟩
abbrev main_call0_v4 : Ref sig .tc := ⟨.hbm, 161, rfl⟩
abbrev main_call0_v5 : Ref sig .tc := ⟨.hbm, 162, rfl⟩
abbrev main_call0_v6 : Ref sig .tc := ⟨.hbm, 163, rfl⟩
abbrev main_call0_v7 : Ref sig .tc := ⟨.hbm, 164, rfl⟩
abbrev main_call0_cst_1 : Ref sig .tc := ⟨.hbm, 165, rfl⟩
abbrev main_call0_v8 : Ref sig .tc := ⟨.hbm, 166, rfl⟩
abbrev main_call0_cst_2 : Ref sig .tc := ⟨.hbm, 167, rfl⟩
abbrev main_call0_v9 : Ref sig .tc := ⟨.hbm, 168, rfl⟩
abbrev main_call0_v10 : Ref sig .tc := ⟨.hbm, 169, rfl⟩
abbrev main_call0_v11 : Ref sig .tc := ⟨.hbm, 170, rfl⟩
abbrev main_call0_cst_3 : Ref sig .tc := ⟨.hbm, 171, rfl⟩
abbrev main_call0_v12 : Ref sig .tc := ⟨.hbm, 172, rfl⟩
abbrev main_call0_cst_4 : Ref sig .tc := ⟨.hbm, 173, rfl⟩
abbrev main_call0_call0_v0 : Ref sig .tc := ⟨.hbm, 174, rfl⟩
abbrev main_call0_call0_v1 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_25 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_call1_cst : Ref sig .tc := ⟨.hbm, 193, rfl⟩
abbrev main_call1_v0 : Ref sig .tc := ⟨.hbm, 194, rfl⟩
abbrev main_call1_v1 : Ref sig .tc := ⟨.hbm, 195, rfl⟩
abbrev main_call1_cst_0 : Ref sig .tc := ⟨.hbm, 196, rfl⟩
abbrev main_call1_v2 : Ref sig .tc := ⟨.hbm, 197, rfl⟩
abbrev main_call1_v3 : Ref sig .tc := ⟨.hbm, 198, rfl⟩
abbrev main_call1_cst_1 : Ref sig .tc := ⟨.hbm, 199, rfl⟩
abbrev main_call1_call0_v0 : Ref sig .tc := ⟨.hbm, 200, rfl⟩
abbrev main_call1_call0_v1 : Ref sig .tc := ⟨.hbm, 201, rfl⟩
abbrev main_call1_v4 : Ref sig .tc := ⟨.hbm, 202, rfl⟩
abbrev main_call1_v5 : Ref sig .tc := ⟨.hbm, 203, rfl⟩
abbrev main_call1_cst_2 : Ref sig .tc := ⟨.hbm, 204, rfl⟩
abbrev main_call1_v6 : Ref sig .tc := ⟨.hbm, 205, rfl⟩
abbrev main_call1_v7 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_c_26 : Ref sig .tc := ⟨.hbm, 216, rfl⟩
abbrev main_v140 : Ref sig .tc := ⟨.hbm, 217, rfl⟩
abbrev main_v141 : Ref sig .tc := ⟨.hbm, 218, rfl⟩
abbrev main_c_27 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_cst_28 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_cst_29 : Ref sig .tc := ⟨.hbm, 232, rfl⟩
abbrev main_v153 : Ref sig .tc := ⟨.hbm, 233, rfl⟩
abbrev main_cst_30 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_cst_31 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_c_32 : Ref sig .tc := ⟨.hbm, 249, rfl⟩
abbrev main_v167 : Ref sig .tc := ⟨.hbm, 250, rfl⟩
abbrev main_v168 : Ref sig .tc := ⟨.hbm, 251, rfl⟩
abbrev main_c_33 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_cst_34 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_cst_35 : Ref sig .tc := ⟨.hbm, 265, rfl⟩
abbrev main_v180 : Ref sig .tc := ⟨.hbm, 266, rfl⟩
abbrev main_cst_36 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_cst_37 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_c_38 : Ref sig .tc := ⟨.hbm, 282, rfl⟩
abbrev main_v194 : Ref sig .tc := ⟨.hbm, 283, rfl⟩
abbrev main_v195 : Ref sig .tc := ⟨.hbm, 284, rfl⟩
abbrev main_c_39 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_cst_40 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_cst_41 : Ref sig .tc := ⟨.hbm, 298, rfl⟩
abbrev main_v207 : Ref sig .tc := ⟨.hbm, 299, rfl⟩
abbrev main_cst_42 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_cst_43 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_c_44 : Ref sig .tc := ⟨.hbm, 315, rfl⟩
abbrev main_v221 : Ref sig .tc := ⟨.hbm, 316, rfl⟩
abbrev main_v222 : Ref sig .tc := ⟨.hbm, 317, rfl⟩
abbrev main_c_45 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_v229 : Ref sig .tc := ⟨.hbm, 325, rfl⟩
abbrev main_v230 : Ref sig .tc := ⟨.hbm, 326, rfl⟩
abbrev main_cst_46 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_cst_47 : Ref sig .tc := ⟨.hbm, 331, rfl⟩
abbrev main_v234 : Ref sig .tc := ⟨.hbm, 332, rfl⟩
abbrev main_cst_48 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_cst_49 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S4x64x128_S1x64x128_0_0_0 : S4x64x128.Slices ![0, 0, 0] S1x64x128
  shapeCasts_S1x64x128_S64x128 : S1x64x128.ShapeCasts S64x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x64x128_S1x64x128_1_0_0 : S4x64x128.Slices ![1, 0, 0] S1x64x128
  slices_S4x64x128_S1x64x128_2_0_0 : S4x64x128.Slices ![2, 0, 0] S1x64x128
  slices_S4x64x128_S1x64x128_3_0_0 : S4x64x128.Slices ![3, 0, 0] S1x64x128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x128x64_S1x128x64_0_0_0 : S4x128x64.Slices ![0, 0, 0] S1x128x64
  shapeCasts_S1x128x64_S128x64 : S1x128x64.ShapeCasts S128x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S4x128x64_S1x128x64_1_0_0 : S4x128x64.Slices ![1, 0, 0] S1x128x64
  slices_S4x128x64_S1x128x64_2_0_0 : S4x128x64.Slices ![2, 0, 0] S1x128x64
  slices_S4x128x64_S1x128x64_3_0_0 : S4x128x64.Slices ![3, 0, 0] S1x128x64
  dot_S100000x64_S64x128_S100000x128_1_0_0_1_n_n_wf : DotDims.WF S100000x64 S64x128 S100000x128 [1] [0] [0] [1] [] []
  gather_S100000x64_S800000x1_S800000x64_1_0_n_n_0_1_164_wf : GatherDims.WF S100000x64 S800000x1 S800000x64 [1] [0] [] [0] [] 1 ![1, 64]
  dot_S800000x64_S64x128_S800000x128_1_0_0_1_n_n_wf : DotDims.WF S800000x64 S64x128 S800000x128 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x64_S100000x64_1_0_0_1_n_n_wf : DotDims.WF S100000x128 S128x64 S100000x64 [1] [0] [0] [1] [] []
  gather_S100000x128_S800000x1_S800000x128_1_0_n_n_0_1_1128_wf : GatherDims.WF S100000x128 S800000x1 S800000x128 [1] [0] [] [0] [] 1 ![1, 128]
  dot_S800000x128_S128x64_S800000x64_1_0_0_1_n_n_wf : DotDims.WF S800000x128 S128x64 S800000x64 [1] [0] [0] [1] [] []
  scatter_S100000x64_S800000x1_S800000x64_1_0_0_1_wf : ScatterDims.WF S100000x64 S800000x1 S800000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

class Facts : Prop extends Facts₀ where

variable [Facts]
-- ==== Proof.K.Region0.lean ====
/-
  Region 0 of the kernel's program: what the body leaves in each window's staging buffer at a grid point, the body's
  triple, and the pipeline's proof data, at a parameter `V` (the buffer contents when the region is entered).

  The body reads each of its five input blocks whole (the stacked relation weights as its four slabs along the
  leading axis), reads the output buffer once without using what it read, and stores ONE value through the whole
  output buffer: the skeleton's term of the loads. So each input's staging buffer is left at its block, and the
  output's at that one store's payload, whatever it held before.
-/
import proofs.«169502_j41412074668235_1_alg».proof.Proof.Gen.Kernel.Launch
import proofs.«169502_j41412074668235_1_alg».proof.Proof.Gen.Kernel.Skeleton
import proofs.«169502_j41412074668235_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4000x64 := Rect.unit (s := S4000x64) ![0, 0] S4000x64.size inb_S4000x64_S4000x64_0_0
abbrev r0_1 : Rect S64x128 := Rect.unit (s := S64x128) ![0, 0] S64x128.size inb_S64x128_S64x128_0_0
abbrev r0_2 : Rect S128 := Rect.unit (s := S128) ![0] S128.size inb_S128_S128_0
abbrev r0_3 : Rect S4000x256 := Rect.unit (s := S4000x256) ![0, 0] S4000x256.size inb_S4000x256_S4000x256_0_0
abbrev r0_4 : Rect S4x64x128 := Rect.unit (s := S4x64x128) ![0, 0, 0] S1x64x128.size inb_S4x64x128_S1x64x128_0_0_0
abbrev r0_5 : Rect S4x64x128 := Rect.unit (s := S4x64x128) ![1, 0, 0] S1x64x128.size inb_S4x64x128_S1x64x128_1_0_0
abbrev r0_6 : Rect S4x64x128 := Rect.unit (s := S4x64x128) ![2, 0, 0] S1x64x128.size inb_S4x64x128_S1x64x128_2_0_0
abbrev r0_7 : Rect S4x64x128 := Rect.unit (s := S4x64x128) ![3, 0, 0] S1x64x128.size inb_S4x64x128_S1x64x128_3_0_0
abbrev r0_8 : Rect S4000x128 := Rect.unit (s := S4000x128) ![0, 0] S4000x128.size inb_S4000x128_S4000x128_0_0

/-! ## What the body leaves in the output window's buffer -/

/-- Window 5's staging buffer after the body, from the input windows' blocks: its one store as a piece, the
    payload the skeleton's term of the loads. -/
def out0_5 (x0 : Vec F S4000x64 .f32) (x1 : Vec F S4000x256 .f32) (x2 : Vec F S64x128 .f32) (x3 : Vec F S4x64x128 .f32) (x4 : Vec F S128 .f32) : Vec F S4000x128 .f32 :=
  View.canon [⟨r0_8, k0_pay1 (k0_pay3 (View.ld x0 r0_0) (View.ld x2 r0_1) (View.ld x4 r0_2) (View.ld x1 r0_3) (View.ld x3 r0_4) (View.ld x3 r0_5) (View.ld x3 r0_6)) (k0_pay4 (View.ld x1 r0_3)) (k0_pay5 (View.ld x3 r0_7))⟩]

/-- Its store tiles the buffer (checked by evaluation), so it covers it. -/
theorem cover0_5 (p0 : Vec F S4000x128 .f32) (y : S4000x128.Idx) :
    ∃ pc ∈ ([⟨r0_8, p0⟩] : List (View.Piece (Elt F) S4000x128 .f32)), y ∈ pc.1.set :=
  View.cover_of_tiled [⟨r0_8, p0⟩] S4000x128.size (by rfl) y

/-! ## The body's triple -/

set_option maxHeartbeats 1000000 in
/-- The kernel body on whole staging memrefs, the inputs' at read contents `xW` and the output's at anything, runs to
    the continuation holding the inputs' as they were and the output's at `out0_5` of the inputs': the printed
    functions are their skeletons, which the symbolic executor runs, through the part call. -/
theorem sound_kernel0 (c : Dev nD) (E : Set ℕ) (i : grid0.Coords) (arg1 : Memref sig .tc .vmem S4000x64 .f32) (harg1 : arg1.IsWhole) (arg2 : Memref sig .tc .vmem S4000x256 .f32) (harg2 : arg2.IsWhole) (arg3 : Memref sig .tc .vmem S64x128 .f32) (harg3 : arg3.IsWhole) (arg4 : Memref sig .tc .vmem S4x64x128 .f32) (harg4 : arg4.IsWhole) (arg5 : Memref sig .tc .vmem S128 .f32) (harg5 : arg5.IsWhole) (arg6 : Memref sig .tc .vmem S4000x128 .f32) (harg6 : arg6.IsWhole)
    (x0 : Vec F S4000x64 .f32) (x1 : Vec F S4000x256 .f32) (x2 : Vec F S64x128 .f32) (x3 : Vec F S4x64x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__rgcn_linear_kernel i arg1 harg1 arg2 harg2 arg3 harg3 arg4 harg4 arg5 harg5 arg6 harg6) K := by
  simp only [cc0__rgcn_linear_kernel_eq_skeleton]; unfold cc0__rgcn_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the kernel's program: what the body leaves in each window's staging buffer at a grid point, the body's
  triple, and the pipeline's proof data, at a parameter `V` (the buffer contents when the region is entered).
-/
import proofs.«169502_j41412074668235_1_alg».proof.Proof.Gen.Kernel.Launch
import proofs.«169502_j41412074668235_1_alg».proof.Proof.Gen.Kernel.Skeleton
import proofs.«169502_j41412074668235_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional, from the grid coordinates: the point is the first one. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The body's accesses -/

abbrev r1_0 : Rect S4000x128 := Rect.unit (s := S4000x128) ![0, 0] S4000x128.size inb_S4000x128_S4000x128_0_0
abbrev r1_1 : Rect S1x128 := Rect.unit (s := S1x128) ![0, 0] S1x128.size inb_S1x128_S1x128_0_0

/-! ## What the body leaves in each output window's buffer, per control case -/

/-- At the first point: the sum's buffer is zeroed, then the block's column sums are added to it. -/
def out1_A_1 (x0 : Vec F S4000x128 .f32) : Vec F S1x128 .f32 :=
  View.canon [⟨r1_1, k1_pay4 (View.ld x0 r1_0) (k1_pay1 (F := F))⟩, ⟨r1_1, k1_pay1 (F := F)⟩]

/-- At the first point: the sum of squares' buffer is zeroed, then the block's column sums of squares are added. -/
def out1_A_2 (x0 : Vec F S4000x128 .f32) : Vec F S1x128 .f32 :=
  View.canon [⟨r1_1, k1_pay5 (View.ld x0 r1_0) (k1_pay2 (F := F))⟩, ⟨r1_1, k1_pay2 (F := F)⟩]

/-- At a later point: the block's column sums are added to what the buffer held. -/
def out1_B_1 (x0 : Vec F S4000x128 .f32) (xo1 : Vec F S1x128 .f32) : Vec F S1x128 .f32 :=
  View.canon [⟨r1_1, k1_pay4 (View.ld x0 r1_0) (View.ld xo1 r1_1)⟩]

/-- At a later point: the block's column sums of squares are added to what the buffer held. -/
def out1_B_2 (x0 : Vec F S4000x128 .f32) (xo2 : Vec F S1x128 .f32) : Vec F S1x128 .f32 :=
  View.canon [⟨r1_1, k1_pay5 (View.ld x0 r1_0) (View.ld xo2 r1_1)⟩]

/-- One store over the whole buffer covers it. -/
theorem cover1_B (p0 : Vec F S1x128 .f32) (y : S1x128.Idx) :
    ∃ pc ∈ ([⟨r1_1, p0⟩] : List (View.Piece (Elt F) S1x128 .f32)), y ∈ pc.1.set :=
  View.cover_of_tiled [⟨r1_1, p0⟩] S1x128.size (by rfl) y

/-- Two stores over the whole buffer cover it (the later one does). -/
theorem cover1_A (p0 p1 : Vec F S1x128 .f32) (y : S1x128.Idx) :
    ∃ pc ∈ ([⟨r1_1, p0⟩, ⟨r1_1, p1⟩] : List (View.Piece (Elt F) S1x128 .f32)), y ∈ pc.1.set := by
  obtain ⟨pc, hm, hy⟩ := cover1_B p0 y
  exact ⟨pc, List.mem_cons.mpr (Or.inl (List.mem_singleton.mp hm)), hy⟩

/-! ## The body's triple, per control case -/

set_option maxHeartbeats 1000000 in
/-- The kernel body at the first point, on whole staging memrefs, the input's at read contents `x0` and the outputs' at
    anything, runs to the continuation holding the input's as it was and each output's at `out1_A_W` of the input's. -/
theorem sound_kernel1_A (c : Dev nD) (E : Set ℕ) (i : grid1.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec F S4000x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_A_1 x0) ∗ owns (c : Thread nD τ) arg3 fullShare (out1_A_2 x0)) -∗ K ⟨⟩))
      ⊢ wp frame (wpE (defs₀ (F := F)) Variants.none c none) E (cc1__bn_stats_kernel i arg1 harg1 arg2 harg2 arg3 harg3) K := by
  simp only [cc1__bn_stats_kernel_eq_skeleton]; unfold cc1__bn_stats_kernel_skel
  unfold owns
  iintro ⟨⟨%f0, %hf0, H0⟩, ⟨%d1, %f1, -, H1⟩, ⟨%d2, %f2, -, H2⟩, Hk⟩
  subst hf0
  sl_exec (disch := first | exact hc0)
  sl_step
  iapply Hk
  isplitl [H0]
  · iexists f0; isplitr; · ipureintro; rfl
    iexact H0
  isplitl [H1]
  · iexists _; isplitr
    swap; · iexact H1
    ipureintro
    sl_unfold_run_names
    rw [View.readCov_cons_toLoadRect]
    exact View.read_writes_eq_canon _ _ _ (cover1_A _ _)
  iexists _; isplitr
  swap; · iexact H2
  ipureintro
  sl_unfold_run_names
  rw [View.readCov_cons_toLoadRect]
  exact View.read_writes_eq_canon _ _ _ (cover1_A _ _)

set_option maxHeartbeats 1000000 in
/-- The kernel body at a later point, the outputs' staging memrefs at their running contents `xo1`, `xo2`, runs to the
    continuation holding the input's as it was and each output's at `out1_B_W` of the input's and the running contents. -/
theorem sound_kernel1_B (c : Dev nD) (E : Set ℕ) (i : grid1.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec F S4000x128 .f32) (xo1 : Vec F S1x128 .f32) (xo2 : Vec F S1x128 .f32) (K : PUnit → sProp 𝕄) :
    iprop(owns (c : Thread nD τ) arg1 fullShare x0 ∗ owns (c : Thread nD τ) arg2 fullShare xo1 ∗ owns (c : Thread nD τ) arg3 fullShare xo2
        ∗ (iprop(owns (c : Thread nD τ) arg1 fullShare x0 ∗ owns (c : Thread nD τ) arg2 fullShare (out1_B_1 x0 xo1) ∗ owns (c : Thread nD τ) arg3 fullShare (out1_B_2 x0 xo2)) -∗ K ⟨⟩))
      ⊢ wp frame (wpE (defs₀ (F := F)) Variants.none c none) E (cc1__bn_stats_kernel i arg1 harg1 arg2 harg2 arg3 harg3) K := by
  simp only [cc1__bn_stats_kernel_eq_skeleton]; unfold cc1__bn_stats_kernel_skel
  unfold owns
  iintro ⟨⟨%f0, %hf0, H0⟩, ⟨%f1, %hf1, H1⟩, ⟨%f2, %hf2, H2⟩, Hk⟩
  subst hf0 hf1 hf2
  sl_exec (disch := first | exact hc0)
  sl_step
  iapply Hk
  isplitl [H0]
  · iexists f0; isplitr; · ipureintro; rfl
    iexact H0
  isplitl [H1]
  · iexists _; isplitr
    swap; · iexact H1
    ipureintro
    exact View.read_writes_eq_canon _ _ _ (cover1_B _)
  iexists _; isplitr
  swap; · iexact H2
  ipureintro
  exact View.read_writes_eq_canon _ _ _ (cover1_B _)

/-! ## What the outputs hold after each point -/

/-- THE ACCUMULATION. What the two outputs' staging buffers hold after the body at position `n`: at the first point the
    zeroed buffers plus the block's sums; at a later point what the point before left plus the block's sums (the
    buffers are not written back between). -/
def outsAt1 (c : Dev nD) : (n : ℕ) → n < cfg1.N → Vec F S1x128 .f32 × Vec F S1x128 .f32
  | 0, hn => (out1_A_1 (iblk1 V c 0 ⟨0, hn⟩), out1_A_2 (iblk1 V c 0 ⟨0, hn⟩))
  | n + 1, hn =>
    (out1_B_1 (iblk1 V c 0 ⟨n + 1, hn⟩) (outsAt1 c n (Nat.lt_of_succ_lt hn)).1,
     out1_B_2 (iblk1 V c 0 ⟨n + 1, hn⟩) (outsAt1 c n (Nat.lt_of_succ_lt hn)).2)

/-- The accumulation, indexed by the point. -/
def acc1 (c : Dev nD) (t : Fin cfg1.N) : Vec F S1x128 .f32 × Vec F S1x128 .f32 := outsAt1 V c t.val t.isLt

/-- `outsAt1` at the first point. -/
theorem outsAt1_A (c : Dev nD) (t : Fin cfg1.N) (h0 : t.val = 0) :
    outsAt1 V c t.val t.isLt = (out1_A_1 (iblk1 V c 0 t), out1_A_2 (iblk1 V c 0 t)) := by
  obtain ⟨n, hn⟩ := t
  cases n with
  | zero => exact rfl
  | succ n => exact absurd h0 (Nat.succ_ne_zero n)

/-- `outsAt1` at a later point: over what the point before left. -/
theorem outsAt1_B (c : Dev nD) (t : Fin cfg1.N) (h0 : ¬t.val = 0) :
    outsAt1 V c t.val t.isLt =
      (out1_B_1 (iblk1 V c 0 t) (outsAt1 V c (t.val - 1) (Nat.lt_of_le_of_lt (Nat.sub_le _ _) t.isLt)).1,
       out1_B_2 (iblk1 V c 0 t) (outsAt1 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 1 on core `c`: the arrays as the region finds them (`V`); after the body at point `t`
    the input's buffer at its block and the outputs' at `outsAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-- At a later point an output's current staging buffer holds what the body left at the point before: the point is
    not the first, and the buffer was not written back between (it is written back at the last point only). -/
theorem before1_1_B (c : Dev nD) (t : Fin cfg1.N) (h0 : ¬t.val = 0) (d) :
    (dat1 V c).before 1 t d = (outsAt1 V c (t.val - 1) (Nat.lt_of_le_of_lt (Nat.sub_le _ _) t.isLt)).1 := by
  have hN : t.val < 25 := lt_of_lt_of_eq t.isLt (show cfg1.N = 25 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_B (c : Dev nD) (t : Fin cfg1.N) (h0 : ¬t.val = 0) (d) :
    (dat1 V c).before 2 t d = (outsAt1 V c (t.val - 1) (Nat.lt_of_le_of_lt (Nat.sub_le _ _) t.isLt)).2 := by
  have hN : t.val < 25 := lt_of_lt_of_eq t.isLt (show cfg1.N = 25 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the input's memref holds its block; the closed form says which case the point is in; at a
    later point each output's memref holds what the point before left; so that case's triple applies; the invariant
    and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 25 := lt_of_lt_of_eq t.isLt (show cfg1.N = 25 from N_1)
  by_cases h0 : t.val = 0
  · rw [outsAt1_A V c t h0]
    iintro ⟨HΦ, Ho, ⟨%d0, H0⟩, ⟨%d1, H1⟩, ⟨%d2, H2⟩⟩
    iapply (sound_kernel1_A c Set.univ (grid1.coords t) _ _ _ _ _ _ ((hcond1_0 t).mpr (by omega)) (iblk1 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_1_B V c t h0, before1_2_B V c t h0]
    iintro ⟨HΦ, Ho, ⟨%d0, H0⟩, ⟨%d1, H1⟩, ⟨%d2, H2⟩⟩
    iapply (sound_kernel1_B c Set.univ (grid1.coords t) _ _ _ _ _ _ (fun h => h0 (by have := (hcond1_0 t).mp h; omega)) (iblk1 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The outputs as plain payloads

Every access of the body is through the whole-buffer rectangle at zero offsets, so a load through it reads the
contents and the last store through it leaves its payload. -/

theorem zeros1_S4000x128 : (![0, 0] : Fin S4000x128.rank → Nat) = fun _ => 0 := funext fun a => by fin_cases a <;> rfl
theorem zeros1_S1x128 : (![0, 0] : Fin S1x128.rank → Nat) = fun _ => 0 := funext fun a => by fin_cases a <;> rfl

theorem out1_A_1_eq (x0 : Vec F S4000x128 .f32) : out1_A_1 x0 = k1_pay4 x0 (k1_pay1 (F := F)) := by
  unfold out1_A_1
  rw [View.canon_cons_unit_zero (S := S1x128) zeros1_S1x128]
  simp only [View.ld_unit_zero (S := S4000x128) zeros1_S4000x128]

theorem out1_A_2_eq (x0 : Vec F S4000x128 .f32) : out1_A_2 x0 = k1_pay5 x0 (k1_pay2 (F := F)) := by
  unfold out1_A_2
  rw [View.canon_cons_unit_zero (S := S1x128) zeros1_S1x128]
  simp only [View.ld_unit_zero (S := S4000x128) zeros1_S4000x128]

theorem out1_B_1_eq (x0 : Vec F S4000x128 .f32) (xo1 : Vec F S1x128 .f32) : out1_B_1 x0 xo1 = k1_pay4 x0 xo1 := by
  unfold out1_B_1
  rw [View.canon_unit_zero (S := S1x128) zeros1_S1x128]
  simp only [View.ld_unit_zero (S := S4000x128) zeros1_S4000x128, View.ld_unit_zero (S := S1x128) zeros1_S1x128]

theorem out1_B_2_eq (x0 : Vec F S4000x128 .f32) (xo2 : Vec F S1x128 .f32) : out1_B_2 x0 xo2 = k1_pay5 x0 xo2 := by
  unfold out1_B_2
  rw [View.canon_unit_zero (S := S1x128) zeros1_S1x128]
  simp only [View.ld_unit_zero (S := S4000x128) zeros1_S4000x128, View.ld_unit_zero (S := S1x128) zeros1_S1x128]

/-- The point before `t`. -/
abbrev prev1 (t : Fin cfg1.N) : Fin cfg1.N := ⟨t.val - 1, Nat.lt_of_le_of_lt (Nat.sub_le _ _) t.isLt⟩

/-- THE ACCUMULATION at the first point: the block's column sums (of squares) added to zeros. -/
theorem acc1_zero (c : Dev nD) (t : Fin cfg1.N) (h0 : t.val = 0) :
    acc1 V c t = (k1_pay4 (iblk1 V c 0 t) (k1_pay1 (F := F)), k1_pay5 (iblk1 V c 0 t) (k1_pay2 (F := F))) := by
  unfold acc1
  rw [outsAt1_A V c t h0, out1_A_1_eq, out1_A_2_eq]

/-- THE ACCUMULATION at a later point: the block's column sums (of squares) added to what the point before left. -/
theorem acc1_succ (c : Dev nD) (t : Fin cfg1.N) (h0 : ¬t.val = 0) :
    acc1 V c t = (k1_pay4 (iblk1 V c 0 t) (acc1 V c (prev1 t)).1, k1_pay5 (iblk1 V c 0 t) (acc1 V c (prev1 t)).2) := by
  unfold acc1
  rw [outsAt1_B V c t h0, out1_B_1_eq, out1_B_2_eq]

/-- What the body leaves in the two output windows, through the accumulation. -/
theorem after1_1_acc (c : Dev nD) (t : Fin cfg1.N) : (dat1 V c).after 1 t = (acc1 V c t).1 := after1_1 V c t
theorem after1_2_acc (c : Dev nD) (t : Fin cfg1.N) : (dat1 V c).after 2 t = (acc1 V c t).2 := after1_2 V c t

end Cert.Kernel.Hand

end
-- ==== Proof.K.Region2.lean ====
/-
  Region 2 of the kernel's program: what the body leaves in each window's staging buffer at a grid point, the body's
  triple, and the pipeline's proof data, at a parameter `V` (the buffer contents when the region is entered).
-/
import proofs.«169502_j41412074668235_1_alg».proof.Proof.Gen.Kernel.Launch
import proofs.«169502_j41412074668235_1_alg».proof.Proof.Gen.Kernel.Skeleton
import proofs.«169502_j41412074668235_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0
abbrev r2_2 : Rect S128 := Rect.unit (s := S128) ![0] S128.size inb_S128_S128_0

/-! ## What the body leaves in the output window's buffer -/

/-- Window 5's staging buffer after the body, from the input windows' blocks: its one store, over the whole buffer,
    of the pointwise payload of the five loaded inputs. -/
def out2_5 (x0 : Vec F S4000x128 .f32) (x1 : Vec F S1x128 .f32) (x2 : Vec F S1x128 .f32) (x3 : Vec F S128 .f32) (x4 : Vec F S128 .f32) : Vec F S4000x128 .f32 :=
  View.canon [⟨r2_0, k2_pay1 (View.ld x0 r2_0) (View.ld x1 r2_1) (View.ld x2 r2_1) (View.ld x3 r2_2) (View.ld x4 r2_2)⟩]

/-- The store tiles the buffer, so it covers it. -/
theorem cover2_5 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S4000x128 .f32) (harg6 : arg6.IsWhole)
    (x0 : Vec F S4000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_elu_kernel i arg1 harg1 arg2 harg2 arg3 harg3 arg4 harg4 arg5 harg5 arg6 harg6) K := by
  simp only [cc2__bn_elu_kernel_eq_skeleton]; unfold cc2__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output as a plain payload

Every access of the body is through the whole-buffer rectangle at zero offsets, so a load through it reads the
contents and the one store through it leaves its payload. -/

theorem zeros2_S4000x128 : (![0, 0] : Fin S4000x128.rank → Nat) = fun _ => 0 := funext fun a => by fin_cases a <;> rfl
theorem zeros2_S1x128 : (![0, 0] : Fin S1x128.rank → Nat) = fun _ => 0 := funext fun a => by fin_cases a <;> rfl
theorem zeros2_S128 : (![0] : Fin S128.rank → Nat) = fun _ => 0 := funext fun a => by fin_cases a <;> rfl

theorem out2_5_eq (x0 : Vec F S4000x128 .f32) (x1 : Vec F S1x128 .f32) (x2 : Vec F S1x128 .f32) (x3 : Vec F S128 .f32) (x4 : Vec F S128 .f32) :
    out2_5 x0 x1 x2 x3 x4 = k2_pay1 x0 x1 x2 x3 x4 := by
  unfold out2_5
  rw [View.canon_unit_zero (S := S4000x128) zeros2_S4000x128]
  simp only [View.ld_unit_zero (S := S4000x128) zeros2_S4000x128, View.ld_unit_zero (S := S1x128) zeros2_S1x128,
    View.ld_unit_zero (S := S128) zeros2_S128]

/-- What the body leaves in the output window at point `t`: the payload of the five input blocks. -/
theorem after2_5_eq (c : Dev nD) (t : Fin cfg2.N) :
    (dat2 V c).after 5 t = k2_pay1 (iblk2 V c 0 t) (iblk2 V c 1 t) (iblk2 V c 2 t) (iblk2 V c 3 t) (iblk2 V c 4 t) := by
  rw [after2_5, out2_5_eq]

end Cert.Kernel.Hand

end
-- ==== Proof.K.Region3.lean ====
/-
  Region 3 of the kernel's program: what the body leaves in each window's staging buffer at a grid point, the body's
  triple, and the pipeline's proof data, at a parameter `V` (the buffer contents when the region is entered).

  The body reads each of its five input blocks whole (the stacked relation weights as its four slabs along the
  leading axis), reads the output buffer once without using what it read, and stores ONE value through the whole
  output buffer: the skeleton's term of the loads. So each input's staging buffer is left at its block, and the
  output's at that one store's payload, whatever it held before.
-/
import proofs.«169502_j41412074668235_1_alg».proof.Proof.Gen.Kernel.Launch
import proofs.«169502_j41412074668235_1_alg».proof.Proof.Gen.Kernel.Skeleton
import proofs.«169502_j41412074668235_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block index
    has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4000x128 := Rect.unit (s := S4000x128) ![0, 0] S4000x128.size inb_S4000x128_S4000x128_0_0
abbrev r3_1 : Rect S128x64 := Rect.unit (s := S128x64) ![0, 0] S128x64.size inb_S128x64_S128x64_0_0
abbrev r3_2 : Rect S64 := Rect.unit (s := S64) ![0] S64.size inb_S64_S64_0
abbrev r3_3 : Rect S4000x512 := Rect.unit (s := S4000x512) ![0, 0] S4000x512.size inb_S4000x512_S4000x512_0_0
abbrev r3_4 : Rect S4x128x64 := Rect.unit (s := S4x128x64) ![0, 0, 0] S1x128x64.size inb_S4x128x64_S1x128x64_0_0_0
abbrev r3_5 : Rect S4x128x64 := Rect.unit (s := S4x128x64) ![1, 0, 0] S1x128x64.size inb_S4x128x64_S1x128x64_1_0_0
abbrev r3_6 : Rect S4x128x64 := Rect.unit (s := S4x128x64) ![2, 0, 0] S1x128x64.size inb_S4x128x64_S1x128x64_2_0_0
abbrev r3_7 : Rect S4x128x64 := Rect.unit (s := S4x128x64) ![3, 0, 0] S1x128x64.size inb_S4x128x64_S1x128x64_3_0_0
abbrev r3_8 : Rect S4000x64 := Rect.unit (s := S4000x64) ![0, 0] S4000x64.size inb_S4000x64_S4000x64_0_0

/-! ## What the body leaves in the output window's buffer -/

/-- Window 5's staging buffer after the body, from the input windows' blocks: its one store as a piece, the
    payload the skeleton's term of the loads. -/
def out3_5 (x0 : Vec F S4000x128 .f32) (x1 : Vec F S4000x512 .f32) (x2 : Vec F S128x64 .f32) (x3 : Vec F S4x128x64 .f32) (x4 : Vec F S64 .f32) : Vec F S4000x64 .f32 :=
  View.canon [⟨r3_8, k3_pay1 (k3_pay3 (View.ld x0 r3_0) (View.ld x2 r3_1) (View.ld x4 r3_2) (View.ld x1 r3_3) (View.ld x3 r3_4) (View.ld x3 r3_5) (View.ld x3 r3_6)) (k3_pay4 (View.ld x1 r3_3)) (View.ld x3 r3_7)⟩]

/-- Its store tiles the buffer (checked by evaluation), so it covers it. -/
theorem cover3_5 (p0 : Vec F S4000x64 .f32) (y : S4000x64.Idx) :
    ∃ pc ∈ ([⟨r3_8, p0⟩] : List (View.Piece (Elt F) S4000x64 .f32)), y ∈ pc.1.set :=
  View.cover_of_tiled [⟨r3_8, p0⟩] S4000x64.size (by rfl) y

/-! ## The body's triple -/

set_option maxHeartbeats 1000000 in
/-- The kernel body on whole staging memrefs, the inputs' at read contents `xW` and the output's at anything, runs to
    the continuation holding the inputs' as they were and the output's at `out3_5` of the inputs': the printed
    functions are their skeletons, which the symbolic executor runs, through the part call. -/
theorem sound_kernel3 (c : Dev nD) (E : Set ℕ) (i : grid3.Coords) (arg1 : Memref sig .tc .vmem S4000x128 .f32) (harg1 : arg1.IsWhole) (arg2 : Memref sig .tc .vmem S4000x512 .f32) (harg2 : arg2.IsWhole) (arg3 : Memref sig .tc .vmem S128x64 .f32) (harg3 : arg3.IsWhole) (arg4 : Memref sig .tc .vmem S4x128x64 .f32) (harg4 : arg4.IsWhole) (arg5 : Memref sig .tc .vmem S64 .f32) (harg5 : arg5.IsWhole) (arg6 : Memref sig .tc .vmem S4000x64 .f32) (harg6 : arg6.IsWhole)
    (x0 : Vec F S4000x128 .f32) (x1 : Vec F S4000x512 .f32) (x2 : Vec F S128x64 .f32) (x3 : Vec F S4x128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__rgcn_linear_kernel i arg1 harg1 arg2 harg2 arg3 harg3 arg4 harg4 arg5 harg5 arg6 harg6) K := by
  simp only [cc3__rgcn_linear_kernel_eq_skeleton]; unfold cc3__rgcn_linear_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  The run of the kernel's program: @main is seven segments — a stretch of host operations, two kernel regions back to
  back, a second stretch, the third region, a third stretch, the last region. The buffer contents at each segment
  boundary are a fold from the launch memory: a host stretch applies its operations in order; a region leaves its input
  arrays as entered and each output array at what its pipeline's write-backs fold to, and every other buffer as entered.
  From the four regions' proof data and body obligations (stated at the contents each region is entered with) the launch
  theorem for several regions gives: every weakly fair execution terminates, nothing faults, and every unscoped buffer
  ends at the last boundary's contents.
-/
import proofs.«169502_j41412074668235_1_alg».proof.Proof.K.Region0
import proofs.«169502_j41412074668235_1_alg».proof.Proof.K.Region1
import proofs.«169502_j41412074668235_1_alg».proof.Proof.K.Region2
import proofs.«169502_j41412074668235_1_alg».proof.Proof.K.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b

/-- At region 2's exit: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- The same read at the TensorCore's references. -/
abbrev V6 : (c : Dev nD) → (b : Ref sig .tc) → Buf (Elt F) ((c : Thread nD τ).loc b) := fun c b => W6 m ρ c b

/-- At region 3's exit: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`; its
    arrays are split out of the unscoped buffers at entry and put back at what the pipeline's write-backs leave; the
    generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its
    arrays are split out of the unscoped buffers at entry and put back at what the pipeline's write-backs leave; the
    generator register goes into the invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its
    arrays are split out of the unscoped buffers at entry and put back at what the pipeline's write-backs leave; the
    generator register goes into the invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`; its
    arrays are split out of the unscoped buffers at entry and put back at what the pipeline's write-backs leave; the
    generator register goes into the invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main terminates, nothing faulting, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.K.HostKeeps.lean ====
/-
  The host stretches of the kernel's program leave the thirteen argument arrays alone: every host operation writes exactly
  one buffer, its own result, and no result buffer is an argument.
-/
import proofs.«169502_j41412074668235_1_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe

variable {F : FTy → Type} [FloatOps F]

/-- The thirteen argument arrays of @main. -/
abbrev argRefs : List (Ref sig .tc) :=
  [main_arg0, main_arg1, main_arg2, main_arg3, main_arg4, main_arg5, main_arg6, main_arg7, main_arg8, main_arg9, main_arg10, main_arg11, main_arg12]

set_option maxHeartbeats 4000000 in
/-- No operation of `hostOps0` writes an argument array: each writes one result buffer of its own, and no argument is one. -/
theorem hostOps0_keeps (a : Ref sig .tc) (ha : a ∈ argRefs) :
    ∀ op ∈ (hostOps0 : List (HloOp τ sig (Elt F))), Proc.devRef (τ := τ) .tc a ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by revert a; decide))

set_option maxHeartbeats 4000000 in
/-- No operation of `hostOps2` writes an argument array: each writes one result buffer of its own, and no argument is one. -/
theorem hostOps2_keeps (a : Ref sig .tc) (ha : a ∈ argRefs) :
    ∀ op ∈ (hostOps2 : List (HloOp τ sig (Elt F))), Proc.devRef (τ := τ) .tc a ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by revert a; decide))

set_option maxHeartbeats 4000000 in
/-- No operation of `hostOps3` writes an argument array: each writes one result buffer of its own, and no argument is one. -/
theorem hostOps3_keeps (a : Ref sig .tc) (ha : a ∈ argRefs) :
    ∀ op ∈ (hostOps3 : List (HloOp τ sig (Elt F))), Proc.devRef (τ := τ) .tc a ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by revert a; decide))

end Cert.Kernel.Hand

end
-- ==== Proof.K.Frame.lean ====
/-
  The frame of the kernel's program, and its run with the result named. Every argument array ends as launched: walking
  the fold of boundary contents back from the last boundary, a host stretch writes no argument, and a region leaves an
  array it only reads (an input window's) as entered and does not touch an array that is none of its windows'. The result
  array ends at the last boundary's contents.
-/
import proofs.«169502_j41412074668235_1_alg».proof.Proof.K.Run
import proofs.«169502_j41412074668235_1_alg».proof.Proof.K.HostKeeps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## An argument array across a host stretch -/

theorem W1_keep (c : Dev nD) (a : Ref sig .tc) (ha : a ∈ argRefs) : W1 m ρ c (Proc.devRef .tc a) = W0 m ρ c (Proc.devRef .tc a) :=
  StableHlo.after_of_forall_not_mem (b := Proc.devRef .tc a) _ _ (hostOps0_keeps a ha)
theorem W4_keep (c : Dev nD) (a : Ref sig .tc) (ha : a ∈ argRefs) : W4 m ρ c (Proc.devRef .tc a) = W3 m ρ c (Proc.devRef .tc a) :=
  StableHlo.after_of_forall_not_mem (b := Proc.devRef .tc a) _ _ (hostOps2_keeps a ha)
theorem W6_keep (c : Dev nD) (a : Ref sig .tc) (ha : a ∈ argRefs) : W6 m ρ c (Proc.devRef .tc a) = W5 m ρ c (Proc.devRef .tc a) :=
  StableHlo.after_of_forall_not_mem (b := Proc.devRef .tc a) _ _ (hostOps3_keeps a ha)

/-! ## Each argument array ends as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_keep m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_keep m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_keep m ρ c main_arg2 (by decide)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_keep m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_keep m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_of_ne m ρ c main_arg4 (by decide)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := W1_keep m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_keep m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_keep m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_keep m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := (W2_arr m ρ c 2).trans (((dat0 (V1 m ρ) c).arrAt_in 2 rfl _).trans (A_eq0 (V1 m ρ) c 2))
    _ = W0 m ρ c (Proc.devRef .tc main_arg6) := W1_keep m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_keep m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := W1_keep m ρ c main_arg7 (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_keep m ρ c main_arg8 (by decide)
    _ = W4 m ρ c (Proc.devRef .tc main_arg8) := (W5_arr m ρ c 3).trans (((dat2 (V4 m ρ) c).arrAt_in 3 rfl _).trans (A_eq2 (V4 m ρ) c 3))
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_keep m ρ c main_arg9 (by decide)
    _ = W4 m ρ c (Proc.devRef .tc main_arg9) := (W5_arr m ρ c 4).trans (((dat2 (V4 m ρ) c).arrAt_in 4 rfl _).trans (A_eq2 (V4 m ρ) c 4))
    _ = W3 m ρ c (Proc.devRef .tc main_arg9) := W4_keep m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := (W7_arr m ρ c 3).trans (((dat3 (V6 m ρ) c).arrAt_in 3 rfl _).trans (A_eq3 (V6 m ρ) c 3))
    _ = W5 m ρ c (Proc.devRef .tc main_arg10) := W6_keep m ρ c main_arg10 (by decide)
    _ = W4 m ρ c (Proc.devRef .tc main_arg10) := W5_of_ne m ρ c main_arg10 (by decide)
    _ = W3 m ρ c (Proc.devRef .tc main_arg10) := W4_keep m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := (W7_arr m ρ c 2).trans (((dat3 (V6 m ρ) c).arrAt_in 2 rfl _).trans (A_eq3 (V6 m ρ) c 2))
    _ = W5 m ρ c (Proc.devRef .tc main_arg11) := W6_keep m ρ c main_arg11 (by decide)
    _ = W4 m ρ c (Proc.devRef .tc main_arg11) := W5_of_ne m ρ c main_arg11 (by decide)
    _ = W3 m ρ c (Proc.devRef .tc main_arg11) := W4_keep m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := (W7_arr m ρ c 4).trans (((dat3 (V6 m ρ) c).arrAt_in 4 rfl _).trans (A_eq3 (V6 m ρ) c 4))
    _ = W5 m ρ c (Proc.devRef .tc main_arg12) := W6_keep m ρ c main_arg12 (by decide)
    _ = W4 m ρ c (Proc.devRef .tc main_arg12) := W5_of_ne m ρ c main_arg12 (by decide)
    _ = W3 m ρ c (Proc.devRef .tc main_arg12) := W4_keep m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

/-! ## The frame, and the run with the result named -/

/-- Every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c)⟩) (run_all m ρ)

/-- The same run with the result array named: it ends at the last boundary's contents. -/
theorem run_value : θ_run defs (onTc (τ := τ) (main (F := F))) ⟨m, fun _ => 0, ρ⟩ (fun r => ∀ c : Dev nD,
      r.2.mem ((c.tc : Thread nD τ).loc main_v160) = W7 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v160 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c)⟩) (run_all m ρ)

end Cert.Kernel.Hand

end
-- ==== Proof.KI.Region0.lean ====
/-
  Region 0 of the kernel's program: what the body leaves in each window's staging buffer at a grid point, the body's
  triple, and the pipeline's proof data, at a parameter `V` (the buffer contents when the region is entered).

  The body reads each of its five input blocks whole (the stacked relation weights as its four slabs along the
  leading axis), reads the output buffer once without using what it read, and stores ONE value through the whole
  output buffer: the skeleton's term of the loads. So each input's staging buffer is left at its block, and the
  output's at that one store's payload, whatever it held before.
-/
import proofs.«169502_j41412074668235_1_alg».proof.Proof.Gen.KernelIdeal.Launch
import proofs.«169502_j41412074668235_1_alg».proof.Proof.Gen.KernelIdeal.Skeleton
import proofs.«169502_j41412074668235_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4000x64 := Rect.unit (s := S4000x64) ![0, 0] S4000x64.size inb_S4000x64_S4000x64_0_0
abbrev r0_1 : Rect S64x128 := Rect.unit (s := S64x128) ![0, 0] S64x128.size inb_S64x128_S64x128_0_0
abbrev r0_2 : Rect S128 := Rect.unit (s := S128) ![0] S128.size inb_S128_S128_0
abbrev r0_3 : Rect S4000x256 := Rect.unit (s := S4000x256) ![0, 0] S4000x256.size inb_S4000x256_S4000x256_0_0
abbrev r0_4 : Rect S4x64x128 := Rect.unit (s := S4x64x128) ![0, 0, 0] S1x64x128.size inb_S4x64x128_S1x64x128_0_0_0
abbrev r0_5 : Rect S4x64x128 := Rect.unit (s := S4x64x128) ![1, 0, 0] S1x64x128.size inb_S4x64x128_S1x64x128_1_0_0
abbrev r0_6 : Rect S4x64x128 := Rect.unit (s := S4x64x128) ![2, 0, 0] S1x64x128.size inb_S4x64x128_S1x64x128_2_0_0
abbrev r0_7 : Rect S4x64x128 := Rect.unit (s := S4x64x128) ![3, 0, 0] S1x64x128.size inb_S4x64x128_S1x64x128_3_0_0
abbrev r0_8 : Rect S4000x128 := Rect.unit (s := S4000x128) ![0, 0] S4000x128.size inb_S4000x128_S4000x128_0_0

/-! ## What the body leaves in the output window's buffer -/

/-- Window 5's staging buffer after the body, from the input windows' blocks: its one store as a piece, the
    payload the skeleton's term of the loads. -/
def out0_5 (x0 : Vec F S4000x64 .f32) (x1 : Vec F S4000x256 .f32) (x2 : Vec F S64x128 .f32) (x3 : Vec F S4x64x128 .f32) (x4 : Vec F S128 .f32) : Vec F S4000x128 .f32 :=
  View.canon [⟨r0_8, k0_pay1 (k0_pay3 (View.ld x0 r0_0) (View.ld x2 r0_1) (View.ld x4 r0_2) (View.ld x1 r0_3) (View.ld x3 r0_4) (View.ld x3 r0_5) (View.ld x3 r0_6)) (k0_pay4 (View.ld x1 r0_3)) (k0_pay5 (View.ld x3 r0_7))⟩]

/-- Its store tiles the buffer (checked by evaluation), so it covers it. -/
theorem cover0_5 (p0 : Vec F S4000x128 .f32) (y : S4000x128.Idx) :
    ∃ pc ∈ ([⟨r0_8, p0⟩] : List (View.Piece (Elt F) S4000x128 .f32)), y ∈ pc.1.set :=
  View.cover_of_tiled [⟨r0_8, p0⟩] S4000x128.size (by rfl) y

/-! ## The body's triple -/

set_option maxHeartbeats 1000000 in
/-- The kernel body on whole staging memrefs, the inputs' at read contents `xW` and the output's at anything, runs to
    the continuation holding the inputs' as they were and the output's at `out0_5` of the inputs': the printed
    functions are their skeletons, which the symbolic executor runs, through the part call. -/
theorem sound_kernel0 (c : Dev nD) (E : Set ℕ) (i : grid0.Coords) (arg1 : Memref sig .tc .vmem S4000x64 .f32) (harg1 : arg1.IsWhole) (arg2 : Memref sig .tc .vmem S4000x256 .f32) (harg2 : arg2.IsWhole) (arg3 : Memref sig .tc .vmem S64x128 .f32) (harg3 : arg3.IsWhole) (arg4 : Memref sig .tc .vmem S4x64x128 .f32) (harg4 : arg4.IsWhole) (arg5 : Memref sig .tc .vmem S128 .f32) (harg5 : arg5.IsWhole) (arg6 : Memref sig .tc .vmem S4000x128 .f32) (harg6 : arg6.IsWhole)
    (x0 : Vec F S4000x64 .f32) (x1 : Vec F S4000x256 .f32) (x2 : Vec F S64x128 .f32) (x3 : Vec F S4x64x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__rgcn_linear_kernel i arg1 harg1 arg2 harg2 arg3 harg3 arg4 harg4 arg5 harg5 arg6 harg6) K := by
  simp only [cc0__rgcn_linear_kernel_eq_skeleton]; unfold cc0__rgcn_linear_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the kernel's program: what the body leaves in each window's staging buffer at a grid point, the body's
  triple, and the pipeline's proof data, at a parameter `V` (the buffer contents when the region is entered).
-/
import proofs.«169502_j41412074668235_1_alg».proof.Proof.Gen.KernelIdeal.Launch
import proofs.«169502_j41412074668235_1_alg».proof.Proof.Gen.KernelIdeal.Skeleton
import proofs.«169502_j41412074668235_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional, from the grid coordinates: the point is the first one. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The body's accesses -/

abbrev r1_0 : Rect S4000x128 := Rect.unit (s := S4000x128) ![0, 0] S4000x128.size inb_S4000x128_S4000x128_0_0
abbrev r1_1 : Rect S1x128 := Rect.unit (s := S1x128) ![0, 0] S1x128.size inb_S1x128_S1x128_0_0

/-! ## What the body leaves in each output window's buffer, per control case -/

/-- At the first point: the sum's buffer is zeroed, then the block's column sums are added to it. -/
def out1_A_1 (x0 : Vec F S4000x128 .f32) : Vec F S1x128 .f32 :=
  View.canon [⟨r1_1, k1_pay4 (View.ld x0 r1_0) (k1_pay1 (F := F))⟩, ⟨r1_1, k1_pay1 (F := F)⟩]

/-- At the first point: the sum of squares' buffer is zeroed, then the block's column sums of squares are added. -/
def out1_A_2 (x0 : Vec F S4000x128 .f32) : Vec F S1x128 .f32 :=
  View.canon [⟨r1_1, k1_pay5 (View.ld x0 r1_0) (k1_pay2 (F := F))⟩, ⟨r1_1, k1_pay2 (F := F)⟩]

/-- At a later point: the block's column sums are added to what the buffer held. -/
def out1_B_1 (x0 : Vec F S4000x128 .f32) (xo1 : Vec F S1x128 .f32) : Vec F S1x128 .f32 :=
  View.canon [⟨r1_1, k1_pay4 (View.ld x0 r1_0) (View.ld xo1 r1_1)⟩]

/-- At a later point: the block's column sums of squares are added to what the buffer held. -/
def out1_B_2 (x0 : Vec F S4000x128 .f32) (xo2 : Vec F S1x128 .f32) : Vec F S1x128 .f32 :=
  View.canon [⟨r1_1, k1_pay5 (View.ld x0 r1_0) (View.ld xo2 r1_1)⟩]

/-- One store over the whole buffer covers it. -/
theorem cover1_B (p0 : Vec F S1x128 .f32) (y : S1x128.Idx) :
    ∃ pc ∈ ([⟨r1_1, p0⟩] : List (View.Piece (Elt F) S1x128 .f32)), y ∈ pc.1.set :=
  View.cover_of_tiled [⟨r1_1, p0⟩] S1x128.size (by rfl) y

/-- Two stores over the whole buffer cover it (the later one does). -/
theorem cover1_A (p0 p1 : Vec F S1x128 .f32) (y : S1x128.Idx) :
    ∃ pc ∈ ([⟨r1_1, p0⟩, ⟨r1_1, p1⟩] : List (View.Piece (Elt F) S1x128 .f32)), y ∈ pc.1.set := by
  obtain ⟨pc, hm, hy⟩ := cover1_B p0 y
  exact ⟨pc, List.mem_cons.mpr (Or.inl (List.mem_singleton.mp hm)), hy⟩

/-! ## The body's triple, per control case -/

set_option maxHeartbeats 1000000 in
/-- The kernel body at the first point, on whole staging memrefs, the input's at read contents `x0` and the outputs' at
    anything, runs to the continuation holding the input's as it was and each output's at `out1_A_W` of the input's. -/
theorem sound_kernel1_A (c : Dev nD) (E : Set ℕ) (i : grid1.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (hc0 : cond1_0 i)
    (x0 : Vec F S4000x128 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_A_1 x0) ∗ owns (c : Thread nD τ) arg3 fullShare (out1_A_2 x0)) -∗ K ⟨⟩))
      ⊢ wp frame (wpE (defs₀ (F := F)) Variants.none c none) E (cc1__bn_stats_kernel i arg1 harg1 arg2 harg2 arg3 harg3) K := by
  simp only [cc1__bn_stats_kernel_eq_skeleton]; unfold cc1__bn_stats_kernel_skel
  unfold owns
  iintro ⟨⟨%f0, %hf0, H0⟩, ⟨%d1, %f1, -, H1⟩, ⟨%d2, %f2, -, H2⟩, Hk⟩
  subst hf0
  sl_exec (disch := first | exact hc0)
  sl_step
  iapply Hk
  isplitl [H0]
  · iexists f0; isplitr; · ipureintro; rfl
    iexact H0
  isplitl [H1]
  · iexists _; isplitr
    swap; · iexact H1
    ipureintro
    sl_unfold_run_names
    rw [View.readCov_cons_toLoadRect]
    exact View.read_writes_eq_canon _ _ _ (cover1_A _ _)
  iexists _; isplitr
  swap; · iexact H2
  ipureintro
  sl_unfold_run_names
  rw [View.readCov_cons_toLoadRect]
  exact View.read_writes_eq_canon _ _ _ (cover1_A _ _)

set_option maxHeartbeats 1000000 in
/-- The kernel body at a later point, the outputs' staging memrefs at their running contents `xo1`, `xo2`, runs to the
    continuation holding the input's as it was and each output's at `out1_B_W` of the input's and the running contents. -/
theorem sound_kernel1_B (c : Dev nD) (E : Set ℕ) (i : grid1.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (hc0 : ¬cond1_0 i)
    (x0 : Vec F S4000x128 .f32) (xo1 : Vec F S1x128 .f32) (xo2 : Vec F S1x128 .f32) (K : PUnit → sProp 𝕄) :
    iprop(owns (c : Thread nD τ) arg1 fullShare x0 ∗ owns (c : Thread nD τ) arg2 fullShare xo1 ∗ owns (c : Thread nD τ) arg3 fullShare xo2
        ∗ (iprop(owns (c : Thread nD τ) arg1 fullShare x0 ∗ owns (c : Thread nD τ) arg2 fullShare (out1_B_1 x0 xo1) ∗ owns (c : Thread nD τ) arg3 fullShare (out1_B_2 x0 xo2)) -∗ K ⟨⟩))
      ⊢ wp frame (wpE (defs₀ (F := F)) Variants.none c none) E (cc1__bn_stats_kernel i arg1 harg1 arg2 harg2 arg3 harg3) K := by
  simp only [cc1__bn_stats_kernel_eq_skeleton]; unfold cc1__bn_stats_kernel_skel
  unfold owns
  iintro ⟨⟨%f0, %hf0, H0⟩, ⟨%f1, %hf1, H1⟩, ⟨%f2, %hf2, H2⟩, Hk⟩
  subst hf0 hf1 hf2
  sl_exec (disch := first | exact hc0)
  sl_step
  iapply Hk
  isplitl [H0]
  · iexists f0; isplitr; · ipureintro; rfl
    iexact H0
  isplitl [H1]
  · iexists _; isplitr
    swap; · iexact H1
    ipureintro
    exact View.read_writes_eq_canon _ _ _ (cover1_B _)
  iexists _; isplitr
  swap; · iexact H2
  ipureintro
  exact View.read_writes_eq_canon _ _ _ (cover1_B _)

/-! ## What the outputs hold after each point -/

/-- THE ACCUMULATION. What the two outputs' staging buffers hold after the body at position `n`: at the first point the
    zeroed buffers plus the block's sums; at a later point what the point before left plus the block's sums (the
    buffers are not written back between). -/
def outsAt1 (c : Dev nD) : (n : ℕ) → n < cfg1.N → Vec F S1x128 .f32 × Vec F S1x128 .f32
  | 0, hn => (out1_A_1 (iblk1 V c 0 ⟨0, hn⟩), out1_A_2 (iblk1 V c 0 ⟨0, hn⟩))
  | n + 1, hn =>
    (out1_B_1 (iblk1 V c 0 ⟨n + 1, hn⟩) (outsAt1 c n (Nat.lt_of_succ_lt hn)).1,
     out1_B_2 (iblk1 V c 0 ⟨n + 1, hn⟩) (outsAt1 c n (Nat.lt_of_succ_lt hn)).2)

/-- The accumulation, indexed by the point. -/
def acc1 (c : Dev nD) (t : Fin cfg1.N) : Vec F S1x128 .f32 × Vec F S1x128 .f32 := outsAt1 V c t.val t.isLt

/-- `outsAt1` at the first point. -/
theorem outsAt1_A (c : Dev nD) (t : Fin cfg1.N) (h0 : t.val = 0) :
    outsAt1 V c t.val t.isLt = (out1_A_1 (iblk1 V c 0 t), out1_A_2 (iblk1 V c 0 t)) := by
  obtain ⟨n, hn⟩ := t
  cases n with
  | zero => exact rfl
  | succ n => exact absurd h0 (Nat.succ_ne_zero n)

/-- `outsAt1` at a later point: over what the point before left. -/
theorem outsAt1_B (c : Dev nD) (t : Fin cfg1.N) (h0 : ¬t.val = 0) :
    outsAt1 V c t.val t.isLt =
      (out1_B_1 (iblk1 V c 0 t) (outsAt1 V c (t.val - 1) (Nat.lt_of_le_of_lt (Nat.sub_le _ _) t.isLt)).1,
       out1_B_2 (iblk1 V c 0 t) (outsAt1 V c (t.val - 1) (Nat.lt_of_le_of_lt (Nat.sub_le _ _) t.isLt)).2) := by
  obtain ⟨n, hn⟩ := t
  cases n with
  | zero => exact absurd rfl h0
  | succ n => exact rfl

/-! ## The pipeline's proof data -/

/-- The proof data of pipeline 1 on core `c`: the arrays as the region finds them (`V`); after the body at point `t`
    the input's buffer at its block and the outputs' at `outsAt1`; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-- At a later point an output's current staging buffer holds what the body left at the point before: the point is
    not the first, and the buffer was not written back between (it is written back at the last point only). -/
theorem before1_1_B (c : Dev nD) (t : Fin cfg1.N) (h0 : ¬t.val = 0) (d) :
    (dat1 V c).before 1 t d = (outsAt1 V c (t.val - 1) (Nat.lt_of_le_of_lt (Nat.sub_le _ _) t.isLt)).1 := by
  have hN : t.val < 25 := lt_of_lt_of_eq t.isLt (show cfg1.N = 25 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_B (c : Dev nD) (t : Fin cfg1.N) (h0 : ¬t.val = 0) (d) :
    (dat1 V c).before 2 t d = (outsAt1 V c (t.val - 1) (Nat.lt_of_le_of_lt (Nat.sub_le _ _) t.isLt)).2 := by
  have hN : t.val < 25 := lt_of_lt_of_eq t.isLt (show cfg1.N = 25 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the input's memref holds its block; the closed form says which case the point is in; at a
    later point each output's memref holds what the point before left; so that case's triple applies; the invariant
    and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 25 := lt_of_lt_of_eq t.isLt (show cfg1.N = 25 from N_1)
  by_cases h0 : t.val = 0
  · rw [outsAt1_A V c t h0]
    iintro ⟨HΦ, Ho, ⟨%d0, H0⟩, ⟨%d1, H1⟩, ⟨%d2, H2⟩⟩
    iapply (sound_kernel1_A c Set.univ (grid1.coords t) _ _ _ _ _ _ ((hcond1_0 t).mpr (by omega)) (iblk1 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_1_B V c t h0, before1_2_B V c t h0]
    iintro ⟨HΦ, Ho, ⟨%d0, H0⟩, ⟨%d1, H1⟩, ⟨%d2, H2⟩⟩
    iapply (sound_kernel1_B c Set.univ (grid1.coords t) _ _ _ _ _ _ (fun h => h0 (by have := (hcond1_0 t).mp h; omega)) (iblk1 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The outputs as plain payloads

Every access of the body is through the whole-buffer rectangle at zero offsets, so a load through it reads the
contents and the last store through it leaves its payload. -/

theorem zeros1_S4000x128 : (![0, 0] : Fin S4000x128.rank → Nat) = fun _ => 0 := funext fun a => by fin_cases a <;> rfl
theorem zeros1_S1x128 : (![0, 0] : Fin S1x128.rank → Nat) = fun _ => 0 := funext fun a => by fin_cases a <;> rfl

theorem out1_A_1_eq (x0 : Vec F S4000x128 .f32) : out1_A_1 x0 = k1_pay4 x0 (k1_pay1 (F := F)) := by
  unfold out1_A_1
  rw [View.canon_cons_unit_zero (S := S1x128) zeros1_S1x128]
  simp only [View.ld_unit_zero (S := S4000x128) zeros1_S4000x128]

theorem out1_A_2_eq (x0 : Vec F S4000x128 .f32) : out1_A_2 x0 = k1_pay5 x0 (k1_pay2 (F := F)) := by
  unfold out1_A_2
  rw [View.canon_cons_unit_zero (S := S1x128) zeros1_S1x128]
  simp only [View.ld_unit_zero (S := S4000x128) zeros1_S4000x128]

theorem out1_B_1_eq (x0 : Vec F S4000x128 .f32) (xo1 : Vec F S1x128 .f32) : out1_B_1 x0 xo1 = k1_pay4 x0 xo1 := by
  unfold out1_B_1
  rw [View.canon_unit_zero (S := S1x128) zeros1_S1x128]
  simp only [View.ld_unit_zero (S := S4000x128) zeros1_S4000x128, View.ld_unit_zero (S := S1x128) zeros1_S1x128]

theorem out1_B_2_eq (x0 : Vec F S4000x128 .f32) (xo2 : Vec F S1x128 .f32) : out1_B_2 x0 xo2 = k1_pay5 x0 xo2 := by
  unfold out1_B_2
  rw [View.canon_unit_zero (S := S1x128) zeros1_S1x128]
  simp only [View.ld_unit_zero (S := S4000x128) zeros1_S4000x128, View.ld_unit_zero (S := S1x128) zeros1_S1x128]

/-- The point before `t`. -/
abbrev prev1 (t : Fin cfg1.N) : Fin cfg1.N := ⟨t.val - 1, Nat.lt_of_le_of_lt (Nat.sub_le _ _) t.isLt⟩

/-- THE ACCUMULATION at the first point: the block's column sums (of squares) added to zeros. -/
theorem acc1_zero (c : Dev nD) (t : Fin cfg1.N) (h0 : t.val = 0) :
    acc1 V c t = (k1_pay4 (iblk1 V c 0 t) (k1_pay1 (F := F)), k1_pay5 (iblk1 V c 0 t) (k1_pay2 (F := F))) := by
  unfold acc1
  rw [outsAt1_A V c t h0, out1_A_1_eq, out1_A_2_eq]

/-- THE ACCUMULATION at a later point: the block's column sums (of squares) added to what the point before left. -/
theorem acc1_succ (c : Dev nD) (t : Fin cfg1.N) (h0 : ¬t.val = 0) :
    acc1 V c t = (k1_pay4 (iblk1 V c 0 t) (acc1 V c (prev1 t)).1, k1_pay5 (iblk1 V c 0 t) (acc1 V c (prev1 t)).2) := by
  unfold acc1
  rw [outsAt1_B V c t h0, out1_B_1_eq, out1_B_2_eq]

/-- What the body leaves in the two output windows, through the accumulation. -/
theorem after1_1_acc (c : Dev nD) (t : Fin cfg1.N) : (dat1 V c).after 1 t = (acc1 V c t).1 := after1_1 V c t
theorem after1_2_acc (c : Dev nD) (t : Fin cfg1.N) : (dat1 V c).after 2 t = (acc1 V c t).2 := after1_2 V c t

end Cert.KernelIdeal.Hand

end
-- ==== Proof.KI.Region2.lean ====
/-
  Region 2 of the kernel's program: what the body leaves in each window's staging buffer at a grid point, the body's
  triple, and the pipeline's proof data, at a parameter `V` (the buffer contents when the region is entered).
-/
import proofs.«169502_j41412074668235_1_alg».proof.Proof.Gen.KernelIdeal.Launch
import proofs.«169502_j41412074668235_1_alg».proof.Proof.Gen.KernelIdeal.Skeleton
import proofs.«169502_j41412074668235_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S4000x128 := Rect.unit (s := S4000x128) ![0, 0] S4000x128.size inb_S4000x128_S4000x128_0_0
abbrev r2_1 : Rect S1x128 := Rect.unit (s := S1x128) ![0, 0] S1x128.size inb_S1x128_S1x128_0_0
abbrev r2_2 : Rect S128 := Rect.unit (s := S128) ![0] S128.size inb_S128_S128_0

/-! ## What the body leaves in the output window's buffer -/

/-- Window 5's staging buffer after the body, from the input windows' blocks: its one store, over the whole buffer,
    of the pointwise payload of the five loaded inputs. -/
def out2_5 (x0 : Vec F S4000x128 .f32) (x1 : Vec F S1x128 .f32) (x2 : Vec F S1x128 .f32) (x3 : Vec F S128 .f32) (x4 : Vec F S128 .f32) : Vec F S4000x128 .f32 :=
  View.canon [⟨r2_0, k2_pay1 (View.ld x0 r2_0) (View.ld x1 r2_1) (View.ld x2 r2_1) (View.ld x3 r2_2) (View.ld x4 r2_2)⟩]

/-- The store tiles the buffer, so it covers it. -/
theorem cover2_5 (p0 : Vec F S4000x128 .f32) (y : S4000x128.Idx) :
    ∃ pc ∈ ([⟨r2_0, p0⟩] : List (View.Piece (Elt F) S4000x128 .f32)), y ∈ pc.1.set :=
  View.cover_of_tiled [⟨r2_0, p0⟩] S4000x128.size (by rfl) y

/-! ## The body's triple -/

set_option maxHeartbeats 1000000 in
/-- The kernel body on whole staging memrefs, the inputs' at read contents `xW` and the output's at anything, runs to
    the continuation holding the inputs' as they were and the output's at `out2_5` of the inputs'. -/
theorem sound_kernel2 (c : Dev nD) (E : Set ℕ) (i : grid2.Coords) (arg1 : Memref sig .tc .vmem S4000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S128 .f32) (harg4 : arg4.IsWhole) (arg5 : Memref sig .tc .vmem S128 .f32) (harg5 : arg5.IsWhole) (arg6 : Memref sig .tc .vmem S4000x128 .f32) (harg6 : arg6.IsWhole)
    (x0 : Vec F S4000x128 .f32) (x1 : Vec F S1x128 .f32) (x2 : Vec F S1x128 .f32) (x3 : Vec F S128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_elu_kernel i arg1 harg1 arg2 harg2 arg3 harg3 arg4 harg4 arg5 harg5 arg6 harg6) K := by
  simp only [cc2__bn_elu_kernel_eq_skeleton]; unfold cc2__bn_elu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them (`V`); after the body at point `t`
    each input's buffer at its block and the output's at `out2_5` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The output as a plain payload

Every access of the body is through the whole-buffer rectangle at zero offsets, so a load through it reads the
contents and the one store through it leaves its payload. -/

theorem zeros2_S4000x128 : (![0, 0] : Fin S4000x128.rank → Nat) = fun _ => 0 := funext fun a => by fin_cases a <;> rfl
theorem zeros2_S1x128 : (![0, 0] : Fin S1x128.rank → Nat) = fun _ => 0 := funext fun a => by fin_cases a <;> rfl
theorem zeros2_S128 : (![0] : Fin S128.rank → Nat) = fun _ => 0 := funext fun a => by fin_cases a <;> rfl

theorem out2_5_eq (x0 : Vec F S4000x128 .f32) (x1 : Vec F S1x128 .f32) (x2 : Vec F S1x128 .f32) (x3 : Vec F S128 .f32) (x4 : Vec F S128 .f32) :
    out2_5 x0 x1 x2 x3 x4 = k2_pay1 x0 x1 x2 x3 x4 := by
  unfold out2_5
  rw [View.canon_unit_zero (S := S4000x128) zeros2_S4000x128]
  simp only [View.ld_unit_zero (S := S4000x128) zeros2_S4000x128, View.ld_unit_zero (S := S1x128) zeros2_S1x128,
    View.ld_unit_zero (S := S128) zeros2_S128]

/-- What the body leaves in the output window at point `t`: the payload of the five input blocks. -/
theorem after2_5_eq (c : Dev nD) (t : Fin cfg2.N) :
    (dat2 V c).after 5 t = k2_pay1 (iblk2 V c 0 t) (iblk2 V c 1 t) (iblk2 V c 2 t) (iblk2 V c 3 t) (iblk2 V c 4 t) := by
  rw [after2_5, out2_5_eq]

end Cert.KernelIdeal.Hand

end
-- ==== Proof.KI.Region3.lean ====
/-
  Region 3 of the kernel's program: what the body leaves in each window's staging buffer at a grid point, the body's
  triple, and the pipeline's proof data, at a parameter `V` (the buffer contents when the region is entered).

  The body reads each of its five input blocks whole (the stacked relation weights as its four slabs along the
  leading axis), reads the output buffer once without using what it read, and stores ONE value through the whole
  output buffer: the skeleton's term of the loads. So each input's staging buffer is left at its block, and the
  output's at that one store's payload, whatever it held before.
-/
import proofs.«169502_j41412074668235_1_alg».proof.Proof.Gen.KernelIdeal.Launch
import proofs.«169502_j41412074668235_1_alg».proof.Proof.Gen.KernelIdeal.Skeleton
import proofs.«169502_j41412074668235_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block index
    has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4000x128 := Rect.unit (s := S4000x128) ![0, 0] S4000x128.size inb_S4000x128_S4000x128_0_0
abbrev r3_1 : Rect S128x64 := Rect.unit (s := S128x64) ![0, 0] S128x64.size inb_S128x64_S128x64_0_0
abbrev r3_2 : Rect S64 := Rect.unit (s := S64) ![0] S64.size inb_S64_S64_0
abbrev r3_3 : Rect S4000x512 := Rect.unit (s := S4000x512) ![0, 0] S4000x512.size inb_S4000x512_S4000x512_0_0
abbrev r3_4 : Rect S4x128x64 := Rect.unit (s := S4x128x64) ![0, 0, 0] S1x128x64.size inb_S4x128x64_S1x128x64_0_0_0
abbrev r3_5 : Rect S4x128x64 := Rect.unit (s := S4x128x64) ![1, 0, 0] S1x128x64.size inb_S4x128x64_S1x128x64_1_0_0
abbrev r3_6 : Rect S4x128x64 := Rect.unit (s := S4x128x64) ![2, 0, 0] S1x128x64.size inb_S4x128x64_S1x128x64_2_0_0
abbrev r3_7 : Rect S4x128x64 := Rect.unit (s := S4x128x64) ![3, 0, 0] S1x128x64.size inb_S4x128x64_S1x128x64_3_0_0
abbrev r3_8 : Rect S4000x64 := Rect.unit (s := S4000x64) ![0, 0] S4000x64.size inb_S4000x64_S4000x64_0_0

/-! ## What the body leaves in the output window's buffer -/

/-- Window 5's staging buffer after the body, from the input windows' blocks: its one store as a piece, the
    payload the skeleton's term of the loads. -/
def out3_5 (x0 : Vec F S4000x128 .f32) (x1 : Vec F S4000x512 .f32) (x2 : Vec F S128x64 .f32) (x3 : Vec F S4x128x64 .f32) (x4 : Vec F S64 .f32) : Vec F S4000x64 .f32 :=
  View.canon [⟨r3_8, k3_pay1 (k3_pay3 (View.ld x0 r3_0) (View.ld x2 r3_1) (View.ld x4 r3_2) (View.ld x1 r3_3) (View.ld x3 r3_4) (View.ld x3 r3_5) (View.ld x3 r3_6)) (k3_pay4 (View.ld x1 r3_3)) (View.ld x3 r3_7)⟩]

/-- Its store tiles the buffer (checked by evaluation), so it covers it. -/
theorem cover3_5 (p0 : Vec F S4000x64 .f32) (y : S4000x64.Idx) :
    ∃ pc ∈ ([⟨r3_8, p0⟩] : List (View.Piece (Elt F) S4000x64 .f32)), y ∈ pc.1.set :=
  View.cover_of_tiled [⟨r3_8, p0⟩] S4000x64.size (by rfl) y

/-! ## The body's triple -/

set_option maxHeartbeats 1000000 in
/-- The kernel body on whole staging memrefs, the inputs' at read contents `xW` and the output's at anything, runs to
    the continuation holding the inputs' as they were and the output's at `out3_5` of the inputs': the printed
    functions are their skeletons, which the symbolic executor runs, through the part call. -/
theorem sound_kernel3 (c : Dev nD) (E : Set ℕ) (i : grid3.Coords) (arg1 : Memref sig .tc .vmem S4000x128 .f32) (harg1 : arg1.IsWhole) (arg2 : Memref sig .tc .vmem S4000x512 .f32) (harg2 : arg2.IsWhole) (arg3 : Memref sig .tc .vmem S128x64 .f32) (harg3 : arg3.IsWhole) (arg4 : Memref sig .tc .vmem S4x128x64 .f32) (harg4 : arg4.IsWhole) (arg5 : Memref sig .tc .vmem S64 .f32) (harg5 : arg5.IsWhole) (arg6 : Memref sig .tc .vmem S4000x64 .f32) (harg6 : arg6.IsWhole)
    (x0 : Vec F S4000x128 .f32) (x1 : Vec F S4000x512 .f32) (x2 : Vec F S128x64 .f32) (x3 : Vec F S4x128x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__rgcn_linear_kernel i arg1 harg1 arg2 harg2 arg3 harg3 arg4 harg4 arg5 harg5 arg6 harg6) K := by
  simp only [cc3__rgcn_linear_kernel_eq_skeleton]; unfold cc3__rgcn_linear_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant
    the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's owed count pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of the kernel's program: @main is seven segments — a stretch of host operations, two kernel regions back to
  back, a second stretch, the third region, a third stretch, the last region. The buffer contents at each segment
  boundary are a fold from the launch memory: a host stretch applies its operations in order; a region leaves its input
  arrays as entered and each output array at what its pipeline's write-backs fold to, and every other buffer as entered.
  From the four regions' proof data and body obligations (stated at the contents each region is entered with) the launch
  theorem for several regions gives: every weakly fair execution terminates, nothing faults, and every unscoped buffer
  ends at the last boundary's contents.
-/
import proofs.«169502_j41412074668235_1_alg».proof.Proof.KI.Region0
import proofs.«169502_j41412074668235_1_alg».proof.Proof.KI.Region1
import proofs.«169502_j41412074668235_1_alg».proof.Proof.KI.Region2
import proofs.«169502_j41412074668235_1_alg».proof.Proof.KI.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- The same read at the TensorCore's references. -/
abbrev V4 : (c : Dev nD) → (b : Ref sig .tc) → Buf (Elt F) ((c : Thread nD τ).loc b) := fun c b => W4 m ρ c b

/-- At region 2's exit: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- The same read at the TensorCore's references. -/
abbrev V6 : (c : Dev nD) → (b : Ref sig .tc) → Buf (Elt F) ((c : Thread nD τ).loc b) := fun c b => W6 m ρ c b

/-- At region 3's exit: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W1`, left with them at `W2`; its
    arrays are split out of the unscoped buffers at entry and put back at what the pipeline's write-backs leave; the
    generator register goes into the invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its
    arrays are split out of the unscoped buffers at entry and put back at what the pipeline's write-backs leave; the
    generator register goes into the invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`; its
    arrays are split out of the unscoped buffers at entry and put back at what the pipeline's write-backs leave; the
    generator register goes into the invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W6`, left with them at `W7`; its
    arrays are split out of the unscoped buffers at entry and put back at what the pipeline's write-backs leave; the
    generator register goes into the invariant and comes back; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- Every weakly fair execution of @main terminates, nothing faulting, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KI.HostKeeps.lean ====
/-
  The host stretches of the kernel's program leave the thirteen argument arrays alone: every host operation writes exactly
  one buffer, its own result, and no result buffer is an argument.
-/
import proofs.«169502_j41412074668235_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The thirteen argument arrays of @main. -/
abbrev argRefs : List (Ref sig .tc) :=
  [main_arg0, main_arg1, main_arg2, main_arg3, main_arg4, main_arg5, main_arg6, main_arg7, main_arg8, main_arg9, main_arg10, main_arg11, main_arg12]

set_option maxHeartbeats 4000000 in
/-- No operation of `hostOps0` writes an argument array: each writes one result buffer of its own, and no argument is one. -/
theorem hostOps0_keeps (a : Ref sig .tc) (ha : a ∈ argRefs) :
    ∀ op ∈ (hostOps0 : List (HloOp τ sig (Elt F))), Proc.devRef (τ := τ) .tc a ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by revert a; decide))

set_option maxHeartbeats 4000000 in
/-- No operation of `hostOps2` writes an argument array: each writes one result buffer of its own, and no argument is one. -/
theorem hostOps2_keeps (a : Ref sig .tc) (ha : a ∈ argRefs) :
    ∀ op ∈ (hostOps2 : List (HloOp τ sig (Elt F))), Proc.devRef (τ := τ) .tc a ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by revert a; decide))

set_option maxHeartbeats 4000000 in
/-- No operation of `hostOps3` writes an argument array: each writes one result buffer of its own, and no argument is one. -/
theorem hostOps3_keeps (a : Ref sig .tc) (ha : a ∈ argRefs) :
    ∀ op ∈ (hostOps3 : List (HloOp τ sig (Elt F))), Proc.devRef (τ := τ) .tc a ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by revert a; decide))

end Cert.KernelIdeal.Hand

end
-- ==== Proof.KI.Frame.lean ====
/-
  The frame of the kernel's program, and its run with the result named. Every argument array ends as launched: walking
  the fold of boundary contents back from the last boundary, a host stretch writes no argument, and a region leaves an
  array it only reads (an input window's) as entered and does not touch an array that is none of its windows'. The result
  array ends at the last boundary's contents.
-/
import proofs.«169502_j41412074668235_1_alg».proof.Proof.KI.Run
import proofs.«169502_j41412074668235_1_alg».proof.Proof.KI.HostKeeps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## An argument array across a host stretch -/

theorem W1_keep (c : Dev nD) (a : Ref sig .tc) (ha : a ∈ argRefs) : W1 m ρ c (Proc.devRef .tc a) = W0 m ρ c (Proc.devRef .tc a) :=
  StableHlo.after_of_forall_not_mem (b := Proc.devRef .tc a) _ _ (hostOps0_keeps a ha)
theorem W4_keep (c : Dev nD) (a : Ref sig .tc) (ha : a ∈ argRefs) : W4 m ρ c (Proc.devRef .tc a) = W3 m ρ c (Proc.devRef .tc a) :=
  StableHlo.after_of_forall_not_mem (b := Proc.devRef .tc a) _ _ (hostOps2_keeps a ha)
theorem W6_keep (c : Dev nD) (a : Ref sig .tc) (ha : a ∈ argRefs) : W6 m ρ c (Proc.devRef .tc a) = W5 m ρ c (Proc.devRef .tc a) :=
  StableHlo.after_of_forall_not_mem (b := Proc.devRef .tc a) _ _ (hostOps3_keeps a ha)

/-! ## Each argument array ends as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_keep m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := W6_keep m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_keep m ρ c main_arg2 (by decide)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keep m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_keep m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_keep m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := W3_of_ne m ρ c main_arg4 (by decide)
    _ = W1 m ρ c (Proc.devRef .tc main_arg4) := (W2_arr m ρ c 0).trans (((dat0 (V1 m ρ) c).arrAt_in 0 rfl _).trans (A_eq0 (V1 m ρ) c 0))
    _ = W0 m ρ c (Proc.devRef .tc main_arg4) := W1_keep m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_keep m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := W3_of_ne m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_keep m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_keep m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := (W2_arr m ρ c 2).trans (((dat0 (V1 m ρ) c).arrAt_in 2 rfl _).trans (A_eq0 (V1 m ρ) c 2))
    _ = W0 m ρ c (Proc.devRef .tc main_arg6) := W1_keep m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_keep m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := (W2_arr m ρ c 4).trans (((dat0 (V1 m ρ) c).arrAt_in 4 rfl _).trans (A_eq0 (V1 m ρ) c 4))
    _ = W0 m ρ c (Proc.devRef .tc main_arg7) := W1_keep m ρ c main_arg7 (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_keep m ρ c main_arg8 (by decide)
    _ = W4 m ρ c (Proc.devRef .tc main_arg8) := (W5_arr m ρ c 3).trans (((dat2 (V4 m ρ) c).arrAt_in 3 rfl _).trans (A_eq2 (V4 m ρ) c 3))
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_keep m ρ c main_arg9 (by decide)
    _ = W4 m ρ c (Proc.devRef .tc main_arg9) := (W5_arr m ρ c 4).trans (((dat2 (V4 m ρ) c).arrAt_in 4 rfl _).trans (A_eq2 (V4 m ρ) c 4))
    _ = W3 m ρ c (Proc.devRef .tc main_arg9) := W4_keep m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := (W7_arr m ρ c 3).trans (((dat3 (V6 m ρ) c).arrAt_in 3 rfl _).trans (A_eq3 (V6 m ρ) c 3))
    _ = W5 m ρ c (Proc.devRef .tc main_arg10) := W6_keep m ρ c main_arg10 (by decide)
    _ = W4 m ρ c (Proc.devRef .tc main_arg10) := W5_of_ne m ρ c main_arg10 (by decide)
    _ = W3 m ρ c (Proc.devRef .tc main_arg10) := W4_keep m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := (W7_arr m ρ c 2).trans (((dat3 (V6 m ρ) c).arrAt_in 2 rfl _).trans (A_eq3 (V6 m ρ) c 2))
    _ = W5 m ρ c (Proc.devRef .tc main_arg11) := W6_keep m ρ c main_arg11 (by decide)
    _ = W4 m ρ c (Proc.devRef .tc main_arg11) := W5_of_ne m ρ c main_arg11 (by decide)
    _ = W3 m ρ c (Proc.devRef .tc main_arg11) := W4_keep m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W7_main_arg12 (c : Dev nD) : W7 m ρ c (Proc.devRef .tc main_arg12) = m ((c : Thread nD τ).loc main_arg12) :=
  calc W7 m ρ c (Proc.devRef .tc main_arg12)
    _ = W6 m ρ c (Proc.devRef .tc main_arg12) := (W7_arr m ρ c 4).trans (((dat3 (V6 m ρ) c).arrAt_in 4 rfl _).trans (A_eq3 (V6 m ρ) c 4))
    _ = W5 m ρ c (Proc.devRef .tc main_arg12) := W6_keep m ρ c main_arg12 (by decide)
    _ = W4 m ρ c (Proc.devRef .tc main_arg12) := W5_of_ne m ρ c main_arg12 (by decide)
    _ = W3 m ρ c (Proc.devRef .tc main_arg12) := W4_keep m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

/-! ## The frame, and the run with the result named -/

/-- Every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c)⟩) (run_all m ρ)

/-- The same run with the result array named: it ends at the last boundary's contents. -/
theorem run_value : θ_run defs (onTc (τ := τ) (main (F := F))) ⟨m, fun _ => 0, ρ⟩ (fun r => ∀ c : Dev nD,
      r.2.mem ((c.tc : Thread nD τ).loc main_v160) = W7 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v160 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c)⟩) (run_all m ρ)

end Cert.KernelIdeal.Hand

end
-- ==== Proof.RI.Ops.lean ====
/- The reference program's @main as lists of its host operations, one list per printed window of @main, in order;
   a called function's operations stand at the call, over that call's buffer record. With each list, the buffers
   its operations write. -/
import proofs.«169502_j41412074668235_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (60), in order. -/
abbrev ops0 : List (HloOp τ sig (Elt F)) :=
  [ StableHlo.binary main_arg4 main_arg6 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.unary main_arg0 main_v4 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v4 main_v5 rfl shapeCasts_S1x800000_S800000,
    StableHlo.unary main_arg0 main_v6 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v6 main_v7 rfl shapeCasts_S1x800000_S800000,
    StableHlo.nullary main_c (constantI S_ 32 0#32),
    StableHlo.unary main_c main_v8 (broadcastInDim S800000 ![] bcast_S_S800000 : (⟨S_, .i32⟩ : BufTy).Contents (Elt F) → (⟨S800000, .i32⟩ : BufTy).Contents (Elt F)),
    StableHlo.binary main_v5 main_v8 main_v9 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v10 (broadcastInDim S800000 ![] bcast_S_S800000 : (⟨S_, .i32⟩ : BufTy).Contents (Elt F) → (⟨S800000, .i32⟩ : BufTy).Contents (Elt F)),
    StableHlo.binary main_v5 main_v10 main_v11 (addi : (⟨S800000, .i32⟩ : BufTy).Contents (Elt F) → (⟨S800000, .i32⟩ : BufTy).Contents (Elt F) → (⟨S800000, .i32⟩ : BufTy).Contents (Elt F)),
    StableHlo.ternary main_v9 main_v11 main_v5 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v12 main_v13 (broadcastInDim S800000x1 ![0] bcast_S800000_S800000x1_0 : (⟨S800000, .i32⟩ : BufTy).Contents (Elt F) → (⟨S800000x1, .i32⟩ : BufTy).Contents (Elt F)),
    StableHlo.binary main_arg4 main_v13 main_v14 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v15 ((extractStridedSlice S1x64x128 ![0, 0, 0] · slices_S4x64x128_S1x64x128_0_0_0) : (⟨S4x64x128, .f32⟩ : BufTy).Contents (Elt F) → (⟨S1x64x128, .f32⟩ : BufTy).Contents (Elt F)),
    StableHlo.reshape main_v15 main_v16 rfl shapeCasts_S1x64x128_S64x128,
    StableHlo.binary main_v14 main_v16 main_v17 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst (constant S_ .f32 0x00000000#32),
    StableHlo.unary main_cst main_v18 (broadcastInDim S100000x128 ![] bcast_S_S100000x128 : (⟨S_, .f32⟩ : BufTy).Contents (Elt F) → (⟨S100000x128, .f32⟩ : BufTy).Contents (Elt F)),
    StableHlo.unary main_v7 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_1 (constant S_ .f32 0x3F800000#32),
    StableHlo.unary main_cst_1 main_v21 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v22 (broadcastInDim S100000 ![] bcast_S_S100000 : (⟨S_, .f32⟩ : BufTy).Contents (Elt F) → (⟨S100000, .f32⟩ : BufTy).Contents (Elt F)),
    StableHlo.unary main_v7 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_3 (constant S_ .f32 0x3F800000#32),
    StableHlo.unary main_cst_3 main_v25 (broadcastInDim S100000 ![] bcast_S_S100000 : (⟨S_, .f32⟩ : BufTy).Contents (Elt F) → (⟨S100000, .f32⟩ : BufTy).Contents (Elt F)),
    StableHlo.binary main_v24 main_v25 main_v26 (maximumf : (⟨S100000, .f32⟩ : BufTy).Contents (Elt F) → (⟨S100000, .f32⟩ : BufTy).Contents (Elt F) → (⟨S100000, .f32⟩ : BufTy).Contents (Elt F)),
    StableHlo.unary main_v26 main_v27 (broadcastInDim S100000x1 ![0] bcast_S100000_S100000x1_0 : (⟨S100000, .f32⟩ : BufTy).Contents (Elt F) → (⟨S100000x1, .f32⟩ : BufTy).Contents (Elt F)),
    StableHlo.unary main_v27 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v20 main_v28 main_v29 (Host.divf : (⟨S100000x128, .f32⟩ : BufTy).Contents (Elt F) → (⟨S100000x128, .f32⟩ : BufTy).Contents (Elt F) → (⟨S100000x128, .f32⟩ : BufTy).Contents (Elt F)),
    StableHlo.binary main_v3 main_v29 main_v30 (addf : (⟨S100000x128, .f32⟩ : BufTy).Contents (Elt F) → (⟨S100000x128, .f32⟩ : BufTy).Contents (Elt F) → (⟨S100000x128, .f32⟩ : BufTy).Contents (Elt F)),
    StableHlo.unary main_arg1 main_v31 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v31 main_v32 rfl shapeCasts_S1x800000_S800000,
    StableHlo.unary main_arg1 main_v33 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v33 main_v34 rfl shapeCasts_S1x800000_S800000,
    StableHlo.nullary main_c_4 (constantI S_ 32 0#32),
    StableHlo.unary main_c_4 main_v35 (broadcastInDim S800000 ![] bcast_S_S800000 : (⟨S_, .i32⟩ : BufTy).Contents (Elt F) → (⟨S800000, .i32⟩ : BufTy).Contents (Elt F)),
    StableHlo.binary main_v32 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v37 (broadcastInDim S800000 ![] bcast_S_S800000 : (⟨S_, .i32⟩ : BufTy).Contents (Elt F) → (⟨S800000, .i32⟩ : BufTy).Contents (Elt F)),
    StableHlo.binary main_v32 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_v32 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_arg4 main_v40 main_v41 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v42 ((extractStridedSlice S1x64x128 ![1, 0, 0] · slices_S4x64x128_S1x64x128_1_0_0) : (⟨S4x64x128, .f32⟩ : BufTy).Contents (Elt F) → (⟨S1x64x128, .f32⟩ : BufTy).Contents (Elt F)),
    StableHlo.reshape main_v42 main_v43 rfl shapeCasts_S1x64x128_S64x128,
    StableHlo.binary main_v41 main_v43 main_v44 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst_6 (constant S_ .f32 0x00000000#32),
    StableHlo.unary main_cst_6 main_v45 (broadcastInDim S100000x128 ![] bcast_S_S100000x128 : (⟨S_, .f32⟩ : BufTy).Contents (Elt F) → (⟨S100000x128, .f32⟩ : BufTy).Contents (Elt F)),
    StableHlo.unary main_v34 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_7 (constant S_ .f32 0x3F800000#32),
    StableHlo.unary main_cst_7 main_v48 (broadcastInDim S800000 ![] bcast_S_S800000 : (⟨S_, .f32⟩ : BufTy).Contents (Elt F) → (⟨S800000, .f32⟩ : BufTy).Contents (Elt F)),
    StableHlo.nullary main_cst_8 (constant S_ .f32 0x00000000#32) ]

/-- The buffers window 0's operations write, in order. -/
abbrev ops0_W : List (Ref sig .tc) :=
  [main_v0, main_v1, main_v2, main_v3, main_v4, main_v5, main_v6, main_v7, main_c, main_v8, main_v9, main_c_0, main_v10, main_v11, main_v12, main_v13, main_v14, main_v15, main_v16, main_v17, main_cst, main_v18, main_v19, main_v20, main_cst_1, main_v21, main_cst_2, main_v22, main_v23, main_v24, main_cst_3, main_v25, main_v26, main_v27, main_v28, main_v29, main_v30, main_v31, main_v32, main_v33, main_v34, main_c_4, main_v35, main_v36, main_c_5, main_v37, main_v38, main_v39, main_v40, main_v41, main_v42, main_v43, main_v44, main_cst_6, main_v45, main_v46, main_v47, main_cst_7, main_v48, main_cst_8]

/-- The operations of @main's window 1 (60), in order. -/
abbrev ops1 : List (HloOp τ sig (Elt F)) :=
  [ StableHlo.unary main_cst_8 main_v49 (broadcastInDim S100000 ![] bcast_S_S100000 : (⟨S_, .f32⟩ : BufTy).Contents (Elt F) → (⟨S100000, .f32⟩ : BufTy).Contents (Elt F)),
    StableHlo.unary main_v34 main_v50 (broadcastInDim S800000x1 ![0] bcast_S800000_S800000x1_0 : (⟨S800000, .i32⟩ : BufTy).Contents (Elt F) → (⟨S800000x1, .i32⟩ : BufTy).Contents (Elt F)),
    StableHlo.ternary main_v49 main_v50 main_v48 main_v51 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_9 (constant S_ .f32 0x3F800000#32),
    StableHlo.unary main_cst_9 main_v52 (broadcastInDim S100000 ![] bcast_S_S100000 : (⟨S_, .f32⟩ : BufTy).Contents (Elt F) → (⟨S100000, .f32⟩ : BufTy).Contents (Elt F)),
    StableHlo.binary main_v51 main_v52 main_v53 (maximumf : (⟨S100000, .f32⟩ : BufTy).Contents (Elt F) → (⟨S100000, .f32⟩ : BufTy).Contents (Elt F) → (⟨S100000, .f32⟩ : BufTy).Contents (Elt F)),
    StableHlo.unary main_v53 main_v54 (broadcastInDim S100000x1 ![0] bcast_S100000_S100000x1_0 : (⟨S100000, .f32⟩ : BufTy).Contents (Elt F) → (⟨S100000x1, .f32⟩ : BufTy).Contents (Elt F)),
    StableHlo.unary main_v54 main_v55 (broadcastInDim S100000x128 ![0, 1] bcast_S100000x1_S100000x128_0_1 : (⟨S100000x1, .f32⟩ : BufTy).Contents (Elt F) → (⟨S100000x128, .f32⟩ : BufTy).Contents (Elt F)),
    StableHlo.binary main_v47 main_v55 main_v56 (Host.divf : (⟨S100000x128, .f32⟩ : BufTy).Contents (Elt F) → (⟨S100000x128, .f32⟩ : BufTy).Contents (Elt F) → (⟨S100000x128, .f32⟩ : BufTy).Contents (Elt F)),
    StableHlo.binary main_v30 main_v56 main_v57 (addf : (⟨S100000x128, .f32⟩ : BufTy).Contents (Elt F) → (⟨S100000x128, .f32⟩ : BufTy).Contents (Elt F) → (⟨S100000x128, .f32⟩ : BufTy).Contents (Elt F)),
    StableHlo.unary main_arg2 main_v58 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v58 main_v59 rfl shapeCasts_S1x800000_S800000,
    StableHlo.unary main_arg2 main_v60 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v60 main_v61 rfl shapeCasts_S1x800000_S800000,
    StableHlo.nullary main_c_10 (constantI S_ 32 0#32),
    StableHlo.unary main_c_10 main_v62 (broadcastInDim S800000 ![] bcast_S_S800000 : (⟨S_, .i32⟩ : BufTy).Contents (Elt F) → (⟨S800000, .i32⟩ : BufTy).Contents (Elt F)),
    StableHlo.binary main_v59 main_v62 main_v63 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 100000#32),
    StableHlo.unary main_c_11 main_v64 (broadcastInDim S800000 ![] bcast_S_S800000 : (⟨S_, .i32⟩ : BufTy).Contents (Elt F) → (⟨S800000, .i32⟩ : BufTy).Contents (Elt F)),
    StableHlo.binary main_v59 main_v64 main_v65 (addi : (⟨S800000, .i32⟩ : BufTy).Contents (Elt F) → (⟨S800000, .i32⟩ : BufTy).Contents (Elt F) → (⟨S800000, .i32⟩ : BufTy).Contents (Elt F)),
    StableHlo.ternary main_v63 main_v65 main_v59 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v66 main_v67 (broadcastInDim S800000x1 ![0] bcast_S800000_S800000x1_0 : (⟨S800000, .i32⟩ : BufTy).Contents (Elt F) → (⟨S800000x1, .i32⟩ : BufTy).Contents (Elt F)),
    StableHlo.binary main_arg4 main_v67 main_v68 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v69 ((extractStridedSlice S1x64x128 ![2, 0, 0] · slices_S4x64x128_S1x64x128_2_0_0) : (⟨S4x64x128, .f32⟩ : BufTy).Contents (Elt F) → (⟨S1x64x128, .f32⟩ : BufTy).Contents (Elt F)),
    StableHlo.reshape main_v69 main_v70 rfl shapeCasts_S1x64x128_S64x128,
    StableHlo.binary main_v68 main_v70 main_v71 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst_12 (constant S_ .f32 0x00000000#32),
    StableHlo.unary main_cst_12 main_v72 (broadcastInDim S100000x128 ![] bcast_S_S100000x128 : (⟨S_, .f32⟩ : BufTy).Contents (Elt F) → (⟨S100000x128, .f32⟩ : BufTy).Contents (Elt F)),
    StableHlo.unary main_v61 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_13 (constant S_ .f32 0x3F800000#32),
    StableHlo.unary main_cst_13 main_v75 (broadcastInDim S800000 ![] bcast_S_S800000 : (⟨S_, .f32⟩ : BufTy).Contents (Elt F) → (⟨S800000, .f32⟩ : BufTy).Contents (Elt F)),
    StableHlo.nullary main_cst_14 (constant S_ .f32 0x00000000#32),
    StableHlo.unary main_cst_14 main_v76 (broadcastInDim S100000 ![] bcast_S_S100000 : (⟨S_, .f32⟩ : BufTy).Contents (Elt F) → (⟨S100000, .f32⟩ : BufTy).Contents (Elt F)),
    StableHlo.unary main_v61 main_v77 (broadcastInDim S800000x1 ![0] bcast_S800000_S800000x1_0 : (⟨S800000, .i32⟩ : BufTy).Contents (Elt F) → (⟨S800000x1, .i32⟩ : BufTy).Contents (Elt F)),
    StableHlo.ternary main_v76 main_v77 main_v75 main_v78 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_15 (constant S_ .f32 0x3F800000#32),
    StableHlo.unary main_cst_15 main_v79 (broadcastInDim S100000 ![] bcast_S_S100000 : (⟨S_, .f32⟩ : BufTy).Contents (Elt F) → (⟨S100000, .f32⟩ : BufTy).Contents (Elt F)),
    StableHlo.binary main_v78 main_v79 main_v80 (maximumf : (⟨S100000, .f32⟩ : BufTy).Contents (Elt F) → (⟨S100000, .f32⟩ : BufTy).Contents (Elt F) → (⟨S100000, .f32⟩ : BufTy).Contents (Elt F)),
    StableHlo.unary main_v80 main_v81 (broadcastInDim S100000x1 ![0] bcast_S100000_S100000x1_0 : (⟨S100000, .f32⟩ : BufTy).Contents (Elt F) → (⟨S100000x1, .f32⟩ : BufTy).Contents (Elt F)),
    StableHlo.unary main_v81 main_v82 (broadcastInDim S100000x128 ![0, 1] bcast_S100000x1_S100000x128_0_1 : (⟨S100000x1, .f32⟩ : BufTy).Contents (Elt F) → (⟨S100000x128, .f32⟩ : BufTy).Contents (Elt F)),
    StableHlo.binary main_v74 main_v82 main_v83 (Host.divf : (⟨S100000x128, .f32⟩ : BufTy).Contents (Elt F) → (⟨S100000x128, .f32⟩ : BufTy).Contents (Elt F) → (⟨S100000x128, .f32⟩ : BufTy).Contents (Elt F)),
    StableHlo.binary main_v57 main_v83 main_v84 (addf : (⟨S100000x128, .f32⟩ : BufTy).Contents (Elt F) → (⟨S100000x128, .f32⟩ : BufTy).Contents (Elt F) → (⟨S100000x128, .f32⟩ : BufTy).Contents (Elt F)),
    StableHlo.unary main_arg3 main_v85 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v85 main_v86 rfl shapeCasts_S1x800000_S800000,
    StableHlo.unary main_arg3 main_v87 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v87 main_v88 rfl shapeCasts_S1x800000_S800000,
    StableHlo.nullary main_c_16 (constantI S_ 32 0#32),
    StableHlo.unary main_c_16 main_v89 (broadcastInDim S800000 ![] bcast_S_S800000 : (⟨S_, .i32⟩ : BufTy).Contents (Elt F) → (⟨S800000, .i32⟩ : BufTy).Contents (Elt F)),
    StableHlo.binary main_v86 main_v89 main_v90 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 100000#32),
    StableHlo.unary main_c_17 main_v91 (broadcastInDim S800000 ![] bcast_S_S800000 : (⟨S_, .i32⟩ : BufTy).Contents (Elt F) → (⟨S800000, .i32⟩ : BufTy).Contents (Elt F)),
    StableHlo.binary main_v86 main_v91 main_v92 (addi : (⟨S800000, .i32⟩ : BufTy).Contents (Elt F) → (⟨S800000, .i32⟩ : BufTy).Contents (Elt F) → (⟨S800000, .i32⟩ : BufTy).Contents (Elt F)),
    StableHlo.ternary main_v90 main_v92 main_v86 main_v93 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v93 main_v94 (broadcastInDim S800000x1 ![0] bcast_S800000_S800000x1_0 : (⟨S800000, .i32⟩ : BufTy).Contents (Elt F) → (⟨S800000x1, .i32⟩ : BufTy).Contents (Elt F)),
    StableHlo.binary main_arg4 main_v94 main_v95 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v96 ((extractStridedSlice S1x64x128 ![3, 0, 0] · slices_S4x64x128_S1x64x128_3_0_0) : (⟨S4x64x128, .f32⟩ : BufTy).Contents (Elt F) → (⟨S1x64x128, .f32⟩ : BufTy).Contents (Elt F)),
    StableHlo.reshape main_v96 main_v97 rfl shapeCasts_S1x64x128_S64x128,
    StableHlo.binary main_v95 main_v97 main_v98 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst_18 (constant S_ .f32 0x00000000#32) ]

/-- The buffers window 1's operations write, in order. -/
abbrev ops1_W : List (Ref sig .tc) :=
  [main_v49, main_v50, main_v51, main_cst_9, main_v52, main_v53, main_v54, main_v55, main_v56, main_v57, main_v58, main_v59, main_v60, main_v61, main_c_10, main_v62, main_v63, main_c_11, main_v64, main_v65, main_v66, main_v67, main_v68, main_v69, main_v70, main_v71, main_cst_12, main_v72, main_v73, main_v74, main_cst_13, main_v75, main_cst_14, main_v76, main_v77, main_v78, main_cst_15, main_v79, main_v80, main_v81, main_v82, main_v83, main_v84, main_v85, main_v86, main_v87, main_v88, main_c_16, main_v89, main_v90, main_c_17, main_v91, main_v92, main_v93, main_v94, main_v95, main_v96, main_v97, main_v98, main_cst_18]

/-- The operations of @main's window 2 (95), in order. -/
abbrev ops2 : List (HloOp τ sig (Elt F)) :=
  [ StableHlo.unary main_cst_18 main_v99 (broadcastInDim S100000x128 ![] bcast_S_S100000x128 : (⟨S_, .f32⟩ : BufTy).Contents (Elt F) → (⟨S100000x128, .f32⟩ : BufTy).Contents (Elt F)),
    StableHlo.unary main_v88 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_19 (constant S_ .f32 0x3F800000#32),
    StableHlo.unary main_cst_19 main_v102 (broadcastInDim S800000 ![] bcast_S_S800000 : (⟨S_, .f32⟩ : BufTy).Contents (Elt F) → (⟨S800000, .f32⟩ : BufTy).Contents (Elt F)),
    StableHlo.nullary main_cst_20 (constant S_ .f32 0x00000000#32),
    StableHlo.unary main_cst_20 main_v103 (broadcastInDim S100000 ![] bcast_S_S100000 : (⟨S_, .f32⟩ : BufTy).Contents (Elt F) → (⟨S100000, .f32⟩ : BufTy).Contents (Elt F)),
    StableHlo.unary main_v88 main_v104 (broadcastInDim S800000x1 ![0] bcast_S800000_S800000x1_0 : (⟨S800000, .i32⟩ : BufTy).Contents (Elt F) → (⟨S800000x1, .i32⟩ : BufTy).Contents (Elt F)),
    StableHlo.ternary main_v103 main_v104 main_v102 main_v105 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_21 (constant S_ .f32 0x3F800000#32),
    StableHlo.unary main_cst_21 main_v106 (broadcastInDim S100000 ![] bcast_S_S100000 : (⟨S_, .f32⟩ : BufTy).Contents (Elt F) → (⟨S100000, .f32⟩ : BufTy).Contents (Elt F)),
    StableHlo.binary main_v105 main_v106 main_v107 (maximumf : (⟨S100000, .f32⟩ : BufTy).Contents (Elt F) → (⟨S100000, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x128 ![0, 1] bcast_S100000x1_S100000x128_0_1 : (⟨S100000x1, .f32⟩ : BufTy).Contents (Elt F) → (⟨S100000x128, .f32⟩ : BufTy).Contents (Elt F)),
    StableHlo.binary main_v101 main_v109 main_v110 (Host.divf : (⟨S100000x128, .f32⟩ : BufTy).Contents (Elt F) → (⟨S100000x128, .f32⟩ : BufTy).Contents (Elt F) → (⟨S100000x128, .f32⟩ : BufTy).Contents (Elt F)),
    StableHlo.binary main_v84 main_v110 main_v111 (addf : (⟨S100000x128, .f32⟩ : BufTy).Contents (Elt F) → (⟨S100000x128, .f32⟩ : BufTy).Contents (Elt F) → (⟨S100000x128, .f32⟩ : BufTy).Contents (Elt F)),
    StableHlo.nullary main_cst_22 (constant S_ .f32 0x00000000#32),
    StableHlo.binary main_v111 main_cst_22 main_v112 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v113 (broadcastInDim S128 ![] bcast_S_S128 : (⟨S_, .f32⟩ : BufTy).Contents (Elt F) → (⟨S128, .f32⟩ : BufTy).Contents (Elt F)),
    StableHlo.binary main_v112 main_v113 main_v114 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call0.cst (constant S_ .f32 0x00000000#32),
    StableHlo.TRef.binary (.of main_v111) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v111) main_call0.v4 main_call0.v5 subf,
    StableHlo.TRef.binary main_call0.v5 main_call0.v5 main_call0.v6 mulf,
    StableHlo.TRef.unary (.of main_c_24) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v114 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v117 main_v118 (subf : (⟨S100000x128, .f32⟩ : BufTy).Contents (Elt F) → (⟨S100000x128, .f32⟩ : BufTy).Contents (Elt F) → (⟨S100000x128, .f32⟩ : BufTy).Contents (Elt F)),
    StableHlo.unary main_arg8 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v120 main_v118 main_v121 (mulf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v122 (broadcastInDim S128 ![] bcast_S_S128 : (⟨S_, .f32⟩ : BufTy).Contents (Elt F) → (⟨S128, .f32⟩ : BufTy).Contents (Elt F)),
    StableHlo.binary main_v115 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v126 main_v127 (mulf : (⟨S100000x128, .f32⟩ : BufTy).Contents (Elt F) → (⟨S100000x128, .f32⟩ : BufTy).Contents (Elt F) → (⟨S100000x128, .f32⟩ : BufTy).Contents (Elt F)),
    StableHlo.unary main_arg9 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v129 main_v130 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v130) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v130) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v130) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v130) main_call1.v7 main_call1.call1.v0 select,
    StableHlo.binary main_v131 main_arg11 main_v132 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S100000x64 ![0, 1] bcast_S1x64_S100000x64_0_1 : (⟨S1x64, .f32⟩ : BufTy).Contents (Elt F) → (⟨S100000x64, .f32⟩ : BufTy).Contents (Elt F)),
    StableHlo.binary main_v132 main_v134 main_v135 (addf : (⟨S100000x64, .f32⟩ : BufTy).Contents (Elt F) → (⟨S100000x64, .f32⟩ : BufTy).Contents (Elt F) → (⟨S100000x64, .f32⟩ : BufTy).Contents (Elt F)),
    StableHlo.unary main_arg0 main_v136 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v136 main_v137 rfl shapeCasts_S1x800000_S800000,
    StableHlo.unary main_arg0 main_v138 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v138 main_v139 rfl shapeCasts_S1x800000_S800000,
    StableHlo.nullary main_c_26 (constantI S_ 32 0#32),
    StableHlo.unary main_c_26 main_v140 (broadcastInDim S800000 ![] bcast_S_S800000 : (⟨S_, .i32⟩ : BufTy).Contents (Elt F) → (⟨S800000, .i32⟩ : BufTy).Contents (Elt F)),
    StableHlo.binary main_v137 main_v140 main_v141 (cmpi .slt : (⟨S800000, .i32⟩ : BufTy).Contents (Elt F) → (⟨S800000, .i32⟩ : BufTy).Contents (Elt F) → (⟨S800000, .i1⟩ : BufTy).Contents (Elt F)),
    StableHlo.nullary main_c_27 (constantI S_ 32 100000#32),
    StableHlo.unary main_c_27 main_v142 (broadcastInDim S800000 ![] bcast_S_S800000 : (⟨S_, .i32⟩ : BufTy).Contents (Elt F) → (⟨S800000, .i32⟩ : BufTy).Contents (Elt F)),
    StableHlo.binary main_v137 main_v142 main_v143 (addi : (⟨S800000, .i32⟩ : BufTy).Contents (Elt F) → (⟨S800000, .i32⟩ : BufTy).Contents (Elt F) → (⟨S800000, .i32⟩ : BufTy).Contents (Elt F)),
    StableHlo.ternary main_v141 main_v143 main_v137 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v144 main_v145 (broadcastInDim S800000x1 ![0] bcast_S800000_S800000x1_0 : (⟨S800000, .i32⟩ : BufTy).Contents (Elt F) → (⟨S800000x1, .i32⟩ : BufTy).Contents (Elt F)),
    StableHlo.binary main_v131 main_v145 main_v146 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v147 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v147 main_v148 rfl shapeCasts_S1x128x64_S128x64,
    StableHlo.binary main_v146 main_v148 main_v149 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)) ]

/-- The buffers window 2's operations write, in order. -/
abbrev ops2_W : List (Ref sig .tc) :=
  [main_v99, main_v100, main_v101, main_cst_19, main_v102, main_cst_20, main_v103, main_v104, main_v105, main_cst_21, main_v106, main_v107, main_v108, main_v109, main_v110, main_v111, main_cst_22, main_v112, main_cst_23, main_v113, main_v114, main_c_24, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.cst_3).ref, (main_call0.v12).ref, (main_call0.cst_4).ref, (main_call0.call0.v0).ref, (main_call0.call0.v1).ref, (main_call0.call0.v2).ref, main_v116, main_v117, main_v118, main_v119, main_v120, main_v121, main_cst_25, main_v122, main_v123, main_v124, main_v125, main_v126, main_v127, main_v128, main_v129, main_v130, (main_call1.cst).ref, (main_call1.v0).ref, (main_call1.v1).ref, (main_call1.cst_0).ref, (main_call1.v2).ref, (main_call1.v3).ref, (main_call1.cst_1).ref, (main_call1.call0.v0).ref, (main_call1.call0.v1).ref, (main_call1.call0.v2).ref, (main_call1.v5).ref, (main_call1.cst_2).ref, (main_call1.v6).ref, (main_call1.v7).ref, (main_call1.call1.v0).ref, main_v132, main_v133, main_v134, main_v135, main_v136, main_v137, main_v138, main_v139, main_c_26, main_v140, main_v141, main_c_27, main_v142, main_v143, main_v144, main_v145, main_v146, main_v147, main_v148, main_v149]

/-- The operations of @main's window 3 (60), in order. -/
abbrev ops3 : List (HloOp τ sig (Elt F)) :=
  [ StableHlo.nullary main_cst_28 (constant S_ .f32 0x00000000#32),
    StableHlo.unary main_cst_28 main_v150 (broadcastInDim S100000x64 ![] bcast_S_S100000x64 : (⟨S_, .f32⟩ : BufTy).Contents (Elt F) → (⟨S100000x64, .f32⟩ : BufTy).Contents (Elt F)),
    StableHlo.unary main_v139 main_v151 (broadcastInDim S800000x1 ![0] bcast_S800000_S800000x1_0 : (⟨S800000, .i32⟩ : BufTy).Contents (Elt F) → (⟨S800000x1, .i32⟩ : BufTy).Contents (Elt F)),
    StableHlo.ternary main_v150 main_v151 main_v149 main_v152 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_29 (constant S_ .f32 0x3F800000#32),
    StableHlo.unary main_cst_29 main_v153 (broadcastInDim S800000 ![] bcast_S_S800000 : (⟨S_, .f32⟩ : BufTy).Contents (Elt F) → (⟨S800000, .f32⟩ : BufTy).Contents (Elt F)),
    StableHlo.nullary main_cst_30 (constant S_ .f32 0x00000000#32),
    StableHlo.unary main_cst_30 main_v154 (broadcastInDim S100000 ![] bcast_S_S100000 : (⟨S_, .f32⟩ : BufTy).Contents (Elt F) → (⟨S100000, .f32⟩ : BufTy).Contents (Elt F)),
    StableHlo.unary main_v139 main_v155 (broadcastInDim S800000x1 ![0] bcast_S800000_S800000x1_0 : (⟨S800000, .i32⟩ : BufTy).Contents (Elt F) → (⟨S800000x1, .i32⟩ : BufTy).Contents (Elt F)),
    StableHlo.ternary main_v154 main_v155 main_v153 main_v156 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_31 (constant S_ .f32 0x3F800000#32),
    StableHlo.unary main_cst_31 main_v157 (broadcastInDim S100000 ![] bcast_S_S100000 : (⟨S_, .f32⟩ : BufTy).Contents (Elt F) → (⟨S100000, .f32⟩ : BufTy).Contents (Elt F)),
    StableHlo.binary main_v156 main_v157 main_v158 (maximumf : (⟨S100000, .f32⟩ : BufTy).Contents (Elt F) → (⟨S100000, .f32⟩ : BufTy).Contents (Elt F) → (⟨S100000, .f32⟩ : BufTy).Contents (Elt F)),
    StableHlo.unary main_v158 main_v159 (broadcastInDim S100000x1 ![0] bcast_S100000_S100000x1_0 : (⟨S100000, .f32⟩ : BufTy).Contents (Elt F) → (⟨S100000x1, .f32⟩ : BufTy).Contents (Elt F)),
    StableHlo.unary main_v159 main_v160 (broadcastInDim S100000x64 ![0, 1] bcast_S100000x1_S100000x64_0_1 : (⟨S100000x1, .f32⟩ : BufTy).Contents (Elt F) → (⟨S100000x64, .f32⟩ : BufTy).Contents (Elt F)),
    StableHlo.binary main_v152 main_v160 main_v161 (Host.divf : (⟨S100000x64, .f32⟩ : BufTy).Contents (Elt F) → (⟨S100000x64, .f32⟩ : BufTy).Contents (Elt F) → (⟨S100000x64, .f32⟩ : BufTy).Contents (Elt F)),
    StableHlo.binary main_v135 main_v161 main_v162 (addf : (⟨S100000x64, .f32⟩ : BufTy).Contents (Elt F) → (⟨S100000x64, .f32⟩ : BufTy).Contents (Elt F) → (⟨S100000x64, .f32⟩ : BufTy).Contents (Elt F)),
    StableHlo.unary main_arg1 main_v163 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v163 main_v164 rfl shapeCasts_S1x800000_S800000,
    StableHlo.unary main_arg1 main_v165 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v165 main_v166 rfl shapeCasts_S1x800000_S800000,
    StableHlo.nullary main_c_32 (constantI S_ 32 0#32),
    StableHlo.unary main_c_32 main_v167 (broadcastInDim S800000 ![] bcast_S_S800000 : (⟨S_, .i32⟩ : BufTy).Contents (Elt F) → (⟨S800000, .i32⟩ : BufTy).Contents (Elt F)),
    StableHlo.binary main_v164 main_v167 main_v168 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 100000#32),
    StableHlo.unary main_c_33 main_v169 (broadcastInDim S800000 ![] bcast_S_S800000 : (⟨S_, .i32⟩ : BufTy).Contents (Elt F) → (⟨S800000, .i32⟩ : BufTy).Contents (Elt F)),
    StableHlo.binary main_v164 main_v169 main_v170 (addi : (⟨S800000, .i32⟩ : BufTy).Contents (Elt F) → (⟨S800000, .i32⟩ : BufTy).Contents (Elt F) → (⟨S800000, .i32⟩ : BufTy).Contents (Elt F)),
    StableHlo.ternary main_v168 main_v170 main_v164 main_v171 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v171 main_v172 (broadcastInDim S800000x1 ![0] bcast_S800000_S800000x1_0 : (⟨S800000, .i32⟩ : BufTy).Contents (Elt F) → (⟨S800000x1, .i32⟩ : BufTy).Contents (Elt F)),
    StableHlo.binary main_v131 main_v172 main_v173 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v174 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v174 main_v175 rfl shapeCasts_S1x128x64_S128x64,
    StableHlo.binary main_v173 main_v175 main_v176 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.nullary main_cst_34 (constant S_ .f32 0x00000000#32),
    StableHlo.unary main_cst_34 main_v177 (broadcastInDim S100000x64 ![] bcast_S_S100000x64 : (⟨S_, .f32⟩ : BufTy).Contents (Elt F) → (⟨S100000x64, .f32⟩ : BufTy).Contents (Elt F)),
    StableHlo.unary main_v166 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_35 (constant S_ .f32 0x3F800000#32),
    StableHlo.unary main_cst_35 main_v180 (broadcastInDim S800000 ![] bcast_S_S800000 : (⟨S_, .f32⟩ : BufTy).Contents (Elt F) → (⟨S800000, .f32⟩ : BufTy).Contents (Elt F)),
    StableHlo.nullary main_cst_36 (constant S_ .f32 0x00000000#32),
    StableHlo.unary main_cst_36 main_v181 (broadcastInDim S100000 ![] bcast_S_S100000 : (⟨S_, .f32⟩ : BufTy).Contents (Elt F) → (⟨S100000, .f32⟩ : BufTy).Contents (Elt F)),
    StableHlo.unary main_v166 main_v182 (broadcastInDim S800000x1 ![0] bcast_S800000_S800000x1_0 : (⟨S800000, .i32⟩ : BufTy).Contents (Elt F) → (⟨S800000x1, .i32⟩ : BufTy).Contents (Elt F)),
    StableHlo.ternary main_v181 main_v182 main_v180 main_v183 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_37 (constant S_ .f32 0x3F800000#32),
    StableHlo.unary main_cst_37 main_v184 (broadcastInDim S100000 ![] bcast_S_S100000 : (⟨S_, .f32⟩ : BufTy).Contents (Elt F) → (⟨S100000, .f32⟩ : BufTy).Contents (Elt F)),
    StableHlo.binary main_v183 main_v184 main_v185 (maximumf : (⟨S100000, .f32⟩ : BufTy).Contents (Elt F) → (⟨S100000, .f32⟩ : BufTy).Contents (Elt F) → (⟨S100000, .f32⟩ : BufTy).Contents (Elt F)),
    StableHlo.unary main_v185 main_v186 (broadcastInDim S100000x1 ![0] bcast_S100000_S100000x1_0 : (⟨S100000, .f32⟩ : BufTy).Contents (Elt F) → (⟨S100000x1, .f32⟩ : BufTy).Contents (Elt F)),
    StableHlo.unary main_v186 main_v187 (broadcastInDim S100000x64 ![0, 1] bcast_S100000x1_S100000x64_0_1 : (⟨S100000x1, .f32⟩ : BufTy).Contents (Elt F) → (⟨S100000x64, .f32⟩ : BufTy).Contents (Elt F)),
    StableHlo.binary main_v179 main_v187 main_v188 (Host.divf : (⟨S100000x64, .f32⟩ : BufTy).Contents (Elt F) → (⟨S100000x64, .f32⟩ : BufTy).Contents (Elt F) → (⟨S100000x64, .f32⟩ : BufTy).Contents (Elt F)),
    StableHlo.binary main_v162 main_v188 main_v189 (addf : (⟨S100000x64, .f32⟩ : BufTy).Contents (Elt F) → (⟨S100000x64, .f32⟩ : BufTy).Contents (Elt F) → (⟨S100000x64, .f32⟩ : BufTy).Contents (Elt F)),
    StableHlo.unary main_arg2 main_v190 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v190 main_v191 rfl shapeCasts_S1x800000_S800000,
    StableHlo.unary main_arg2 main_v192 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v192 main_v193 rfl shapeCasts_S1x800000_S800000,
    StableHlo.nullary main_c_38 (constantI S_ 32 0#32),
    StableHlo.unary main_c_38 main_v194 (broadcastInDim S800000 ![] bcast_S_S800000 : (⟨S_, .i32⟩ : BufTy).Contents (Elt F) → (⟨S800000, .i32⟩ : BufTy).Contents (Elt F)),
    StableHlo.binary main_v191 main_v194 main_v195 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 100000#32),
    StableHlo.unary main_c_39 main_v196 (broadcastInDim S800000 ![] bcast_S_S800000 : (⟨S_, .i32⟩ : BufTy).Contents (Elt F) → (⟨S800000, .i32⟩ : BufTy).Contents (Elt F)),
    StableHlo.binary main_v191 main_v196 main_v197 (addi : (⟨S800000, .i32⟩ : BufTy).Contents (Elt F) → (⟨S800000, .i32⟩ : BufTy).Contents (Elt F) → (⟨S800000, .i32⟩ : BufTy).Contents (Elt F)) ]

/-- The buffers window 3's operations write, in order. -/
abbrev ops3_W : List (Ref sig .tc) :=
  [main_cst_28, main_v150, main_v151, main_v152, main_cst_29, main_v153, main_cst_30, main_v154, main_v155, main_v156, main_cst_31, main_v157, main_v158, main_v159, main_v160, main_v161, main_v162, main_v163, main_v164, main_v165, main_v166, main_c_32, main_v167, main_v168, main_c_33, main_v169, main_v170, main_v171, main_v172, main_v173, main_v174, main_v175, main_v176, main_cst_34, main_v177, main_v178, main_v179, main_cst_35, main_v180, main_cst_36, main_v181, main_v182, main_v183, main_cst_37, main_v184, main_v185, main_v186, main_v187, main_v188, main_v189, main_v190, main_v191, main_v192, main_v193, main_c_38, main_v194, main_v195, main_c_39, main_v196, main_v197]

/-- The operations of @main's window 4 (56), in order. -/
abbrev ops4 : List (HloOp τ sig (Elt F)) :=
  [ StableHlo.ternary main_v195 main_v197 main_v191 main_v198 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v198 main_v199 (broadcastInDim S800000x1 ![0] bcast_S800000_S800000x1_0 : (⟨S800000, .i32⟩ : BufTy).Contents (Elt F) → (⟨S800000x1, .i32⟩ : BufTy).Contents (Elt F)),
    StableHlo.binary main_v131 main_v199 main_v200 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v201 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v201 main_v202 rfl shapeCasts_S1x128x64_S128x64,
    StableHlo.binary main_v200 main_v202 main_v203 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.nullary main_cst_40 (constant S_ .f32 0x00000000#32),
    StableHlo.unary main_cst_40 main_v204 (broadcastInDim S100000x64 ![] bcast_S_S100000x64 : (⟨S_, .f32⟩ : BufTy).Contents (Elt F) → (⟨S100000x64, .f32⟩ : BufTy).Contents (Elt F)),
    StableHlo.unary main_v193 main_v205 (broadcastInDim S800000x1 ![0] bcast_S800000_S800000x1_0 : (⟨S800000, .i32⟩ : BufTy).Contents (Elt F) → (⟨S800000x1, .i32⟩ : BufTy).Contents (Elt F)),
    StableHlo.ternary main_v204 main_v205 main_v203 main_v206 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_41 (constant S_ .f32 0x3F800000#32),
    StableHlo.unary main_cst_41 main_v207 (broadcastInDim S800000 ![] bcast_S_S800000 : (⟨S_, .f32⟩ : BufTy).Contents (Elt F) → (⟨S800000, .f32⟩ : BufTy).Contents (Elt F)),
    StableHlo.nullary main_cst_42 (constant S_ .f32 0x00000000#32),
    StableHlo.unary main_cst_42 main_v208 (broadcastInDim S100000 ![] bcast_S_S100000 : (⟨S_, .f32⟩ : BufTy).Contents (Elt F) → (⟨S100000, .f32⟩ : BufTy).Contents (Elt F)),
    StableHlo.unary main_v193 main_v209 (broadcastInDim S800000x1 ![0] bcast_S800000_S800000x1_0 : (⟨S800000, .i32⟩ : BufTy).Contents (Elt F) → (⟨S800000x1, .i32⟩ : BufTy).Contents (Elt F)),
    StableHlo.ternary main_v208 main_v209 main_v207 main_v210 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_43 (constant S_ .f32 0x3F800000#32),
    StableHlo.unary main_cst_43 main_v211 (broadcastInDim S100000 ![] bcast_S_S100000 : (⟨S_, .f32⟩ : BufTy).Contents (Elt F) → (⟨S100000, .f32⟩ : BufTy).Contents (Elt F)),
    StableHlo.binary main_v210 main_v211 main_v212 (maximumf : (⟨S100000, .f32⟩ : BufTy).Contents (Elt F) → (⟨S100000, .f32⟩ : BufTy).Contents (Elt F) → (⟨S100000, .f32⟩ : BufTy).Contents (Elt F)),
    StableHlo.unary main_v212 main_v213 (broadcastInDim S100000x1 ![0] bcast_S100000_S100000x1_0 : (⟨S100000, .f32⟩ : BufTy).Contents (Elt F) → (⟨S100000x1, .f32⟩ : BufTy).Contents (Elt F)),
    StableHlo.unary main_v213 main_v214 (broadcastInDim S100000x64 ![0, 1] bcast_S100000x1_S100000x64_0_1 : (⟨S100000x1, .f32⟩ : BufTy).Contents (Elt F) → (⟨S100000x64, .f32⟩ : BufTy).Contents (Elt F)),
    StableHlo.binary main_v206 main_v214 main_v215 (Host.divf : (⟨S100000x64, .f32⟩ : BufTy).Contents (Elt F) → (⟨S100000x64, .f32⟩ : BufTy).Contents (Elt F) → (⟨S100000x64, .f32⟩ : BufTy).Contents (Elt F)),
    StableHlo.binary main_v189 main_v215 main_v216 (addf : (⟨S100000x64, .f32⟩ : BufTy).Contents (Elt F) → (⟨S100000x64, .f32⟩ : BufTy).Contents (Elt F) → (⟨S100000x64, .f32⟩ : BufTy).Contents (Elt F)),
    StableHlo.unary main_arg3 main_v217 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v217 main_v218 rfl shapeCasts_S1x800000_S800000,
    StableHlo.unary main_arg3 main_v219 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v219 main_v220 rfl shapeCasts_S1x800000_S800000,
    StableHlo.nullary main_c_44 (constantI S_ 32 0#32),
    StableHlo.unary main_c_44 main_v221 (broadcastInDim S800000 ![] bcast_S_S800000 : (⟨S_, .i32⟩ : BufTy).Contents (Elt F) → (⟨S800000, .i32⟩ : BufTy).Contents (Elt F)),
    StableHlo.binary main_v218 main_v221 main_v222 (cmpi .slt : (⟨S800000, .i32⟩ : BufTy).Contents (Elt F) → (⟨S800000, .i32⟩ : BufTy).Contents (Elt F) → (⟨S800000, .i1⟩ : BufTy).Contents (Elt F)),
    StableHlo.nullary main_c_45 (constantI S_ 32 100000#32),
    StableHlo.unary main_c_45 main_v223 (broadcastInDim S800000 ![] bcast_S_S800000 : (⟨S_, .i32⟩ : BufTy).Contents (Elt F) → (⟨S800000, .i32⟩ : BufTy).Contents (Elt F)),
    StableHlo.binary main_v218 main_v223 main_v224 (addi : (⟨S800000, .i32⟩ : BufTy).Contents (Elt F) → (⟨S800000, .i32⟩ : BufTy).Contents (Elt F) → (⟨S800000, .i32⟩ : BufTy).Contents (Elt F)),
    StableHlo.ternary main_v222 main_v224 main_v218 main_v225 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v225 main_v226 (broadcastInDim S800000x1 ![0] bcast_S800000_S800000x1_0 : (⟨S800000, .i32⟩ : BufTy).Contents (Elt F) → (⟨S800000x1, .i32⟩ : BufTy).Contents (Elt F)),
    StableHlo.binary main_v131 main_v226 main_v227 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v228 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v228 main_v229 rfl shapeCasts_S1x128x64_S128x64,
    StableHlo.binary main_v227 main_v229 main_v230 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.nullary main_cst_46 (constant S_ .f32 0x00000000#32),
    StableHlo.unary main_cst_46 main_v231 (broadcastInDim S100000x64 ![] bcast_S_S100000x64 : (⟨S_, .f32⟩ : BufTy).Contents (Elt F) → (⟨S100000x64, .f32⟩ : BufTy).Contents (Elt F)),
    StableHlo.unary main_v220 main_v232 (broadcastInDim S800000x1 ![0] bcast_S800000_S800000x1_0 : (⟨S800000, .i32⟩ : BufTy).Contents (Elt F) → (⟨S800000x1, .i32⟩ : BufTy).Contents (Elt F)),
    StableHlo.ternary main_v231 main_v232 main_v230 main_v233 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_47 (constant S_ .f32 0x3F800000#32),
    StableHlo.unary main_cst_47 main_v234 (broadcastInDim S800000 ![] bcast_S_S800000 : (⟨S_, .f32⟩ : BufTy).Contents (Elt F) → (⟨S800000, .f32⟩ : BufTy).Contents (Elt F)),
    StableHlo.nullary main_cst_48 (constant S_ .f32 0x00000000#32),
    StableHlo.unary main_cst_48 main_v235 (broadcastInDim S100000 ![] bcast_S_S100000 : (⟨S_, .f32⟩ : BufTy).Contents (Elt F) → (⟨S100000, .f32⟩ : BufTy).Contents (Elt F)),
    StableHlo.unary main_v220 main_v236 (broadcastInDim S800000x1 ![0] bcast_S800000_S800000x1_0 : (⟨S800000, .i32⟩ : BufTy).Contents (Elt F) → (⟨S800000x1, .i32⟩ : BufTy).Contents (Elt F)),
    StableHlo.ternary main_v235 main_v236 main_v234 main_v237 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_49 (constant S_ .f32 0x3F800000#32),
    StableHlo.unary main_cst_49 main_v238 (broadcastInDim S100000 ![] bcast_S_S100000 : (⟨S_, .f32⟩ : BufTy).Contents (Elt F) → (⟨S100000, .f32⟩ : BufTy).Contents (Elt F)),
    StableHlo.binary main_v237 main_v238 main_v239 (maximumf : (⟨S100000, .f32⟩ : BufTy).Contents (Elt F) → (⟨S100000, .f32⟩ : BufTy).Contents (Elt F) → (⟨S100000, .f32⟩ : BufTy).Contents (Elt F)),
    StableHlo.unary main_v239 main_v240 (broadcastInDim S100000x1 ![0] bcast_S100000_S100000x1_0 : (⟨S100000, .f32⟩ : BufTy).Contents (Elt F) → (⟨S100000x1, .f32⟩ : BufTy).Contents (Elt F)),
    StableHlo.unary main_v240 main_v241 (broadcastInDim S100000x64 ![0, 1] bcast_S100000x1_S100000x64_0_1 : (⟨S100000x1, .f32⟩ : BufTy).Contents (Elt F) → (⟨S100000x64, .f32⟩ : BufTy).Contents (Elt F)),
    StableHlo.binary main_v233 main_v241 main_v242 (Host.divf : (⟨S100000x64, .f32⟩ : BufTy).Contents (Elt F) → (⟨S100000x64, .f32⟩ : BufTy).Contents (Elt F) → (⟨S100000x64, .f32⟩ : BufTy).Contents (Elt F)),
    StableHlo.binary main_v216 main_v242 main_v243 (addf : (⟨S100000x64, .f32⟩ : BufTy).Contents (Elt F) → (⟨S100000x64, .f32⟩ : BufTy).Contents (Elt F) → (⟨S100000x64, .f32⟩ : BufTy).Contents (Elt F)) ]

/-- The buffers window 4's operations write, in order. -/
abbrev ops4_W : List (Ref sig .tc) :=
  [main_v198, main_v199, main_v200, main_v201, main_v202, main_v203, main_cst_40, main_v204, main_v205, main_v206, main_cst_41, main_v207, main_cst_42, main_v208, main_v209, main_v210, main_cst_43, main_v211, main_v212, main_v213, main_v214, main_v215, main_v216, main_v217, main_v218, main_v219, main_v220, main_c_44, main_v221, main_v222, main_c_45, main_v223, main_v224, main_v225, main_v226, main_v227, main_v228, main_v229, main_v230, main_cst_46, main_v231, main_v232, main_v233, main_cst_47, main_v234, main_cst_48, main_v235, main_v236, main_v237, main_cst_49, main_v238, main_v239, main_v240, main_v241, main_v242, main_v243]

/-- @main's 331 operations, in order. -/
abbrev ops : List (HloOp τ sig (Elt F)) :=
  ops0 ++ (ops1 ++ (ops2 ++ (ops3 ++ (ops4))))

end Cert.ReferenceIdeal.RefRun

end
-- ==== Proof.RI.MainEq.lean ====
/- The reference program's @main is the straight line of its operations: each printed window of @main is the
   sequence of its own list (the called functions' bodies unfolded at their calls), and the windows in order are
   the concatenation. -/
import proofs.«169502_j41412074668235_1_alg».proof.Proof.RI.Ops
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
set_option maxHeartbeats 4000000 in
/-- The window with the two calls: the callees' definitions unfolded at their calls and the records at their fields,
    both sides are one chain of steps once sequencing is reassociated. -/
theorem main_part2_eq (c : Dev nD) : main_part2 (F := F) c = seq ops2 := by
  simp only [main_part2, fn_var.body, fn_where.body, fn_elu.body, fn_where_0.body, fn_where_1.body, seq, bind_assoc, pure_bind]
  rfl
set_option maxRecDepth 8192 in
theorem main_part3_eq (c : Dev nD) : main_part3 (F := F) c = seq ops3 := rfl
set_option maxRecDepth 8192 in
theorem main_part4_eq (c : Dev nD) : main_part4 (F := F) c = seq ops4 := rfl

set_option maxRecDepth 8192 in
/-- @main runs its windows in order; the line of a concatenation is the lines one after the other. -/
theorem main_eq (c : Dev nD) : main (F := F) c = seq ops := by
  simp only [ops, seq_append, ← main_part0_eq c, ← main_part1_eq c, ← main_part2_eq c, ← main_part3_eq c, ← main_part4_eq c]
  rfl

end Cert.ReferenceIdeal.RefRun

end
-- ==== Proof.RI.Sub.lean ====
/- Every operation of each window touches TensorCore buffers only: per operation, its builder's inclusion lemma. -/
import proofs.«169502_j41412074668235_1_alg».proof.Proof.RI.Ops
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops0_sub : (ops0 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub .., nullary_bufs_sub .., unary_bufs_sub .., nullary_bufs_sub ..⟩

set_option maxRecDepth 8192 in
theorem ops1_sub : (ops1 : List (HloOp τ sig (Elt F))).Forall fun op => op.bufs ⊆ tcRefs τ sig :=
  ⟨unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub ..⟩

set_option maxRecDepth 8192 in
theorem ops2_sub : (ops2 : List (HloOp τ sig (Elt F))).Forall fun op => op.bufs ⊆ tcRefs τ sig :=
  ⟨unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub ..⟩

set_option maxRecDepth 8192 in
theorem ops3_sub : (ops3 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub ..⟩

set_option maxRecDepth 8192 in
theorem ops4_sub : (ops4 : List (HloOp τ sig (Elt F))).Forall fun op => op.bufs ⊆ tcRefs τ sig :=
  ⟨ternary_bufs_sub .., unary_bufs_sub .., binary_bufs_sub .., unary_bufs_sub .., reshape_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩

end Cert.ReferenceIdeal.RefRun

end
-- ==== Proof.RI.Seq.lean ====
/- The run of the reference program's @main as a straight line: every weakly fair execution terminates without a
   fault, and each TensorCore buffer ends at the fold of the operations' results over the launch contents. -/
import proofs.«169502_j41412074668235_1_alg».proof.Proof.RI.Ops
import proofs.«169502_j41412074668235_1_alg».proof.Proof.RI.MainEq
import proofs.«169502_j41412074668235_1_alg».proof.Proof.RI.Sub
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Membership in the whole list is membership in one of the windows. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F)))
      ∨ op ∈ (ops3 : List (HloOp τ sig (Elt F))) ∨ op ∈ (ops4 : List (HloOp τ sig (Elt F))) := by
  simpa only [ops, List.mem_append] using h

theorem ops_sub : (ops : List (HloOp τ sig (Elt F))).Forall fun op => op.bufs ⊆ tcRefs τ sig :=
  List.forall_iff_forall_mem.mpr fun op h => by
    rcases mem_ops h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

/-! Every operation determines its results (none allocates): by computation on each literal list. -/
set_option maxRecDepth 8192 in
theorem ops0_fresh : ∀ op ∈ (ops0 : List (HloOp τ sig (Elt F))), op.fresh = ∅ := by
  intro _ h; (repeat (cases h with | head => rfl | tail _ h => ?_)); exact nomatch h
set_option maxRecDepth 8192 in
theorem ops1_fresh : ∀ op ∈ (ops1 : List (HloOp τ sig (Elt F))), op.fresh = ∅ := by
  intro _ h; (repeat (cases h with | head => rfl | tail _ h => ?_)); exact nomatch h
set_option maxRecDepth 8192 in
theorem ops2_fresh : ∀ op ∈ (ops2 : List (HloOp τ sig (Elt F))), op.fresh = ∅ := by
  intro _ h; (repeat (cases h with | head => rfl | tail _ h => ?_)); exact nomatch h
set_option maxRecDepth 8192 in
theorem ops3_fresh : ∀ op ∈ (ops3 : List (HloOp τ sig (Elt F))), op.fresh = ∅ := by
  intro _ h; (repeat (cases h with | head => rfl | tail _ h => ?_)); exact nomatch h
set_option maxRecDepth 8192 in
theorem ops4_fresh : ∀ op ∈ (ops4 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  rcases mem_ops h with h | h | h | h | h
  exacts [ops0_fresh op h, ops1_fresh op h, ops2_fresh op h, ops3_fresh op h, ops4_fresh op h]

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RI.Writes.lean ====
/- Every operation of each window writes only a buffer of the window's list of written buffers: per operation, its
   builder's one written buffer is a member of the list. -/
import proofs.«169502_j41412074668235_1_alg».proof.Proof.RI.Ops
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem ops4_writes : (ops4 : List (HloOp τ sig (Elt F))).Forall fun op => op.writes ⊆ (ops4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.RefRun

end
-- ==== Proof.RI.Keep.lean ====
/- A buffer that no operation of the reference program's @main writes keeps its contents through the whole line:
   the fold over a concatenation is the folds in turn, and each window leaves alone what is not among its written buffers. -/
import proofs.«169502_j41412074668235_1_alg».proof.Proof.RI.Ops
import proofs.«169502_j41412074668235_1_alg».proof.Proof.RI.Writes
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the folds in turn. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line as its five windows in turn. -/
theorem after_ops (V : Valuation τ sig (Elt F)) :
    after ops V = after ops4 (after ops3 (after ops2 (after ops1 (after ops0 V)))) := by
  simp only [ops, after_app]

/-- A reference written by no window keeps its contents through @main. -/
theorem after_ops_keep (V : Valuation τ sig (Elt F)) (r : Ref sig .tc) (h0 : r ∉ ops0_W) (h1 : r ∉ ops1_W) (h2 : r ∉ ops2_W)
    (h3 : r ∉ ops3_W) (h4 : r ∉ ops4_W) : after ops V (Proc.devRef .tc r) = V (Proc.devRef .tc r) := by
  rw [after_ops, after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

end Cert.ReferenceIdeal.RefRun

end
-- ==== Proof.RI.Frame.lean ====
/- The frame of the reference program: every weakly fair execution of @main terminates without a fault and leaves
   the thirteen argument arrays as they were — no operation of the line writes an argument's buffer. -/
import proofs.«169502_j41412074668235_1_alg».proof.Defs
import proofs.«169502_j41412074668235_1_alg».proof.Proof.Gen.Pre_finite_inputs
import proofs.«169502_j41412074668235_1_alg».proof.Proof.RI.Seq
import proofs.«169502_j41412074668235_1_alg».proof.Proof.RI.Keep
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- On every device, for any float values, from any memory with zero counters: every weakly fair execution of @main
    terminates with the arguments unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_arg0).trans (after_ops_keep _ main_arg0 (by decide) (by decide) (by decide) (by decide) (by decide)),
      (h c main_arg1).trans (after_ops_keep _ main_arg1 (by decide) (by decide) (by decide) (by decide) (by decide)),
      (h c main_arg2).trans (after_ops_keep _ main_arg2 (by decide) (by decide) (by decide) (by decide) (by decide)),
      (h c main_arg3).trans (after_ops_keep _ main_arg3 (by decide) (by decide) (by decide) (by decide) (by decide)),
      (h c main_arg4).trans (after_ops_keep _ main_arg4 (by decide) (by decide) (by decide) (by decide) (by decide)),
      (h c main_arg5).trans (after_ops_keep _ main_arg5 (by decide) (by decide) (by decide) (by decide) (by decide)),
      (h c main_arg6).trans (after_ops_keep _ main_arg6 (by decide) (by decide) (by decide) (by decide) (by decide)),
      (h c main_arg7).trans (after_ops_keep _ main_arg7 (by decide) (by decide) (by decide) (by decide) (by decide)),
      (h c main_arg8).trans (after_ops_keep _ main_arg8 (by decide) (by decide) (by decide) (by decide) (by decide)),
      (h c main_arg9).trans (after_ops_keep _ main_arg9 (by decide) (by decide) (by decide) (by decide) (by decide)),
      (h c main_arg10).trans (after_ops_keep _ main_arg10 (by decide) (by decide) (by decide) (by decide) (by decide)),
      (h c main_arg11).trans (after_ops_keep _ main_arg11 (by decide) (by decide) (by decide) (by decide) (by decide)),
      (h c main_arg12).trans (after_ops_keep _ main_arg12 (by decide) (by decide) (by decide) (by decide) (by decide))⟩)
    (run_all m ρ)

/-- The reference's frame, at the ideal instance. -/
theorem frame_ri : Cert.frame_ReferenceIdeal := fun m ρ _ => run_args (F := Ideal) m ρ

end Cert.ReferenceIdeal.RefRun

end
-- ==== Proof.KI.HostKeeps2.lean ====
/-
  Buffers that outlive the stretch that computed them: the first host stretch's edge columns and reciprocal in-degrees, and
  the first layer's output, are read again after the statistics stretch, which writes none of them; the normalised
  features are read by the last region after the last stretch, which does not write them.
-/
import proofs.«169502_j41412074668235_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The edge columns (sources, destinations), the reciprocal in-degrees, and the first layer's output. -/
abbrev carried : List (Ref sig .tc) :=
  [main_v1, main_v3, main_v5, main_v7, main_v9, main_v11, main_v13, main_v15, main_v23, main_v30, main_v37, main_v44, main_v98]

set_option maxHeartbeats 4000000 in
/-- The statistics stretch writes none of them. -/
theorem hostOps2_keeps_carried (a : Ref sig .tc) (ha : a ∈ carried) :
    ∀ op ∈ (hostOps2 : List (HloOp τ sig (Elt F))), Proc.devRef (τ := τ) .tc a ∉ op.writes :=
  List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by revert a; decide))

set_option maxHeartbeats 4000000 in
/-- The last stretch does not write the normalised features. -/
theorem hostOps3_keeps_v106 :
    ∀ op ∈ (hostOps3 : List (HloOp τ sig (Elt F))), Proc.devRef (τ := τ) .tc main_v106 ∉ op.writes :=
  List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide))

end Cert.KernelIdeal.Hand

end
-- ==== Proof.KI.Chain.lean ====
/-
  What each region of the kernel's program is entered with, traced back through the fold of boundary contents:
  the last region's features are the third region's output array and its aggregates the last stretch's; the third
  region's features are the first region's output array (the second region only reads it), its mean and variance the
  statistics stretch's terms of the second region's two sums; the first region's operands are argument arrays and the
  first stretch's aggregates. The result array is the last region's output array.
-/
import proofs.«169502_j41412074668235_1_alg».proof.Proof.KI.Frame
import proofs.«169502_j41412074668235_1_alg».proof.Proof.KI.HostKeeps2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F]

variable (m : (ℓ : Loc nD τ sig) → Buf (Elt F) ℓ) (ρ : Dev nD → PrngReg)

/-! ## The result, and the last region's operands -/

/-- The result array is the last region's output array. -/
theorem W7_v160 (c : Dev nD) : W7 m ρ c (Proc.devRef .tc main_v160) = (dat3 (V6 m ρ) c).arrAt 5 cfg3.N := W7_arr m ρ c 5

/-- The last region's features are the third region's output array. -/
theorem V6_v106 (c : Dev nD) : V6 m ρ c main_v106 = (dat2 (V4 m ρ) c).arrAt 5 cfg2.N :=
  (StableHlo.after_of_forall_not_mem (b := Proc.devRef .tc main_v106) _ _ hostOps3_keeps_v106).trans (W5_arr m ρ c 5)

theorem V6_arg10 (c : Dev nD) : V6 m ρ c main_arg10 = m ((c : Thread nD τ).loc main_arg10) :=
  calc W6 m ρ c (Proc.devRef .tc main_arg10)
    _ = W5 m ρ c (Proc.devRef .tc main_arg10) := W6_keep m ρ c main_arg10 (by decide)
    _ = W4 m ρ c (Proc.devRef .tc main_arg10) := W5_of_ne m ρ c main_arg10 (by decide)
    _ = W3 m ρ c (Proc.devRef .tc main_arg10) := W4_keep m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl
theorem V6_arg11 (c : Dev nD) : V6 m ρ c main_arg11 = m ((c : Thread nD τ).loc main_arg11) :=
  calc W6 m ρ c (Proc.devRef .tc main_arg11)
    _ = W5 m ρ c (Proc.devRef .tc main_arg11) := W6_keep m ρ c main_arg11 (by decide)
    _ = W4 m ρ c (Proc.devRef .tc main_arg11) := W5_of_ne m ρ c main_arg11 (by decide)
    _ = W3 m ρ c (Proc.devRef .tc main_arg11) := W4_keep m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl
theorem V6_arg12 (c : Dev nD) : V6 m ρ c main_arg12 = m ((c : Thread nD τ).loc main_arg12) :=
  calc W6 m ρ c (Proc.devRef .tc main_arg12)
    _ = W5 m ρ c (Proc.devRef .tc main_arg12) := W6_keep m ρ c main_arg12 (by decide)
    _ = W4 m ρ c (Proc.devRef .tc main_arg12) := W5_of_ne m ρ c main_arg12 (by decide)
    _ = W3 m ρ c (Proc.devRef .tc main_arg12) := W4_keep m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

/-- A buffer of the first stretch that later stretches read again reaches the last stretch as the first stretch left it. -/
theorem W5_carried (c : Dev nD) (a : Ref sig .tc) (ha : a ∈ carried) (h98 : a ≠ main_v98) :
    W5 m ρ c (Proc.devRef .tc a) = W1 m ρ c (Proc.devRef .tc a) :=
  calc W5 m ρ c (Proc.devRef .tc a)
    _ = W4 m ρ c (Proc.devRef .tc a) := W5_of_ne m ρ c a (by revert a; decide)
    _ = W3 m ρ c (Proc.devRef .tc a) := StableHlo.after_of_forall_not_mem (b := Proc.devRef .tc a) _ _ (hostOps2_keeps_carried a ha)
    _ = W2 m ρ c (Proc.devRef .tc a) := W3_of_ne m ρ c a (by revert a; decide)
    _ = W1 m ρ c (Proc.devRef .tc a) := W2_of_ne m ρ c a (by revert a; decide)

/-! ## The third region's operands -/

/-- The first region's output array reaches the second and the third region as the first region left it. -/
theorem V2_v98 (c : Dev nD) : V2 m ρ c main_v98 = (dat0 (V1 m ρ) c).arrAt 5 cfg0.N := W2_arr m ρ c 5

theorem V4_v98 (c : Dev nD) : V4 m ρ c main_v98 = (dat0 (V1 m ρ) c).arrAt 5 cfg0.N :=
  calc W4 m ρ c (Proc.devRef .tc main_v98)
    _ = W3 m ρ c (Proc.devRef .tc main_v98) := StableHlo.after_of_forall_not_mem (b := Proc.devRef .tc main_v98) _ _ (hostOps2_keeps_carried main_v98 (by decide))
    _ = W2 m ρ c (Proc.devRef .tc main_v98) := (W3_arr m ρ c 0).trans (((dat1 (V2 m ρ) c).arrAt_in 0 rfl _).trans (A_eq1 (V2 m ρ) c 0))
    _ = (dat0 (V1 m ρ) c).arrAt 5 cfg0.N := W2_arr m ρ c 5

theorem V4_arg8 (c : Dev nD) : V4 m ρ c main_arg8 = m ((c : Thread nD τ).loc main_arg8) :=
  calc W4 m ρ c (Proc.devRef .tc main_arg8)
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl
theorem V4_arg9 (c : Dev nD) : V4 m ρ c main_arg9 = m ((c : Thread nD τ).loc main_arg9) :=
  calc W4 m ρ c (Proc.devRef .tc main_arg9)
    _ = W3 m ρ c (Proc.devRef .tc main_arg9) := W4_keep m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

/-- The second region's two output arrays, as the statistics stretch finds them. -/
theorem W3_v99_0 (c : Dev nD) : W3 m ρ c (Proc.devRef .tc main_v99_0) = (dat1 (V2 m ρ) c).arrAt 1 cfg1.N := W3_arr m ρ c 1
theorem W3_v99_1 (c : Dev nD) : W3 m ρ c (Proc.devRef .tc main_v99_1) = (dat1 (V2 m ρ) c).arrAt 2 cfg1.N := W3_arr m ρ c 2

/-- The mean the third region reads: the column sums divided by the number of nodes. -/
theorem V4_v101 (c : Dev nD) : (V4 m ρ c main_v101 : FVec F S1x128 .f32)
    = Host.divf (W3 m ρ c (Proc.devRef .tc main_v99_0)) (broadcastInDim S1x128 ![] bcast_S_S1x128 (constant (F := F) S_ .f32 0x47C35000#32)) := by
  show StableHlo.after hostOps2 (W3 m ρ c) (Proc.devRef .tc main_v101) = _
  after_results

/-- The variance the third region reads: the column sums of squares divided by the number of nodes, less the squared mean. -/
theorem V4_v105 (c : Dev nD) : (V4 m ρ c main_v105 : FVec F S1x128 .f32)
    = subf (Host.divf (W3 m ρ c (Proc.devRef .tc main_v99_1)) (broadcastInDim S1x128 ![] bcast_S_S1x128 (constant (F := F) S_ .f32 0x47C35000#32)))
        (mulf (Host.divf (W3 m ρ c (Proc.devRef .tc main_v99_0)) (broadcastInDim S1x128 ![] bcast_S_S1x128 (constant (F := F) S_ .f32 0x47C35000#32)))
          (Host.divf (W3 m ρ c (Proc.devRef .tc main_v99_0)) (broadcastInDim S1x128 ![] bcast_S_S1x128 (constant (F := F) S_ .f32 0x47C35000#32)))) := by
  show StableHlo.after hostOps2 (W3 m ρ c) (Proc.devRef .tc main_v105) = _
  after_results

/-! ## The first region's operands that are arguments -/

theorem V1_arg4 (c : Dev nD) : V1 m ρ c main_arg4 = m ((c : Thread nD τ).loc main_arg4) := W1_keep m ρ c main_arg4 (by decide)
theorem V1_arg5 (c : Dev nD) : V1 m ρ c main_arg5 = m ((c : Thread nD τ).loc main_arg5) := W1_keep m ρ c main_arg5 (by decide)
theorem V1_arg6 (c : Dev nD) : V1 m ρ c main_arg6 = m ((c : Thread nD τ).loc main_arg6) := W1_keep m ρ c main_arg6 (by decide)
theorem V1_arg7 (c : Dev nD) : V1 m ρ c main_arg7 = m ((c : Thread nD τ).loc main_arg7) := W1_keep m ρ c main_arg7 (by decide)

end Cert.KernelIdeal.Hand

end
-- ==== Proof.KI.Value0.lean ====
/-
  Region 0 of the kernel's program at the exact extended reals: what the region leaves in its output array, as ONE
  function of the arrays the region is entered with, index by index.

  Entry (v, j) of the output is
    ((((Σ_k x[v,k]·root[k,j]) + b[j]) + Σ_k aggs[v,k]·w[0,k,j]) + Σ_k aggs[v,64+k]·w[1,k,j]) + Σ_k aggs[v,128+k]·w[2,k,j])
      + Σ_k aggs[v,192+k]·w[3,k,j],
  each sum over the 64 contracted positions: at the exact values a change of float format is the identity and a
  matrix product into a zero accumulator is the plain sum of products. Row v lies in row block v / 4000, whose grid
  point stages rows 4000·t … 4000·t + 3999 of the features, of the aggregates and of the output, and the whole of the
  three weight arrays; the 25 row blocks tile the output, so the array ends at this function everywhere.
-/
import proofs.«169502_j41412074668235_1_alg».proof.Proof.KI.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-! ## The contraction of a [4000,64] × [64,128] product, read at an index -/

theorem lhsD0_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide),
    dif_pos (show (0 : Fin S4000x64.rank) ∈ dot_S4000x64_S64x128_S4000x128_1_0_0_1_n_n.lhsNonContracting by decide)]
  rfl
theorem lhsD0_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhsD0_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhsD0_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide),
    dif_pos (show (1 : Fin S64x128.rank) ∈ dot_S4000x64_S64x128_S4000x128_1_0_0_1_n_n.rhsNonContracting by decide)]
  rfl

/-- A product into the zero accumulator, at entry (p, q): the sum over the 64 contracted positions of the left operand's
    row p times the right operand's column q. -/
theorem mm0_apply {φ₁ φ₂ : FTy} (l : FVec Ideal S4000x64 φ₁) (r : FVec Ideal S64x128 φ₂) (p : Fin 4000) (q : Fin 128) :
    matmul dot_S4000x64_S64x128_S4000x128_1_0_0_1_n_n none l r (constant S4000x128 .f32 0x00000000#32) (ix2 p q)
      = ∑ k : Fin 64, l (ix2 p k) * r (ix2 k q) := by
  refine (Ideal.matmul_constant_zero_apply dot_S4000x64_S64x128_S4000x128_1_0_0_1_n_n none l r (ix2 p q)).trans ?_
  rw [← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k :=
    funext fun a => Fin.ext (by
      match a with
      | ⟨0, _⟩ => exact lhsD0_0 _ _
      | ⟨1, _⟩ => exact (lhsD0_1 _ _).trans hk)
  have er : dot_S4000x64_S64x128_S4000x128_1_0_0_1_n_n.rhsIdx (ix2 p q) ((contrEquiv1 dot_S4000x64_S64x128_S4000x128_1_0_0_1_n_n 64 rfl rfl).symm k) = ix2 k q :=
    funext fun a => Fin.ext (by
      match a with
      | ⟨0, _⟩ => exact (rhsD0_0 _ _).trans hk
      | ⟨1, _⟩ => exact rhsD0_1 _ _)
  rw [el, er]

/-! ## The specification -/

/-- Entry (v, j) of the layer's dense part:
    ((((Σ_k x[v,k]·root[k,j]) + b[j]) + Σ_k aggs[v,k]·w[0,k,j]) + Σ_k aggs[v,64+k]·w[1,k,j]) + Σ_k aggs[v,128+k]·w[2,k,j])
      + Σ_k aggs[v,192+k]·w[3,k,j], every sum over the 64 positions k, in this association and with the products in this
    order. -/
def lin0At (x : FVec Ideal S100000x64 .f32) (aggs : FVec Ideal S100000x256 .f32) (root : FVec Ideal S64x128 .f32)
    (w : FVec Ideal S4x64x128 .f32) (b : FVec Ideal S128 .f32) (v : Fin 100000) (j : Fin 128) : Ideal .f32 :=
  (((((∑ k : Fin 64, x (ix2 v k) * root (ix2 k j)) + b (ix1 j))
      + ∑ k : Fin 64, aggs (ix2 v (⟨k.val, Nat.lt_trans k.isLt (by decide)⟩ : Fin 256)) * w (ix3 (0 : Fin 4) k j))
      + ∑ k : Fin 64, aggs (ix2 v (⟨64 + k.val, by have := k.isLt; omega⟩ : Fin 256)) * w (ix3 (1 : Fin 4) k j))
      + ∑ k : Fin 64, aggs (ix2 v (⟨128 + k.val, by have := k.isLt; omega⟩ : Fin 256)) * w (ix3 (2 : Fin 4) k j))
      + ∑ k : Fin 64, aggs (ix2 v (⟨192 + k.val, by have := k.isLt; omega⟩ : Fin 256)) * w (ix3 (3 : Fin 4) k j)

/-- entry (v, j) of the layer's dense part: ((((Σ_k x[v,k]·root[k,j]) + b[j]) + Σ_k aggs[v,k]·w[0,k,j]) + Σ_k aggs[v,64+k]·w[1,k,j])
    + Σ_k aggs[v,128+k]·w[2,k,j]) + Σ_k aggs[v,192+k]·w[3,k,j], all sums plain sums over the 64 contracted positions, this
    association, products in this order -/
def lin0 (x : FVec Ideal S100000x64 .f32) (aggs : FVec Ideal S100000x256 .f32) (root : FVec Ideal S64x128 .f32)
    (w : FVec Ideal S4x64x128 .f32) (b : FVec Ideal S128 .f32) : FVec Ideal S100000x128 .f32 :=
  fun i => lin0At x aggs root w b (i 0) (i 1)

theorem lin0_apply (x : FVec Ideal S100000x64 .f32) (aggs : FVec Ideal S100000x256 .f32) (root : FVec Ideal S64x128 .f32)
    (w : FVec Ideal S4x64x128 .f32) (b : FVec Ideal S128 .f32) (v : Fin 100000) (j : Fin 128) :
    lin0 x aggs root w b (ix2 v j) = lin0At x aggs root w b v j := rfl

/-! ## The body's value at an entry of the block -/

/-- The body's stored value at entry (p, q) of the block, from the row block of the features, the row block of the
    aggregates, the root weights, the four relation slabs as loaded and the bias: every change of float format is the
    identity, every product goes into a zero accumulator, the aggregates' four column groups are cut at 0, 64, 128, 192. -/
theorem pay0_apply (x0 : Vec Ideal S4000x64 .f32) (x1 : Vec Ideal S4000x256 .f32) (x2 : Vec Ideal S64x128 .f32)
    (s0 s1 s2 s3 : Vec Ideal S1x64x128 .f32) (x4 : Vec Ideal S128 .f32) (p : Fin 4000) (q : Fin 128) :
    k0_pay1 (k0_pay3 x0 x2 x4 x1 s0 s1 s2) (k0_pay4 x1) (k0_pay5 s3) (ix2 p q)
      = (((((∑ k : Fin 64, x0 (ix2 p k) * x2 (ix2 k q)) + x4 (ix1 q))
          + ∑ k : Fin 64, x1 (ix2 p (⟨k.val, Nat.lt_trans k.isLt (by decide)⟩ : Fin 256)) * s0 (ix3 (0 : Fin 1) k q))
          + ∑ k : Fin 64, x1 (ix2 p (⟨64 + k.val, by have := k.isLt; omega⟩ : Fin 256)) * s1 (ix3 (0 : Fin 1) k q))
          + ∑ k : Fin 64, x1 (ix2 p (⟨128 + k.val, by have := k.isLt; omega⟩ : Fin 256)) * s2 (ix3 (0 : Fin 1) k q))
          + ∑ k : Fin 64, x1 (ix2 p (⟨192 + k.val, by have := k.isLt; omega⟩ : Fin 256)) * s3 (ix3 (0 : Fin 1) k q) := by
  unfold k0_pay1 k0_pay3 k0_pay4 k0_pay5 k0_pay2
  dsimp only
  simp only [addf_apply, mm0_apply, truncf_apply, shapeCast_self, shapeCast_1ab_ab_apply, broadcastTo_1b_ab_apply,
    shapeCast_a_1a_apply, slice2_axis1_eq, Nat.zero_add]

/-! ## What the body leaves in the output buffer, read through its whole-buffer accesses -/

/-- With the whole-buffer loads and the one whole-buffer store read through: the stored value of the input blocks
    themselves, the stacked weights as their four slabs along the leading axis. -/
theorem out0_5_eq {F : FTy → Type} [FloatOps F] (x0 : Vec F S4000x64 .f32) (x1 : Vec F S4000x256 .f32) (x2 : Vec F S64x128 .f32)
    (x3 : Vec F S4x64x128 .f32) (x4 : Vec F S128 .f32) :
    out0_5 x0 x1 x2 x3 x4 = k0_pay1 (k0_pay3 x0 x2 x4 x1 (View.ld x3 r0_4) (View.ld x3 r0_5) (View.ld x3 r0_6)) (k0_pay4 x1) (k0_pay5 (View.ld x3 r0_7)) := by
  unfold out0_5
  rw [View.canon_unit_zero (by funext a; fin_cases a <;> rfl)]
  rw [View.ld_unit_zero (by funext a; fin_cases a <;> rfl) _ x0, View.ld_unit_zero (by funext a; fin_cases a <;> rfl) _ x1,
    View.ld_unit_zero (by funext a; fin_cases a <;> rfl) _ x2, View.ld_unit_zero (by funext a; fin_cases a <;> rfl) _ x4]

/-- Slab r of the stacked weights, at (0, k, q), is the stack at (r, k, q). -/
theorem slab0_0 (x3 : Vec Ideal S4x64x128 .f32) (k : Fin 64) (q : Fin 128) : View.ld x3 r0_4 (ix3 (0 : Fin 1) k q) = x3 (ix3 (0 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega
theorem slab0_1 (x3 : Vec Ideal S4x64x128 .f32) (k : Fin 64) (q : Fin 128) : View.ld x3 r0_5 (ix3 (0 : Fin 1) k q) = x3 (ix3 (1 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega
theorem slab0_2 (x3 : Vec Ideal S4x64x128 .f32) (k : Fin 64) (q : Fin 128) : View.ld x3 r0_6 (ix3 (0 : Fin 1) k q) = x3 (ix3 (2 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega
theorem slab0_3 (x3 : Vec Ideal S4x64x128 .f32) (k : Fin 64) (q : Fin 128) : View.ld x3 r0_7 (ix3 (0 : Fin 1) k q) = x3 (ix3 (3 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega

/-- ONE POINT of one block: if the block of the features and of the aggregates are rows n·4000 … n·4000 + 3999 of their
    arrays and the three weight blocks are their whole arrays, the body's stored value at a block entry is the layer's
    entry at the array index of that row and the same column. -/
theorem point0 (X : FVec Ideal S100000x64 .f32) (A : FVec Ideal S100000x256 .f32) (R : FVec Ideal S64x128 .f32)
    (W : FVec Ideal S4x64x128 .f32) (B : FVec Ideal S128 .f32)
    (x0 : Vec Ideal S4000x64 .f32) (x1 : Vec Ideal S4000x256 .f32) (x2 : Vec Ideal S64x128 .f32)
    (x3 : Vec Ideal S4x64x128 .f32) (x4 : Vec Ideal S128 .f32) (n : ℕ)
    (e0 : ∀ (p : Fin 4000) (k : Fin 64) (v : Fin 100000), v.val = n * 4000 + p.val → x0 (ix2 p k) = X (ix2 v k))
    (e1 : ∀ (p : Fin 4000) (k : Fin 256) (v : Fin 100000), v.val = n * 4000 + p.val → x1 (ix2 p k) = A (ix2 v k))
    (e2 : x2 = R) (e3 : x3 = W) (e4 : x4 = B)
    (y : S4000x128.Idx) (i : S100000x128.Idx) (hi0 : (i 0).val = n * 4000 + (y 0).val) (hi1 : (i 1).val = (y 1).val) :
    k0_pay1 (k0_pay3 x0 x2 x4 x1 (View.ld x3 r0_4) (View.ld x3 r0_5) (View.ld x3 r0_6)) (k0_pay4 x1) (k0_pay5 (View.ld x3 r0_7)) y
      = lin0 X A R W B i := by
  subst e2 e3 e4
  obtain ⟨p, q, rfl⟩ : ∃ (p : Fin 4000) (q : Fin 128), y = ix2 p q := ⟨y 0, y 1, eq_ix2 y⟩
  obtain ⟨v, j, rfl⟩ : ∃ (v : Fin 100000) (j : Fin 128), i = ix2 v j := ⟨i 0, i 1, eq_ix2 i⟩
  have hv : v.val = n * 4000 + p.val := hi0
  obtain rfl : j = q := Fin.ext hi1
  rw [pay0_apply, lin0_apply]
  unfold lin0At
  simp only [e0 p _ v hv, e1 p _ v hv]
  refine congrArg₂ (· + ·) (congrArg₂ (· + ·) (congrArg₂ (· + ·) (congrArg₂ (· + ·) rfl ?_) ?_) ?_) ?_
  · exact Finset.sum_congr rfl fun k _ => congrArg (_ * ·) (slab0_0 x3 k j)
  · exact Finset.sum_congr rfl fun k _ => congrArg (_ * ·) (slab0_1 x3 k j)
  · exact Finset.sum_congr rfl fun k _ => congrArg (_ * ·) (slab0_2 x3 k j)
  · exact Finset.sum_congr rfl fun k _ => congrArg (_ * ·) (slab0_3 x3 k j)

/-! ## From blocks to the array -/

/-- The printed index maps, decided over the 25 points: the features', the aggregates' and the output's blocks are
    row block t, the weights' blocks are the whole arrays. -/
theorem idx_facts0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 1) = 0 :=
  (by decide +kernel : ∀ t : Fin grid0.N, _)

variable (V : (c : Dev nD) → (b : Ref sig .tc) → Buf (Elt Ideal) ((c : Thread nD τ).loc b))

/-- The features' block at point t is rows 4000·t … of the array the region finds. -/
theorem iblk0_0_apply (c : Dev nD) (t : Fin cfg0.N) (p : Fin 4000) (k : Fin 64) (v : Fin 100000)
    (hv : v.val = win0_5.index t (0 : Fin 2) * 4000 + p.val) :
    (iblk0 V c 0 t : Vec Ideal S4000x64 .f32) (ix2 p k) = (V c main_arg4 : S100000x64.Idx → Elt Ideal .f32) (ix2 v k) := by
  obtain ⟨f0, f1, f2, f3, f4, f5, f6, f7, f8, f9, f10, f11⟩ := idx_facts0 t
  unfold iblk0
  rw [View.read_apply]
  show V c main_arg4 _ = V c main_arg4 _
  refine congrArg (V c main_arg4) (funext fun a => Fin.ext ?_)
  match a with
  | ⟨0, _⟩ => show win0_0.index t (0 : Fin 2) * 4000 + 1 * p.val = v.val; omega
  | ⟨1, _⟩ => show win0_0.index t (1 : Fin 2) * 64 + 1 * k.val = k.val; omega

/-- The aggregates' block likewise. -/
theorem iblk0_1_apply (c : Dev nD) (t : Fin cfg0.N) (p : Fin 4000) (k : Fin 256) (v : Fin 100000)
    (hv : v.val = win0_5.index t (0 : Fin 2) * 4000 + p.val) :
    (iblk0 V c 1 t : Vec Ideal S4000x256 .f32) (ix2 p k) = (V c main_v97 : S100000x256.Idx → Elt Ideal .f32) (ix2 v k) := by
  obtain ⟨f0, f1, f2, f3, f4, f5, f6, f7, f8, f9, f10, f11⟩ := idx_facts0 t
  unfold iblk0
  rw [View.read_apply]
  show V c main_v97 _ = V c main_v97 _
  refine congrArg (V c main_v97) (funext fun a => Fin.ext ?_)
  match a with
  | ⟨0, _⟩ => show win0_1.index t (0 : Fin 2) * 4000 + 1 * p.val = v.val; omega
  | ⟨1, _⟩ => show win0_1.index t (1 : Fin 2) * 256 + 1 * k.val = k.val; omega

/-- The root weights' block is the whole array, -/
theorem iblk0_2_eq (c : Dev nD) (t : Fin cfg0.N) : (iblk0 V c 2 t : Vec Ideal S64x128 .f32) = (V c main_arg6 : S64x128.Idx → Elt Ideal .f32) := by
  obtain ⟨f0, f1, f2, f3, f4, f5, f6, f7, f8, f9, f10, f11⟩ := idx_facts0 t
  funext y
  unfold iblk0
  rw [View.read_apply]
  show V c main_arg6 _ = V c main_arg6 _
  refine congrArg (V c main_arg6) (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

/-- the stacked relation weights' likewise, -/
theorem iblk0_3_eq (c : Dev nD) (t : Fin cfg0.N) : (iblk0 V c 3 t : Vec Ideal S4x64x128 .f32) = (V c main_arg5 : S4x64x128.Idx → Elt Ideal .f32) := by
  obtain ⟨f0, f1, f2, f3, f4, f5, f6, f7, f8, f9, f10, f11⟩ := idx_facts0 t
  funext y
  unfold iblk0
  rw [View.read_apply]
  show V c main_arg5 _ = V c main_arg5 _
  refine congrArg (V c main_arg5) (funext fun a => Fin.ext ?_)
  match a with
  | ⟨0, _⟩ => show win0_3.index t (0 : Fin 3) * 4 + 1 * (y 0).val = (y 0).val; omega
  | ⟨1, _⟩ => show win0_3.index t (1 : Fin 3) * 64 + 1 * (y 1).val = (y 1).val; omega
  | ⟨2, _⟩ => show win0_3.index t (2 : Fin 3) * 128 + 1 * (y 2).val = (y 2).val; omega

/-- and the bias's. -/
theorem iblk0_4_eq (c : Dev nD) (t : Fin cfg0.N) : (iblk0 V c 4 t : Vec Ideal S128 .f32) = (V c main_arg7 : S128.Idx → Elt Ideal .f32) := by
  obtain ⟨f0, f1, f2, f3, f4, f5, f6, f7, f8, f9, f10, f11⟩ := idx_facts0 t
  funext y
  unfold iblk0
  rw [View.read_apply]
  show V c main_arg7 _ = V c main_arg7 _
  refine congrArg (V c main_arg7) (funext fun a => Fin.ext ?_)
  match a with
  | ⟨0, _⟩ => show win0_4.index t (0 : Fin 1) * 128 + 1 * (y 0).val = (y 0).val; omega

/-- What point t writes back is block t of the layer's dense part of the arrays the region finds. -/
theorem flushed0_eq (c : Dev nD) (t : Fin cfg0.N) :
    (dat0 (F := Ideal) V c).flushed 5 t
      = ((cfg0.win 5).blk t).view.read (Elt Ideal) (lin0 (V c main_arg4) (V c main_v97) (V c main_arg6) (V c main_arg5) (V c main_arg7)) := by
  show (cfg0.win 5).cut (grid0.coords t) ((dat0 V c).after 5 t) = _
  rw [after0_5, out0_5_eq]
  funext j
  rw [View.read_apply]
  exact point0 (V c main_arg4) (V c main_v97) (V c main_arg6) (V c main_arg5) (V c main_arg7)
    (iblk0 V c 0 t) (iblk0 V c 1 t) (iblk0 V c 2 t) (iblk0 V c 3 t) (iblk0 V c 4 t) (win0_5.index t (0 : Fin 2))
    (fun p k v hv => iblk0_0_apply V c t p k v hv) (fun p k v hv => iblk0_1_apply V c t p k v hv)
    (iblk0_2_eq V c t) (iblk0_3_eq V c t) (iblk0_4_eq V c t) j (((cfg0.win 5).blk t).view.emb j)
    (by show win0_5.index t (0 : Fin 2) * 4000 + 1 * (j 0).val = _; omega)
    (by obtain ⟨f0, f1, -⟩ := idx_facts0 t
        show win0_5.index t (1 : Fin 2) * 128 + 1 * (j 1).val = _; omega)

/-- An index of the array is in point t's block iff each coordinate is in the block's range on its axis. -/
theorem mem_blk0 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v98).slice (win0_5.rect t)).set ↔ _
  rw [View.set_slice_whole, Rect.mem_set_unit]
  exact Iff.rfl

/-- Every index of the array is in the block of the point its row falls in: row r is in block r / 4000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨f0, f1, -⟩ := idx_facts0 t
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE ARRAY after the region: the layer's dense part of the arrays the region is entered with, index by index. -/
theorem final0 (V : (c : Dev nD) → (b : Ref sig .tc) → Buf (Elt Ideal) ((c : Thread nD τ).loc b)) (c : Dev nD) :
    (dat0 (F := Ideal) V c).arrAt 5 cfg0.N = lin0 (V c main_arg4) (V c main_v97) (V c main_arg6) (V c main_arg5) (V c main_arg7) :=
  (dat0 (F := Ideal) V c).arrAt_eq_of_cover 5 (lin0 (V c main_arg4) (V c main_v97) (V c main_arg6) (V c main_arg5) (V c main_arg7))
    (fun t _ => flushed0_eq V c t) cover0

end Cert.KernelIdeal.HandValue

end
-- ==== Proof.KI.Value1.lean ====
/-
  The value of region 1 of the kernel's program at the ideal values: the two one-row arrays its output windows are
  written back to end holding the column sums and the column sums of squares, over all the rows, of the array the
  region is entered with — an accumulation over the grid, regrouped into one sum.
-/
import proofs.«169502_j41412074668235_1_alg».proof.Proof.KI.Region1
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

/-! ## The functions -/

/-- Column sums over all 100000 rows. -/
def colSum (x : FVec Ideal S100000x128 .f32) : FVec Ideal S1x128 .f32 := fun j => ∑ v : Fin 100000, x (ix2 v (j 1))

/-- Column sums of squares over all 100000 rows. -/
def colSumSq (x : FVec Ideal S100000x128 .f32) : FVec Ideal S1x128 .f32 := fun j => ∑ v : Fin 100000, x (ix2 v (j 1)) * x (ix2 v (j 1))

/-! ## The body's payloads at an index -/

/-- A vector viewed as a one-row matrix reads its own entry. -/
theorem rowOfVec1_apply (v : FVec Ideal S128 .f32) (z : S1x128.Idx) :
    shapeCast S1x128 v shapeCasts_S128_S1x128 z = v (ix1 (z 1)) :=
  shapeCast_apply v shapeCasts_S128_S1x128 z (ix1 (z 1)) (by
    have h0 : (z 0).val = 0 := by have := (z 0).isLt; simp at this; omega
    rw [Shape.rowMajor_val_one, Shape.rowMajor_val_two, h0]
    simp)

/-- The sum of a block down its rows, column by column. -/
theorem blockColSum_apply (src : FVec Ideal S4000x128 .f32) (hφ : FKind.Formats .f32)
    (hacc : (0x00000000#32 : BitVec 32) = 0x00000000#32) (q : Fin 128) :
    multiReduction .add [0] S128 src 0x00000000#32 reduces_S4000x128_S128 hφ hacc (ix1 q) = ∑ r : Fin 4000, src (ix2 r q) :=
  (Ideal.multiReduction_add_single src 0x00000000#32 reduces_S4000x128_S128 hφ hacc (ix1 q)).trans
    (Finset.sum_congr rfl fun r _ => congrArg src (funext fun a => Fin.ext (by
      match a with
      | ⟨0, _⟩ => rfl
      | ⟨1, _⟩ => rfl)))

/-- The zero payloads are zero. -/
theorem k1_pay1_at (z : S1x128.Idx) : (k1_pay1 (F := Ideal)) z = 0 := Ideal.ofBits_zero_f32
theorem k1_pay2_at (z : S1x128.Idx) : (k1_pay2 (F := Ideal)) z = 0 := Ideal.ofBits_zero_f32

/-- The sum's payload: the running contents plus the block's column sums. -/
theorem k1_pay4_at (x : Vec Ideal S4000x128 .f32) (a : Vec Ideal S1x128 .f32) (z : S1x128.Idx) :
    k1_pay4 x a z = a z + ∑ r : Fin 4000, (fun s : Ideal .f32 => s) (x (ix2 r (z 1))) := by
  unfold k1_pay4 k1_pay3
  simp only [shapeCast_self]
  show a z + shapeCast S1x128 (multiReduction (F := Ideal) .add [0] S128 x 0x00000000#32 reduces_S4000x128_S128 (.inl rfl) rfl) shapeCasts_S128_S1x128 z = _
  exact congrArg (a z + ·) ((rowOfVec1_apply _ z).trans (blockColSum_apply x _ _ (z 1)))

/-- The sum of squares' payload: the running contents plus the block's column sums of squares. -/
theorem k1_pay5_at (x : Vec Ideal S4000x128 .f32) (a : Vec Ideal S1x128 .f32) (z : S1x128.Idx) :
    k1_pay5 x a z = a z + ∑ r : Fin 4000, (fun s : Ideal .f32 => s * s) (x (ix2 r (z 1))) := by
  unfold k1_pay5 k1_pay3
  simp only [shapeCast_self]
  show a z + shapeCast S1x128 (multiReduction (F := Ideal) .add [0] S128 (mulf x x) 0x00000000#32 reduces_S4000x128_S128 (.inl rfl) rfl) shapeCasts_S128_S1x128 z = _
  exact congrArg (a z + ·) ((rowOfVec1_apply _ z).trans (blockColSum_apply (mulf x x) _ _ (z 1)))

/-! ## The rows of the array, by position -/

/-- Entry `(v, q)` of the array under `g`, as a function of the row's position (zero past the last row). -/
def rowAt (g : Ideal .f32 → Ideal .f32) (X : FVec Ideal S100000x128 .f32) (q : Fin 128) (v : ℕ) : Ideal .f32 :=
  if h : v < 100000 then g (X (ix2 ⟨v, h⟩ q)) else 0

/-- The sum over all rows is the sum over the positions below 100000. -/
theorem sum_rows (g : Ideal .f32 → Ideal .f32) (X : FVec Ideal S100000x128 .f32) (q : Fin 128) :
    ∑ v : Fin 100000, g (X (ix2 v q)) = ∑ v ∈ Finset.range 100000, rowAt g X q v := by
  rw [← Fin.sum_univ_eq_sum_range]
  exact Finset.sum_congr rfl fun v _ => by unfold rowAt; rw [dif_pos v.isLt]

/-! ## The blocks of the input -/

variable (V : (c : Dev nD) → (b : Ref sig .tc) → Buf (Elt Ideal) ((c : Thread nD τ).loc b))

/-- The printed index maps, decided over the grid: the input's block at point `t` is row block `t` of column block
    zero; the two outputs' block is block zero at every point. -/
theorem blockIndex_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Row `r` of the input's block at point `t` is row `4000 t + r` of the array. -/
theorem block_rowAt (g : Ideal .f32 → Ideal .f32) (c : Dev nD) (t : Fin cfg1.N) (r : Fin 4000) (q : Fin 128) :
    g (iblk1 V c 0 t (ix2 r q : S4000x128.Idx)) = rowAt g (V c main_v98) q (4000 * t.val + r.val) := by
  obtain ⟨e00, e01, -⟩ := blockIndex_facts1 t
  have hN : t.val < 25 := lt_of_lt_of_eq t.isLt (show cfg1.N = 25 from N_1)
  have hlt : 4000 * t.val + r.val < 100000 := by have := r.isLt; omega
  unfold rowAt
  rw [dif_pos hlt]
  show g (V c main_v98 (((cfg1.win 0).blk t).view.emb (ix2 r q))) = g (V c main_v98 (ix2 ⟨4000 * t.val + r.val, hlt⟩ q))
  refine congrArg (fun i => g (V c main_v98 i)) (funext fun a => Fin.ext ?_)
  match a with
  | ⟨0, _⟩ => show win1_0.index t (0 : Fin 2) * 4000 + 1 * r.val = 4000 * t.val + r.val; omega
  | ⟨1, _⟩ => show win1_0.index t (1 : Fin 2) * 128 + 1 * q.val = q.val; omega

/-- The block's column sum is the sum over its 4000 positions. -/
theorem block_sum (g : Ideal .f32 → Ideal .f32) (c : Dev nD) (t : Fin cfg1.N) (q : Fin 128) :
    ∑ r : Fin 4000, g (iblk1 V c 0 t (ix2 r q : S4000x128.Idx)) = ∑ x ∈ Finset.range 4000, rowAt g (V c main_v98) q (4000 * t.val + x) :=
  (Finset.sum_congr rfl fun r _ => block_rowAt V g c t r q).trans
    (Fin.sum_univ_eq_sum_range (fun x => rowAt g (V c main_v98) q (4000 * t.val + x)) 4000)

/-! ## The accumulation -/

/-- What output window 1's staging buffer holds after point `n`: the sum over the rows of blocks `0..n`. -/
theorem acc_sum (c : Dev nD) : ∀ (n : ℕ) (hn : n < cfg1.N) (z0 : Fin 1) (q : Fin 128),
    (outsAt1 V c n hn).1 (ix2 z0 q) = ∑ v ∈ Finset.range (4000 * (n + 1)), rowAt (fun s : Ideal .f32 => s) (V c main_v98) q v
  | 0, hn, z0, q => by
    have e := acc1_zero V c ⟨0, hn⟩ rfl
    show (acc1 V c ⟨0, hn⟩).1 (ix2 z0 q) = _
    rw [e]
    show k1_pay4 (iblk1 V c 0 ⟨0, hn⟩) (k1_pay1 (F := Ideal)) (ix2 z0 q) = _
    refine (k1_pay4_at (iblk1 V c 0 ⟨0, hn⟩) (k1_pay1 (F := Ideal)) (ix2 z0 q)).trans ?_
    rw [k1_pay1_at, zero_add]
    refine (block_sum V (fun s : Ideal .f32 => s) c ⟨0, hn⟩ q).trans ?_
    refine Finset.sum_congr rfl fun x _ => ?_
    show rowAt (fun s : Ideal .f32 => s) (V c main_v98) q (4000 * 0 + x) = rowAt (fun s : Ideal .f32 => s) (V c main_v98) q x
    rw [Nat.mul_zero, Nat.zero_add]
  | n + 1, hn, z0, q => by
    have hB : ¬(⟨n + 1, hn⟩ : Fin cfg1.N).val = 0 := Nat.succ_ne_zero n
    have e := acc1_succ V c ⟨n + 1, hn⟩ hB
    have ih := acc_sum c n (Nat.lt_of_succ_lt hn) z0 q
    show (acc1 V c ⟨n + 1, hn⟩).1 (ix2 z0 q) = _
    rw [e]
    show k1_pay4 (iblk1 V c 0 ⟨n + 1, hn⟩) (acc1 V c (prev1 ⟨n + 1, hn⟩)).1 (ix2 z0 q) = _
    refine (k1_pay4_at (iblk1 V c 0 ⟨n + 1, hn⟩) (acc1 V c (prev1 ⟨n + 1, hn⟩)).1 (ix2 z0 q)).trans ?_
    rw [show 4000 * (n + 1 + 1) = 4000 * (n + 1) + 4000 from by ring, Finset.sum_range_add]
    refine congrArg₂ (· + ·) ih ?_
    exact block_sum V (fun s : Ideal .f32 => s) c ⟨n + 1, hn⟩ q

/-- What output window 2's staging buffer holds after point `n`: the sum over the rows of blocks `0..n`. -/
theorem acc_sumsq (c : Dev nD) : ∀ (n : ℕ) (hn : n < cfg1.N) (z0 : Fin 1) (q : Fin 128),
    (outsAt1 V c n hn).2 (ix2 z0 q) = ∑ v ∈ Finset.range (4000 * (n + 1)), rowAt (fun s : Ideal .f32 => s * s) (V c main_v98) q v
  | 0, hn, z0, q => by
    have e := acc1_zero V c ⟨0, hn⟩ rfl
    show (acc1 V c ⟨0, hn⟩).2 (ix2 z0 q) = _
    rw [e]
    show k1_pay5 (iblk1 V c 0 ⟨0, hn⟩) (k1_pay2 (F := Ideal)) (ix2 z0 q) = _
    refine (k1_pay5_at (iblk1 V c 0 ⟨0, hn⟩) (k1_pay2 (F := Ideal)) (ix2 z0 q)).trans ?_
    rw [k1_pay2_at, zero_add]
    refine (block_sum V (fun s : Ideal .f32 => s * s) c ⟨0, hn⟩ q).trans ?_
    refine Finset.sum_congr rfl fun x _ => ?_
    show rowAt (fun s : Ideal .f32 => s * s) (V c main_v98) q (4000 * 0 + x) = rowAt (fun s : Ideal .f32 => s * s) (V c main_v98) q x
    rw [Nat.mul_zero, Nat.zero_add]
  | n + 1, hn, z0, q => by
    have hB : ¬(⟨n + 1, hn⟩ : Fin cfg1.N).val = 0 := Nat.succ_ne_zero n
    have e := acc1_succ V c ⟨n + 1, hn⟩ hB
    have ih := acc_sumsq c n (Nat.lt_of_succ_lt hn) z0 q
    show (acc1 V c ⟨n + 1, hn⟩).2 (ix2 z0 q) = _
    rw [e]
    show k1_pay5 (iblk1 V c 0 ⟨n + 1, hn⟩) (acc1 V c (prev1 ⟨n + 1, hn⟩)).2 (ix2 z0 q) = _
    refine (k1_pay5_at (iblk1 V c 0 ⟨n + 1, hn⟩) (acc1 V c (prev1 ⟨n + 1, hn⟩)).2 (ix2 z0 q)).trans ?_
    rw [show 4000 * (n + 1 + 1) = 4000 * (n + 1) + 4000 from by ring, Finset.sum_range_add]
    refine congrArg₂ (· + ·) ih ?_
    exact block_sum V (fun s : Ideal .f32 => s * s) c ⟨n + 1, hn⟩ q

/-! ## From the last point's block to the arrays -/

/-- The last point of the grid. -/
def lastPoint1 : Fin cfg1.N := ⟨24, lt_of_lt_of_eq (by decide : 24 < 25) (show 25 = cfg1.N from N_1.symm)⟩

/-- Where an output window's block index is zero, what a point writes back is, as a block of the one-row array, any
    function its staging buffer agrees with entry by entry: the block is the whole array. -/
theorem flushed1_1_of (c : Dev nD) (t : Fin cfg1.N) (G : FVec Ideal S1x128 .f32)
    (hG : ∀ (z0 : Fin 1) (q : Fin 128), (outsAt1 V c t.val t.isLt).1 (ix2 z0 q) = G (ix2 z0 q)) :
    (dat1 (F := Ideal) V c).flushed 1 t = ((cfg1.win 1).blk t).view.read (Elt Ideal) G := by
  obtain ⟨e00, e01, e10, e11, e20, e21⟩ := blockIndex_facts1 t
  show (cfg1.win 1).cut (grid1.coords t) ((dat1 V c).after 1 t) = _
  rw [after1_1]
  funext j
  obtain ⟨z0, q, rfl⟩ : ∃ (z0 : Fin 1) (q : Fin 128), j = ix2 z0 q := ⟨j 0, j 1, eq_ix2 j⟩
  show (outsAt1 V c t.val t.isLt).1 (ix2 z0 q) = G (((cfg1.win 1).blk t).view.emb (ix2 z0 q))
  have he : ((cfg1.win 1).blk t).view.emb (ix2 z0 q) = ix2 z0 q := by
    funext a; apply Fin.ext
    match a with
    | ⟨0, _⟩ => show win1_1.index t (0 : Fin 2) * 1 + 1 * z0.val = z0.val; omega
    | ⟨1, _⟩ => show win1_1.index t (1 : Fin 2) * 128 + 1 * q.val = q.val; omega
  rw [he]
  exact hG z0 q

/-- The one write-back of output window 1, at the last point, writes `colSum` of the input array. -/
theorem flushed1_1_eq (c : Dev nD) (t : Fin cfg1.N) (hf : (cfg1.win 1).flush t = true) :
    (dat1 (F := Ideal) V c).flushed 1 t = ((cfg1.win 1).blk t).view.read (Elt Ideal) (colSum (V c main_v98)) := by
  have hN : t.val < 25 := lt_of_lt_of_eq t.isLt (show cfg1.N = 25 from N_1)
  have h24 : t.val = 24 := by have := (flush1_1 t).mp hf; omega
  refine flushed1_1_of V c t _ fun z0 q => ?_
  rw [acc_sum V c t.val t.isLt z0 q, h24, show 4000 * (24 + 1) = 100000 from by norm_num]
  exact (sum_rows (fun s : Ideal .f32 => s) (V c main_v98) q).symm

/-- An index of the one-row array is in point `t`'s block iff each coordinate is in the block's range on its axis. -/
theorem mem_block1_1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v99_0).slice (win1_1.rect t)).set ↔ _
  rw [View.set_slice_whole, Rect.mem_set_unit]
  exact Iff.rfl

/-- The last point's block covers the array. -/
theorem covered1_1 (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  obtain ⟨e00, e01, e10, e11, e20, e21⟩ := blockIndex_facts1 lastPoint1
  refine ⟨lastPoint1, (flush1_1 lastPoint1).mpr rfl, ?_⟩
  rw [mem_block1_1]
  intro a
  match a with
  | ⟨0, _⟩ => show win1_1.index lastPoint1 (0 : Fin 2) * 1 ≤ (i 0).val ∧ (i 0).val < win1_1.index lastPoint1 (0 : Fin 2) * 1 + 1; omega
  | ⟨1, _⟩ => show win1_1.index lastPoint1 (1 : Fin 2) * 128 ≤ (i 1).val ∧ (i 1).val < win1_1.index lastPoint1 (1 : Fin 2) * 128 + 128; omega

/-- Where an output window's block index is zero, what a point writes back is, as a block of the one-row array, any
    function its staging buffer agrees with entry by entry: the block is the whole array. -/
theorem flushed1_2_of (c : Dev nD) (t : Fin cfg1.N) (G : FVec Ideal S1x128 .f32)
    (hG : ∀ (z0 : Fin 1) (q : Fin 128), (outsAt1 V c t.val t.isLt).2 (ix2 z0 q) = G (ix2 z0 q)) :
    (dat1 (F := Ideal) V c).flushed 2 t = ((cfg1.win 2).blk t).view.read (Elt Ideal) G := by
  obtain ⟨e00, e01, e10, e11, e20, e21⟩ := blockIndex_facts1 t
  show (cfg1.win 2).cut (grid1.coords t) ((dat1 V c).after 2 t) = _
  rw [after1_2]
  funext j
  obtain ⟨z0, q, rfl⟩ : ∃ (z0 : Fin 1) (q : Fin 128), j = ix2 z0 q := ⟨j 0, j 1, eq_ix2 j⟩
  show (outsAt1 V c t.val t.isLt).2 (ix2 z0 q) = G (((cfg1.win 2).blk t).view.emb (ix2 z0 q))
  have he : ((cfg1.win 2).blk t).view.emb (ix2 z0 q) = ix2 z0 q := by
    funext a; apply Fin.ext
    match a with
    | ⟨0, _⟩ => show win1_2.index t (0 : Fin 2) * 1 + 1 * z0.val = z0.val; omega
    | ⟨1, _⟩ => show win1_2.index t (1 : Fin 2) * 128 + 1 * q.val = q.val; omega
  rw [he]
  exact hG z0 q

/-- The one write-back of output window 2, at the last point, writes `colSumSq` of the input array. -/
theorem flushed1_2_eq (c : Dev nD) (t : Fin cfg1.N) (hf : (cfg1.win 2).flush t = true) :
    (dat1 (F := Ideal) V c).flushed 2 t = ((cfg1.win 2).blk t).view.read (Elt Ideal) (colSumSq (V c main_v98)) := by
  have hN : t.val < 25 := lt_of_lt_of_eq t.isLt (show cfg1.N = 25 from N_1)
  have h24 : t.val = 24 := by have := (flush1_2 t).mp hf; omega
  refine flushed1_2_of V c t _ fun z0 q => ?_
  rw [acc_sumsq V c t.val t.isLt z0 q, h24, show 4000 * (24 + 1) = 100000 from by norm_num]
  exact (sum_rows (fun s : Ideal .f32 => s * s) (V c main_v98) q).symm

/-- An index of the one-row array is in point `t`'s block iff each coordinate is in the block's range on its axis. -/
theorem mem_block1_2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v99_1).slice (win1_2.rect t)).set ↔ _
  rw [View.set_slice_whole, Rect.mem_set_unit]
  exact Iff.rfl

/-- The last point's block covers the array. -/
theorem covered1_2 (i : S1x128.Idx) :
    ∃ t : Fin cfg1.N, (cfg1.win 2).flush t = true ∧ i ∈ ((cfg1.win 2).blk t).view.set := by
  have hi0 : (i 0).val < 1 := (i 0).isLt
  have hi1 : (i 1).val < 128 := (i 1).isLt
  obtain ⟨e00, e01, e10, e11, e20, e21⟩ := blockIndex_facts1 lastPoint1
  refine ⟨lastPoint1, (flush1_2 lastPoint1).mpr rfl, ?_⟩
  rw [mem_block1_2]
  intro a
  match a with
  | ⟨0, _⟩ => show win1_2.index lastPoint1 (0 : Fin 2) * 1 ≤ (i 0).val ∧ (i 0).val < win1_2.index lastPoint1 (0 : Fin 2) * 1 + 1; omega
  | ⟨1, _⟩ => show win1_2.index lastPoint1 (1 : Fin 2) * 128 ≤ (i 1).val ∧ (i 1).val < win1_2.index lastPoint1 (1 : Fin 2) * 128 + 128; omega

/-- THE ARRAYS after the region: the column sums and the column sums of squares of the array the region is entered with. -/
theorem final1_sum (c : Dev nD) : (dat1 (F := Ideal) V c).arrAt 1 cfg1.N = colSum (V c main_v98) :=
  (dat1 (F := Ideal) V c).arrAt_eq_of_cover 1 _ (flushed1_1_eq V c) covered1_1

theorem final1_sumsq (c : Dev nD) : (dat1 (F := Ideal) V c).arrAt 2 cfg1.N = colSumSq (V c main_v98) :=
  (dat1 (F := Ideal) V c).arrAt_eq_of_cover 2 _ (flushed1_2_eq V c) covered1_2

end Cert.KernelIdeal.HandValue

end
-- ==== Proof.KI.Value2.lean ====
/-
  The value of region 2 of the kernel's program at the ideal values: the array its output window is written back to ends
  holding, index by index, the batch-norm affine map followed by the exponential linear unit of the arrays the region is
  entered with.
-/
import proofs.«169502_j41412074668235_1_alg».proof.Proof.KI.Region2
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)
open scoped BigOperators

/-! ## The function -/

/-- One entry: `y := ((γ * (x − μ)) * rsqrt (σ² + ε)) + β`, then `y` if `y > 0` and `exp y − 1` otherwise. -/
def bnEluAt (x mu var gamma beta : Ideal .f32) : Ideal .f32 :=
  Scalar.select
    (FloatOps.cmpf .ogt (((gamma * (x - mu)) * FloatOps.rsqrt (var + Ideal.ofBits .f32 0x3727C5AC#32)) + beta) (Ideal.ofBits .f32 0x00000000#32))
    (((gamma * (x - mu)) * FloatOps.rsqrt (var + Ideal.ofBits .f32 0x3727C5AC#32)) + beta)
    (FloatOps.exp (((gamma * (x - mu)) * FloatOps.rsqrt (var + Ideal.ofBits .f32 0x3727C5AC#32)) + beta) - Ideal.ofBits .f32 0x3F800000#32)

/-- Entry `(v, j)`: `y := ((gamma[j] * (x[v,j] − mu[0,j])) * rsqrt (var[0,j] + ε)) + beta[j]`, then `y` if `y > 0`
    and `exp y − 1` otherwise. -/
def bnElu (x : FVec Ideal S100000x128 .f32) (mu var : FVec Ideal S1x128 .f32) (gamma beta : FVec Ideal S128 .f32) : FVec Ideal S100000x128 .f32 :=
  fun i => bnEluAt (x i) (mu (ix2 0 (i 1))) (var (ix2 0 (i 1))) (gamma (ix1 (i 1))) (beta (ix1 (i 1)))

/-! ## The body's payload at an index -/

/-- A row vector broadcast down the rows reads its own column. -/
theorem broadcastRow_apply (v : FVec Ideal S1x128 .f32) (y : S4000x128.Idx) :
    broadcastTo S4000x128 v broadcasts_S1x128_S4000x128 y = v (ix2 0 (y 1)) :=
  broadcastTo_apply v broadcasts_S1x128_S4000x128 y (ix2 0 (y 1)) (fun a => by
    match a with
    | ⟨0, _⟩ => rfl
    | ⟨1, _⟩ => rfl)

/-- A vector viewed as a one-row matrix reads its own entry. -/
theorem rowOfVec_apply (v : FVec Ideal S128 .f32) (z : S1x128.Idx) :
    shapeCast S1x128 v shapeCasts_S128_S1x128 z = v (ix1 (z 1)) :=
  shapeCast_apply v shapeCasts_S128_S1x128 z (ix1 (z 1)) (by
    have h0 : (z 0).val = 0 := by have := (z 0).isLt; simp at this; omega
    rw [Shape.rowMajor_val_one, Shape.rowMajor_val_two, h0]
    simp)

/-- The payload of the body's one store, entry by entry. -/
theorem pay2_at (x0 : Vec Ideal S4000x128 .f32) (x1 x2 : Vec Ideal S1x128 .f32) (x3 x4 : Vec Ideal S128 .f32) (y : S4000x128.Idx) :
    k2_pay1 x0 x1 x2 x3 x4 y = bnEluAt (x0 y) (x1 (ix2 0 (y 1))) (x2 (ix2 0 (y 1))) (x3 (ix1 (y 1))) (x4 (ix1 (y 1))) := by
  unfold k2_pay1 bnEluAt
  simp only [shapeCast_self, select_apply, cmpf_apply, subf_apply, addf_apply, mulf_apply, broadcast_apply,
    Idealize.ShloMosaic.exp, Idealize.ShloMosaic.rsqrt, broadcastRow_apply, rowOfVec_apply]
  rfl

/-! ## From blocks to the array -/

variable (V : (c : Dev nD) → (b : Ref sig .tc) → Buf (Elt Ideal) ((c : Thread nD τ).loc b))

/-- The printed index maps, decided over the grid: the input's row block moves with the output's, the four
    parameter windows stay at block zero, and the output's blocks are the 25 row blocks of column block zero. -/
theorem blockIndex_facts2 : ∀ t : Fin cfg2.N,
    win2_0.index t (0 : Fin 2) = win2_5.index t (0 : Fin 2)
    ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 1) = 0
    ∧ win2_5.index t (0 : Fin 2) ≤ 24 ∧ win2_5.index t (1 : Fin 2) = 0 :=
  (by decide +kernel : ∀ t : Fin grid2.N, _)

/-- Every row block is some point's. -/
theorem blockIndex_onto2 : ∀ (q0 : Fin 25), ∃ t : Fin cfg2.N, win2_5.index t = ![q0.val, 0] :=
  (by decide +kernel : ∀ (q0 : Fin 25), ∃ t : Fin grid2.N, win2_5.index t = ![q0.val, 0])

/-- What point `t` writes back is block `t` of `bnElu` of the arrays as the region finds them. -/
theorem flushed2_eq (c : Dev nD) (t : Fin cfg2.N) :
    (dat2 (F := Ideal) V c).flushed 5 t = ((cfg2.win 5).blk t).view.read (Elt Ideal)
      (bnElu (V c main_v98) (V c main_v101) (V c main_v105) (V c main_arg8) (V c main_arg9)) := by
  show (cfg2.win 5).cut (grid2.coords t) ((dat2 V c).after 5 t) = _
  rw [after2_5_eq]
  obtain ⟨e00, e01, e10, e11, e20, e21, e30, e40, e5b, e51⟩ := blockIndex_facts2 t
  funext j
  obtain ⟨p, q, rfl⟩ : ∃ (p : Fin 4000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q) = _
  refine (pay2_at (iblk2 V c 0 t) (iblk2 V c 1 t) (iblk2 V c 2 t) (iblk2 V c 3 t) (iblk2 V c 4 t) (ix2 p q)).trans ?_
  show bnEluAt (V c main_v98 (((cfg2.win 0).blk t).view.emb (ix2 p q)))
      (V c main_v101 (((cfg2.win 1).blk t).view.emb (ix2 0 q)))
      (V c main_v105 (((cfg2.win 2).blk t).view.emb (ix2 0 q)))
      (V c main_arg8 (((cfg2.win 3).blk t).view.emb (ix1 q)))
      (V c main_arg9 (((cfg2.win 4).blk t).view.emb (ix1 q)))
    = bnEluAt (V c main_v98 (((cfg2.win 5).blk t).view.emb (ix2 p q)))
      (V c main_v101 (ix2 0 ((((cfg2.win 5).blk t).view.emb (ix2 p q)) 1)))
      (V c main_v105 (ix2 0 ((((cfg2.win 5).blk t).view.emb (ix2 p q)) 1)))
      (V c main_arg8 (ix1 ((((cfg2.win 5).blk t).view.emb (ix2 p q)) 1)))
      (V c main_arg9 (ix1 ((((cfg2.win 5).blk t).view.emb (ix2 p q)) 1)))
  have h0 : ((cfg2.win 0).blk t).view.emb (ix2 p q) = ((cfg2.win 5).blk t).view.emb (ix2 p q) := by
    funext a; apply Fin.ext
    match a with
    | ⟨0, _⟩ => show win2_0.index t (0 : Fin 2) * 4000 + 1 * p.val = win2_5.index t (0 : Fin 2) * 4000 + 1 * p.val; omega
    | ⟨1, _⟩ => show win2_0.index t (1 : Fin 2) * 128 + 1 * q.val = win2_5.index t (1 : Fin 2) * 128 + 1 * q.val; omega
  have h1 : ((cfg2.win 1).blk t).view.emb (ix2 0 q) = ix2 0 ((((cfg2.win 5).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_5.index t (1 : Fin 2) * 128 + 1 * q.val; omega
  have h2 : ((cfg2.win 2).blk t).view.emb (ix2 0 q) = ix2 0 ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  have h3 : ((cfg2.win 3).blk t).view.emb (ix1 q) = ix1 ((((cfg2.win 5).blk t).view.emb (ix2 p q)) 1) := by
    funext a; apply Fin.ext
    match a with
    | ⟨0, _⟩ => show win2_3.index t (0 : Fin 1) * 128 + 1 * q.val = win2_5.index t (1 : Fin 2) * 128 + 1 * q.val; omega
  have h4 : ((cfg2.win 4).blk t).view.emb (ix1 q) = ix1 ((((cfg2.win 5).blk t).view.emb (ix2 p q)) 1) := by
    funext a; apply Fin.ext
    match a with
    | ⟨0, _⟩ => show win2_4.index t (0 : Fin 1) * 128 + 1 * q.val = win2_5.index t (1 : Fin 2) * 128 + 1 * q.val; omega
  rw [h0, h1, h2, h3, h4]
  rfl

/-- An index of the array is in point `t`'s block iff each coordinate is in the block's range on its axis. -/
theorem mem_block2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v106).slice (win2_5.rect t)).set ↔ _
  rw [View.set_slice_whole, Rect.mem_set_unit]
  exact Iff.rfl

/-- Every index of the array is in the block of the point of its row block. -/
theorem covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := blockIndex_onto2 ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_block2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE ARRAY after the region: `bnElu` of the arrays the region is entered with. -/
theorem final2 (c : Dev nD) :
    (dat2 (F := Ideal) V c).arrAt 5 cfg2.N = bnElu (V c main_v98) (V c main_v101) (V c main_v105) (V c main_arg8) (V c main_arg9) :=
  (dat2 (F := Ideal) V c).arrAt_eq_of_cover 5 _ (fun t _ => flushed2_eq V c t) (covered2)

end Cert.KernelIdeal.HandValue

end
-- ==== Proof.KI.Value3.lean ====
/-
  Region 3 of the kernel's program at the exact extended reals: what the region leaves in its output array, as ONE
  function of the arrays the region is entered with, index by index.

  Entry (v, j) of the output is
    ((((Σ_k x[v,k]·root[k,j]) + b[j]) + Σ_k aggs[v,k]·w[0,k,j]) + Σ_k aggs[v,128+k]·w[1,k,j]) + Σ_k aggs[v,256+k]·w[2,k,j])
      + Σ_k aggs[v,384+k]·w[3,k,j],
  each sum over the 128 contracted positions: at the exact values a change of float format is the identity and a
  matrix product into a zero accumulator is the plain sum of products. Row v lies in row block v / 4000, whose grid
  point stages rows 4000·t … 4000·t + 3999 of the features, of the aggregates and of the output, and the whole of the
  three weight arrays; the 25 row blocks tile the output, so the array ends at this function everywhere.
-/
import proofs.«169502_j41412074668235_1_alg».proof.Proof.KI.Region3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-! ## The contraction of a [4000,128] × [128,64] product, read at an index -/

theorem lhsD3_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem lhsD3_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhsD3_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhsD3_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- A product into the zero accumulator, at entry (p, q): the sum over the 128 contracted positions of the left operand's
    row p times the right operand's column q. -/
theorem mm3_apply {φ₁ φ₂ : FTy} (l : FVec Ideal S4000x128 φ₁) (r : FVec Ideal S128x64 φ₂) (p : Fin 4000) (q : Fin 64) :
    matmul dot_S4000x128_S128x64_S4000x64_1_0_0_1_n_n none l r (constant S4000x64 .f32 0x00000000#32) (ix2 p q)
      = ∑ k : Fin 128, l (ix2 p k) * r (ix2 k q) := by
  refine (Ideal.matmul_constant_zero_apply dot_S4000x128_S128x64_S4000x64_1_0_0_1_n_n none l r (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k :=
    funext fun a => Fin.ext (by
      match a with
      | ⟨0, _⟩ => exact lhsD3_0 _ _
      | ⟨1, _⟩ => exact (lhsD3_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q :=
    funext fun a => Fin.ext (by
      match a with
      | ⟨0, _⟩ => exact (rhsD3_0 _ _).trans hk
      | ⟨1, _⟩ => exact rhsD3_1 _ _)
  rw [el, er]

/-! ## The specification -/

/-- Entry (v, j) of the layer's dense part:
    ((((Σ_k x[v,k]·root[k,j]) + b[j]) + Σ_k aggs[v,k]·w[0,k,j]) + Σ_k aggs[v,128+k]·w[1,k,j]) + Σ_k aggs[v,256+k]·w[2,k,j])
      + Σ_k aggs[v,384+k]·w[3,k,j], every sum over the 128 positions k, in this association and with the products in this
    order. -/
def lin1At (x : FVec Ideal S100000x128 .f32) (aggs : FVec Ideal S100000x512 .f32) (root : FVec Ideal S128x64 .f32)
    (w : FVec Ideal S4x128x64 .f32) (b : FVec Ideal S64 .f32) (v : Fin 100000) (j : Fin 64) : Ideal .f32 :=
  (((((∑ k : Fin 128, x (ix2 v k) * root (ix2 k j)) + b (ix1 j))
      + ∑ k : Fin 128, aggs (ix2 v (⟨k.val, Nat.lt_trans k.isLt (by decide)⟩ : Fin 512)) * w (ix3 (0 : Fin 4) k j))
      + ∑ k : Fin 128, aggs (ix2 v (⟨128 + k.val, by have := k.isLt; omega⟩ : Fin 512)) * w (ix3 (1 : Fin 4) k j))
      + ∑ k : Fin 128, aggs (ix2 v (⟨256 + k.val, by have := k.isLt; omega⟩ : Fin 512)) * w (ix3 (2 : Fin 4) k j))
      + ∑ k : Fin 128, aggs (ix2 v (⟨384 + k.val, by have := k.isLt; omega⟩ : Fin 512)) * w (ix3 (3 : Fin 4) k j)

/-- entry (v, j) of the layer's dense part: ((((Σ_k x[v,k]·root[k,j]) + b[j]) + Σ_k aggs[v,k]·w[0,k,j]) + Σ_k aggs[v,128+k]·w[1,k,j])
    + Σ_k aggs[v,256+k]·w[2,k,j]) + Σ_k aggs[v,384+k]·w[3,k,j], all sums plain sums over the 128 contracted positions, this
    association, products in this order -/
def lin1 (x : FVec Ideal S100000x128 .f32) (aggs : FVec Ideal S100000x512 .f32) (root : FVec Ideal S128x64 .f32)
    (w : FVec Ideal S4x128x64 .f32) (b : FVec Ideal S64 .f32) : FVec Ideal S100000x64 .f32 :=
  fun i => lin1At x aggs root w b (i 0) (i 1)

theorem lin1_apply (x : FVec Ideal S100000x128 .f32) (aggs : FVec Ideal S100000x512 .f32) (root : FVec Ideal S128x64 .f32)
    (w : FVec Ideal S4x128x64 .f32) (b : FVec Ideal S64 .f32) (v : Fin 100000) (j : Fin 64) :
    lin1 x aggs root w b (ix2 v j) = lin1At x aggs root w b v j := rfl

/-! ## The body's value at an entry of the block -/

/-- The body's stored value at entry (p, q) of the block, from the row block of the features, the row block of the
    aggregates, the root weights, the four relation slabs as loaded and the bias: every change of float format is the
    identity, every product goes into a zero accumulator, the aggregates' four column groups are cut at 0, 128, 256, 384. -/
theorem pay3_apply (x0 : Vec Ideal S4000x128 .f32) (x1 : Vec Ideal S4000x512 .f32) (x2 : Vec Ideal S128x64 .f32)
    (s0 s1 s2 s3 : Vec Ideal S1x128x64 .f32) (x4 : Vec Ideal S64 .f32) (p : Fin 4000) (q : Fin 64) :
    k3_pay1 (k3_pay3 x0 x2 x4 x1 s0 s1 s2) (k3_pay4 x1) s3 (ix2 p q)
      = (((((∑ k : Fin 128, x0 (ix2 p k) * x2 (ix2 k q)) + x4 (ix1 q))
          + ∑ k : Fin 128, x1 (ix2 p (⟨k.val, Nat.lt_trans k.isLt (by decide)⟩ : Fin 512)) * s0 (ix3 (0 : Fin 1) k q))
          + ∑ k : Fin 128, x1 (ix2 p (⟨128 + k.val, by have := k.isLt; omega⟩ : Fin 512)) * s1 (ix3 (0 : Fin 1) k q))
          + ∑ k : Fin 128, x1 (ix2 p (⟨256 + k.val, by have := k.isLt; omega⟩ : Fin 512)) * s2 (ix3 (0 : Fin 1) k q))
          + ∑ k : Fin 128, x1 (ix2 p (⟨384 + k.val, by have := k.isLt; omega⟩ : Fin 512)) * s3 (ix3 (0 : Fin 1) k q) := by
  unfold k3_pay1 k3_pay3 k3_pay4 k3_pay2
  dsimp only
  simp only [addf_apply, mm3_apply, truncf_apply, shapeCast_self, shapeCast_1ab_ab_apply, broadcastTo_1b_ab_apply,
    shapeCast_a_1a_apply, slice2_axis1_eq, Nat.zero_add]

/-! ## What the body leaves in the output buffer, read through its whole-buffer accesses -/

/-- With the whole-buffer loads and the one whole-buffer store read through: the stored value of the input blocks
    themselves, the stacked weights as their four slabs along the leading axis. -/
theorem out3_5_eq {F : FTy → Type} [FloatOps F] (x0 : Vec F S4000x128 .f32) (x1 : Vec F S4000x512 .f32) (x2 : Vec F S128x64 .f32)
    (x3 : Vec F S4x128x64 .f32) (x4 : Vec F S64 .f32) :
    out3_5 x0 x1 x2 x3 x4 = k3_pay1 (k3_pay3 x0 x2 x4 x1 (View.ld x3 r3_4) (View.ld x3 r3_5) (View.ld x3 r3_6)) (k3_pay4 x1) (View.ld x3 r3_7) := by
  unfold out3_5
  rw [View.canon_unit_zero (by funext a; fin_cases a <;> rfl)]
  rw [View.ld_unit_zero (by funext a; fin_cases a <;> rfl) _ x0, View.ld_unit_zero (by funext a; fin_cases a <;> rfl) _ x1,
    View.ld_unit_zero (by funext a; fin_cases a <;> rfl) _ x2, View.ld_unit_zero (by funext a; fin_cases a <;> rfl) _ x4]

/-- Slab r of the stacked weights, at (0, k, q), is the stack at (r, k, q). -/
theorem slab3_0 (x3 : Vec Ideal S4x128x64 .f32) (k : Fin 128) (q : Fin 64) : View.ld x3 r3_4 (ix3 (0 : Fin 1) k q) = x3 (ix3 (0 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega
theorem slab3_1 (x3 : Vec Ideal S4x128x64 .f32) (k : Fin 128) (q : Fin 64) : View.ld x3 r3_5 (ix3 (0 : Fin 1) k q) = x3 (ix3 (1 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega
theorem slab3_2 (x3 : Vec Ideal S4x128x64 .f32) (k : Fin 128) (q : Fin 64) : View.ld x3 r3_6 (ix3 (0 : Fin 1) k q) = x3 (ix3 (2 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega
theorem slab3_3 (x3 : Vec Ideal S4x128x64 .f32) (k : Fin 128) (q : Fin 64) : View.ld x3 r3_7 (ix3 (0 : Fin 1) k q) = x3 (ix3 (3 : Fin 4) k q) := by
  refine congrArg x3 (funext fun a => Fin.ext ?_)
  match a with
  | ⟨0, _⟩ => rfl
  | ⟨1, _⟩ => show 0 + 1 * k.val = k.val; omega
  | ⟨2, _⟩ => show 0 + 1 * q.val = q.val; omega

/-- ONE POINT of one block: if the block of the features and of the aggregates are rows n·4000 … n·4000 + 3999 of their
    arrays and the three weight blocks are their whole arrays, the body's stored value at a block entry is the layer's
    entry at the array index of that row and the same column. -/
theorem point3 (X : FVec Ideal S100000x128 .f32) (A : FVec Ideal S100000x512 .f32) (R : FVec Ideal S128x64 .f32)
    (W : FVec Ideal S4x128x64 .f32) (B : FVec Ideal S64 .f32)
    (x0 : Vec Ideal S4000x128 .f32) (x1 : Vec Ideal S4000x512 .f32) (x2 : Vec Ideal S128x64 .f32)
    (x3 : Vec Ideal S4x128x64 .f32) (x4 : Vec Ideal S64 .f32) (n : ℕ)
    (e0 : ∀ (p : Fin 4000) (k : Fin 128) (v : Fin 100000), v.val = n * 4000 + p.val → x0 (ix2 p k) = X (ix2 v k))
    (e1 : ∀ (p : Fin 4000) (k : Fin 512) (v : Fin 100000), v.val = n * 4000 + p.val → x1 (ix2 p k) = A (ix2 v k))
    (e2 : x2 = R) (e3 : x3 = W) (e4 : x4 = B)
    (y : S4000x64.Idx) (i : S100000x64.Idx) (hi0 : (i 0).val = n * 4000 + (y 0).val) (hi1 : (i 1).val = (y 1).val) :
    k3_pay1 (k3_pay3 x0 x2 x4 x1 (View.ld x3 r3_4) (View.ld x3 r3_5) (View.ld x3 r3_6)) (k3_pay4 x1) (View.ld x3 r3_7) y
      = lin1 X A R W B i := by
  subst e2 e3 e4
  obtain ⟨p, q, rfl⟩ : ∃ (p : Fin 4000) (q : Fin 64), y = ix2 p q := ⟨y 0, y 1, eq_ix2 y⟩
  obtain ⟨v, j, rfl⟩ : ∃ (v : Fin 100000) (j : Fin 64), i = ix2 v j := ⟨i 0, i 1, eq_ix2 i⟩
  have hv : v.val = n * 4000 + p.val := hi0
  obtain rfl : j = q := Fin.ext hi1
  rw [pay3_apply, lin1_apply]
  unfold lin1At
  simp only [e0 p _ v hv, e1 p _ v hv]
  refine congrArg₂ (· + ·) (congrArg₂ (· + ·) (congrArg₂ (· + ·) (congrArg₂ (· + ·) rfl ?_) ?_) ?_) ?_
  · exact Finset.sum_congr rfl fun k _ => congrArg (_ * ·) (slab3_0 x3 k j)
  · exact Finset.sum_congr rfl fun k _ => congrArg (_ * ·) (slab3_1 x3 k j)
  · exact Finset.sum_congr rfl fun k _ => congrArg (_ * ·) (slab3_2 x3 k j)
  · exact Finset.sum_congr rfl fun k _ => congrArg (_ * ·) (slab3_3 x3 k j)

/-! ## From blocks to the array -/

/-- The printed index maps, decided over the 25 points: the features', the aggregates' and the output's blocks are
    row block t, the weights' blocks are the whole arrays. -/
theorem idx_facts3 : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 3) = 0 ∧ win3_3.index t (1 : Fin 3) = 0 ∧ win3_3.index t (2 : Fin 3) = 0
    ∧ win3_4.index t (0 : Fin 1) = 0 :=
  (by decide +kernel : ∀ t : Fin grid3.N, _)

variable (V : (c : Dev nD) → (b : Ref sig .tc) → Buf (Elt Ideal) ((c : Thread nD τ).loc b))

/-- The features' block at point t is rows 4000·t … of the array the region finds. -/
theorem iblk3_0_apply (c : Dev nD) (t : Fin cfg3.N) (p : Fin 4000) (k : Fin 128) (v : Fin 100000)
    (hv : v.val = win3_5.index t (0 : Fin 2) * 4000 + p.val) :
    (iblk3 V c 0 t : Vec Ideal S4000x128 .f32) (ix2 p k) = (V c main_v106 : S100000x128.Idx → Elt Ideal .f32) (ix2 v k) := by
  obtain ⟨f0, f1, f2, f3, f4, f5, f6, f7, f8, f9, f10, f11⟩ := idx_facts3 t
  unfold iblk3
  rw [View.read_apply]
  show V c main_v106 _ = V c main_v106 _
  refine congrArg (V c main_v106) (funext fun a => Fin.ext ?_)
  match a with
  | ⟨0, _⟩ => show win3_0.index t (0 : Fin 2) * 4000 + 1 * p.val = v.val; omega
  | ⟨1, _⟩ => show win3_0.index t (1 : Fin 2) * 128 + 1 * k.val = k.val; omega

/-- The aggregates' block likewise. -/
theorem iblk3_1_apply (c : Dev nD) (t : Fin cfg3.N) (p : Fin 4000) (k : Fin 512) (v : Fin 100000)
    (hv : v.val = win3_5.index t (0 : Fin 2) * 4000 + p.val) :
    (iblk3 V c 1 t : Vec Ideal S4000x512 .f32) (ix2 p k) = (V c main_v159 : S100000x512.Idx → Elt Ideal .f32) (ix2 v k) := by
  obtain ⟨f0, f1, f2, f3, f4, f5, f6, f7, f8, f9, f10, f11⟩ := idx_facts3 t
  unfold iblk3
  rw [View.read_apply]
  show V c main_v159 _ = V c main_v159 _
  refine congrArg (V c main_v159) (funext fun a => Fin.ext ?_)
  match a with
  | ⟨0, _⟩ => show win3_1.index t (0 : Fin 2) * 4000 + 1 * p.val = v.val; omega
  | ⟨1, _⟩ => show win3_1.index t (1 : Fin 2) * 512 + 1 * k.val = k.val; omega

/-- The root weights' block is the whole array, -/
theorem iblk3_2_eq (c : Dev nD) (t : Fin cfg3.N) : (iblk3 V c 2 t : Vec Ideal S128x64 .f32) = (V c main_arg11 : S128x64.Idx → Elt Ideal .f32) := by
  obtain ⟨f0, f1, f2, f3, f4, f5, f6, f7, f8, f9, f10, f11⟩ := idx_facts3 t
  funext y
  unfold iblk3
  rw [View.read_apply]
  show V c main_arg11 _ = V c main_arg11 _
  refine congrArg (V c main_arg11) (funext fun a => Fin.ext ?_)
  match a with
  | ⟨0, _⟩ => show win3_2.index t (0 : Fin 2) * 128 + 1 * (y 0).val = (y 0).val; omega
  | ⟨1, _⟩ => show win3_2.index t (1 : Fin 2) * 64 + 1 * (y 1).val = (y 1).val; omega

/-- the stacked relation weights' likewise, -/
theorem iblk3_3_eq (c : Dev nD) (t : Fin cfg3.N) : (iblk3 V c 3 t : Vec Ideal S4x128x64 .f32) = (V c main_arg10 : S4x128x64.Idx → Elt Ideal .f32) := by
  obtain ⟨f0, f1, f2, f3, f4, f5, f6, f7, f8, f9, f10, f11⟩ := idx_facts3 t
  funext y
  unfold iblk3
  rw [View.read_apply]
  show V c main_arg10 _ = V c main_arg10 _
  refine congrArg (V c main_arg10) (funext fun a => Fin.ext ?_)
  match a with
  | ⟨0, _⟩ => show win3_3.index t (0 : Fin 3) * 4 + 1 * (y 0).val = (y 0).val; omega
  | ⟨1, _⟩ => show win3_3.index t (1 : Fin 3) * 128 + 1 * (y 1).val = (y 1).val; omega
  | ⟨2, _⟩ => show win3_3.index t (2 : Fin 3) * 64 + 1 * (y 2).val = (y 2).val; omega

/-- and the bias's. -/
theorem iblk3_4_eq (c : Dev nD) (t : Fin cfg3.N) : (iblk3 V c 4 t : Vec Ideal S64 .f32) = (V c main_arg12 : S64.Idx → Elt Ideal .f32) := by
  obtain ⟨f0, f1, f2, f3, f4, f5, f6, f7, f8, f9, f10, f11⟩ := idx_facts3 t
  funext y
  unfold iblk3
  rw [View.read_apply]
  show V c main_arg12 _ = V c main_arg12 _
  refine congrArg (V c main_arg12) (funext fun a => Fin.ext ?_)
  match a with
  | ⟨0, _⟩ => show win3_4.index t (0 : Fin 1) * 64 + 1 * (y 0).val = (y 0).val; omega

/-- What point t writes back is block t of the layer's dense part of the arrays the region finds. -/
theorem flushed3_eq (c : Dev nD) (t : Fin cfg3.N) :
    (dat3 (F := Ideal) V c).flushed 5 t
      = ((cfg3.win 5).blk t).view.read (Elt Ideal) (lin1 (V c main_v106) (V c main_v159) (V c main_arg11) (V c main_arg10) (V c main_arg12)) := by
  show (cfg3.win 5).cut (grid3.coords t) ((dat3 V c).after 5 t) = _
  rw [after3_5, out3_5_eq]
  funext j
  rw [View.read_apply]
  exact point3 (V c main_v106) (V c main_v159) (V c main_arg11) (V c main_arg10) (V c main_arg12)
    (iblk3 V c 0 t) (iblk3 V c 1 t) (iblk3 V c 2 t) (iblk3 V c 3 t) (iblk3 V c 4 t) (win3_5.index t (0 : Fin 2))
    (fun p k v hv => iblk3_0_apply V c t p k v hv) (fun p k v hv => iblk3_1_apply V c t p k v hv)
    (iblk3_2_eq V c t) (iblk3_3_eq V c t) (iblk3_4_eq V c t) j (((cfg3.win 5).blk t).view.emb j)
    (by show win3_5.index t (0 : Fin 2) * 4000 + 1 * (j 0).val = _; omega)
    (by obtain ⟨f0, f1, -⟩ := idx_facts3 t
        show win3_5.index t (1 : Fin 2) * 64 + 1 * (j 1).val = _; omega)

/-- An index of the array is in point t's block iff each coordinate is in the block's range on its axis. -/
theorem mem_blk3 (t : Fin cfg3.N) (i : S100000x64.Idx) :
    i ∈ ((cfg3.win 5).blk t).view.set ↔ ∀ a : Fin 2, win3_5.index t a * S4000x64.size a ≤ (i a).val ∧ (i a).val < win3_5.index t a * S4000x64.size a + S4000x64.size a := by
  show i ∈ ((View.whole main_v160).slice (win3_5.rect t)).set ↔ _
  rw [View.set_slice_whole, Rect.mem_set_unit]
  exact Iff.rfl

/-- Every index of the array is in the block of the point its row falls in: row r is in block r / 4000. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨f0, f1, -⟩ := idx_facts3 t
  refine ⟨t, flush3_5 t, ?_⟩
  rw [mem_blk3]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 64 ≤ (i 1).val ∧ (i 1).val < win3_5.index t (1 : Fin 2) * 64 + 64; omega

/-- THE ARRAY after the region: the layer's dense part of the arrays the region is entered with, index by index. -/
theorem final3 (V : (c : Dev nD) → (b : Ref sig .tc) → Buf (Elt Ideal) ((c : Thread nD τ).loc b)) (c : Dev nD) :
    (dat3 (F := Ideal) V c).arrAt 5 cfg3.N = lin1 (V c main_v106) (V c main_v159) (V c main_arg11) (V c main_arg10) (V c main_arg12) :=
  (dat3 (F := Ideal) V c).arrAt_eq_of_cover 5 (lin1 (V c main_v106) (V c main_v159) (V c main_arg11) (V c main_arg10) (V c main_arg12))
    (fun t _ => flushed3_eq V c t) cover3

end Cert.KernelIdeal.HandValue

end
-- ==== Proof.LibRealAlgebra.lean ====
/-
  Real arithmetic inside the extended reals. The coercion of the reals commutes with finite sums, with the quotient by a
  nonzero real and with the maximum; the float words 0, 1 and 100000 denote those reals and the batch-norm epsilon a
  positive real. Two identities of a graph-convolution layer with batch normalisation, on real-valued data:
  (1) the mean of a set of gathered rows (their sum times the reciprocal of the count), multiplied on the right by a weight
      column, is the sum of the rows' products with the column divided by the count;
  (2) the mean square minus the squared mean is the mean of the squared deviations from the mean.
-/
import Idealize.ShloMosaic.PureOps.Ideal

noncomputable section

namespace Cert.Lib

open Idealize.ShloMosaic

/-! ## Literals -/

/-- The word of `+0.0` denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = 1 := by
  simp [Ideal.ofBits, Ideal.ieee, -EReal.coe_mul]; norm_num

/-- The word of `100000.0` denotes the real 100000. -/
theorem ofBits_1e5 : Ideal.ofBits .f32 0x47C35000#32 = ((100000 : ℝ) : EReal) := by
  simp [Ideal.ofBits, Ideal.ieee, -EReal.coe_mul]; norm_num

/-- The batch-norm epsilon's word denotes a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

/-! ## The coercion and finite sums, quotients, maxima -/

/-- The coercion of the reals commutes with finite sums. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real. -/
theorem div_coe_coe (x y : ℝ) (hy : y ≠ 0) : Ideal.div (x : EReal) (y : EReal) = ((x / y : ℝ) : EReal) := by
  rw [Ideal.div_coe hy, ← EReal.coe_mul, mul_one_div]

/-! ## The two identities -/

/-- The mean of gathered rows, then the weights: over the reals. -/
theorem mean_then_weights_real {E K : Type*} [Fintype K] (S : Finset E) (X : E → K → ℝ) (W : K → ℝ) (c : ℝ) (hc : c ≠ 0) :
    (∑ k, ((∑ e ∈ S, X e k) * (1 / c)) * W k) = (∑ e ∈ S, ∑ k, X e k * W k) / c := by
  rw [Finset.sum_comm, Finset.sum_div]
  refine Finset.sum_congr rfl fun k _ => ?_
  rw [Finset.sum_mul, Finset.sum_mul, Finset.sum_div]
  refine Finset.sum_congr rfl fun e _ => ?_
  field_simp

/-- The mean square minus the squared mean is the mean squared deviation: over the reals. -/
theorem var_real {V : Type*} [Fintype V] (x : V → ℝ) (n : ℝ) (hn : n ≠ 0) (hcard : (Fintype.card V : ℝ) = n) :
    (∑ v, x v * x v) / n - (∑ v, x v) / n * ((∑ v, x v) / n)
      = (∑ v, (x v - (∑ u, x u) / n) * (x v - (∑ u, x u) / n)) / n := by
  have h : ∀ v, (x v - (∑ u, x u) / n) * (x v - (∑ u, x u) / n)
      = x v * x v - 2 * ((∑ u, x u) / n) * x v + ((∑ u, x u) / n) * ((∑ u, x u) / n) := fun v => by ring
  simp only [h, Finset.sum_add_distrib, Finset.sum_sub_distrib, ← Finset.mul_sum, Finset.sum_const, Finset.card_univ,
    nsmul_eq_mul, hcard]
  field_simp
  ring

end Cert.Lib

end
-- ==== Proof.LibGatherScatter.lean ====
/-
  General lemmas reading a row gather and a row scatter-add at an index, at the ideal values.

  A gather of whole rows of an n × k array at e start indices (one signed word per result row) reads, at result
  element (a, b), the operand's element (r, b), r the start index clamped into [0, n − 1].  A scatter of e update
  rows into an n × k array (or of e update scalars into an n-vector) sends update row a to operand row w when the
  signed scatter index w lies in [0, n), and drops it otherwise; the accumulating scatter at the ideal values is
  then the operand plus, at row v, the sum of the update rows whose index is v.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Lib

/-- The row a gather's start index reads: the index word read as a signed integer and clamped into
    [0, n − 1]. -/
def rowOf (n : ℕ) (hn : 0 < n) (w : BitVec 32) : Fin n := ⟨min w.toInt.toNat (n - 1), by omega⟩

/-- The value of rowOf: the signed reading clamped into [0, n − 1]. -/
theorem rowOf_val (n : ℕ) (hn : 0 < n) (w : BitVec 32) : (rowOf n hn w).val = min w.toInt.toNat (n - 1) := rfl

/-- A GATHER OF ROWS READ AT (a, b): with one start index per result row, naming operand axis 0, a slice of one
    whole row (slice sizes [1, k], axis 0 collapsed, axis 1 the offset axis), result element (a, b) is the
    operand's element (r, b) where r is start index a read signed and clamped into [0, n − 1]. -/
theorem gather_rows_apply {α : Type} {n e k : ℕ} (hn : 0 < n)
    (d : GatherDims ⟨2, ![n, k]⟩ ⟨2, ![e, 1]⟩ ⟨2, ![e, k]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, k])
    (x : (⟨2, ![n, k]⟩ : Shape).Idx → α) (idx : IVec ⟨2, ![e, 1]⟩ 32) (a : Fin e) (b : Fin k) :
    Host.gather d x idx (ix2 a b) = x (ix2 (rowOf n hn (idx (ix2 a 0))) b) := by
  obtain ⟨od, cd, ob, sb, sm, iv, ss, wf⟩ := d
  dsimp only at hod hcd hob hsb hsm hiv hss
  subst hod hcd hob hsb hsm hiv hss
  unfold Host.gather
  refine congrArg x ?_
  funext c
  refine Fin.ext ?_
  match c with
  | ⟨0, _⟩ =>
    show GatherDims.start _ (ix2 a b) idx 0 + GatherDims.batchCoord _ (ix2 a b) 0 + GatherDims.offCoord _ (ix2 a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![n, k]⟩ ⟨2, ![e, 1]⟩ ⟨2, ![e, k]⟩)
        (hD : D = ⟨[1], [0], [], [], [0], 1, ![1, k], wf⟩) (c : Fin D.startIndexMap.length),
        D.siIdx (ix2 a b) c = ix2 a 0 := by
      intro D hD c
      subst hD
      funext q; refine Fin.ext ?_
      match q with
      | ⟨0, _⟩ => rfl
      | ⟨1, _⟩ =>
        have := c.isLt
        show c.val = 0
        simpa using this
    rw [hsi _ rfl]
    rfl
  | ⟨1, _⟩ =>
    show GatherDims.start _ (ix2 a b) idx 1 + GatherDims.batchCoord _ (ix2 a b) 1 + GatherDims.offCoord _ (ix2 a b) 1 = _
    rw [GatherDims.batchCoord_eq_zero _ _ _ List.not_mem_nil]
    have hst : GatherDims.start (⟨[1], [0], [], [], [0], 1, ![1, k], wf⟩ :
        GatherDims ⟨2, ![n, k]⟩ ⟨2, ![e, 1]⟩ ⟨2, ![e, k]⟩) (ix2 a b) idx 1 = 0 := by
      unfold GatherDims.start
      rw [dif_neg (fun h => absurd (congrArg Fin.val (List.mem_singleton.mp h)) Nat.one_ne_zero)]
    have hoff : GatherDims.offCoord (⟨[1], [0], [], [], [0], 1, ![1, k], wf⟩ :
        GatherDims ⟨2, ![n, k]⟩ ⟨2, ![e, 1]⟩ ⟨2, ![e, k]⟩) (ix2 a b) 1 = b.val := by
      unfold GatherDims.offCoord
      rw [dif_pos ((GatherDims.mem_sKept _ _).mpr ⟨fun h => absurd (congrArg Fin.val (List.mem_singleton.mp h)) Nat.one_ne_zero, List.not_mem_nil⟩)]
      rfl
    rw [hst, hoff]
    simp

/-- Where a scatter index lands: the row the index word names when, read as a signed integer, it lies in
    [0, n); none otherwise (the update is dropped). -/
def landOf (n : ℕ) (w : BitVec 32) : Option (Fin n) :=
  if h : 0 ≤ w.toInt ∧ w.toInt < n then some ⟨w.toInt.toNat, by omega⟩ else none

/-- An index in range lands on the row it names. -/
theorem landOf_eq_some_iff (n : ℕ) (w : BitVec 32) (v : Fin n) :
    landOf n w = some v ↔ w.toInt = (v.val : ℤ) := by
  unfold landOf
  constructor
  · intro h
    split at h
    · rename_i hw
      have := congrArg Fin.val (Option.some.inj h)
      simp only at this
      omega
    · exact absurd h (by simp)
  · intro h
    have hw : 0 ≤ w.toInt ∧ w.toInt < n := by have := v.isLt; omega
    rw [dif_pos hw]
    refine congrArg some (Fin.ext ?_)
    show w.toInt.toNat = v.val
    omega

/-- The dimension numbers of a scatter of e update rows of k columns into an n × k array: the updates' axis 1 the
    window axis, the operand's axis 0 inserted and named by the one-component scatter index. -/
private abbrev sc2 (n e k : ℕ) (wf : ScatterDims.WF ⟨2, ![n, k]⟩ ⟨2, ![e, 1]⟩ ⟨2, ![e, k]⟩ [1] [0] [0] 1) :
    ScatterDims ⟨2, ![n, k]⟩ ⟨2, ![e, 1]⟩ ⟨2, ![e, k]⟩ := ⟨[1], [0], [0], 1, wf⟩

section Sc2
variable {n e k : ℕ} (wf : ScatterDims.WF ⟨2, ![n, k]⟩ ⟨2, ![e, 1]⟩ ⟨2, ![e, k]⟩ [1] [0] [0] 1)
  (idx : IVec ⟨2, ![e, 1]⟩ 32) (a : Fin e) (b : Fin k)

/-- Update element (a, b) reads scatter index a. -/
private theorem sc2_siIdx (c : Fin (sc2 n e k wf).scatterDimsToOperandDims.length) :
    (sc2 n e k wf).siIdx (ix2 a b) c = ix2 a 0 := by
  funext q; refine Fin.ext ?_
  match q with
  | ⟨0, _⟩ => rfl
  | ⟨1, _⟩ =>
    have := c.isLt
    show c.val = 0
    simpa using this

/-- On the operand's axis 0 the window starts at the scatter index, read signed. -/
private theorem sc2_start0 : (sc2 n e k wf).start (ix2 a b) idx 0 = (idx (ix2 a 0)).toInt := by
  unfold ScatterDims.start
  rw [dif_pos (List.mem_singleton.mpr rfl), sc2_siIdx]

/-- On the operand's axis 1, which the scatter index does not name, the window starts at 0. -/
private theorem sc2_start1 : (sc2 n e k wf).start (ix2 a b) idx 1 = 0 := by
  unfold ScatterDims.start
  rw [dif_neg (fun h => absurd (congrArg Fin.val (List.mem_singleton.mp h)) Nat.one_ne_zero)]

/-- The inserted axis 0 has window coordinate 0. -/
private theorem sc2_window0 : (sc2 n e k wf).window (ix2 a b) 0 = 0 := by
  unfold ScatterDims.window
  rw [dif_neg (fun h => (of_decide_eq_true (List.mem_filter.mp h).2) (List.mem_singleton.mpr rfl))]

/-- The window coordinate on axis 1 is the update's column. -/
private theorem sc2_window1 : (sc2 n e k wf).window (ix2 a b) 1 = b.val := by
  unfold ScatterDims.window
  have h1 : (1 : Fin (⟨2, ![n, k]⟩ : Shape).rank) ∈ (sc2 n e k wf).sKept :=
    List.mem_filter.mpr ⟨List.mem_finRange _, decide_eq_true
      (fun h => absurd (congrArg Fin.val (List.mem_singleton.mp h)) Nat.one_ne_zero)⟩
  rw [dif_pos h1]
  rfl

end Sc2

/-- WHERE AN UPDATE ROW'S ELEMENT LANDS: update element (a, b) of a row scatter lands on operand element (v, b),
    v the row scatter index a names, when that index read signed lies in [0, n); it is dropped otherwise. -/
theorem scatter2_resultIdx {n e k : ℕ} (d : ScatterDims ⟨2, ![n, k]⟩ ⟨2, ![e, 1]⟩ ⟨2, ![e, k]⟩)
    (huw : d.updateWindowDims = [1]) (hiw : d.insertedWindowDims = [0]) (hsd : d.scatterDimsToOperandDims = [0])
    (hiv : d.indexVectorDim = 1) (idx : IVec ⟨2, ![e, 1]⟩ 32) (a : Fin e) (b : Fin k) :
    d.resultIdx? (ix2 a b) idx = (landOf n (idx (ix2 a 0))).map (fun v => ix2 v b) := by
  obtain ⟨uw, iw, sd, iv, wf⟩ := d
  dsimp only at huw hiw hsd hiv
  subst huw hiw hsd hiv
  show (sc2 n e k wf).resultIdx? (ix2 a b) idx = _
  unfold ScatterDims.resultIdx? landOf
  by_cases h : 0 ≤ (idx (ix2 a 0)).toInt ∧ (idx (ix2 a 0)).toInt < n
  · have hall : ∀ c, 0 ≤ (sc2 n e k wf).start (ix2 a b) idx c + (sc2 n e k wf).window (ix2 a b) c ∧
        (sc2 n e k wf).start (ix2 a b) idx c + (sc2 n e k wf).window (ix2 a b) c
          < (⟨2, ![n, k]⟩ : Shape).size c := by
      intro c
      match c with
      | ⟨0, _⟩ =>
        show 0 ≤ (sc2 n e k wf).start (ix2 a b) idx 0 + ((sc2 n e k wf).window (ix2 a b) 0 : ℕ) ∧
          (sc2 n e k wf).start (ix2 a b) idx 0 + ((sc2 n e k wf).window (ix2 a b) 0 : ℕ) < (n : ℤ)
        rw [sc2_start0, sc2_window0]
        simpa using h
      | ⟨1, _⟩ =>
        show 0 ≤ (sc2 n e k wf).start (ix2 a b) idx 1 + ((sc2 n e k wf).window (ix2 a b) 1 : ℕ) ∧
          (sc2 n e k wf).start (ix2 a b) idx 1 + ((sc2 n e k wf).window (ix2 a b) 1 : ℕ) < (k : ℤ)
        rw [sc2_start1, sc2_window1]
        have := b.isLt
        omega
    rw [dif_pos hall, dif_pos h]
    refine congrArg some ?_
    funext c; refine Fin.ext ?_
    match c with
    | ⟨0, _⟩ =>
      show ((sc2 n e k wf).start (ix2 a b) idx 0 + ((sc2 n e k wf).window (ix2 a b) 0 : ℕ)).toNat
        = (idx (ix2 a 0)).toInt.toNat
      rw [sc2_start0, sc2_window0]
      simp
    | ⟨1, _⟩ =>
      show ((sc2 n e k wf).start (ix2 a b) idx 1 + ((sc2 n e k wf).window (ix2 a b) 1 : ℕ)).toNat = b.val
      rw [sc2_start1, sc2_window1]
      simp
  · rw [dif_neg h, dif_neg (fun hall => h (by
      have := hall 0
      rw [sc2_start0, sc2_window0] at this
      simpa using this))]
    rfl

/-- The dimension numbers of a scatter of e update scalars into an n-vector: no window axis, the operand's one
    axis inserted and named by the one-component scatter index. -/
private abbrev sc1 (n e : ℕ) (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

section Sc1
variable {n e : ℕ} (wf : ScatterDims.WF ⟨1, ![n]⟩ ⟨2, ![e, 1]⟩ ⟨1, ![e]⟩ [] [0] [0] 1)
  (idx : IVec ⟨2, ![e, 1]⟩ 32) (a : Fin e)

/-- Update element a reads scatter index a. -/
private theorem sc1_siIdx (c : Fin (sc1 n e wf).scatterDimsToOperandDims.length) :
    (sc1 n e wf).siIdx (ix1 a) c = ix2 a 0 := by
  funext q; refine Fin.ext ?_
  match q with
  | ⟨0, _⟩ => rfl
  | ⟨1, _⟩ =>
    have := c.isLt
    show c.val = 0
    simpa using this

/-- On the operand's axis the window starts at the scatter index, read signed. -/
private theorem sc1_start0 : (sc1 n e wf).start (ix1 a) idx 0 = (idx (ix2 a 0)).toInt := by
  unfold ScatterDims.start
  rw [dif_pos (List.mem_singleton.mpr rfl), sc1_siIdx]

/-- The inserted axis has window coordinate 0. -/
private theorem sc1_window0 : (sc1 n e wf).window (ix1 a) 0 = 0 := by
  unfold ScatterDims.window
  rw [dif_neg (fun h => (of_decide_eq_true (List.mem_filter.mp h).2) (List.mem_singleton.mpr rfl))]

end Sc1

/-- WHERE AN UPDATE SCALAR LANDS: update element a of a scatter into an n-vector lands on operand element v, the
    position scatter index a names, when that index read signed lies in [0, n); it is dropped otherwise. -/
theorem scatter1_resultIdx {n e : ℕ} (d : ScatterDims ⟨1, ![n]⟩ ⟨2, ![e, 1]⟩ ⟨1, ![e]⟩)
    (huw : d.updateWindowDims = []) (hiw : d.insertedWindowDims = [0]) (hsd : d.scatterDimsToOperandDims = [0])
    (hiv : d.indexVectorDim = 1) (idx : IVec ⟨2, ![e, 1]⟩ 32) (a : Fin e) :
    d.resultIdx? (ix1 a) idx = (landOf n (idx (ix2 a 0))).map ix1 := by
  obtain ⟨uw, iw, sd, iv, wf⟩ := d
  dsimp only at huw hiw hsd hiv
  subst huw hiw hsd hiv
  show (sc1 n e wf).resultIdx? (ix1 a) idx = _
  unfold ScatterDims.resultIdx? landOf
  by_cases h : 0 ≤ (idx (ix2 a 0)).toInt ∧ (idx (ix2 a 0)).toInt < n
  · have hall : ∀ c, 0 ≤ (sc1 n e wf).start (ix1 a) idx c + (sc1 n e wf).window (ix1 a) c ∧
        (sc1 n e wf).start (ix1 a) idx c + (sc1 n e wf).window (ix1 a) c
          < (⟨1, ![n]⟩ : Shape).size c := by
      intro c
      match c with
      | ⟨0, _⟩ =>
        show 0 ≤ (sc1 n e wf).start (ix1 a) idx 0 + ((sc1 n e wf).window (ix1 a) 0 : ℕ) ∧
          (sc1 n e wf).start (ix1 a) idx 0 + ((sc1 n e wf).window (ix1 a) 0 : ℕ) < (n : ℤ)
        rw [sc1_start0, sc1_window0]
        simpa using h
    rw [dif_pos hall, dif_pos h]
    refine congrArg some ?_
    funext c; refine Fin.ext ?_
    match c with
    | ⟨0, _⟩ =>
      show ((sc1 n e wf).start (ix1 a) idx 0 + ((sc1 n e wf).window (ix1 a) 0 : ℕ)).toNat
        = (idx (ix2 a 0)).toInt.toNat
      rw [sc1_start0, sc1_window0]
      simp
  · rw [dif_neg h, dif_neg (fun hall => h (by
      have := hall 0
      rw [sc1_start0, sc1_window0] at this
      simpa using this))]
    rfl

/-! ## The accumulating scatter at an index -/

/-- Two rank-2 indices agree exactly when their coordinates do. -/
private theorem ix2_eq_iff {n0 n1 : ℕ} (a a' : Fin n0) (b b' : Fin n1) :
    ix2 a b = ix2 a' b' ↔ a = a' ∧ b = b' := by
  constructor
  · intro h; exact ⟨congrFun h 0, congrFun h 1⟩
  · rintro ⟨rfl, rfl⟩; rfl

/-- Two rank-1 indices agree exactly when their coordinates do. -/
private theorem ix1_eq_iff {n0 : ℕ} (a a' : Fin n0) : ix1 a = ix1 a' ↔ a = a' := by
  constructor
  · intro h; exact congrFun h 0
  · rintro rfl; rfl

/-- A rank-1 index set is its coordinate range … -/
private def idxEquiv1 {n0 : ℕ} : (⟨1, ![n0]⟩ : Shape).Idx ≃ Fin n0 where
  toFun i := i 0
  invFun a := ix1 a
  left_inv i := (eq_ix1 i).symm
  right_inv _ := rfl

/-- … so a sum over it is the sum over the coordinate. -/
private theorem sum_idx1 {M : Type*} [AddCommMonoid M] {n0 : ℕ} (f : (⟨1, ![n0]⟩ : Shape).Idx → M) :
    ∑ i, f i = ∑ a : Fin n0, f (ix1 a) := by
  rw [← Equiv.sum_comp (idxEquiv1 (n0 := n0)).symm f]
  rfl

/-- THE ACCUMULATING ROW SCATTER AT (v, b), at the ideal values: the operand's element plus the sum, over the
    update rows a whose scatter index read signed is v, of update element (a, b). Rows whose index is negative
    or at least n contribute nothing. -/
theorem scatterAdd2_apply {φ : FTy} {n e k : ℕ} (d : ScatterDims ⟨2, ![n, k]⟩ ⟨2, ![e, 1]⟩ ⟨2, ![e, k]⟩)
    (huw : d.updateWindowDims = [1]) (hiw : d.insertedWindowDims = [0]) (hsd : d.scatterDimsToOperandDims = [0])
    (hiv : d.indexVectorDim = 1) (x : FVec Ideal ⟨2, ![n, k]⟩ φ) (idx : IVec ⟨2, ![e, 1]⟩ 32)
    (upd : FVec Ideal ⟨2, ![e, k]⟩ φ) (v : Fin n) (b : Fin k) :
    Host.scatterAdd (F := Ideal) d x idx upd (ix2 v b)
      = x (ix2 v b) + ∑ a ∈ Finset.univ.filter (fun a : Fin e => landOf n (idx (ix2 a 0)) = some v), upd (ix2 a b) := by
  show Ideal.hostScatterAdd d x idx upd (ix2 v b) = _
  unfold Ideal.hostScatterAdd
  refine congrArg (x (ix2 v b) + ·) ?_
  rw [Finset.sum_filter, Finset.sum_filter, sum_idx2]
  refine Finset.sum_congr rfl (fun a _ => ?_)
  simp only [scatter2_resultIdx d huw hiw hsd hiv]
  cases hL : landOf n (idx (ix2 a 0)) with
  | none => simp
  | some v' =>
    simp only [Option.map_some, Option.some.injEq, ix2_eq_iff]
    by_cases hv : v' = v
    · subst hv; simp
    · simp [hv]

/-- THE ACCUMULATING SCALAR SCATTER AT v, at the ideal values: the operand's element plus the sum, over the
    updates a whose scatter index read signed is v, of update element a. -/
theorem scatterAdd1_apply {φ : FTy} {n e : ℕ} (d : ScatterDims ⟨1, ![n]⟩ ⟨2, ![e, 1]⟩ ⟨1, ![e]⟩)
    (huw : d.updateWindowDims = []) (hiw : d.insertedWindowDims = [0]) (hsd : d.scatterDimsToOperandDims = [0])
    (hiv : d.indexVectorDim = 1) (x : FVec Ideal ⟨1, ![n]⟩ φ) (idx : IVec ⟨2, ![e, 1]⟩ 32)
    (upd : FVec Ideal ⟨1, ![e]⟩ φ) (v : Fin n) :
    Host.scatterAdd (F := Ideal) d x idx upd (ix1 v)
      = x (ix1 v) + ∑ a ∈ Finset.univ.filter (fun a : Fin e => landOf n (idx (ix2 a 0)) = some v), upd (ix1 a) := by
  show Ideal.hostScatterAdd d x idx upd (ix1 v) = _
  unfold Ideal.hostScatterAdd
  refine congrArg (x (ix1 v) + ·) ?_
  rw [Finset.sum_filter, Finset.sum_filter, sum_idx1]
  refine Finset.sum_congr rfl (fun a _ => ?_)
  simp only [scatter1_resultIdx d huw hiw hsd hiv]
  cases hL : landOf n (idx (ix2 a 0)) with
  | none => simp
  | some v' => simp [ix1_eq_iff]

/-! ## The vocabulary of the two programs' edge lists -/

/-- A source index counted from the end when negative: 100000 is added to it (the programs' select (cmpi slt s 0) (addi s 100000) s, read at one entry). -/
def wrapWord (s : BitVec 32) : BitVec 32 := Scalar.select (IntOp.cmpi .slt s 0#32) (IntOp.addi s 100000#32) s
/-- The row of the feature table an edge gathers: its wrapped source, clamped into the table. -/
def srcRow (e : (⟨2, ![2, 800000]⟩ : Shape).Idx → BitVec 32) (a : Fin 800000) : Fin 100000 := rowOf 100000 (by decide) (wrapWord (e (ix2 0 a)))
/-- The edges whose destination is node v (an edge whose destination is no node lands nowhere). -/
def inbox (e : (⟨2, ![2, 800000]⟩ : Shape).Idx → BitVec 32) (v : Fin 100000) : Finset (Fin 800000) := Finset.univ.filter (fun a => landOf 100000 (e (ix2 1 a)) = some v)
/-- The in-degree of v clipped below at one, as the programs compute it: max (0 + Σ over the inbox of 1) 1, the literals as their float words. -/
def degAt (e : (⟨2, ![2, 800000]⟩ : Shape).Idx → BitVec 32) (v : Fin 100000) : EReal := max (Ideal.ofBits .f32 0x00000000#32 + ∑ _a ∈ inbox e v, Ideal.ofBits .f32 0x3F800000#32) (Ideal.ofBits .f32 0x3F800000#32)

end Cert.Lib

end
-- ==== Proof.LibLayerAlgebra.lean ====
/-
  The layer algebra over the extended reals, for real-valued data. An extended real "is a real" when it is the coercion of
  one; sums, products, differences, and quotients by a nonzero real of such are such. A node's clipped in-degree is a real
  at least one. A relation's term of a layer, at one node and one output column: the sum over the node's inbox of the
  gathered rows, times the reciprocal of the clipped in-degree, then multiplied on the right by a weight column and summed
  over the features, is the inbox's sum of the rows' products with the column, divided by the clipped in-degree.
-/
import proofs.«169502_j41412074668235_1_alg».proof.Proof.LibRealAlgebra
import proofs.«169502_j41412074668235_1_alg».proof.Proof.LibGatherScatter

noncomputable section

namespace Cert.Lib

open Idealize.ShloMosaic Idealize.ShloMosaic.ValueIdx

/-- An extended real that is the coercion of a real. -/
def IsReal (x : EReal) : Prop := ∃ r : ℝ, x = (r : EReal)

theorem IsReal.coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))
theorem IsReal.div {x : EReal} (hx : IsReal x) {y : ℝ} (hy : y ≠ 0) : IsReal (Ideal.div x (y : EReal)) := by
  obtain ⟨a, rfl⟩ := hx; exact ⟨a / y, div_coe_coe a y hy⟩

/-- Adding one `n` times gives the real `n`. -/
theorem nsmul_one_coe (n : ℕ) : n • (1 : EReal) = ((n : ℝ) : EReal) := by
  induction n with
  | zero => simp
  | succ n ih => rw [succ_nsmul, ih, Nat.cast_succ, EReal.coe_add]; rfl

/-- The clipped in-degree is a real, and at least one: the maximum of a count and one. -/
theorem degAt_real (e : (⟨2, ![2, 800000]⟩ : Shape).Idx → BitVec 32) (v : Fin 100000) :
    ∃ r : ℝ, 1 ≤ r ∧ degAt e v = (r : EReal) := by
  refine ⟨max ((inbox e v).card : ℝ) 1, le_max_right _ _, ?_⟩
  unfold degAt
  rw [ofBits_zero, ofBits_one, zero_add, Finset.sum_const, nsmul_one_coe,
    show (1 : EReal) = ((1 : ℝ) : EReal) from rfl]
  exact (EReal.coe_strictMono.monotone.map_max).symm

/-- The mean of gathered rows, then the weights, is the inbox's sum of products divided by the count. -/
theorem rel_term {K : Type*} [Fintype K] (S : Finset (Fin 800000)) (X : Fin 800000 → K → EReal) (W : K → EReal) (c : EReal)
    (hX : ∀ a k, IsReal (X a k)) (hW : ∀ k, IsReal (W k)) (hc : ∃ r : ℝ, 1 ≤ r ∧ c = (r : EReal)) :
    (∑ k, ((Ideal.ofBits .f32 0x00000000#32 + ∑ a ∈ S, X a k) * Ideal.div (Ideal.ofBits .f32 0x3F800000#32) c) * W k)
      = Ideal.div (Ideal.ofBits .f32 0x00000000#32 + ∑ a ∈ S, ∑ k, X a k * W k) c := by
  obtain ⟨c', hc1, rfl⟩ := hc
  have hc0 : c' ≠ 0 := by linarith
  choose X' hX' using hX
  choose W' hW' using hW
  simp only [hX', hW', ofBits_zero, ofBits_one, zero_add]
  rw [show (1 : EReal) = ((1 : ℝ) : EReal) from rfl, div_coe_coe 1 c' hc0]
  simp only [← EReal.coe_mul, coe_sum]
  rw [div_coe_coe _ c' hc0, mean_then_weights_real S X' W' c' hc0]

end Cert.Lib

end
-- ==== Proof.LibNormAlgebra.lean ====
/-
  The scalar algebra of a column normalisation over the extended reals, for real-valued data: the mean of a column and
  its variance in two spellings (mean square less squared mean; mean squared deviation), which agree and give a
  nonnegative real; the reciprocal square root of a nonnegative real plus a positive constant is a positive real; the
  normalised, scaled and shifted entry is real, and so is its exponential linear unit; and two spellings of the
  exponential linear unit agree at every extended real.
-/
import proofs.«169502_j41412074668235_1_alg».proof.Proof.LibLayerAlgebra

noncomputable section

namespace Cert.Lib

open Idealize.ShloMosaic
open scoped BigOperators

local notation "Zw" => Ideal.ofBits FTy.f32 0x00000000#32
local notation "Nw" => Ideal.ofBits FTy.f32 0x47C35000#32
local notation "εw" => Ideal.ofBits FTy.f32 0x3727C5AC#32
local notation "Ow" => Ideal.ofBits FTy.f32 0x3F800000#32
-- the count less the correction, which is the integer word zero read as a float
local notation "Dw" => (Ideal.ofBits FTy.f32 0x47C35000#32 - FloatOps.sitofp (F := Ideal) FTy.f32 (0#32 : BitVec 32))

/-! ## The mean -/

/-- A sum divided by the count, with or without a leading zero. -/
theorem mean_eq (h : Fin 100000 → EReal) : Ideal.div (∑ v, h v) Nw = Ideal.div (Zw + ∑ v, h v) Nw := by
  rw [ofBits_zero, zero_add]

/-- The mean of real entries, as a real. -/
theorem mean_val (h' : Fin 100000 → ℝ) :
    Ideal.div (Zw + ∑ v, (h' v : EReal)) Nw = (((∑ v, h' v) / 100000 : ℝ) : EReal) := by
  rw [ofBits_zero, zero_add, ofBits_1e5, coe_sum, div_coe_coe _ _ (by norm_num)]

/-- The mean of real entries is real. -/
theorem mean_isReal (h : Fin 100000 → EReal) (hh : ∀ v, IsReal (h v)) : IsReal (Ideal.div (Zw + ∑ v, h v) Nw) := by
  rw [ofBits_zero, zero_add, ofBits_1e5]
  exact (IsReal.sum _ fun v _ => hh v).div (by norm_num)

/-! ## The variance's divisor -/

/-- The count less a zero correction is the real 100000. -/
theorem refDivisor_eq : Dw = ((100000 : ℝ) : EReal) := by
  show Ideal.ofBits .f32 0x47C35000#32 - (((0#32 : BitVec 32).toInt : ℝ) : EReal) = _
  rw [ofBits_1e5]
  simp

/-- The divisor is positive: the guard of the variance holds. -/
theorem refGuard : FloatOps.cmpf (F := Ideal) (φ := .f32) .ogt Dw Zw = 1#1 := by
  rw [refDivisor_eq, ofBits_zero]
  show BitVec.ofBool (decide ((0 : EReal) < ((100000 : ℝ) : EReal))) = 1#1
  have h : (0 : EReal) < ((100000 : ℝ) : EReal) := by exact_mod_cast (by norm_num : (0 : ℝ) < 100000)
  simp [h]

/-! ## The variance -/

/-- The mean square less the squared mean is the mean squared deviation from the mean, on real entries. -/
theorem var_eq (h : Fin 100000 → EReal) (hh : ∀ v, IsReal (h v)) :
    Ideal.div (∑ v, h v * h v) Nw - Ideal.div (∑ v, h v) Nw * Ideal.div (∑ v, h v) Nw
      = Ideal.div (Zw + ∑ v, (h v - Ideal.div (Zw + ∑ u, h u) Nw) * (h v - Ideal.div (Zw + ∑ u, h u) Nw)) Dw := by
  choose h' hh' using hh
  have e : h = fun v => (h' v : EReal) := funext hh'
  subst e
  have hN : (100000 : ℝ) ≠ 0 := by norm_num
  rw [refDivisor_eq, mean_val, ofBits_zero, zero_add, ofBits_1e5]
  have hQ : ∑ v, ((h' v : EReal) * (h' v : EReal)) = ((∑ v, h' v * h' v : ℝ) : EReal) := by
    rw [← coe_sum]; exact Finset.sum_congr rfl fun v _ => (EReal.coe_mul _ _).symm
  have hD : ∑ v, (((h' v : EReal) - (((∑ u, h' u) / 100000 : ℝ) : EReal)) * ((h' v : EReal) - (((∑ u, h' u) / 100000 : ℝ) : EReal)))
      = ((∑ v, (h' v - (∑ u, h' u) / 100000) * (h' v - (∑ u, h' u) / 100000) : ℝ) : EReal) := by
    rw [← coe_sum]
    exact Finset.sum_congr rfl fun v _ => by rw [← EReal.coe_sub, ← EReal.coe_mul]
  rw [hQ, hD, coe_sum, div_coe_coe _ _ hN, div_coe_coe _ _ hN, div_coe_coe _ _ hN, ← EReal.coe_mul, ← EReal.coe_sub,
    var_real h' 100000 hN (by simp)]

/-- The variance of real entries is a nonnegative real. -/
theorem var_nonneg_real (h : Fin 100000 → EReal) (hh : ∀ v, IsReal (h v)) :
    ∃ r : ℝ, 0 ≤ r ∧
      Ideal.div (Zw + ∑ v, (h v - Ideal.div (Zw + ∑ u, h u) Nw) * (h v - Ideal.div (Zw + ∑ u, h u) Nw)) Dw = (r : EReal) := by
  choose h' hh' using hh
  have e : h = fun v => (h' v : EReal) := funext hh'
  subst e
  have hN : (100000 : ℝ) ≠ 0 := by norm_num
  refine ⟨(∑ v, (h' v - (∑ u, h' u) / 100000) * (h' v - (∑ u, h' u) / 100000)) / 100000,
    div_nonneg (Finset.sum_nonneg fun v _ => mul_self_nonneg _) (by norm_num), ?_⟩
  rw [refDivisor_eq, mean_val, ofBits_zero, zero_add]
  have hD : ∑ v, (((h' v : EReal) - (((∑ u, h' u) / 100000 : ℝ) : EReal)) * ((h' v : EReal) - (((∑ u, h' u) / 100000 : ℝ) : EReal)))
      = ((∑ v, (h' v - (∑ u, h' u) / 100000) * (h' v - (∑ u, h' u) / 100000) : ℝ) : EReal) := by
    rw [← coe_sum]
    exact Finset.sum_congr rfl fun v _ => by rw [← EReal.coe_sub, ← EReal.coe_mul]
  rw [hD, div_coe_coe _ _ hN]

/-! ## The normalised entry -/

/-- The reciprocal square root of a nonnegative real plus the small constant is a positive real. -/
theorem rsqrt_real (r : ℝ) (hr : 0 ≤ r) :
    ∃ s : ℝ, 0 < s ∧ FloatOps.rsqrt (F := Ideal) (φ := .f32) ((r : EReal) + εw) = (s : EReal) := by
  obtain ⟨e, he0, he⟩ := ofBits_eps
  have hpos : 0 < r + e := by linarith
  refine ⟨(Real.sqrt (r + e))⁻¹, inv_pos.mpr (Real.sqrt_pos.mpr hpos), ?_⟩
  rw [he, ← EReal.coe_add]
  show Ideal.rsqrt ((r + e : ℝ) : EReal) = _
  rw [Ideal.rsqrt_coe, if_neg (not_lt.mpr hpos.le), if_neg hpos.ne']

/-- The scale times the entry less the mean, times the reciprocal square root of the variance plus the small constant,
    plus the shift. -/
def normAt (x mu var gamma beta : EReal) : EReal :=
  ((gamma * (x - mu)) * FloatOps.rsqrt (F := Ideal) (φ := .f32) (var + εw)) + beta

/-- The exponential linear unit: the entry where it is positive, else its exponential less one. -/
def eluAt (y : EReal) : EReal :=
  Scalar.select (FloatOps.cmpf (F := Ideal) (φ := .f32) .ogt y Zw) y (FloatOps.exp (F := Ideal) (φ := .f32) y - Ow)

/-- The normalised entry of real data, at a nonnegative real variance, is real. -/
theorem normAt_isReal {x mu var gamma beta : EReal} (hx : IsReal x) (hmu : IsReal mu) (hg : IsReal gamma) (hb : IsReal beta)
    (hvar : ∃ r : ℝ, 0 ≤ r ∧ var = (r : EReal)) : IsReal (normAt x mu var gamma beta) := by
  obtain ⟨r, hr, rfl⟩ := hvar
  obtain ⟨s, -, hs⟩ := rsqrt_real r hr
  unfold normAt
  rw [hs]
  exact ((hg.mul (hx.sub hmu)).mul (IsReal.coe s)).add hb

/-- The exponential linear unit of a real is real. -/
theorem eluAt_isReal {y : EReal} (hy : IsReal y) : IsReal (eluAt y) := by
  obtain ⟨a, rfl⟩ := hy
  unfold eluAt Scalar.select
  split
  · exact IsReal.coe a
  · rw [ofBits_one]
    show IsReal (Ideal.exp (a : EReal) - 1)
    rw [Ideal.exp_coe]
    exact (IsReal.coe _).sub isReal_one

/-- The normalised entry's exponential linear unit, on real data at a nonnegative real variance, is real. -/
theorem bnElu_isReal {x mu var gamma beta : EReal} (hx : IsReal x) (hmu : IsReal mu) (hg : IsReal gamma) (hb : IsReal beta)
    (hvar : ∃ r : ℝ, 0 ≤ r ∧ var = (r : EReal)) : IsReal (eluAt (normAt x mu var gamma beta)) :=
  eluAt_isReal (normAt_isReal hx hmu hg hb hvar)

/-! ## Two spellings of the exponential linear unit -/

/-- The entry where it is positive, else one times the exponential less one of the entry (taken at zero where the entry
    is positive). -/
def eluRefAt (y : EReal) : EReal :=
  Scalar.select (FloatOps.cmpf (F := Ideal) (φ := .f32) .ogt y Zw) y
    (Ow * FloatOps.hostUnary (F := Ideal) (φ := .f32) .expm1
      (Scalar.select (FloatOps.cmpf (F := Ideal) (φ := .f32) .ogt y Zw) Zw y))

/-- The two spellings agree at every extended real. -/
theorem elu_eq (y : EReal) :
    Scalar.select (FloatOps.cmpf (F := Ideal) (φ := .f32) .ogt y Zw) y (FloatOps.exp (F := Ideal) (φ := .f32) y - Ow) = eluRefAt y := by
  unfold eluRefAt Scalar.select
  by_cases hc : FloatOps.cmpf (F := Ideal) (φ := .f32) .ogt y Zw = 1
  · rw [if_pos hc, if_pos hc]
  · rw [if_neg hc, if_neg hc, if_neg hc, ofBits_one, one_mul]
    rfl

/-- The same, for the named form. -/
theorem eluAt_eq (y : EReal) : eluAt y = eluRefAt y := elu_eq y

end Cert.Lib

end
-- ==== Proof.KI.MidBridge.lean ====
/-
  The kernel's middle section at an index, at the ideal values: the column statistics the host computes between the
  second and third regions from the column sums and sums of squares (the mean; the mean square less the squared mean),
  and the third region's normalisation followed by the exponential linear unit, read entry by entry in the spelling of the
  scalar algebra of a column normalisation.
-/
import proofs.«169502_j41412074668235_1_alg».proof.Proof.KI.Value1
import proofs.«169502_j41412074668235_1_alg».proof.Proof.KI.Value2
import proofs.«169502_j41412074668235_1_alg».proof.Proof.LibNormAlgebra
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.ValueIdx
open scoped BigOperators

local notation "Zw" => Ideal.ofBits FTy.f32 0x00000000#32
local notation "Nw" => Ideal.ofBits FTy.f32 0x47C35000#32
local notation "Dw" => (Ideal.ofBits FTy.f32 0x47C35000#32 - FloatOps.sitofp (F := Ideal) FTy.f32 (0#32 : BitVec 32))

/-! ## The column statistics -/

/-- The splat of the count over a one-row table reads the count. -/
theorem countSplat_apply (z : S1x128.Idx) :
    broadcastInDim S1x128 ![] bcast_S_S1x128 (constant (F := Ideal) S_ .f32 0x47C35000#32) z = Nw :=
  (broadcastInDim_apply ![] bcast_S_S1x128 (constant (F := Ideal) S_ .f32 0x47C35000#32) z ix0 (fun a => a.elim0)).trans rfl

/-- The column means: the column sums divided by the count. -/
def muK (h : FVec Ideal S100000x128 .f32) : FVec Ideal S1x128 .f32 :=
  Host.divf (colSum h) (broadcastInDim S1x128 ![] bcast_S_S1x128 (constant (F := Ideal) S_ .f32 0x47C35000#32))

/-- The column variances: the mean squares less the squared means. -/
def varK (h : FVec Ideal S100000x128 .f32) : FVec Ideal S1x128 .f32 :=
  subf (Host.divf (colSumSq h) (broadcastInDim S1x128 ![] bcast_S_S1x128 (constant (F := Ideal) S_ .f32 0x47C35000#32)))
    (mulf (muK h) (muK h))

theorem muK_apply (h : FVec Ideal S100000x128 .f32) (j : Fin 128) :
    muK h (ix2 0 j) = Ideal.div (∑ v : Fin 100000, h (ix2 v j)) Nw := by
  unfold muK Host.divf
  show Ideal.div (colSum h (ix2 0 j)) (broadcastInDim S1x128 ![] bcast_S_S1x128 (constant (F := Ideal) S_ .f32 0x47C35000#32) (ix2 0 j)) = _
  rw [countSplat_apply]
  unfold colSum
  rfl

theorem varK_apply (h : FVec Ideal S100000x128 .f32) (j : Fin 128) :
    varK h (ix2 0 j) = Ideal.div (∑ v : Fin 100000, h (ix2 v j) * h (ix2 v j)) Nw
      - Ideal.div (∑ v : Fin 100000, h (ix2 v j)) Nw * Ideal.div (∑ v : Fin 100000, h (ix2 v j)) Nw := by
  unfold varK Host.divf
  show Ideal.div (colSumSq h (ix2 0 j)) (broadcastInDim S1x128 ![] bcast_S_S1x128 (constant (F := Ideal) S_ .f32 0x47C35000#32) (ix2 0 j))
      - muK h (ix2 0 j) * muK h (ix2 0 j) = _
  rw [countSplat_apply, muK_apply]
  unfold colSumSq
  rfl

/-! ## The normalisation and the unit, entry by entry -/

/-- The kernel's mean of a real column is the mean with a leading zero. -/
theorem colMean_eq (h : FVec Ideal S100000x128 .f32) (j : Fin 128) :
    Ideal.div (∑ u : Fin 100000, h (ix2 u j)) Nw = Ideal.div (Zw + ∑ u : Fin 100000, h (ix2 u j)) Nw :=
  Cert.Lib.mean_eq fun u => h (ix2 u j)

/-- The kernel's variance of a real column is the mean squared deviation from the mean. -/
theorem colVar_eq (h : FVec Ideal S100000x128 .f32) (hh : ∀ i, Cert.Lib.IsReal (h i)) (j : Fin 128) :
    Ideal.div (∑ u : Fin 100000, h (ix2 u j) * h (ix2 u j)) Nw
        - Ideal.div (∑ u : Fin 100000, h (ix2 u j)) Nw * Ideal.div (∑ u : Fin 100000, h (ix2 u j)) Nw
      = Ideal.div (Zw + ∑ u : Fin 100000, (h (ix2 u j) - Ideal.div (Zw + ∑ t : Fin 100000, h (ix2 t j)) Nw)
          * (h (ix2 u j) - Ideal.div (Zw + ∑ t : Fin 100000, h (ix2 t j)) Nw)) Dw :=
  Cert.Lib.var_eq (fun u => h (ix2 u j)) fun u => hh (ix2 u j)

/-- THE MIDDLE, entry `(v, j)`: the exponential linear unit of the normalised entry, the column's mean and variance in
    the mean-squared-deviation spelling. -/
theorem kernel_mid_apply (h : FVec Ideal S100000x128 .f32) (γ β : FVec Ideal S128 .f32) (hh : ∀ i, Cert.Lib.IsReal (h i))
    (v : Fin 100000) (j : Fin 128) :
    bnElu h (muK h) (varK h) γ β (ix2 v j)
      = Cert.Lib.eluRefAt (Cert.Lib.normAt (h (ix2 v j)) (Ideal.div (Zw + ∑ u : Fin 100000, h (ix2 u j)) Nw)
          (Ideal.div (Zw + ∑ u : Fin 100000, (h (ix2 u j) - Ideal.div (Zw + ∑ t : Fin 100000, h (ix2 t j)) Nw)
            * (h (ix2 u j) - Ideal.div (Zw + ∑ t : Fin 100000, h (ix2 t j)) Nw)) Dw)
          (γ (ix1 j)) (β (ix1 j))) := by
  show bnEluAt (h (ix2 v j)) (muK h (ix2 0 j)) (varK h (ix2 0 j)) (γ (ix1 j)) (β (ix1 j)) = _
  rw [muK_apply, varK_apply, colVar_eq h hh j, colMean_eq h j]
  exact Cert.Lib.eluAt_eq _

/-- THE MIDDLE of real data is real, entry by entry. -/
theorem kernel_mid_isReal (h : FVec Ideal S100000x128 .f32) (γ β : FVec Ideal S128 .f32) (hh : ∀ i, Cert.Lib.IsReal (h i))
    (hγ : ∀ i, Cert.Lib.IsReal (γ i)) (hβ : ∀ i, Cert.Lib.IsReal (β i)) (i : S100000x128.Idx) :
    Cert.Lib.IsReal (bnElu h (muK h) (varK h) γ β i) := by
  obtain ⟨v, j, rfl⟩ : ∃ (v : Fin 100000) (j : Fin 128), i = ix2 v j := ⟨i 0, i 1, eq_ix2 i⟩
  show Cert.Lib.IsReal (Cert.Lib.eluAt (Cert.Lib.normAt (h (ix2 v j)) (muK h (ix2 0 j)) (varK h (ix2 0 j)) (γ (ix1 j)) (β (ix1 j))))
  refine Cert.Lib.bnElu_isReal (hh _) ?_ (hγ _) (hβ _) ?_
  · rw [muK_apply, colMean_eq h j]
    exact Cert.Lib.mean_isReal (fun u => h (ix2 u j)) fun u => hh (ix2 u j)
  · rw [varK_apply, colVar_eq h hh j]
    exact Cert.Lib.var_nonneg_real (fun u => h (ix2 u j)) fun u => hh (ix2 u j)

end Cert.KernelIdeal.HandValue

end
-- ==== Proof.KI.Composite.lean ====
/-
  The kernel program's result array as a composition: the second layer's dense part, applied to the normalised features
  and their aggregates; the normalised features the batch-normalisation and unit of the first layer's output with the
  kernel's column statistics; the first layer's output the dense part of the input features and their aggregates.
-/
import proofs.«169502_j41412074668235_1_alg».proof.Proof.KI.Chain
import proofs.«169502_j41412074668235_1_alg».proof.Proof.KI.Value0
import proofs.«169502_j41412074668235_1_alg».proof.Proof.KI.Value1
import proofs.«169502_j41412074668235_1_alg».proof.Proof.KI.Value2
import proofs.«169502_j41412074668235_1_alg».proof.Proof.KI.Value3
import proofs.«169502_j41412074668235_1_alg».proof.Proof.KI.MidBridge

noncomputable section

namespace Cert.KernelIdeal.HandValue

open Cert.KernelIdeal Cert.KernelIdeal.Gen Cert.KernelIdeal.Hand Idealize.ShloMosaic Idealize.ShloMosaic.TcCoe Idealize.SL.Sem Idealize.ShloMosaic.ValueIdx

variable (m : (ℓ : Loc nD τ sig) → Buf (Elt Ideal) ℓ) (ρ : Dev nD → PrngReg)

/-- The first layer's output array, as the second and third regions find it. -/
theorem h1_eq (c : Dev nD) (X97 : FVec Ideal S100000x256 .f32) (h97 : V1 m ρ c main_v97 = X97) :
    (dat0 (F := Ideal) (V1 m ρ) c).arrAt 5 cfg0.N = lin0 (m ((c : Thread nD τ).loc main_arg4)) X97 (m ((c : Thread nD τ).loc main_arg6)) (m ((c : Thread nD τ).loc main_arg5)) (m ((c : Thread nD τ).loc main_arg7)) := by
  rw [final0 (V1 m ρ) c, h97, V1_arg4, V1_arg5, V1_arg6, V1_arg7]

/-- The normalised features, as the last stretch and the last region find them. -/
theorem h1n_eq (c : Dev nD) (X97 : FVec Ideal S100000x256 .f32) (h97 : V1 m ρ c main_v97 = X97) :
    (dat2 (F := Ideal) (V4 m ρ) c).arrAt 5 cfg2.N
      = bnElu (lin0 (m ((c : Thread nD τ).loc main_arg4)) X97 (m ((c : Thread nD τ).loc main_arg6)) (m ((c : Thread nD τ).loc main_arg5)) (m ((c : Thread nD τ).loc main_arg7))) (muK (lin0 (m ((c : Thread nD τ).loc main_arg4)) X97 (m ((c : Thread nD τ).loc main_arg6)) (m ((c : Thread nD τ).loc main_arg5)) (m ((c : Thread nD τ).loc main_arg7))))
          (varK (lin0 (m ((c : Thread nD τ).loc main_arg4)) X97 (m ((c : Thread nD τ).loc main_arg6)) (m ((c : Thread nD τ).loc main_arg5)) (m ((c : Thread nD τ).loc main_arg7)))) (m ((c : Thread nD τ).loc main_arg8)) (m ((c : Thread nD τ).loc main_arg9)) := by
  rw [final2 (V4 m ρ) c, V4_v98, V4_v101, V4_v105, W3_v99_0, W3_v99_1, final1_sum (V2 m ρ) c, final1_sumsq (V2 m ρ) c,
    V2_v98, h1_eq m ρ c X97 h97, V4_arg8, V4_arg9]
  rfl

/-- The result array, from the arguments and the two aggregate tables. -/
theorem result_eq (c : Dev nD) (X97 : FVec Ideal S100000x256 .f32) (h97 : V1 m ρ c main_v97 = X97)
    (X159 : FVec Ideal S100000x512 .f32) (h159 : V6 m ρ c main_v159 = X159) :
    W7 m ρ c (Proc.devRef .tc main_v160)
      = lin1 (bnElu (lin0 (m ((c : Thread nD τ).loc main_arg4)) X97 (m ((c : Thread nD τ).loc main_arg6)) (m ((c : Thread nD τ).loc main_arg5)) (m ((c : Thread nD τ).loc main_arg7))) (muK (lin0 (m ((c : Thread nD τ).loc main_arg4)) X97 (m ((c : Thread nD τ).loc main_arg6)) (m ((c : Thread nD τ).loc main_arg5)) (m ((c : Thread nD τ).loc main_arg7))))
          (varK (lin0 (m ((c : Thread nD τ).loc main_arg4)) X97 (m ((c : Thread nD τ).loc main_arg6)) (m ((c : Thread nD τ).loc main_arg5)) (m ((c : Thread nD τ).loc main_arg7)))) (m ((c : Thread nD τ).loc main_arg8)) (m ((c : Thread nD τ).loc main_arg9))) X159 (m ((c : Thread nD τ).loc main_arg11)) (m ((c : Thread nD τ).loc main_arg10)) (m ((c : Thread nD τ).loc main_arg12)) := by
  rw [W7_v160, final3 (V6 m ρ) c, h159, V6_v106, h1n_eq m ρ c X97 h97, V6_arg10, V6_arg11, V6_arg12]

end Cert.KernelIdeal.HandValue

end
-- ==== Proof.KI.HostRead.lean ====
/-
  The two stretches of host operations of the kernel's program that prepare the regions' aggregates, read as named
  functions of arrays. For each of the four relations: the edge table's two rows are the edges' source and destination
  nodes; a negative source counts from the end; each node's in-degree is a one scattered per incoming edge, clipped
  below at one, and inverted; the relation's aggregate is the source nodes' feature rows gathered per edge and summed by
  destination, times the reciprocal clipped in-degree. The four aggregates lie side by side along the columns. The
  first stretch does this for the argument features (64 columns); the last for the normalised features (128 columns),
  reading again the edge columns and reciprocal in-degrees the first stretch left.

  Then, at the exact values, the aggregates read at an index: column group r of node v's row is relation r's
  (zero word + the sum, over the edges whose destination is v, of the source node's feature) times the reciprocal of the
  in-degree clipped below at one; and every entry is a real when every feature is.
-/
import proofs.«169502_j41412074668235_1_alg».proof.Proof.KI.Chain
import proofs.«169502_j41412074668235_1_alg».proof.Proof.LibGatherScatter
import proofs.«169502_j41412074668235_1_alg».proof.Proof.LibLayerAlgebra
import Idealize.ShloMosaic.Lib.StableHlo
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-! ## Edges -/

/-- Row 0 of an edge table: each edge's source node. -/
def srcOf (e : IVec S2x800000 32) : IVec S800000 32 :=
  shapeCast S800000 (extractStridedSlice S1x800000 ![0, 0] e slices_S2x800000_S1x800000_0_0) shapeCasts_S1x800000_S800000

/-- Row 1 of an edge table: each edge's destination node. -/
def dstOf (e : IVec S2x800000 32) : IVec S800000 32 :=
  shapeCast S800000 (extractStridedSlice S1x800000 ![1, 0] e slices_S2x800000_S1x800000_1_0) shapeCasts_S1x800000_S800000

/-- A node index counted from the end when negative: 100000 is added to it. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 100000#32))) s

/-- An index vector as a one-column index table. -/
def col (s : IVec S800000 32) : IVec S800000x1 32 := broadcastInDim S800000x1 ![0] bcast_S800000_S800000x1_0 s

/-- The reciprocal of each node's number of incoming edges (a one scattered per edge by destination), the number
    clipped below at one. -/
def invDeg (d : IVec S800000 32) : FVec F S100000 .f32 :=
  Host.divf (broadcastInDim S100000 ![] bcast_S_S100000 (constant S_ .f32 0x3F800000#32))
    (maximumf
      (Host.scatterAdd scatter_S100000_S800000x1_S800000_n_0_0_1
        (broadcastInDim S100000 ![] bcast_S_S100000 (constant S_ .f32 0x00000000#32)) (col d)
        (broadcastInDim S800000 ![] bcast_S_S800000 (constant S_ .f32 0x3F800000#32)))
      (broadcastInDim S100000 ![] bcast_S_S100000 (constant S_ .f32 0x3F800000#32)))

/-! ## One relation's aggregate: per node, the mean of its incoming edges' source features -/

/-- Over 64 feature columns: the sources' rows gathered per edge, summed by destination, times the reciprocal
    clipped in-degree on every column. -/
def aggRel0 (e : IVec S2x800000 32) (x : FVec F S100000x64 .f32) : FVec F S100000x64 .f32 :=
  mulf
    (Host.scatterAdd scatter_S100000x64_S800000x1_S800000x64_1_0_0_1
      (broadcastInDim S100000x64 ![] bcast_S_S100000x64 (constant S_ .f32 0x00000000#32)) (col (dstOf e))
      (Host.gather gather_S100000x64_S800000x1_S800000x64_1_0_n_n_0_1_164 x (col (wrap (srcOf e)))))
    (broadcastInDim S100000x64 ![0, 1] bcast_S100000x1_S100000x64_0_1
      (broadcastInDim S100000x1 ![0] bcast_S100000_S100000x1_0 (invDeg (dstOf e))))

/-- Over 128 feature columns likewise. -/
def aggRel1 (e : IVec S2x800000 32) (x : FVec F S100000x128 .f32) : FVec F S100000x128 .f32 :=
  mulf
    (Host.scatterAdd scatter_S100000x128_S800000x1_S800000x128_1_0_0_1
      (broadcastInDim S100000x128 ![] bcast_S_S100000x128 (constant S_ .f32 0x00000000#32)) (col (dstOf e))
      (Host.gather gather_S100000x128_S800000x1_S800000x128_1_0_n_n_0_1_1128 x (col (wrap (srcOf e)))))
    (broadcastInDim S100000x128 ![0, 1] bcast_S100000x1_S100000x128_0_1
      (broadcastInDim S100000x1 ![0] bcast_S100000_S100000x1_0 (invDeg (dstOf e))))

/-- The four relations' aggregates side by side along the columns. -/
def aggs0 (e0 e1 e2 e3 : IVec S2x800000 32) (x : FVec F S100000x64 .f32) : FVec F S100000x256 .f32 :=
  concatenate S100000x256 1 [⟨S100000x64, aggRel0 e0 x⟩, ⟨S100000x64, aggRel0 e1 x⟩, ⟨S100000x64, aggRel0 e2 x⟩, ⟨S100000x64, aggRel0 e3 x⟩]
    concatenates_S100000x64_S100000x64_S100000x64_S100000x64_S100000x256_d1

def aggs1 (e0 e1 e2 e3 : IVec S2x800000 32) (x : FVec F S100000x128 .f32) : FVec F S100000x512 .f32 :=
  concatenate S100000x512 1 [⟨S100000x128, aggRel1 e0 x⟩, ⟨S100000x128, aggRel1 e1 x⟩, ⟨S100000x128, aggRel1 e2 x⟩, ⟨S100000x128, aggRel1 e3 x⟩]
    concatenates_S100000x128_S100000x128_S100000x128_S100000x128_S100000x512_d1

/-! ## A concatenate of four operands, from what the valuation holds at each -/

/-- The first stretch's last operation: the four relations' aggregates side by side, from the valuation's contents at
    the four operands. -/
theorem concat0_of (hxs hy) (G : Valuation τ sig (Elt F)) (a0 a1 a2 a3 : FVec F S100000x64 .f32)
    (h0 : G (Proc.devRef .tc main_v57) = a0) (h1 : G (Proc.devRef .tc main_v70) = a1)
    (h2 : G (Proc.devRef .tc main_v83) = a2) (h3 : G (Proc.devRef .tc main_v96) = a3) :
    (StableHlo.nary (τ := τ) ![main_v57, main_v70, main_v83, main_v96] main_v97
      (fun u => concatenate S100000x256 1 [⟨S100000x64, u 0⟩, ⟨S100000x64, u 1⟩, ⟨S100000x64, u 2⟩, ⟨S100000x64, u 3⟩] concatenates_S100000x64_S100000x64_S100000x64_S100000x64_S100000x256_d1)
      hxs hy).result G (Proc.devRef .tc main_v97)
      = concatenate S100000x256 1 [⟨S100000x64, a0⟩, ⟨S100000x64, a1⟩, ⟨S100000x64, a2⟩, ⟨S100000x64, a3⟩] concatenates_S100000x64_S100000x64_S100000x64_S100000x64_S100000x256_d1 := by
  subst h0 h1 h2 h3
  rw [nary4_result]
  rfl

/-- The last stretch's last operation likewise. -/
theorem concat1_of (hxs hy) (G : Valuation τ sig (Elt F)) (a0 a1 a2 a3 : FVec F S100000x128 .f32)
    (h0 : G (Proc.devRef .tc main_v119) = a0) (h1 : G (Proc.devRef .tc main_v132) = a1)
    (h2 : G (Proc.devRef .tc main_v145) = a2) (h3 : G (Proc.devRef .tc main_v158) = a3) :
    (StableHlo.nary (τ := τ) ![main_v119, main_v132, main_v145, main_v158] main_v159
      (fun u => concatenate S100000x512 1 [⟨S100000x128, u 0⟩, ⟨S100000x128, u 1⟩, ⟨S100000x128, u 2⟩, ⟨S100000x128, u 3⟩] concatenates_S100000x128_S100000x128_S100000x128_S100000x128_S100000x512_d1)
      hxs hy).result G (Proc.devRef .tc main_v159)
      = concatenate S100000x512 1 [⟨S100000x128, a0⟩, ⟨S100000x128, a1⟩, ⟨S100000x128, a2⟩, ⟨S100000x128, a3⟩] concatenates_S100000x128_S100000x128_S100000x128_S100000x128_S100000x512_d1 := by
  subst h0 h1 h2 h3
  rw [nary4_result]
  rfl

variable (m : (ℓ : Loc nD τ sig) → Buf (Elt F) ℓ) (ρ : Dev nD → PrngReg)

/-! ## The first stretch -/

set_option maxHeartbeats 40000000 in
/-- The aggregates the first region is entered with: the four relations' means of the argument features. -/
theorem V1_v97 (c : Dev nD) : (V1 m ρ c main_v97 : FVec F S100000x256 .f32)
    = aggs0 (m ((c : Thread nD τ).loc main_arg0)) (m ((c : Thread nD τ).loc main_arg1)) (m ((c : Thread nD τ).loc main_arg2))
        (m ((c : Thread nD τ).loc main_arg3)) (m ((c : Thread nD τ).loc main_arg4)) := by
  show StableHlo.after hostOps0 (W0 m ρ c) (Proc.devRef .tc main_v97) = _
  unfold aggs0
  simp only [after_cons, after_nil]
  refine concat0_of _ _ _ _ _ _ _ ?_ ?_ ?_ ?_
  · after_results_simp
    rfl
  · after_results_simp
    rfl
  · after_results_simp
    rfl
  · after_results_simp
    rfl

/-! ## What the first stretch leaves in the buffers the last stretch reads again -/

set_option maxHeartbeats 40000000 in
theorem W1_v1 (c : Dev nD) : (W1 m ρ c (Proc.devRef .tc main_v1) : IVec S800000 32) = srcOf (m ((c : Thread nD τ).loc main_arg0)) := by
  show StableHlo.after hostOps0 (W0 m ρ c) (Proc.devRef .tc main_v1) = _
  after_results_simp
  rfl
set_option maxHeartbeats 40000000 in
theorem W1_v3 (c : Dev nD) : (W1 m ρ c (Proc.devRef .tc main_v3) : IVec S800000 32) = srcOf (m ((c : Thread nD τ).loc main_arg1)) := by
  show StableHlo.after hostOps0 (W0 m ρ c) (Proc.devRef .tc main_v3) = _
  after_results_simp
  rfl
set_option maxHeartbeats 40000000 in
theorem W1_v5 (c : Dev nD) : (W1 m ρ c (Proc.devRef .tc main_v5) : IVec S800000 32) = srcOf (m ((c : Thread nD τ).loc main_arg2)) := by
  show StableHlo.after hostOps0 (W0 m ρ c) (Proc.devRef .tc main_v5) = _
  after_results_simp
  rfl
set_option maxHeartbeats 40000000 in
theorem W1_v7 (c : Dev nD) : (W1 m ρ c (Proc.devRef .tc main_v7) : IVec S800000 32) = srcOf (m ((c : Thread nD τ).loc main_arg3)) := by
  show StableHlo.after hostOps0 (W0 m ρ c) (Proc.devRef .tc main_v7) = _
  after_results_simp
  rfl
set_option maxHeartbeats 40000000 in
theorem W1_v9 (c : Dev nD) : (W1 m ρ c (Proc.devRef .tc main_v9) : IVec S800000 32) = dstOf (m ((c : Thread nD τ).loc main_arg0)) := by
  show StableHlo.after hostOps0 (W0 m ρ c) (Proc.devRef .tc main_v9) = _
  after_results_simp
  rfl
set_option maxHeartbeats 40000000 in
theorem W1_v11 (c : Dev nD) : (W1 m ρ c (Proc.devRef .tc main_v11) : IVec S800000 32) = dstOf (m ((c : Thread nD τ).loc main_arg1)) := by
  show StableHlo.after hostOps0 (W0 m ρ c) (Proc.devRef .tc main_v11) = _
  after_results_simp
  rfl
set_option maxHeartbeats 40000000 in
theorem W1_v13 (c : Dev nD) : (W1 m ρ c (Proc.devRef .tc main_v13) : IVec S800000 32) = dstOf (m ((c : Thread nD τ).loc main_arg2)) := by
  show StableHlo.after hostOps0 (W0 m ρ c) (Proc.devRef .tc main_v13) = _
  after_results_simp
  rfl
set_option maxHeartbeats 40000000 in
theorem W1_v15 (c : Dev nD) : (W1 m ρ c (Proc.devRef .tc main_v15) : IVec S800000 32) = dstOf (m ((c : Thread nD τ).loc main_arg3)) := by
  show StableHlo.after hostOps0 (W0 m ρ c) (Proc.devRef .tc main_v15) = _
  after_results_simp
  rfl
set_option maxHeartbeats 40000000 in
theorem W1_v23 (c : Dev nD) : (W1 m ρ c (Proc.devRef .tc main_v23) : FVec F S100000 .f32) = invDeg (dstOf (m ((c : Thread nD τ).loc main_arg0))) := by
  show StableHlo.after hostOps0 (W0 m ρ c) (Proc.devRef .tc main_v23) = _
  after_results_simp
  rfl
set_option maxHeartbeats 40000000 in
theorem W1_v30 (c : Dev nD) : (W1 m ρ c (Proc.devRef .tc main_v30) : FVec F S100000 .f32) = invDeg (dstOf (m ((c : Thread nD τ).loc main_arg1))) := by
  show StableHlo.after hostOps0 (W0 m ρ c) (Proc.devRef .tc main_v30) = _
  after_results_simp
  rfl
set_option maxHeartbeats 40000000 in
theorem W1_v37 (c : Dev nD) : (W1 m ρ c (Proc.devRef .tc main_v37) : FVec F S100000 .f32) = invDeg (dstOf (m ((c : Thread nD τ).loc main_arg2))) := by
  show StableHlo.after hostOps0 (W0 m ρ c) (Proc.devRef .tc main_v37) = _
  after_results_simp
  rfl
set_option maxHeartbeats 40000000 in
theorem W1_v44 (c : Dev nD) : (W1 m ρ c (Proc.devRef .tc main_v44) : FVec F S100000 .f32) = invDeg (dstOf (m ((c : Thread nD τ).loc main_arg3))) := by
  show StableHlo.after hostOps0 (W0 m ρ c) (Proc.devRef .tc main_v44) = _
  after_results_simp
  rfl

/-! ## The last stretch -/

set_option maxHeartbeats 40000000 in
/-- The aggregates the last region is entered with: the four relations' means of the normalised features, over the
    same edge columns and reciprocal in-degrees the first stretch computed. -/
theorem V6_v159 (c : Dev nD) : (V6 m ρ c main_v159 : FVec F S100000x512 .f32)
    = aggs1 (m ((c : Thread nD τ).loc main_arg0)) (m ((c : Thread nD τ).loc main_arg1)) (m ((c : Thread nD τ).loc main_arg2))
        (m ((c : Thread nD τ).loc main_arg3)) (V6 m ρ c main_v106) := by
  have h106 : V6 m ρ c main_v106 = W5 m ρ c (Proc.devRef .tc main_v106) :=
    StableHlo.after_of_forall_not_mem (b := Proc.devRef .tc main_v106) _ _ hostOps3_keeps_v106
  rw [h106]
  show StableHlo.after hostOps3 (W5 m ρ c) (Proc.devRef .tc main_v159) = _
  unfold aggs1
  simp only [after_cons, after_nil]
  refine concat1_of _ _ _ _ _ _ _ ?_ ?_ ?_ ?_
  · after_results_simp
    rw [W5_carried m ρ c main_v1 (by decide) (by decide), W5_carried m ρ c main_v9 (by decide) (by decide), W5_carried m ρ c main_v23 (by decide) (by decide),
      W1_v1, W1_v9, W1_v23]
    rfl
  · after_results_simp
    rw [W5_carried m ρ c main_v3 (by decide) (by decide), W5_carried m ρ c main_v11 (by decide) (by decide), W5_carried m ρ c main_v30 (by decide) (by decide),
      W1_v3, W1_v11, W1_v30]
    rfl
  · after_results_simp
    rw [W5_carried m ρ c main_v5 (by decide) (by decide), W5_carried m ρ c main_v13 (by decide) (by decide), W5_carried m ρ c main_v37 (by decide) (by decide),
      W1_v5, W1_v13, W1_v37]
    rfl
  · after_results_simp
    rw [W5_carried m ρ c main_v7 (by decide) (by decide), W5_carried m ρ c main_v15 (by decide) (by decide), W5_carried m ρ c main_v44 (by decide) (by decide),
      W1_v7, W1_v15, W1_v44]
    rfl

/-! # The aggregates read at an index, at the exact values -/

section AtIndex
open Idealize.ShloMosaic.ValueIdx

/-- An edge's source and destination are the edge table's two rows. -/
theorem srcOf_apply (e : IVec S2x800000 32) (a : Fin 800000) : srcOf e (ix1 a) = e (ix2 (0 : Fin 2) a) := by
  rw [srcOf]
  exact (shapeCast_1a_a_apply _ _ a).trans (slice2_axis0_apply 0 e _ (0 : Fin 1) a (0 : Fin 2) rfl)
theorem dstOf_apply (e : IVec S2x800000 32) (a : Fin 800000) : dstOf e (ix1 a) = e (ix2 (1 : Fin 2) a) := by
  rw [dstOf]
  exact (shapeCast_1a_a_apply _ _ a).trans (slice2_axis0_apply 1 e _ (0 : Fin 1) a (1 : Fin 2) rfl)

/-- The one-column index table at row a is the vector's entry a. -/
theorem col_apply (s : IVec S800000 32) (a : Fin 800000) : col s (ix2 a (0 : Fin 1)) = s (ix1 a) := by
  rw [col]
  refine broadcastInDim_apply _ _ s (ix2 a (0 : Fin 1)) (ix1 a) fun ax => ?_
  match ax with
  | ⟨0, _⟩ => show a.val = if (800000 : ℕ) = 1 then 0 else a.val; rw [if_neg (by decide)]

/-- The wrapped source at entry a is the entry's word wrapped. -/
theorem wrap_apply (s : IVec S800000 32) (a : Fin 800000) : wrap s (ix1 a) = Cert.Lib.wrapWord (s (ix1 a)) := rfl

/-- The host's quotient at an index. -/
theorem hostDivf_apply {s : Shape} {φ : FTy} (a b : FVec Ideal s φ) (i : s.Idx) : Host.divf a b i = Ideal.div (a i) (b i) := rfl

/-- A scalar literal spread over any shape, at an index: the literal's value. -/
theorem splat_apply {t : Shape} (h : S_.BroadcastsInDim t ![]) (w : BitVec 32) (i : t.Idx) :
    broadcastInDim t ![] h (constant (F := Ideal) S_ .f32 w) i = Ideal.ofBits .f32 w := rfl

/-- The reciprocal clipped in-degree at node v. -/
theorem invDeg_apply (e : IVec S2x800000 32) (v : Fin 100000) :
    invDeg (F := Ideal) (dstOf e) (ix1 v) = Ideal.div (Ideal.ofBits .f32 0x3F800000#32) (Cert.Lib.degAt e v) := by
  rw [invDeg, hostDivf_apply, maximumf_apply, Cert.Lib.scatterAdd1_apply _ rfl rfl rfl rfl, splat_apply, splat_apply, Cert.Lib.degAt,
    Cert.Lib.inbox]
  simp only [col_apply, dstOf_apply]
  rw [Finset.sum_congr rfl (fun a _ => splat_apply bcast_S_S800000 0x3F800000#32 (ix1 a))]

/-- The reciprocal clipped in-degree on every one of the 64 columns of node v's row. -/
theorem rowBcast0_apply (y : FVec Ideal S100000 .f32) (v : Fin 100000) (k : Fin 64) :
    broadcastInDim S100000x64 ![0, 1] bcast_S100000x1_S100000x64_0_1 (broadcastInDim S100000x1 ![0] bcast_S100000_S100000x1_0 y) (ix2 v k) = y (ix1 v) := by
  refine (broadcastInDim_apply _ _ _ (ix2 v k) (ix2 v (0 : Fin 1)) fun ax => ?_).trans
    (broadcastInDim_apply _ _ y (ix2 v (0 : Fin 1)) (ix1 v) fun ax => ?_)
  · match ax with
    | ⟨0, _⟩ => show v.val = if (100000 : ℕ) = 1 then 0 else v.val; rw [if_neg (by decide)]
    | ⟨1, _⟩ => show (0 : ℕ) = if (1 : ℕ) = 1 then 0 else k.val; rw [if_pos rfl]
  · match ax with
    | ⟨0, _⟩ => show v.val = if (100000 : ℕ) = 1 then 0 else v.val; rw [if_neg (by decide)]

/-- The row an edge gathers, column k: the feature table at the edge's wrapped, clamped source. -/
theorem gatherRow0 (e : IVec S2x800000 32) (x : FVec Ideal S100000x64 .f32) (a : Fin 800000) (k : Fin 64) :
    Host.gather gather_S100000x64_S800000x1_S800000x64_1_0_n_n_0_1_164 x (col (wrap (srcOf e))) (ix2 a k) = x (ix2 (Cert.Lib.srcRow e a) k) := by
  rw [Cert.Lib.gather_rows_apply (n := 100000) (e := 800000) (k := 64) (by decide) _ rfl rfl rfl rfl rfl rfl rfl, col_apply, wrap_apply,
    srcOf_apply, Cert.Lib.srcRow]

/-- One relation's aggregate at node v, column k: the sum over the edges into v of the source's feature, started at the
    zero word, times the reciprocal of the clipped in-degree. -/
theorem aggRel0_apply (e : IVec S2x800000 32) (x : FVec Ideal S100000x64 .f32) (v : Fin 100000) (k : Fin 64) :
    aggRel0 (F := Ideal) e x (ix2 v k) = (Ideal.ofBits .f32 0x00000000#32 + ∑ a ∈ Cert.Lib.inbox e v, x (ix2 (Cert.Lib.srcRow e a) k)) * Ideal.div (Ideal.ofBits .f32 0x3F800000#32) (Cert.Lib.degAt e v) := by
  rw [aggRel0, mulf_apply, rowBcast0_apply, invDeg_apply, Cert.Lib.scatterAdd2_apply _ rfl rfl rfl rfl, splat_apply, Cert.Lib.inbox]
  simp only [col_apply, dstOf_apply]
  rw [Finset.sum_congr rfl (fun a _ => gatherRow0 e x a k)]

/-- The aggregates' column group 0 is relation 0's aggregate. -/
theorem aggs0_apply_0 (e0 e1 e2 e3 : IVec S2x800000 32) (x : FVec Ideal S100000x64 .f32) (v : Fin 100000) (k : Fin 64) :
    aggs0 (F := Ideal) e0 e1 e2 e3 x (ix2 v (⟨k.val, Nat.lt_trans k.isLt (by decide)⟩ : Fin 256)) = (Ideal.ofBits .f32 0x00000000#32 + ∑ a ∈ Cert.Lib.inbox e0 v, x (ix2 (Cert.Lib.srcRow e0 a) k)) * Ideal.div (Ideal.ofBits .f32 0x3F800000#32) (Cert.Lib.degAt e0 v) := by
  rw [aggs0]
  refine (concatenate_apply_piece (1 : Fin 2) [⟨S100000x64, aggRel0 e0 x⟩, ⟨S100000x64, aggRel0 e1 x⟩, ⟨S100000x64, aggRel0 e2 x⟩, ⟨S100000x64, aggRel0 e3 x⟩] _ (ix2 v (⟨k.val, Nat.lt_trans k.isLt (by decide)⟩ : Fin 256)) 0 (by show (0 : ℕ) < 4; omega) S100000x64 (aggRel0 e0 x) rfl rfl 0 (by rfl) (ix2 v k)
    (fun b hb => ?_) ?_).trans (aggRel0_apply e0 x v k)
  · match b with
    | ⟨0, _⟩ => rfl
    | ⟨1, _⟩ => exact absurd rfl hb
  · show 0 + k.val = k.val
    omega

/-- The aggregates' column group 1 is relation 1's aggregate. -/
theorem aggs0_apply_1 (e0 e1 e2 e3 : IVec S2x800000 32) (x : FVec Ideal S100000x64 .f32) (v : Fin 100000) (k : Fin 64) :
    aggs0 (F := Ideal) e0 e1 e2 e3 x (ix2 v (⟨64 + k.val, by have := k.isLt; omega⟩ : Fin 256)) = (Ideal.ofBits .f32 0x00000000#32 + ∑ a ∈ Cert.Lib.inbox e1 v, x (ix2 (Cert.Lib.srcRow e1 a) k)) * Ideal.div (Ideal.ofBits .f32 0x3F800000#32) (Cert.Lib.degAt e1 v) := by
  rw [aggs0]
  refine (concatenate_apply_piece (1 : Fin 2) [⟨S100000x64, aggRel0 e0 x⟩, ⟨S100000x64, aggRel0 e1 x⟩, ⟨S100000x64, aggRel0 e2 x⟩, ⟨S100000x64, aggRel0 e3 x⟩] _ (ix2 v (⟨64 + k.val, by have := k.isLt; omega⟩ : Fin 256)) 1 (by show (1 : ℕ) < 4; omega) S100000x64 (aggRel0 e1 x) rfl rfl 64 (by rfl) (ix2 v k)
    (fun b hb => ?_) ?_).trans (aggRel0_apply e1 x v k)
  · match b with
    | ⟨0, _⟩ => rfl
    | ⟨1, _⟩ => exact absurd rfl hb
  · show 64 + k.val = 64 + k.val
    rfl

/-- The aggregates' column group 2 is relation 2's aggregate. -/
theorem aggs0_apply_2 (e0 e1 e2 e3 : IVec S2x800000 32) (x : FVec Ideal S100000x64 .f32) (v : Fin 100000) (k : Fin 64) :
    aggs0 (F := Ideal) e0 e1 e2 e3 x (ix2 v (⟨128 + k.val, by have := k.isLt; omega⟩ : Fin 256)) = (Ideal.ofBits .f32 0x00000000#32 + ∑ a ∈ Cert.Lib.inbox e2 v, x (ix2 (Cert.Lib.srcRow e2 a) k)) * Ideal.div (Ideal.ofBits .f32 0x3F800000#32) (Cert.Lib.degAt e2 v) := by
  rw [aggs0]
  refine (concatenate_apply_piece (1 : Fin 2) [⟨S100000x64, aggRel0 e0 x⟩, ⟨S100000x64, aggRel0 e1 x⟩, ⟨S100000x64, aggRel0 e2 x⟩, ⟨S100000x64, aggRel0 e3 x⟩] _ (ix2 v (⟨128 + k.val, by have := k.isLt; omega⟩ : Fin 256)) 2 (by show (2 : ℕ) < 4; omega) S100000x64 (aggRel0 e2 x) rfl rfl 128 (by rfl) (ix2 v k)
    (fun b hb => ?_) ?_).trans (aggRel0_apply e2 x v k)
  · match b with
    | ⟨0, _⟩ => rfl
    | ⟨1, _⟩ => exact absurd rfl hb
  · show 128 + k.val = 128 + k.val
    rfl

/-- The aggregates' column group 3 is relation 3's aggregate. -/
theorem aggs0_apply_3 (e0 e1 e2 e3 : IVec S2x800000 32) (x : FVec Ideal S100000x64 .f32) (v : Fin 100000) (k : Fin 64) :
    aggs0 (F := Ideal) e0 e1 e2 e3 x (ix2 v (⟨192 + k.val, by have := k.isLt; omega⟩ : Fin 256)) = (Ideal.ofBits .f32 0x00000000#32 + ∑ a ∈ Cert.Lib.inbox e3 v, x (ix2 (Cert.Lib.srcRow e3 a) k)) * Ideal.div (Ideal.ofBits .f32 0x3F800000#32) (Cert.Lib.degAt e3 v) := by
  rw [aggs0]
  refine (concatenate_apply_piece (1 : Fin 2) [⟨S100000x64, aggRel0 e0 x⟩, ⟨S100000x64, aggRel0 e1 x⟩, ⟨S100000x64, aggRel0 e2 x⟩, ⟨S100000x64, aggRel0 e3 x⟩] _ (ix2 v (⟨192 + k.val, by have := k.isLt; omega⟩ : Fin 256)) 3 (by show (3 : ℕ) < 4; omega) S100000x64 (aggRel0 e3 x) rfl rfl 192 (by rfl) (ix2 v k)
    (fun b hb => ?_) ?_).trans (aggRel0_apply e3 x v k)
  · match b with
    | ⟨0, _⟩ => rfl
    | ⟨1, _⟩ => exact absurd rfl hb
  · show 192 + k.val = 192 + k.val
    rfl
/-- One relation's term is a real when the features are: a finite sum of reals times the reciprocal of a real at least one. -/
theorem relTerm0_isReal (e : IVec S2x800000 32) (x : FVec Ideal S100000x64 .f32) (hx : ∀ i, Cert.Lib.IsReal (x i)) (v : Fin 100000) (k : Fin 64) :
    Cert.Lib.IsReal ((Ideal.ofBits .f32 0x00000000#32 + ∑ a ∈ Cert.Lib.inbox e v, x (ix2 (Cert.Lib.srcRow e a) k))
      * Ideal.div (Ideal.ofBits .f32 0x3F800000#32) (Cert.Lib.degAt e v)) := by
  obtain ⟨r, hr1, hr⟩ := Cert.Lib.degAt_real e v
  rw [hr, Cert.Lib.ofBits_zero, Cert.Lib.ofBits_one]
  exact (Cert.Lib.isReal_zero.add (Cert.Lib.IsReal.sum _ fun a _ => hx _)).mul
    (Cert.Lib.isReal_one.div (lt_of_lt_of_le zero_lt_one hr1).ne')

/-- Every entry of the aggregates is a real when every feature is. -/
theorem aggs0_isReal (e0 e1 e2 e3 : IVec S2x800000 32) (x : FVec Ideal S100000x64 .f32) (hx : ∀ i, Cert.Lib.IsReal (x i)) :
    ∀ i, Cert.Lib.IsReal (aggs0 (F := Ideal) e0 e1 e2 e3 x i) := by
  intro i
  obtain ⟨v, κ, rfl⟩ : ∃ (v : Fin 100000) (κ : Fin 256), i = ix2 v κ := ⟨i 0, i 1, eq_ix2 i⟩
  have hκ := κ.isLt
  rcases (show κ.val < 64 ∨ (64 ≤ κ.val ∧ κ.val < 128) ∨ (128 ≤ κ.val ∧ κ.val < 192) ∨ 192 ≤ κ.val by omega) with h | h | h | h
  · obtain ⟨k, rfl⟩ : ∃ k : Fin 64, κ = (⟨k.val, Nat.lt_trans k.isLt (by decide)⟩ : Fin 256) :=
      ⟨⟨κ.val - 0, by omega⟩, Fin.ext (by show κ.val = κ.val - 0; omega)⟩
    rw [aggs0_apply_0]
    exact relTerm0_isReal e0 x hx v k
  · obtain ⟨k, rfl⟩ : ∃ k : Fin 64, κ = (⟨64 + k.val, Nat.lt_of_lt_of_le (Nat.add_lt_add_left k.isLt 64) (by decide)⟩ : Fin 256) :=
      ⟨⟨κ.val - 64, by omega⟩, Fin.ext (by show κ.val = 64 + (κ.val - 64); omega)⟩
    rw [aggs0_apply_1]
    exact relTerm0_isReal e1 x hx v k
  · obtain ⟨k, rfl⟩ : ∃ k : Fin 64, κ = (⟨128 + k.val, Nat.lt_of_lt_of_le (Nat.add_lt_add_left k.isLt 128) (by decide)⟩ : Fin 256) :=
      ⟨⟨κ.val - 128, by omega⟩, Fin.ext (by show κ.val = 128 + (κ.val - 128); omega)⟩
    rw [aggs0_apply_2]
    exact relTerm0_isReal e2 x hx v k
  · obtain ⟨k, rfl⟩ : ∃ k : Fin 64, κ = (⟨192 + k.val, Nat.lt_of_lt_of_le (Nat.add_lt_add_left k.isLt 192) (by decide)⟩ : Fin 256) :=
      ⟨⟨κ.val - 192, by omega⟩, Fin.ext (by show κ.val = 192 + (κ.val - 192); omega)⟩
    rw [aggs0_apply_3]
    exact relTerm0_isReal e3 x hx v k

/-- The reciprocal clipped in-degree on every one of the 128 columns of node v's row. -/
theorem rowBcast1_apply (y : FVec Ideal S100000 .f32) (v : Fin 100000) (k : Fin 128) :
    broadcastInDim S100000x128 ![0, 1] bcast_S100000x1_S100000x128_0_1 (broadcastInDim S100000x1 ![0] bcast_S100000_S100000x1_0 y) (ix2 v k) = y (ix1 v) := by
  refine (broadcastInDim_apply _ _ _ (ix2 v k) (ix2 v (0 : Fin 1)) fun ax => ?_).trans
    (broadcastInDim_apply _ _ y (ix2 v (0 : Fin 1)) (ix1 v) fun ax => ?_)
  · match ax with
    | ⟨0, _⟩ => show v.val = if (100000 : ℕ) = 1 then 0 else v.val; rw [if_neg (by decide)]
    | ⟨1, _⟩ => show (0 : ℕ) = if (1 : ℕ) = 1 then 0 else k.val; rw [if_pos rfl]
  · match ax with
    | ⟨0, _⟩ => show v.val = if (100000 : ℕ) = 1 then 0 else v.val; rw [if_neg (by decide)]

/-- The row an edge gathers, column k: the feature table at the edge's wrapped, clamped source. -/
theorem gatherRow1 (e : IVec S2x800000 32) (x : FVec Ideal S100000x128 .f32) (a : Fin 800000) (k : Fin 128) :
    Host.gather gather_S100000x128_S800000x1_S800000x128_1_0_n_n_0_1_1128 x (col (wrap (srcOf e))) (ix2 a k) = x (ix2 (Cert.Lib.srcRow e a) k) := by
  rw [Cert.Lib.gather_rows_apply (n := 100000) (e := 800000) (k := 128) (by decide) _ rfl rfl rfl rfl rfl rfl rfl, col_apply, wrap_apply,
    srcOf_apply, Cert.Lib.srcRow]

/-- One relation's aggregate at node v, column k: the sum over the edges into v of the source's feature, started at the
    zero word, times the reciprocal of the clipped in-degree. -/
theorem aggRel1_apply (e : IVec S2x800000 32) (x : FVec Ideal S100000x128 .f32) (v : Fin 100000) (k : Fin 128) :
    aggRel1 (F := Ideal) e x (ix2 v k) = (Ideal.ofBits .f32 0x00000000#32 + ∑ a ∈ Cert.Lib.inbox e v, x (ix2 (Cert.Lib.srcRow e a) k)) * Ideal.div (Ideal.ofBits .f32 0x3F800000#32) (Cert.Lib.degAt e v) := by
  rw [aggRel1, mulf_apply, rowBcast1_apply, invDeg_apply, Cert.Lib.scatterAdd2_apply _ rfl rfl rfl rfl, splat_apply, Cert.Lib.inbox]
  simp only [col_apply, dstOf_apply]
  rw [Finset.sum_congr rfl (fun a _ => gatherRow1 e x a k)]

/-- The aggregates' column group 0 is relation 0's aggregate. -/
theorem aggs1_apply_0 (e0 e1 e2 e3 : IVec S2x800000 32) (x : FVec Ideal S100000x128 .f32) (v : Fin 100000) (k : Fin 128) :
    aggs1 (F := Ideal) e0 e1 e2 e3 x (ix2 v (⟨k.val, Nat.lt_trans k.isLt (by decide)⟩ : Fin 512)) = (Ideal.ofBits .f32 0x00000000#32 + ∑ a ∈ Cert.Lib.inbox e0 v, x (ix2 (Cert.Lib.srcRow e0 a) k)) * Ideal.div (Ideal.ofBits .f32 0x3F800000#32) (Cert.Lib.degAt e0 v) := by
  rw [aggs1]
  refine (concatenate_apply_piece (1 : Fin 2) [⟨S100000x128, aggRel1 e0 x⟩, ⟨S100000x128, aggRel1 e1 x⟩, ⟨S100000x128, aggRel1 e2 x⟩, ⟨S100000x128, aggRel1 e3 x⟩] _ (ix2 v (⟨k.val, Nat.lt_trans k.isLt (by decide)⟩ : Fin 512)) 0 (by show (0 : ℕ) < 4; omega) S100000x128 (aggRel1 e0 x) rfl rfl 0 (by rfl) (ix2 v k)
    (fun b hb => ?_) ?_).trans (aggRel1_apply e0 x v k)
  · match b with
    | ⟨0, _⟩ => rfl
    | ⟨1, _⟩ => exact absurd rfl hb
  · show 0 + k.val = k.val
    omega

/-- The aggregates' column group 1 is relation 1's aggregate. -/
theorem aggs1_apply_1 (e0 e1 e2 e3 : IVec S2x800000 32) (x : FVec Ideal S100000x128 .f32) (v : Fin 100000) (k : Fin 128) :
    aggs1 (F := Ideal) e0 e1 e2 e3 x (ix2 v (⟨128 + k.val, by have := k.isLt; omega⟩ : Fin 512)) = (Ideal.ofBits .f32 0x00000000#32 + ∑ a ∈ Cert.Lib.inbox e1 v, x (ix2 (Cert.Lib.srcRow e1 a) k)) * Ideal.div (Ideal.ofBits .f32 0x3F800000#32) (Cert.Lib.degAt e1 v) := by
  rw [aggs1]
  refine (concatenate_apply_piece (1 : Fin 2) [⟨S100000x128, aggRel1 e0 x⟩, ⟨S100000x128, aggRel1 e1 x⟩, ⟨S100000x128, aggRel1 e2 x⟩, ⟨S100000x128, aggRel1 e3 x⟩] _ (ix2 v (⟨128 + k.val, by have := k.isLt; omega⟩ : Fin 512)) 1 (by show (1 : ℕ) < 4; omega) S100000x128 (aggRel1 e1 x) rfl rfl 128 (by rfl) (ix2 v k)
    (fun b hb => ?_) ?_).trans (aggRel1_apply e1 x v k)
  · match b with
    | ⟨0, _⟩ => rfl
    | ⟨1, _⟩ => exact absurd rfl hb
  · show 128 + k.val = 128 + k.val
    rfl

/-- The aggregates' column group 2 is relation 2's aggregate. -/
theorem aggs1_apply_2 (e0 e1 e2 e3 : IVec S2x800000 32) (x : FVec Ideal S100000x128 .f32) (v : Fin 100000) (k : Fin 128) :
    aggs1 (F := Ideal) e0 e1 e2 e3 x (ix2 v (⟨256 + k.val, by have := k.isLt; omega⟩ : Fin 512)) = (Ideal.ofBits .f32 0x00000000#32 + ∑ a ∈ Cert.Lib.inbox e2 v, x (ix2 (Cert.Lib.srcRow e2 a) k)) * Ideal.div (Ideal.ofBits .f32 0x3F800000#32) (Cert.Lib.degAt e2 v) := by
  rw [aggs1]
  refine (concatenate_apply_piece (1 : Fin 2) [⟨S100000x128, aggRel1 e0 x⟩, ⟨S100000x128, aggRel1 e1 x⟩, ⟨S100000x128, aggRel1 e2 x⟩, ⟨S100000x128, aggRel1 e3 x⟩] _ (ix2 v (⟨256 + k.val, by have := k.isLt; omega⟩ : Fin 512)) 2 (by show (2 : ℕ) < 4; omega) S100000x128 (aggRel1 e2 x) rfl rfl 256 (by rfl) (ix2 v k)
    (fun b hb => ?_) ?_).trans (aggRel1_apply e2 x v k)
  · match b with
    | ⟨0, _⟩ => rfl
    | ⟨1, _⟩ => exact absurd rfl hb
  · show 256 + k.val = 256 + k.val
    rfl

/-- The aggregates' column group 3 is relation 3's aggregate. -/
theorem aggs1_apply_3 (e0 e1 e2 e3 : IVec S2x800000 32) (x : FVec Ideal S100000x128 .f32) (v : Fin 100000) (k : Fin 128) :
    aggs1 (F := Ideal) e0 e1 e2 e3 x (ix2 v (⟨384 + k.val, by have := k.isLt; omega⟩ : Fin 512)) = (Ideal.ofBits .f32 0x00000000#32 + ∑ a ∈ Cert.Lib.inbox e3 v, x (ix2 (Cert.Lib.srcRow e3 a) k)) * Ideal.div (Ideal.ofBits .f32 0x3F800000#32) (Cert.Lib.degAt e3 v) := by
  rw [aggs1]
  refine (concatenate_apply_piece (1 : Fin 2) [⟨S100000x128, aggRel1 e0 x⟩, ⟨S100000x128, aggRel1 e1 x⟩, ⟨S100000x128, aggRel1 e2 x⟩, ⟨S100000x128, aggRel1 e3 x⟩] _ (ix2 v (⟨384 + k.val, by have := k.isLt; omega⟩ : Fin 512)) 3 (by show (3 : ℕ) < 4; omega) S100000x128 (aggRel1 e3 x) rfl rfl 384 (by rfl) (ix2 v k)
    (fun b hb => ?_) ?_).trans (aggRel1_apply e3 x v k)
  · match b with
    | ⟨0, _⟩ => rfl
    | ⟨1, _⟩ => exact absurd rfl hb
  · show 384 + k.val = 384 + k.val
    rfl
/-- One relation's term is a real when the features are: a finite sum of reals times the reciprocal of a real at least one. -/
theorem relTerm1_isReal (e : IVec S2x800000 32) (x : FVec Ideal S100000x128 .f32) (hx : ∀ i, Cert.Lib.IsReal (x i)) (v : Fin 100000) (k : Fin 128) :
    Cert.Lib.IsReal ((Ideal.ofBits .f32 0x00000000#32 + ∑ a ∈ Cert.Lib.inbox e v, x (ix2 (Cert.Lib.srcRow e a) k))
      * Ideal.div (Ideal.ofBits .f32 0x3F800000#32) (Cert.Lib.degAt e v)) := by
  obtain ⟨r, hr1, hr⟩ := Cert.Lib.degAt_real e v
  rw [hr, Cert.Lib.ofBits_zero, Cert.Lib.ofBits_one]
  exact (Cert.Lib.isReal_zero.add (Cert.Lib.IsReal.sum _ fun a _ => hx _)).mul
    (Cert.Lib.isReal_one.div (lt_of_lt_of_le zero_lt_one hr1).ne')

/-- Every entry of the aggregates is a real when every feature is. -/
theorem aggs1_isReal (e0 e1 e2 e3 : IVec S2x800000 32) (x : FVec Ideal S100000x128 .f32) (hx : ∀ i, Cert.Lib.IsReal (x i)) :
    ∀ i, Cert.Lib.IsReal (aggs1 (F := Ideal) e0 e1 e2 e3 x i) := by
  intro i
  obtain ⟨v, κ, rfl⟩ : ∃ (v : Fin 100000) (κ : Fin 512), i = ix2 v κ := ⟨i 0, i 1, eq_ix2 i⟩
  have hκ := κ.isLt
  rcases (show κ.val < 128 ∨ (128 ≤ κ.val ∧ κ.val < 256) ∨ (256 ≤ κ.val ∧ κ.val < 384) ∨ 384 ≤ κ.val by omega) with h | h | h | h
  · obtain ⟨k, rfl⟩ : ∃ k : Fin 128, κ = (⟨k.val, Nat.lt_trans k.isLt (by decide)⟩ : Fin 512) :=
      ⟨⟨κ.val - 0, by omega⟩, Fin.ext (by show κ.val = κ.val - 0; omega)⟩
    rw [aggs1_apply_0]
    exact relTerm1_isReal e0 x hx v k
  · obtain ⟨k, rfl⟩ : ∃ k : Fin 128, κ = (⟨128 + k.val, Nat.lt_of_lt_of_le (Nat.add_lt_add_left k.isLt 128) (by decide)⟩ : Fin 512) :=
      ⟨⟨κ.val - 128, by omega⟩, Fin.ext (by show κ.val = 128 + (κ.val - 128); omega)⟩
    rw [aggs1_apply_1]
    exact relTerm1_isReal e1 x hx v k
  · obtain ⟨k, rfl⟩ : ∃ k : Fin 128, κ = (⟨256 + k.val, Nat.lt_of_lt_of_le (Nat.add_lt_add_left k.isLt 256) (by decide)⟩ : Fin 512) :=
      ⟨⟨κ.val - 256, by omega⟩, Fin.ext (by show κ.val = 256 + (κ.val - 256); omega)⟩
    rw [aggs1_apply_2]
    exact relTerm1_isReal e2 x hx v k
  · obtain ⟨k, rfl⟩ : ∃ k : Fin 128, κ = (⟨384 + k.val, Nat.lt_of_lt_of_le (Nat.add_lt_add_left k.isLt 384) (by decide)⟩ : Fin 512) :=
      ⟨⟨κ.val - 384, by omega⟩, Fin.ext (by show κ.val = 384 + (κ.val - 384); omega)⟩
    rw [aggs1_apply_3]
    exact relTerm1_isReal e3 x hx v k

end AtIndex

end Cert.KernelIdeal.HandValue

end
-- ==== Proof.KI.RealLin.lean ====
/-
  The layer's dense part maps real-valued operands to real-valued results: each entry is a finite sum of products of
  entries, plus a bias entry, plus four more such sums.
-/
import proofs.«169502_j41412074668235_1_alg».proof.Proof.KI.Value0
import proofs.«169502_j41412074668235_1_alg».proof.Proof.KI.Value3
import proofs.«169502_j41412074668235_1_alg».proof.Proof.LibLayerAlgebra

noncomputable section

namespace Cert.KernelIdeal.HandValue

open Cert.KernelIdeal Cert.KernelIdeal.Gen Cert.KernelIdeal.Hand Idealize.ShloMosaic Idealize.ShloMosaic.ValueIdx Cert.Lib

/-- An entry of the layer's dense part is a real when every entry of its five operands is. -/
theorem lin0At_isReal {x : FVec Ideal S100000x64 .f32} {aggs : FVec Ideal S100000x256 .f32} {root : FVec Ideal S64x128 .f32}
    {w : FVec Ideal S4x64x128 .f32} {b : FVec Ideal S128 .f32}
    (hx : ∀ i, IsReal (x i)) (ha : ∀ i, IsReal (aggs i)) (hr : ∀ i, IsReal (root i))
    (hw : ∀ i, IsReal (w i)) (hb : ∀ i, IsReal (b i)) (v : Fin 100000) (j : Fin 128) : IsReal (lin0At x aggs root w b v j) := by
  unfold lin0At
  exact (((((IsReal.sum _ fun k _ => (hx _).mul (hr _)).add (hb _)).add
    (IsReal.sum _ fun k _ => (ha _).mul (hw _))).add
    (IsReal.sum _ fun k _ => (ha _).mul (hw _))).add
    (IsReal.sum _ fun k _ => (ha _).mul (hw _))).add
    (IsReal.sum _ fun k _ => (ha _).mul (hw _))

/-- An entry of the layer's dense part is a real when every entry of its five operands is. -/
theorem lin1At_isReal {x : FVec Ideal S100000x128 .f32} {aggs : FVec Ideal S100000x512 .f32} {root : FVec Ideal S128x64 .f32}
    {w : FVec Ideal S4x128x64 .f32} {b : FVec Ideal S64 .f32}
    (hx : ∀ i, IsReal (x i)) (ha : ∀ i, IsReal (aggs i)) (hr : ∀ i, IsReal (root i))
    (hw : ∀ i, IsReal (w i)) (hb : ∀ i, IsReal (b i)) (v : Fin 100000) (j : Fin 64) : IsReal (lin1At x aggs root w b v j) := by
  unfold lin1At
  exact (((((IsReal.sum _ fun k _ => (hx _).mul (hr _)).add (hb _)).add
    (IsReal.sum _ fun k _ => (ha _).mul (hw _))).add
    (IsReal.sum _ fun k _ => (ha _).mul (hw _))).add
    (IsReal.sum _ fun k _ => (ha _).mul (hw _))).add
    (IsReal.sum _ fun k _ => (ha _).mul (hw _))

end Cert.KernelIdeal.HandValue

end
-- ==== Proof.RI.Fns.lean ====
/- The reference program's computation as named functions of arrays: a two-layer relational graph convolution.
   Each layer adds to a root term (features times a matrix, plus a bias row) one term per relation: for every node the
   mean, over the relation's edges into it, of the source node's features times the relation's matrix (the sum
   scattered by destination, divided by the in-degree clipped below at one). Between the layers: each column centred
   and scaled by its statistics over the nodes, an affine map, and the exponential linear unit. -/
import proofs.«169502_j41412074668235_1_alg».proof.Proof.Gen.ReferenceIdeal
import Idealize.ShloMosaic.Lib.StableHlo

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Edges -/

/-- Row 0 of an edge table: each edge's source node. -/
def srcOf (e : IVec S2x800000 32) : IVec S800000 32 :=
  shapeCast S800000 (extractStridedSlice S1x800000 ![0, 0] e slices_S2x800000_S1x800000_0_0) shapeCasts_S1x800000_S800000

/-- Row 1 of an edge table: each edge's destination node. -/
def dstOf (e : IVec S2x800000 32) : IVec S800000 32 :=
  shapeCast S800000 (extractStridedSlice S1x800000 ![1, 0] e slices_S2x800000_S1x800000_1_0) shapeCasts_S1x800000_S800000

/-- A node index counted from the end when negative: 100000 is added to it. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 100000#32))) s

/-- An index vector as a one-column index table. -/
def col (s : IVec S800000 32) : IVec S800000x1 32 := broadcastInDim S800000x1 ![0] bcast_S800000_S800000x1_0 s

/-- Each node's number of incoming edges (a one scattered per edge by destination), at least one. -/
def deg (d : IVec S800000 32) : FVec F S100000 .f32 :=
  maximumf
    (Host.scatterAdd scatter_S100000_S800000x1_S800000_n_0_0_1
      (broadcastInDim S100000 ![] bcast_S_S100000 (constant S_ .f32 0x00000000#32)) (col d)
      (broadcastInDim S800000 ![] bcast_S_S800000 (constant S_ .f32 0x3F800000#32)))
    (broadcastInDim S100000 ![] bcast_S_S100000 (constant S_ .f32 0x3F800000#32))

/-! ## The first layer (64 features in, 128 out) -/

/-- One relation's matrix out of the four stacked ones. -/
def w1 (off : Fin 3 → Nat) (h : S4x64x128.Slices off S1x64x128) (w : FVec F S4x64x128 .f32) : FVec F S64x128 .f32 :=
  shapeCast S64x128 (extractStridedSlice S1x64x128 off w h) shapeCasts_S1x64x128_S64x128

/-- One relation's term: per node, the sum over its incoming edges of the source's features times the relation's
    matrix, divided by the clipped in-degree. -/
def nbr1 (e : IVec S2x800000 32) (x : FVec F S100000x64 .f32) (w : FVec F S64x128 .f32) : FVec F S100000x128 .f32 :=
  Host.divf
    (Host.scatterAdd scatter_S100000x128_S800000x1_S800000x128_1_0_0_1
      (broadcastInDim S100000x128 ![] bcast_S_S100000x128 (constant S_ .f32 0x00000000#32)) (col (dstOf e))
      (Host.dotGeneral dot_S800000x64_S64x128_S800000x128_1_0_0_1_n_n none
        (Host.gather gather_S100000x64_S800000x1_S800000x64_1_0_n_n_0_1_164 x (col (wrap (srcOf e)))) w))
    (broadcastInDim S100000x128 ![0, 1] bcast_S100000x1_S100000x128_0_1
      (broadcastInDim S100000x1 ![0] bcast_S100000_S100000x1_0 (deg (dstOf e))))

/-- A 128-vector repeated on every node's row. -/
def rows (v : FVec F S128 .f32) : FVec F S100000x128 .f32 :=
  broadcastInDim S100000x128 ![0, 1] bcast_S1x128_S100000x128_0_1 (broadcastInDim S1x128 ![1] bcast_S128_S1x128_1 v)

/-- The root term: the features times the root matrix, plus the bias on every row. -/
def root1 (x : FVec F S100000x64 .f32) (w : FVec F S64x128 .f32) (b : FVec F S128 .f32) : FVec F S100000x128 .f32 :=
  addf (Host.dotGeneral dot_S100000x64_S64x128_S100000x128_1_0_0_1_n_n none x w) (rows b)

/-- The first layer: the root term and the four relations' terms, added in order. -/
def layer1 (e0 e1 e2 e3 : IVec S2x800000 32) (x : FVec F S100000x64 .f32) (w : FVec F S4x64x128 .f32)
    (wr : FVec F S64x128 .f32) (b : FVec F S128 .f32) : FVec F S100000x128 .f32 :=
  addf (addf (addf (addf (root1 x wr b)
    (nbr1 e0 x (w1 ![0, 0, 0] slices_S4x64x128_S1x64x128_0_0_0 w)))
    (nbr1 e1 x (w1 ![1, 0, 0] slices_S4x64x128_S1x64x128_1_0_0 w)))
    (nbr1 e2 x (w1 ![2, 0, 0] slices_S4x64x128_S1x64x128_2_0_0 w)))
    (nbr1 e3 x (w1 ![3, 0, 0] slices_S4x64x128_S1x64x128_3_0_0 w))

/-! ## Between the layers -/

/-- The sum of each column over the nodes. -/
def colSum (h : FVec F S100000x128 .f32) : FVec F S128 .f32 :=
  Host.reduceAdd h (constant S_ .f32 0x00000000#32) reducesTo_S100000x128_S128_d0 h_S_

/-- The mean of each column over the 100000 nodes. -/
def mean (h : FVec F S100000x128 .f32) : FVec F S128 .f32 :=
  Host.divf (colSum h) (broadcastInDim S128 ![] bcast_S_S128 (constant S_ .f32 0x47C35000#32))

/-- The variance's divisor: the number of nodes less the correction, which is zero. -/
def varN : FVec F S_ .f32 := subf (constant S_ .f32 0x47C35000#32) (sitofp .f32 (constantI S_ 32 0#32))

/-- Each entry less its column's mean (the mean taken as a one-row table divided by the count). -/
def centred (h : FVec F S100000x128 .f32) : FVec F S100000x128 .f32 :=
  subf h (broadcastInDim S100000x128 ![0, 1] bcast_S1x128_S100000x128_0_1
    (Host.divf (broadcastInDim S1x128 ![1] bcast_S128_S1x128_1 (colSum h))
      (broadcastInDim S1x128 ![] bcast_S_S1x128 (constant S_ .f32 0x47C35000#32))))

/-- The variance of each column over the nodes: the mean square of the centred entries where the divisor is
    positive, the float NaN pattern otherwise. -/
def var (h : FVec F S100000x128 .f32) : FVec F S128 .f32 :=
  select (broadcastInDim S128 ![] bcast_S_S128 (cmpf .ogt (varN (F := F)) (constant S_ .f32 0x00000000#32)))
    (Host.divf
      (Host.reduceAdd (mulf (centred h) (centred h)) (constant S_ .f32 0x00000000#32) reducesTo_S100000x128_S128_d0 h_S_)
      (broadcastInDim S128 ![] bcast_S_S128 (varN (F := F))))
    (broadcastInDim S128 ![] bcast_S_S128 (constant S_ .f32 0x7FC00000#32))

/-- The normalisation: the scale times the entry less its column's mean, times the reciprocal square root of the
    column's variance plus a small constant, plus the shift. -/
def norm (h : FVec F S100000x128 .f32) (γ β : FVec F S128 .f32) : FVec F S100000x128 .f32 :=
  addf
    (mulf (mulf (rows γ) (subf h (rows (mean h))))
      (rows (Host.rsqrt (addf (var h) (broadcastInDim S128 ![] bcast_S_S128 (constant S_ .f32 0x3727C5AC#32))))))
    (rows β)

/-- The all-zero table. -/
def zeros : FVec F S100000x128 .f32 :=
  broadcastInDim S100000x128 ![] bcast_S_S100000x128 (constant S_ .f32 0x00000000#32)

/-- The exponential linear unit: the entry where it is positive, else one times the exponential less one of it (that
    taken at zero where the entry is positive). -/
def elu (y : FVec F S100000x128 .f32) : FVec F S100000x128 .f32 :=
  select (cmpf .ogt y zeros) y
    (mulf (broadcastInDim S100000x128 ![] bcast_S_S100000x128 (constant S_ .f32 0x3F800000#32))
      (Host.expm1 (select (cmpf .ogt y zeros) zeros y)))

/-! ## The second layer (128 features in, 64 out) -/

/-- One relation's matrix out of the four stacked ones. -/
def w2 (off : Fin 3 → Nat) (h : S4x128x64.Slices off S1x128x64) (w : FVec F S4x128x64 .f32) : FVec F S128x64 .f32 :=
  shapeCast S128x64 (extractStridedSlice S1x128x64 off w h) shapeCasts_S1x128x64_S128x64

/-- One relation's term, as in the first layer. -/
def nbr2 (e : IVec S2x800000 32) (z : FVec F S100000x128 .f32) (w : FVec F S128x64 .f32) : FVec F S100000x64 .f32 :=
  Host.divf
    (Host.scatterAdd scatter_S100000x64_S800000x1_S800000x64_1_0_0_1
      (broadcastInDim S100000x64 ![] bcast_S_S100000x64 (constant S_ .f32 0x00000000#32)) (col (dstOf e))
      (Host.dotGeneral dot_S800000x128_S128x64_S800000x64_1_0_0_1_n_n none
        (Host.gather gather_S100000x128_S800000x1_S800000x128_1_0_n_n_0_1_1128 z (col (wrap (srcOf e)))) w))
    (broadcastInDim S100000x64 ![0, 1] bcast_S100000x1_S100000x64_0_1
      (broadcastInDim S100000x1 ![0] bcast_S100000_S100000x1_0 (deg (dstOf e))))

/-- The root term of the second layer. -/
def root2 (z : FVec F S100000x128 .f32) (w : FVec F S128x64 .f32) (b : FVec F S64 .f32) : FVec F S100000x64 .f32 :=
  addf (Host.dotGeneral dot_S100000x128_S128x64_S100000x64_1_0_0_1_n_n none z w)
    (broadcastInDim S100000x64 ![0, 1] bcast_S1x64_S100000x64_0_1 (broadcastInDim S1x64 ![1] bcast_S64_S1x64_1 b))

/-- The second layer: the root term and the four relations' terms, added in order. -/
def layer2 (e0 e1 e2 e3 : IVec S2x800000 32) (z : FVec F S100000x128 .f32) (w : FVec F S4x128x64 .f32)
    (wr : FVec F S128x64 .f32) (b : FVec F S64 .f32) : FVec F S100000x64 .f32 :=
  addf (addf (addf (addf (root2 z wr b)
    (nbr2 e0 z (w2 ![0, 0, 0] slices_S4x128x64_S1x128x64_0_0_0 w)))
    (nbr2 e1 z (w2 ![1, 0, 0] slices_S4x128x64_S1x128x64_1_0_0 w)))
    (nbr2 e2 z (w2 ![2, 0, 0] slices_S4x128x64_S1x128x64_2_0_0 w)))
    (nbr2 e3 z (w2 ![3, 0, 0] slices_S4x128x64_S1x128x64_3_0_0 w))

/-! ## The whole -/

/-- The reference's result as a function of its thirteen arguments: four edge tables, the features, the first layer's
    stacked relation matrices, root matrix and bias, the normalisation's scale and shift, and the second layer's
    stacked relation matrices, root matrix and bias. -/
def result (a0 a1 a2 a3 : IVec S2x800000 32) (a4 : FVec F S100000x64 .f32) (a5 : FVec F S4x64x128 .f32)
    (a6 : FVec F S64x128 .f32) (a7 a8 a9 : FVec F S128 .f32) (a10 : FVec F S4x128x64 .f32) (a11 : FVec F S128x64 .f32)
    (a12 : FVec F S64 .f32) : FVec F S100000x64 .f32 :=
  layer2 a0 a1 a2 a3 (elu (norm (layer1 a0 a1 a2 a3 a4 a5 a6 a7) a8 a9)) a10 a11 a12

end Cert.ReferenceIdeal.RefRun

end
-- ==== Proof.RI.Blocks.lean ====
/- @main's operations regrouped, in the same order, into ten blocks that end with the computation's stages: in each layer the
   root term with the first relation's mean, then one block per further relation; between the layers the normalisation
   and the activation. With each block, the buffers its operations write. -/
import proofs.«169502_j41412074668235_1_alg».proof.Proof.RI.Ops
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Block 0 (37 operations). -/
abbrev blk0 : List (HloOp τ sig (Elt F)) :=
  [ StableHlo.binary main_arg4 main_arg6 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg7 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.unary main_arg0 main_v4 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v4 main_v5 rfl shapeCasts_S1x800000_S800000,
    StableHlo.unary main_arg0 main_v6 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v6 main_v7 rfl shapeCasts_S1x800000_S800000,
    StableHlo.nullary main_c (constantI S_ 32 0#32),
    StableHlo.unary main_c main_v8 (broadcastInDim S800000 ![] bcast_S_S800000 : (⟨S_, .i32⟩ : BufTy).Contents (Elt F) → (⟨S800000, .i32⟩ : BufTy).Contents (Elt F)),
    StableHlo.binary main_v5 main_v8 main_v9 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 100000#32),
    StableHlo.unary main_c_0 main_v10 (broadcastInDim S800000 ![] bcast_S_S800000 : (⟨S_, .i32⟩ : BufTy).Contents (Elt F) → (⟨S800000, .i32⟩ : BufTy).Contents (Elt F)),
    StableHlo.binary main_v5 main_v10 main_v11 (addi : (⟨S800000, .i32⟩ : BufTy).Contents (Elt F) → (⟨S800000, .i32⟩ : BufTy).Contents (Elt F) → (⟨S800000, .i32⟩ : BufTy).Contents (Elt F)),
    StableHlo.ternary main_v9 main_v11 main_v5 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v12 main_v13 (broadcastInDim S800000x1 ![0] bcast_S800000_S800000x1_0 : (⟨S800000, .i32⟩ : BufTy).Contents (Elt F) → (⟨S800000x1, .i32⟩ : BufTy).Contents (Elt F)),
    StableHlo.binary main_arg4 main_v13 main_v14 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v15 ((extractStridedSlice S1x64x128 ![0, 0, 0] · slices_S4x64x128_S1x64x128_0_0_0) : (⟨S4x64x128, .f32⟩ : BufTy).Contents (Elt F) → (⟨S1x64x128, .f32⟩ : BufTy).Contents (Elt F)),
    StableHlo.reshape main_v15 main_v16 rfl shapeCasts_S1x64x128_S64x128,
    StableHlo.binary main_v14 main_v16 main_v17 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst (constant S_ .f32 0x00000000#32),
    StableHlo.unary main_cst main_v18 (broadcastInDim S100000x128 ![] bcast_S_S100000x128 : (⟨S_, .f32⟩ : BufTy).Contents (Elt F) → (⟨S100000x128, .f32⟩ : BufTy).Contents (Elt F)),
    StableHlo.unary main_v7 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_1 (constant S_ .f32 0x3F800000#32),
    StableHlo.unary main_cst_1 main_v21 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v22 (broadcastInDim S100000 ![] bcast_S_S100000 : (⟨S_, .f32⟩ : BufTy).Contents (Elt F) → (⟨S100000, .f32⟩ : BufTy).Contents (Elt F)),
    StableHlo.unary main_v7 main_v23 (broadcastInDim S800000x1 ![0] bcast_S800000_S800000x1_0 : (⟨S800000, .i32⟩ : BufTy).Contents (Elt F) → (⟨S800000x1, .i32⟩ : BufTy).Contents (Elt F)),
    StableHlo.ternary main_v22 main_v23 main_v21 main_v24 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_3 (constant S_ .f32 0x3F800000#32),
    StableHlo.unary main_cst_3 main_v25 (broadcastInDim S100000 ![] bcast_S_S100000 : (⟨S_, .f32⟩ : BufTy).Contents (Elt F) → (⟨S100000, .f32⟩ : BufTy).Contents (Elt F)),
    StableHlo.binary main_v24 main_v25 main_v26 (maximumf : (⟨S100000, .f32⟩ : BufTy).Contents (Elt F) → (⟨S100000, .f32⟩ : BufTy).Contents (Elt F) → (⟨S100000, .f32⟩ : BufTy).Contents (Elt F)),
    StableHlo.unary main_v26 main_v27 (broadcastInDim S100000x1 ![0] bcast_S100000_S100000x1_0 : (⟨S100000, .f32⟩ : BufTy).Contents (Elt F) → (⟨S100000x1, .f32⟩ : BufTy).Contents (Elt F)),
    StableHlo.unary main_v27 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v20 main_v28 main_v29 (Host.divf : (⟨S100000x128, .f32⟩ : BufTy).Contents (Elt F) → (⟨S100000x128, .f32⟩ : BufTy).Contents (Elt F) → (⟨S100000x128, .f32⟩ : BufTy).Contents (Elt F)),
    StableHlo.binary main_v3 main_v29 main_v30 (addf : (⟨S100000x128, .f32⟩ : BufTy).Contents (Elt F) → (⟨S100000x128, .f32⟩ : BufTy).Contents (Elt F) → (⟨S100000x128, .f32⟩ : BufTy).Contents (Elt F)) ]

/-- The buffers block 0's operations write, in order. -/
abbrev blk0_W : List (Ref sig .tc) :=
  [main_v0, main_v1, main_v2, main_v3, main_v4, main_v5, main_v6, main_v7, main_c, main_v8, main_v9, main_c_0, main_v10, main_v11, main_v12, main_v13, main_v14, main_v15, main_v16, main_v17, main_cst, main_v18, main_v19, main_v20, main_cst_1, main_v21, main_cst_2, main_v22, main_v23, main_v24, main_cst_3, main_v25, main_v26, main_v27, main_v28, main_v29, main_v30]

/-- Block 1 (33 operations). -/
abbrev blk1 : List (HloOp τ sig (Elt F)) :=
  [ StableHlo.unary main_arg1 main_v31 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v31 main_v32 rfl shapeCasts_S1x800000_S800000,
    StableHlo.unary main_arg1 main_v33 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v33 main_v34 rfl shapeCasts_S1x800000_S800000,
    StableHlo.nullary main_c_4 (constantI S_ 32 0#32),
    StableHlo.unary main_c_4 main_v35 (broadcastInDim S800000 ![] bcast_S_S800000 : (⟨S_, .i32⟩ : BufTy).Contents (Elt F) → (⟨S800000, .i32⟩ : BufTy).Contents (Elt F)),
    StableHlo.binary main_v32 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 100000#32),
    StableHlo.unary main_c_5 main_v37 (broadcastInDim S800000 ![] bcast_S_S800000 : (⟨S_, .i32⟩ : BufTy).Contents (Elt F) → (⟨S800000, .i32⟩ : BufTy).Contents (Elt F)),
    StableHlo.binary main_v32 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_v32 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_arg4 main_v40 main_v41 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v42 ((extractStridedSlice S1x64x128 ![1, 0, 0] · slices_S4x64x128_S1x64x128_1_0_0) : (⟨S4x64x128, .f32⟩ : BufTy).Contents (Elt F) → (⟨S1x64x128, .f32⟩ : BufTy).Contents (Elt F)),
    StableHlo.reshape main_v42 main_v43 rfl shapeCasts_S1x64x128_S64x128,
    StableHlo.binary main_v41 main_v43 main_v44 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst_6 (constant S_ .f32 0x00000000#32),
    StableHlo.unary main_cst_6 main_v45 (broadcastInDim S100000x128 ![] bcast_S_S100000x128 : (⟨S_, .f32⟩ : BufTy).Contents (Elt F) → (⟨S100000x128, .f32⟩ : BufTy).Contents (Elt F)),
    StableHlo.unary main_v34 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_7 (constant S_ .f32 0x3F800000#32),
    StableHlo.unary main_cst_7 main_v48 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v49 (broadcastInDim S100000 ![] bcast_S_S100000 : (⟨S_, .f32⟩ : BufTy).Contents (Elt F) → (⟨S100000, .f32⟩ : BufTy).Contents (Elt F)),
    StableHlo.unary main_v34 main_v50 (broadcastInDim S800000x1 ![0] bcast_S800000_S800000x1_0 : (⟨S800000, .i32⟩ : BufTy).Contents (Elt F) → (⟨S800000x1, .i32⟩ : BufTy).Contents (Elt F)),
    StableHlo.ternary main_v49 main_v50 main_v48 main_v51 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_9 (constant S_ .f32 0x3F800000#32),
    StableHlo.unary main_cst_9 main_v52 (broadcastInDim S100000 ![] bcast_S_S100000 : (⟨S_, .f32⟩ : BufTy).Contents (Elt F) → (⟨S100000, .f32⟩ : BufTy).Contents (Elt F)),
    StableHlo.binary main_v51 main_v52 main_v53 (maximumf : (⟨S100000, .f32⟩ : BufTy).Contents (Elt F) → (⟨S100000, .f32⟩ : BufTy).Contents (Elt F) → (⟨S100000, .f32⟩ : BufTy).Contents (Elt F)),
    StableHlo.unary main_v53 main_v54 (broadcastInDim S100000x1 ![0] bcast_S100000_S100000x1_0 : (⟨S100000, .f32⟩ : BufTy).Contents (Elt F) → (⟨S100000x1, .f32⟩ : BufTy).Contents (Elt F)),
    StableHlo.unary main_v54 main_v55 (broadcastInDim S100000x128 ![0, 1] bcast_S100000x1_S100000x128_0_1 : (⟨S100000x1, .f32⟩ : BufTy).Contents (Elt F) → (⟨S100000x128, .f32⟩ : BufTy).Contents (Elt F)),
    StableHlo.binary main_v47 main_v55 main_v56 (Host.divf : (⟨S100000x128, .f32⟩ : BufTy).Contents (Elt F) → (⟨S100000x128, .f32⟩ : BufTy).Contents (Elt F) → (⟨S100000x128, .f32⟩ : BufTy).Contents (Elt F)),
    StableHlo.binary main_v30 main_v56 main_v57 (addf : (⟨S100000x128, .f32⟩ : BufTy).Contents (Elt F) → (⟨S100000x128, .f32⟩ : BufTy).Contents (Elt F) → (⟨S100000x128, .f32⟩ : BufTy).Contents (Elt F)) ]

/-- The buffers block 1's operations write, in order. -/
abbrev blk1_W : List (Ref sig .tc) :=
  [main_v31, main_v32, main_v33, main_v34, main_c_4, main_v35, main_v36, main_c_5, main_v37, main_v38, main_v39, main_v40, main_v41, main_v42, main_v43, main_v44, main_cst_6, main_v45, main_v46, main_v47, main_cst_7, main_v48, main_cst_8, main_v49, main_v50, main_v51, main_cst_9, main_v52, main_v53, main_v54, main_v55, main_v56, main_v57]

/-- Block 2 (33 operations). -/
abbrev blk2 : List (HloOp τ sig (Elt F)) :=
  [ StableHlo.unary main_arg2 main_v58 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v58 main_v59 rfl shapeCasts_S1x800000_S800000,
    StableHlo.unary main_arg2 main_v60 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v60 main_v61 rfl shapeCasts_S1x800000_S800000,
    StableHlo.nullary main_c_10 (constantI S_ 32 0#32),
    StableHlo.unary main_c_10 main_v62 (broadcastInDim S800000 ![] bcast_S_S800000 : (⟨S_, .i32⟩ : BufTy).Contents (Elt F) → (⟨S800000, .i32⟩ : BufTy).Contents (Elt F)),
    StableHlo.binary main_v59 main_v62 main_v63 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 100000#32),
    StableHlo.unary main_c_11 main_v64 (broadcastInDim S800000 ![] bcast_S_S800000 : (⟨S_, .i32⟩ : BufTy).Contents (Elt F) → (⟨S800000, .i32⟩ : BufTy).Contents (Elt F)),
    StableHlo.binary main_v59 main_v64 main_v65 (addi : (⟨S800000, .i32⟩ : BufTy).Contents (Elt F) → (⟨S800000, .i32⟩ : BufTy).Contents (Elt F) → (⟨S800000, .i32⟩ : BufTy).Contents (Elt F)),
    StableHlo.ternary main_v63 main_v65 main_v59 main_v66 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v66 main_v67 (broadcastInDim S800000x1 ![0] bcast_S800000_S800000x1_0 : (⟨S800000, .i32⟩ : BufTy).Contents (Elt F) → (⟨S800000x1, .i32⟩ : BufTy).Contents (Elt F)),
    StableHlo.binary main_arg4 main_v67 main_v68 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v69 ((extractStridedSlice S1x64x128 ![2, 0, 0] · slices_S4x64x128_S1x64x128_2_0_0) : (⟨S4x64x128, .f32⟩ : BufTy).Contents (Elt F) → (⟨S1x64x128, .f32⟩ : BufTy).Contents (Elt F)),
    StableHlo.reshape main_v69 main_v70 rfl shapeCasts_S1x64x128_S64x128,
    StableHlo.binary main_v68 main_v70 main_v71 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst_12 (constant S_ .f32 0x00000000#32),
    StableHlo.unary main_cst_12 main_v72 (broadcastInDim S100000x128 ![] bcast_S_S100000x128 : (⟨S_, .f32⟩ : BufTy).Contents (Elt F) → (⟨S100000x128, .f32⟩ : BufTy).Contents (Elt F)),
    StableHlo.unary main_v61 main_v73 (broadcastInDim S800000x1 ![0] bcast_S800000_S800000x1_0 : (⟨S800000, .i32⟩ : BufTy).Contents (Elt F) → (⟨S800000x1, .i32⟩ : BufTy).Contents (Elt F)),
    StableHlo.ternary main_v72 main_v73 main_v71 main_v74 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_13 (constant S_ .f32 0x3F800000#32),
    StableHlo.unary main_cst_13 main_v75 (broadcastInDim S800000 ![] bcast_S_S800000 : (⟨S_, .f32⟩ : BufTy).Contents (Elt F) → (⟨S800000, .f32⟩ : BufTy).Contents (Elt F)),
    StableHlo.nullary main_cst_14 (constant S_ .f32 0x00000000#32),
    StableHlo.unary main_cst_14 main_v76 (broadcastInDim S100000 ![] bcast_S_S100000 : (⟨S_, .f32⟩ : BufTy).Contents (Elt F) → (⟨S100000, .f32⟩ : BufTy).Contents (Elt F)),
    StableHlo.unary main_v61 main_v77 (broadcastInDim S800000x1 ![0] bcast_S800000_S800000x1_0 : (⟨S800000, .i32⟩ : BufTy).Contents (Elt F) → (⟨S800000x1, .i32⟩ : BufTy).Contents (Elt F)),
    StableHlo.ternary main_v76 main_v77 main_v75 main_v78 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_15 (constant S_ .f32 0x3F800000#32),
    StableHlo.unary main_cst_15 main_v79 (broadcastInDim S100000 ![] bcast_S_S100000 : (⟨S_, .f32⟩ : BufTy).Contents (Elt F) → (⟨S100000, .f32⟩ : BufTy).Contents (Elt F)),
    StableHlo.binary main_v78 main_v79 main_v80 (maximumf : (⟨S100000, .f32⟩ : BufTy).Contents (Elt F) → (⟨S100000, .f32⟩ : BufTy).Contents (Elt F) → (⟨S100000, .f32⟩ : BufTy).Contents (Elt F)),
    StableHlo.unary main_v80 main_v81 (broadcastInDim S100000x1 ![0] bcast_S100000_S100000x1_0 : (⟨S100000, .f32⟩ : BufTy).Contents (Elt F) → (⟨S100000x1, .f32⟩ : BufTy).Contents (Elt F)),
    StableHlo.unary main_v81 main_v82 (broadcastInDim S100000x128 ![0, 1] bcast_S100000x1_S100000x128_0_1 : (⟨S100000x1, .f32⟩ : BufTy).Contents (Elt F) → (⟨S100000x128, .f32⟩ : BufTy).Contents (Elt F)),
    StableHlo.binary main_v74 main_v82 main_v83 (Host.divf : (⟨S100000x128, .f32⟩ : BufTy).Contents (Elt F) → (⟨S100000x128, .f32⟩ : BufTy).Contents (Elt F) → (⟨S100000x128, .f32⟩ : BufTy).Contents (Elt F)),
    StableHlo.binary main_v57 main_v83 main_v84 (addf : (⟨S100000x128, .f32⟩ : BufTy).Contents (Elt F) → (⟨S100000x128, .f32⟩ : BufTy).Contents (Elt F) → (⟨S100000x128, .f32⟩ : BufTy).Contents (Elt F)) ]

/-- The buffers block 2's operations write, in order. -/
abbrev blk2_W : List (Ref sig .tc) :=
  [main_v58, main_v59, main_v60, main_v61, main_c_10, main_v62, main_v63, main_c_11, main_v64, main_v65, main_v66, main_v67, main_v68, main_v69, main_v70, main_v71, main_cst_12, main_v72, main_v73, main_v74, main_cst_13, main_v75, main_cst_14, main_v76, main_v77, main_v78, main_cst_15, main_v79, main_v80, main_v81, main_v82, main_v83, main_v84]

/-- Block 3 (33 operations). -/
abbrev blk3 : List (HloOp τ sig (Elt F)) :=
  [ StableHlo.unary main_arg3 main_v85 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v85 main_v86 rfl shapeCasts_S1x800000_S800000,
    StableHlo.unary main_arg3 main_v87 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v87 main_v88 rfl shapeCasts_S1x800000_S800000,
    StableHlo.nullary main_c_16 (constantI S_ 32 0#32),
    StableHlo.unary main_c_16 main_v89 (broadcastInDim S800000 ![] bcast_S_S800000 : (⟨S_, .i32⟩ : BufTy).Contents (Elt F) → (⟨S800000, .i32⟩ : BufTy).Contents (Elt F)),
    StableHlo.binary main_v86 main_v89 main_v90 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 100000#32),
    StableHlo.unary main_c_17 main_v91 (broadcastInDim S800000 ![] bcast_S_S800000 : (⟨S_, .i32⟩ : BufTy).Contents (Elt F) → (⟨S800000, .i32⟩ : BufTy).Contents (Elt F)),
    StableHlo.binary main_v86 main_v91 main_v92 (addi : (⟨S800000, .i32⟩ : BufTy).Contents (Elt F) → (⟨S800000, .i32⟩ : BufTy).Contents (Elt F) → (⟨S800000, .i32⟩ : BufTy).Contents (Elt F)),
    StableHlo.ternary main_v90 main_v92 main_v86 main_v93 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v93 main_v94 (broadcastInDim S800000x1 ![0] bcast_S800000_S800000x1_0 : (⟨S800000, .i32⟩ : BufTy).Contents (Elt F) → (⟨S800000x1, .i32⟩ : BufTy).Contents (Elt F)),
    StableHlo.binary main_arg4 main_v94 main_v95 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    StableHlo.unary main_arg5 main_v96 ((extractStridedSlice S1x64x128 ![3, 0, 0] · slices_S4x64x128_S1x64x128_3_0_0) : (⟨S4x64x128, .f32⟩ : BufTy).Contents (Elt F) → (⟨S1x64x128, .f32⟩ : BufTy).Contents (Elt F)),
    StableHlo.reshape main_v96 main_v97 rfl shapeCasts_S1x64x128_S64x128,
    StableHlo.binary main_v95 main_v97 main_v98 ((fun l r => Host.dotGeneral dot_S800000x64_S64x128_S800000x128_1_0_0_1_n_n none l r) : (⟨S800000x64, .f32⟩ : BufTy).Contents (Elt F) → (⟨S64x128, .f32⟩ : BufTy).Contents (Elt F) → (⟨S800000x128, .f32⟩ : BufTy).Contents (Elt F)),
    StableHlo.nullary main_cst_18 (constant S_ .f32 0x00000000#32),
    StableHlo.unary main_cst_18 main_v99 (broadcastInDim S100000x128 ![] bcast_S_S100000x128 : (⟨S_, .f32⟩ : BufTy).Contents (Elt F) → (⟨S100000x128, .f32⟩ : BufTy).Contents (Elt F)),
    StableHlo.unary main_v88 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    StableHlo.nullary main_cst_19 (constant S_ .f32 0x3F800000#32),
    StableHlo.unary main_cst_19 main_v102 (broadcastInDim S800000 ![] bcast_S_S800000 : (⟨S_, .f32⟩ : BufTy).Contents (Elt F) → (⟨S800000, .f32⟩ : BufTy).Contents (Elt F)),
    StableHlo.nullary main_cst_20 (constant S_ .f32 0x00000000#32),
    StableHlo.unary main_cst_20 main_v103 (broadcastInDim S100000 ![] bcast_S_S100000 : (⟨S_, .f32⟩ : BufTy).Contents (Elt F) → (⟨S100000, .f32⟩ : BufTy).Contents (Elt F)),
    StableHlo.unary main_v88 main_v104 (broadcastInDim S800000x1 ![0] bcast_S800000_S800000x1_0 : (⟨S800000, .i32⟩ : BufTy).Contents (Elt F) → (⟨S800000x1, .i32⟩ : BufTy).Contents (Elt F)),
    StableHlo.ternary main_v103 main_v104 main_v102 main_v105 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_21 (constant S_ .f32 0x3F800000#32),
    StableHlo.unary main_cst_21 main_v106 (broadcastInDim S100000 ![] bcast_S_S100000 : (⟨S_, .f32⟩ : BufTy).Contents (Elt F) → (⟨S100000, .f32⟩ : BufTy).Contents (Elt F)),
    StableHlo.binary main_v105 main_v106 main_v107 (maximumf : (⟨S100000, .f32⟩ : BufTy).Contents (Elt F) → (⟨S100000, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x128 ![0, 1] bcast_S100000x1_S100000x128_0_1 : (⟨S100000x1, .f32⟩ : BufTy).Contents (Elt F) → (⟨S100000x128, .f32⟩ : BufTy).Contents (Elt F)),
    StableHlo.binary main_v101 main_v109 main_v110 (Host.divf : (⟨S100000x128, .f32⟩ : BufTy).Contents (Elt F) → (⟨S100000x128, .f32⟩ : BufTy).Contents (Elt F) → (⟨S100000x128, .f32⟩ : BufTy).Contents (Elt F)),
    StableHlo.binary main_v84 main_v110 main_v111 (addf : (⟨S100000x128, .f32⟩ : BufTy).Contents (Elt F) → (⟨S100000x128, .f32⟩ : BufTy).Contents (Elt F) → (⟨S100000x128, .f32⟩ : BufTy).Contents (Elt F)) ]

/-- The buffers block 3's operations write, in order. -/
abbrev blk3_W : List (Ref sig .tc) :=
  [main_v85, main_v86, main_v87, main_v88, main_c_16, main_v89, main_v90, main_c_17, main_v91, main_v92, main_v93, main_v94, main_v95, main_v96, main_v97, main_v98, main_cst_18, main_v99, main_v100, main_v101, main_cst_19, main_v102, main_cst_20, main_v103, main_v104, main_v105, main_cst_21, main_v106, main_v107, main_v108, main_v109, main_v110, main_v111]

/-- Block 4 (44 operations). -/
abbrev blk4 : List (HloOp τ sig (Elt F)) :=
  [ StableHlo.nullary main_cst_22 (constant S_ .f32 0x00000000#32),
    StableHlo.binary main_v111 main_cst_22 main_v112 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_23 (constant S_ .f32 0x47C35000#32),
    StableHlo.unary main_cst_23 main_v113 (broadcastInDim S128 ![] bcast_S_S128 : (⟨S_, .f32⟩ : BufTy).Contents (Elt F) → (⟨S128, .f32⟩ : BufTy).Contents (Elt F)),
    StableHlo.binary main_v112 main_v113 main_v114 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call0.cst (constant S_ .f32 0x00000000#32),
    StableHlo.TRef.binary (.of main_v111) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v111) main_call0.v4 main_call0.v5 subf,
    StableHlo.TRef.binary main_call0.v5 main_call0.v5 main_call0.v6 mulf,
    StableHlo.TRef.unary (.of main_c_24) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v114 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v111 main_v117 main_v118 (subf : (⟨S100000x128, .f32⟩ : BufTy).Contents (Elt F) → (⟨S100000x128, .f32⟩ : BufTy).Contents (Elt F) → (⟨S100000x128, .f32⟩ : BufTy).Contents (Elt F)),
    StableHlo.unary main_arg8 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v120 main_v118 main_v121 (mulf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3727C5AC#32),
    StableHlo.unary main_cst_25 main_v122 (broadcastInDim S128 ![] bcast_S_S128 : (⟨S_, .f32⟩ : BufTy).Contents (Elt F) → (⟨S128, .f32⟩ : BufTy).Contents (Elt F)),
    StableHlo.binary main_v115 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v126 main_v127 (mulf : (⟨S100000x128, .f32⟩ : BufTy).Contents (Elt F) → (⟨S100000x128, .f32⟩ : BufTy).Contents (Elt F) → (⟨S100000x128, .f32⟩ : BufTy).Contents (Elt F)),
    StableHlo.unary main_arg9 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v129 main_v130 (addf : (⟨S100000x128, .f32⟩ : BufTy).Contents (Elt F) → (⟨S100000x128, .f32⟩ : BufTy).Contents (Elt F) → (⟨S100000x128, .f32⟩ : BufTy).Contents (Elt F)) ]

/-- The buffers block 4's operations write, in order. -/
abbrev blk4_W : List (Ref sig .tc) :=
  [main_cst_22, main_v112, main_cst_23, main_v113, main_v114, main_c_24, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.cst_3).ref, (main_call0.v12).ref, (main_call0.cst_4).ref, (main_call0.call0.v0).ref, (main_call0.call0.v1).ref, (main_call0.call0.v2).ref, main_v116, main_v117, main_v118, main_v119, main_v120, main_v121, main_cst_25, main_v122, main_v123, main_v124, main_v125, main_v126, main_v127, main_v128, main_v129, main_v130]

/-- Block 5 (15 operations). -/
abbrev blk5 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (.of main_v130) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v130) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v130) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v130) main_call1.v7 main_call1.call1.v0 select ]

/-- The buffers block 5's operations write, in order. -/
abbrev blk5_W : List (Ref sig .tc) :=
  [(main_call1.cst).ref, (main_call1.v0).ref, (main_call1.v1).ref, (main_call1.cst_0).ref, (main_call1.v2).ref, (main_call1.v3).ref, (main_call1.cst_1).ref, (main_call1.call0.v0).ref, (main_call1.call0.v1).ref, (main_call1.call0.v2).ref, (main_call1.v5).ref, (main_call1.cst_2).ref, (main_call1.v6).ref, (main_call1.v7).ref, (main_call1.call1.v0).ref]

/-- Block 6 (37 operations). -/
abbrev blk6 : List (HloOp τ sig (Elt F)) :=
  [ StableHlo.binary main_v131 main_arg11 main_v132 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S100000x64 ![0, 1] bcast_S1x64_S100000x64_0_1 : (⟨S1x64, .f32⟩ : BufTy).Contents (Elt F) → (⟨S100000x64, .f32⟩ : BufTy).Contents (Elt F)),
    StableHlo.binary main_v132 main_v134 main_v135 (addf : (⟨S100000x64, .f32⟩ : BufTy).Contents (Elt F) → (⟨S100000x64, .f32⟩ : BufTy).Contents (Elt F) → (⟨S100000x64, .f32⟩ : BufTy).Contents (Elt F)),
    StableHlo.unary main_arg0 main_v136 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v136 main_v137 rfl shapeCasts_S1x800000_S800000,
    StableHlo.unary main_arg0 main_v138 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v138 main_v139 rfl shapeCasts_S1x800000_S800000,
    StableHlo.nullary main_c_26 (constantI S_ 32 0#32),
    StableHlo.unary main_c_26 main_v140 (broadcastInDim S800000 ![] bcast_S_S800000 : (⟨S_, .i32⟩ : BufTy).Contents (Elt F) → (⟨S800000, .i32⟩ : BufTy).Contents (Elt F)),
    StableHlo.binary main_v137 main_v140 main_v141 (cmpi .slt : (⟨S800000, .i32⟩ : BufTy).Contents (Elt F) → (⟨S800000, .i32⟩ : BufTy).Contents (Elt F) → (⟨S800000, .i1⟩ : BufTy).Contents (Elt F)),
    StableHlo.nullary main_c_27 (constantI S_ 32 100000#32),
    StableHlo.unary main_c_27 main_v142 (broadcastInDim S800000 ![] bcast_S_S800000 : (⟨S_, .i32⟩ : BufTy).Contents (Elt F) → (⟨S800000, .i32⟩ : BufTy).Contents (Elt F)),
    StableHlo.binary main_v137 main_v142 main_v143 (addi : (⟨S800000, .i32⟩ : BufTy).Contents (Elt F) → (⟨S800000, .i32⟩ : BufTy).Contents (Elt F) → (⟨S800000, .i32⟩ : BufTy).Contents (Elt F)),
    StableHlo.ternary main_v141 main_v143 main_v137 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v144 main_v145 (broadcastInDim S800000x1 ![0] bcast_S800000_S800000x1_0 : (⟨S800000, .i32⟩ : BufTy).Contents (Elt F) → (⟨S800000x1, .i32⟩ : BufTy).Contents (Elt F)),
    StableHlo.binary main_v131 main_v145 main_v146 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v147 ((extractStridedSlice S1x128x64 ![0, 0, 0] · slices_S4x128x64_S1x128x64_0_0_0) : (⟨S4x128x64, .f32⟩ : BufTy).Contents (Elt F) → (⟨S1x128x64, .f32⟩ : BufTy).Contents (Elt F)),
    StableHlo.reshape main_v147 main_v148 rfl shapeCasts_S1x128x64_S128x64,
    StableHlo.binary main_v146 main_v148 main_v149 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.nullary main_cst_28 (constant S_ .f32 0x00000000#32),
    StableHlo.unary main_cst_28 main_v150 (broadcastInDim S100000x64 ![] bcast_S_S100000x64 : (⟨S_, .f32⟩ : BufTy).Contents (Elt F) → (⟨S100000x64, .f32⟩ : BufTy).Contents (Elt F)),
    StableHlo.unary main_v139 main_v151 (broadcastInDim S800000x1 ![0] bcast_S800000_S800000x1_0 : (⟨S800000, .i32⟩ : BufTy).Contents (Elt F) → (⟨S800000x1, .i32⟩ : BufTy).Contents (Elt F)),
    StableHlo.ternary main_v150 main_v151 main_v149 main_v152 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_29 (constant S_ .f32 0x3F800000#32),
    StableHlo.unary main_cst_29 main_v153 (broadcastInDim S800000 ![] bcast_S_S800000 : (⟨S_, .f32⟩ : BufTy).Contents (Elt F) → (⟨S800000, .f32⟩ : BufTy).Contents (Elt F)),
    StableHlo.nullary main_cst_30 (constant S_ .f32 0x00000000#32),
    StableHlo.unary main_cst_30 main_v154 (broadcastInDim S100000 ![] bcast_S_S100000 : (⟨S_, .f32⟩ : BufTy).Contents (Elt F) → (⟨S100000, .f32⟩ : BufTy).Contents (Elt F)),
    StableHlo.unary main_v139 main_v155 (broadcastInDim S800000x1 ![0] bcast_S800000_S800000x1_0 : (⟨S800000, .i32⟩ : BufTy).Contents (Elt F) → (⟨S800000x1, .i32⟩ : BufTy).Contents (Elt F)),
    StableHlo.ternary main_v154 main_v155 main_v153 main_v156 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_31 (constant S_ .f32 0x3F800000#32),
    StableHlo.unary main_cst_31 main_v157 (broadcastInDim S100000 ![] bcast_S_S100000 : (⟨S_, .f32⟩ : BufTy).Contents (Elt F) → (⟨S100000, .f32⟩ : BufTy).Contents (Elt F)),
    StableHlo.binary main_v156 main_v157 main_v158 (maximumf : (⟨S100000, .f32⟩ : BufTy).Contents (Elt F) → (⟨S100000, .f32⟩ : BufTy).Contents (Elt F) → (⟨S100000, .f32⟩ : BufTy).Contents (Elt F)),
    StableHlo.unary main_v158 main_v159 (broadcastInDim S100000x1 ![0] bcast_S100000_S100000x1_0 : (⟨S100000, .f32⟩ : BufTy).Contents (Elt F) → (⟨S100000x1, .f32⟩ : BufTy).Contents (Elt F)),
    StableHlo.unary main_v159 main_v160 (broadcastInDim S100000x64 ![0, 1] bcast_S100000x1_S100000x64_0_1 : (⟨S100000x1, .f32⟩ : BufTy).Contents (Elt F) → (⟨S100000x64, .f32⟩ : BufTy).Contents (Elt F)),
    StableHlo.binary main_v152 main_v160 main_v161 (Host.divf : (⟨S100000x64, .f32⟩ : BufTy).Contents (Elt F) → (⟨S100000x64, .f32⟩ : BufTy).Contents (Elt F) → (⟨S100000x64, .f32⟩ : BufTy).Contents (Elt F)),
    StableHlo.binary main_v135 main_v161 main_v162 (addf : (⟨S100000x64, .f32⟩ : BufTy).Contents (Elt F) → (⟨S100000x64, .f32⟩ : BufTy).Contents (Elt F) → (⟨S100000x64, .f32⟩ : BufTy).Contents (Elt F)) ]

/-- The buffers block 6's operations write, in order. -/
abbrev blk6_W : List (Ref sig .tc) :=
  [main_v132, main_v133, main_v134, main_v135, main_v136, main_v137, main_v138, main_v139, main_c_26, main_v140, main_v141, main_c_27, main_v142, main_v143, main_v144, main_v145, main_v146, main_v147, main_v148, main_v149, main_cst_28, main_v150, main_v151, main_v152, main_cst_29, main_v153, main_cst_30, main_v154, main_v155, main_v156, main_cst_31, main_v157, main_v158, main_v159, main_v160, main_v161, main_v162]

/-- Block 7 (33 operations). -/
abbrev blk7 : List (HloOp τ sig (Elt F)) :=
  [ StableHlo.unary main_arg1 main_v163 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v163 main_v164 rfl shapeCasts_S1x800000_S800000,
    StableHlo.unary main_arg1 main_v165 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v165 main_v166 rfl shapeCasts_S1x800000_S800000,
    StableHlo.nullary main_c_32 (constantI S_ 32 0#32),
    StableHlo.unary main_c_32 main_v167 (broadcastInDim S800000 ![] bcast_S_S800000 : (⟨S_, .i32⟩ : BufTy).Contents (Elt F) → (⟨S800000, .i32⟩ : BufTy).Contents (Elt F)),
    StableHlo.binary main_v164 main_v167 main_v168 (cmpi .slt : (⟨S800000, .i32⟩ : BufTy).Contents (Elt F) → (⟨S800000, .i32⟩ : BufTy).Contents (Elt F) → (⟨S800000, .i1⟩ : BufTy).Contents (Elt F)),
    StableHlo.nullary main_c_33 (constantI S_ 32 100000#32),
    StableHlo.unary main_c_33 main_v169 (broadcastInDim S800000 ![] bcast_S_S800000 : (⟨S_, .i32⟩ : BufTy).Contents (Elt F) → (⟨S800000, .i32⟩ : BufTy).Contents (Elt F)),
    StableHlo.binary main_v164 main_v169 main_v170 (addi : (⟨S800000, .i32⟩ : BufTy).Contents (Elt F) → (⟨S800000, .i32⟩ : BufTy).Contents (Elt F) → (⟨S800000, .i32⟩ : BufTy).Contents (Elt F)),
    StableHlo.ternary main_v168 main_v170 main_v164 main_v171 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v171 main_v172 (broadcastInDim S800000x1 ![0] bcast_S800000_S800000x1_0 : (⟨S800000, .i32⟩ : BufTy).Contents (Elt F) → (⟨S800000x1, .i32⟩ : BufTy).Contents (Elt F)),
    StableHlo.binary main_v131 main_v172 main_v173 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v174 ((extractStridedSlice S1x128x64 ![1, 0, 0] · slices_S4x128x64_S1x128x64_1_0_0) : (⟨S4x128x64, .f32⟩ : BufTy).Contents (Elt F) → (⟨S1x128x64, .f32⟩ : BufTy).Contents (Elt F)),
    StableHlo.reshape main_v174 main_v175 rfl shapeCasts_S1x128x64_S128x64,
    StableHlo.binary main_v173 main_v175 main_v176 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.nullary main_cst_34 (constant S_ .f32 0x00000000#32),
    StableHlo.unary main_cst_34 main_v177 (broadcastInDim S100000x64 ![] bcast_S_S100000x64 : (⟨S_, .f32⟩ : BufTy).Contents (Elt F) → (⟨S100000x64, .f32⟩ : BufTy).Contents (Elt F)),
    StableHlo.unary main_v166 main_v178 (broadcastInDim S800000x1 ![0] bcast_S800000_S800000x1_0 : (⟨S800000, .i32⟩ : BufTy).Contents (Elt F) → (⟨S800000x1, .i32⟩ : BufTy).Contents (Elt F)),
    StableHlo.ternary main_v177 main_v178 main_v176 main_v179 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_35 (constant S_ .f32 0x3F800000#32),
    StableHlo.unary main_cst_35 main_v180 (broadcastInDim S800000 ![] bcast_S_S800000 : (⟨S_, .f32⟩ : BufTy).Contents (Elt F) → (⟨S800000, .f32⟩ : BufTy).Contents (Elt F)),
    StableHlo.nullary main_cst_36 (constant S_ .f32 0x00000000#32),
    StableHlo.unary main_cst_36 main_v181 (broadcastInDim S100000 ![] bcast_S_S100000 : (⟨S_, .f32⟩ : BufTy).Contents (Elt F) → (⟨S100000, .f32⟩ : BufTy).Contents (Elt F)),
    StableHlo.unary main_v166 main_v182 (broadcastInDim S800000x1 ![0] bcast_S800000_S800000x1_0 : (⟨S800000, .i32⟩ : BufTy).Contents (Elt F) → (⟨S800000x1, .i32⟩ : BufTy).Contents (Elt F)),
    StableHlo.ternary main_v181 main_v182 main_v180 main_v183 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_37 (constant S_ .f32 0x3F800000#32),
    StableHlo.unary main_cst_37 main_v184 (broadcastInDim S100000 ![] bcast_S_S100000 : (⟨S_, .f32⟩ : BufTy).Contents (Elt F) → (⟨S100000, .f32⟩ : BufTy).Contents (Elt F)),
    StableHlo.binary main_v183 main_v184 main_v185 (maximumf : (⟨S100000, .f32⟩ : BufTy).Contents (Elt F) → (⟨S100000, .f32⟩ : BufTy).Contents (Elt F) → (⟨S100000, .f32⟩ : BufTy).Contents (Elt F)),
    StableHlo.unary main_v185 main_v186 (broadcastInDim S100000x1 ![0] bcast_S100000_S100000x1_0 : (⟨S100000, .f32⟩ : BufTy).Contents (Elt F) → (⟨S100000x1, .f32⟩ : BufTy).Contents (Elt F)),
    StableHlo.unary main_v186 main_v187 (broadcastInDim S100000x64 ![0, 1] bcast_S100000x1_S100000x64_0_1 : (⟨S100000x1, .f32⟩ : BufTy).Contents (Elt F) → (⟨S100000x64, .f32⟩ : BufTy).Contents (Elt F)),
    StableHlo.binary main_v179 main_v187 main_v188 (Host.divf : (⟨S100000x64, .f32⟩ : BufTy).Contents (Elt F) → (⟨S100000x64, .f32⟩ : BufTy).Contents (Elt F) → (⟨S100000x64, .f32⟩ : BufTy).Contents (Elt F)),
    StableHlo.binary main_v162 main_v188 main_v189 (addf : (⟨S100000x64, .f32⟩ : BufTy).Contents (Elt F) → (⟨S100000x64, .f32⟩ : BufTy).Contents (Elt F) → (⟨S100000x64, .f32⟩ : BufTy).Contents (Elt F)) ]

/-- The buffers block 7's operations write, in order. -/
abbrev blk7_W : List (Ref sig .tc) :=
  [main_v163, main_v164, main_v165, main_v166, main_c_32, main_v167, main_v168, main_c_33, main_v169, main_v170, main_v171, main_v172, main_v173, main_v174, main_v175, main_v176, main_cst_34, main_v177, main_v178, main_v179, main_cst_35, main_v180, main_cst_36, main_v181, main_v182, main_v183, main_cst_37, main_v184, main_v185, main_v186, main_v187, main_v188, main_v189]

/-- Block 8 (33 operations). -/
abbrev blk8 : List (HloOp τ sig (Elt F)) :=
  [ StableHlo.unary main_arg2 main_v190 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v190 main_v191 rfl shapeCasts_S1x800000_S800000,
    StableHlo.unary main_arg2 main_v192 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v192 main_v193 rfl shapeCasts_S1x800000_S800000,
    StableHlo.nullary main_c_38 (constantI S_ 32 0#32),
    StableHlo.unary main_c_38 main_v194 (broadcastInDim S800000 ![] bcast_S_S800000 : (⟨S_, .i32⟩ : BufTy).Contents (Elt F) → (⟨S800000, .i32⟩ : BufTy).Contents (Elt F)),
    StableHlo.binary main_v191 main_v194 main_v195 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 100000#32),
    StableHlo.unary main_c_39 main_v196 (broadcastInDim S800000 ![] bcast_S_S800000 : (⟨S_, .i32⟩ : BufTy).Contents (Elt F) → (⟨S800000, .i32⟩ : BufTy).Contents (Elt F)),
    StableHlo.binary main_v191 main_v196 main_v197 (addi : (⟨S800000, .i32⟩ : BufTy).Contents (Elt F) → (⟨S800000, .i32⟩ : BufTy).Contents (Elt F) → (⟨S800000, .i32⟩ : BufTy).Contents (Elt F)),
    StableHlo.ternary main_v195 main_v197 main_v191 main_v198 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v198 main_v199 (broadcastInDim S800000x1 ![0] bcast_S800000_S800000x1_0 : (⟨S800000, .i32⟩ : BufTy).Contents (Elt F) → (⟨S800000x1, .i32⟩ : BufTy).Contents (Elt F)),
    StableHlo.binary main_v131 main_v199 main_v200 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v201 ((extractStridedSlice S1x128x64 ![2, 0, 0] · slices_S4x128x64_S1x128x64_2_0_0) : (⟨S4x128x64, .f32⟩ : BufTy).Contents (Elt F) → (⟨S1x128x64, .f32⟩ : BufTy).Contents (Elt F)),
    StableHlo.reshape main_v201 main_v202 rfl shapeCasts_S1x128x64_S128x64,
    StableHlo.binary main_v200 main_v202 main_v203 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.nullary main_cst_40 (constant S_ .f32 0x00000000#32),
    StableHlo.unary main_cst_40 main_v204 (broadcastInDim S100000x64 ![] bcast_S_S100000x64 : (⟨S_, .f32⟩ : BufTy).Contents (Elt F) → (⟨S100000x64, .f32⟩ : BufTy).Contents (Elt F)),
    StableHlo.unary main_v193 main_v205 (broadcastInDim S800000x1 ![0] bcast_S800000_S800000x1_0 : (⟨S800000, .i32⟩ : BufTy).Contents (Elt F) → (⟨S800000x1, .i32⟩ : BufTy).Contents (Elt F)),
    StableHlo.ternary main_v204 main_v205 main_v203 main_v206 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_41 (constant S_ .f32 0x3F800000#32),
    StableHlo.unary main_cst_41 main_v207 (broadcastInDim S800000 ![] bcast_S_S800000 : (⟨S_, .f32⟩ : BufTy).Contents (Elt F) → (⟨S800000, .f32⟩ : BufTy).Contents (Elt F)),
    StableHlo.nullary main_cst_42 (constant S_ .f32 0x00000000#32),
    StableHlo.unary main_cst_42 main_v208 (broadcastInDim S100000 ![] bcast_S_S100000 : (⟨S_, .f32⟩ : BufTy).Contents (Elt F) → (⟨S100000, .f32⟩ : BufTy).Contents (Elt F)),
    StableHlo.unary main_v193 main_v209 (broadcastInDim S800000x1 ![0] bcast_S800000_S800000x1_0 : (⟨S800000, .i32⟩ : BufTy).Contents (Elt F) → (⟨S800000x1, .i32⟩ : BufTy).Contents (Elt F)),
    StableHlo.ternary main_v208 main_v209 main_v207 main_v210 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_43 (constant S_ .f32 0x3F800000#32),
    StableHlo.unary main_cst_43 main_v211 (broadcastInDim S100000 ![] bcast_S_S100000 : (⟨S_, .f32⟩ : BufTy).Contents (Elt F) → (⟨S100000, .f32⟩ : BufTy).Contents (Elt F)),
    StableHlo.binary main_v210 main_v211 main_v212 (maximumf : (⟨S100000, .f32⟩ : BufTy).Contents (Elt F) → (⟨S100000, .f32⟩ : BufTy).Contents (Elt F) → (⟨S100000, .f32⟩ : BufTy).Contents (Elt F)),
    StableHlo.unary main_v212 main_v213 (broadcastInDim S100000x1 ![0] bcast_S100000_S100000x1_0 : (⟨S100000, .f32⟩ : BufTy).Contents (Elt F) → (⟨S100000x1, .f32⟩ : BufTy).Contents (Elt F)),
    StableHlo.unary main_v213 main_v214 (broadcastInDim S100000x64 ![0, 1] bcast_S100000x1_S100000x64_0_1 : (⟨S100000x1, .f32⟩ : BufTy).Contents (Elt F) → (⟨S100000x64, .f32⟩ : BufTy).Contents (Elt F)),
    StableHlo.binary main_v206 main_v214 main_v215 (Host.divf : (⟨S100000x64, .f32⟩ : BufTy).Contents (Elt F) → (⟨S100000x64, .f32⟩ : BufTy).Contents (Elt F) → (⟨S100000x64, .f32⟩ : BufTy).Contents (Elt F)),
    StableHlo.binary main_v189 main_v215 main_v216 (addf : (⟨S100000x64, .f32⟩ : BufTy).Contents (Elt F) → (⟨S100000x64, .f32⟩ : BufTy).Contents (Elt F) → (⟨S100000x64, .f32⟩ : BufTy).Contents (Elt F)) ]

/-- The buffers block 8's operations write, in order. -/
abbrev blk8_W : List (Ref sig .tc) :=
  [main_v190, main_v191, main_v192, main_v193, main_c_38, main_v194, main_v195, main_c_39, main_v196, main_v197, main_v198, main_v199, main_v200, main_v201, main_v202, main_v203, main_cst_40, main_v204, main_v205, main_v206, main_cst_41, main_v207, main_cst_42, main_v208, main_v209, main_v210, main_cst_43, main_v211, main_v212, main_v213, main_v214, main_v215, main_v216]

/-- Block 9 (33 operations). -/
abbrev blk9 : List (HloOp τ sig (Elt F)) :=
  [ StableHlo.unary main_arg3 main_v217 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v217 main_v218 rfl shapeCasts_S1x800000_S800000,
    StableHlo.unary main_arg3 main_v219 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v219 main_v220 rfl shapeCasts_S1x800000_S800000,
    StableHlo.nullary main_c_44 (constantI S_ 32 0#32),
    StableHlo.unary main_c_44 main_v221 (broadcastInDim S800000 ![] bcast_S_S800000 : (⟨S_, .i32⟩ : BufTy).Contents (Elt F) → (⟨S800000, .i32⟩ : BufTy).Contents (Elt F)),
    StableHlo.binary main_v218 main_v221 main_v222 (cmpi .slt : (⟨S800000, .i32⟩ : BufTy).Contents (Elt F) → (⟨S800000, .i32⟩ : BufTy).Contents (Elt F) → (⟨S800000, .i1⟩ : BufTy).Contents (Elt F)),
    StableHlo.nullary main_c_45 (constantI S_ 32 100000#32),
    StableHlo.unary main_c_45 main_v223 (broadcastInDim S800000 ![] bcast_S_S800000 : (⟨S_, .i32⟩ : BufTy).Contents (Elt F) → (⟨S800000, .i32⟩ : BufTy).Contents (Elt F)),
    StableHlo.binary main_v218 main_v223 main_v224 (addi : (⟨S800000, .i32⟩ : BufTy).Contents (Elt F) → (⟨S800000, .i32⟩ : BufTy).Contents (Elt F) → (⟨S800000, .i32⟩ : BufTy).Contents (Elt F)),
    StableHlo.ternary main_v222 main_v224 main_v218 main_v225 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v225 main_v226 (broadcastInDim S800000x1 ![0] bcast_S800000_S800000x1_0 : (⟨S800000, .i32⟩ : BufTy).Contents (Elt F) → (⟨S800000x1, .i32⟩ : BufTy).Contents (Elt F)),
    StableHlo.binary main_v131 main_v226 main_v227 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    StableHlo.unary main_arg10 main_v228 ((extractStridedSlice S1x128x64 ![3, 0, 0] · slices_S4x128x64_S1x128x64_3_0_0) : (⟨S4x128x64, .f32⟩ : BufTy).Contents (Elt F) → (⟨S1x128x64, .f32⟩ : BufTy).Contents (Elt F)),
    StableHlo.reshape main_v228 main_v229 rfl shapeCasts_S1x128x64_S128x64,
    StableHlo.binary main_v227 main_v229 main_v230 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    StableHlo.nullary main_cst_46 (constant S_ .f32 0x00000000#32),
    StableHlo.unary main_cst_46 main_v231 (broadcastInDim S100000x64 ![] bcast_S_S100000x64 : (⟨S_, .f32⟩ : BufTy).Contents (Elt F) → (⟨S100000x64, .f32⟩ : BufTy).Contents (Elt F)),
    StableHlo.unary main_v220 main_v232 (broadcastInDim S800000x1 ![0] bcast_S800000_S800000x1_0 : (⟨S800000, .i32⟩ : BufTy).Contents (Elt F) → (⟨S800000x1, .i32⟩ : BufTy).Contents (Elt F)),
    StableHlo.ternary main_v231 main_v232 main_v230 main_v233 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    StableHlo.nullary main_cst_47 (constant S_ .f32 0x3F800000#32),
    StableHlo.unary main_cst_47 main_v234 (broadcastInDim S800000 ![] bcast_S_S800000 : (⟨S_, .f32⟩ : BufTy).Contents (Elt F) → (⟨S800000, .f32⟩ : BufTy).Contents (Elt F)),
    StableHlo.nullary main_cst_48 (constant S_ .f32 0x00000000#32),
    StableHlo.unary main_cst_48 main_v235 (broadcastInDim S100000 ![] bcast_S_S100000 : (⟨S_, .f32⟩ : BufTy).Contents (Elt F) → (⟨S100000, .f32⟩ : BufTy).Contents (Elt F)),
    StableHlo.unary main_v220 main_v236 (broadcastInDim S800000x1 ![0] bcast_S800000_S800000x1_0 : (⟨S800000, .i32⟩ : BufTy).Contents (Elt F) → (⟨S800000x1, .i32⟩ : BufTy).Contents (Elt F)),
    StableHlo.ternary main_v235 main_v236 main_v234 main_v237 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    StableHlo.nullary main_cst_49 (constant S_ .f32 0x3F800000#32),
    StableHlo.unary main_cst_49 main_v238 (broadcastInDim S100000 ![] bcast_S_S100000 : (⟨S_, .f32⟩ : BufTy).Contents (Elt F) → (⟨S100000, .f32⟩ : BufTy).Contents (Elt F)),
    StableHlo.binary main_v237 main_v238 main_v239 (maximumf : (⟨S100000, .f32⟩ : BufTy).Contents (Elt F) → (⟨S100000, .f32⟩ : BufTy).Contents (Elt F) → (⟨S100000, .f32⟩ : BufTy).Contents (Elt F)),
    StableHlo.unary main_v239 main_v240 (broadcastInDim S100000x1 ![0] bcast_S100000_S100000x1_0 : (⟨S100000, .f32⟩ : BufTy).Contents (Elt F) → (⟨S100000x1, .f32⟩ : BufTy).Contents (Elt F)),
    StableHlo.unary main_v240 main_v241 (broadcastInDim S100000x64 ![0, 1] bcast_S100000x1_S100000x64_0_1 : (⟨S100000x1, .f32⟩ : BufTy).Contents (Elt F) → (⟨S100000x64, .f32⟩ : BufTy).Contents (Elt F)),
    StableHlo.binary main_v233 main_v241 main_v242 (Host.divf : (⟨S100000x64, .f32⟩ : BufTy).Contents (Elt F) → (⟨S100000x64, .f32⟩ : BufTy).Contents (Elt F) → (⟨S100000x64, .f32⟩ : BufTy).Contents (Elt F)),
    StableHlo.binary main_v216 main_v242 main_v243 (addf : (⟨S100000x64, .f32⟩ : BufTy).Contents (Elt F) → (⟨S100000x64, .f32⟩ : BufTy).Contents (Elt F) → (⟨S100000x64, .f32⟩ : BufTy).Contents (Elt F)) ]

/-- The buffers block 9's operations write, in order. -/
abbrev blk9_W : List (Ref sig .tc) :=
  [main_v217, main_v218, main_v219, main_v220, main_c_44, main_v221, main_v222, main_c_45, main_v223, main_v224, main_v225, main_v226, main_v227, main_v228, main_v229, main_v230, main_cst_46, main_v231, main_v232, main_v233, main_cst_47, main_v234, main_cst_48, main_v235, main_v236, main_v237, main_cst_49, main_v238, main_v239, main_v240, main_v241, main_v242, main_v243]

end Cert.ReferenceIdeal.RefRun

end
-- ==== Proof.RI.BlockWrites.lean ====
/- Every operation of each block writes only a buffer of the block's list of written buffers. -/
import proofs.«169502_j41412074668235_1_alg».proof.Proof.RI.Blocks
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem blk0_writes : (blk0 : List (HloOp τ sig (Elt F))).Forall fun op => op.writes ⊆ (blk0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk1_writes : (blk1 : List (HloOp τ sig (Elt F))).Forall fun op => op.writes ⊆ (blk1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk2_writes : (blk2 : List (HloOp τ sig (Elt F))).Forall fun op => op.writes ⊆ (blk2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk3_writes : (blk3 : List (HloOp τ sig (Elt F))).Forall fun op => op.writes ⊆ (blk3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk4_writes : (blk4 : List (HloOp τ sig (Elt F))).Forall fun op => op.writes ⊆ (blk4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk5_writes : (blk5 : List (HloOp τ sig (Elt F))).Forall fun op => op.writes ⊆ (blk5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk6_writes : (blk6 : List (HloOp τ sig (Elt F))).Forall fun op => op.writes ⊆ (blk6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk7_writes : (blk7 : List (HloOp τ sig (Elt F))).Forall fun op => op.writes ⊆ (blk7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk8_writes : (blk8 : List (HloOp τ sig (Elt F))).Forall fun op => op.writes ⊆ (blk8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem blk9_writes : (blk9 : List (HloOp τ sig (Elt F))).Forall fun op => op.writes ⊆ (blk9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

end Cert.ReferenceIdeal.RefRun

end
-- ==== Proof.RI.Val1.lean ====
/- The first layer, block by block: from any contents, after a block's operations its last buffer holds the running sum
   so far plus the block's relation's term, as the named functions of the contents the block started from. Each is read
   off by unfolding the fold: an operation's result at its own buffer is its function's value, at any other what was there. -/
import proofs.«169502_j41412074668235_1_alg».proof.Proof.RI.Blocks
import proofs.«169502_j41412074668235_1_alg».proof.Proof.RI.BlockWrites
import proofs.«169502_j41412074668235_1_alg».proof.Proof.RI.Fns
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The root term plus the first relation's term. -/
theorem blk0_v30 (V : Valuation τ sig (Elt F)) :
    after blk0 V (no_index (Proc.devRef .tc main_v30))
      = addf (root1 (V (Proc.devRef .tc main_arg4)) (V (Proc.devRef .tc main_arg6)) (V (Proc.devRef .tc main_arg7)))
          (nbr1 (V (Proc.devRef .tc main_arg0)) (V (Proc.devRef .tc main_arg4)) (w1 ![0, 0, 0] slices_S4x64x128_S1x64x128_0_0_0 (V (Proc.devRef .tc main_arg5)))) := by
  simp only [blk0]
  after_results_simp
  rfl

/-- A buffer the block does not write keeps its contents through it. -/
theorem blk0_keep (V : Valuation τ sig (Elt F)) (r : Ref sig .tc) (h : r ∉ blk0_W) :
    after blk0 V (no_index (Proc.devRef .tc r)) = V (Proc.devRef .tc r) :=
  after_of_writes_sub blk0 V blk0_writes h

set_option maxRecDepth 8192 in
set_option maxHeartbeats 4000000 in
/-- The running sum plus relation 1's term. -/
theorem blk1_v57 (V : Valuation τ sig (Elt F)) :
    after blk1 V (no_index (Proc.devRef .tc main_v57))
      = addf (V (Proc.devRef .tc main_v30))
          (nbr1 (V (Proc.devRef .tc main_arg1)) (V (Proc.devRef .tc main_arg4)) (w1 ![1, 0, 0] slices_S4x64x128_S1x64x128_1_0_0 (V (Proc.devRef .tc main_arg5)))) := by
  simp only [blk1]
  after_results_simp
  rfl

/-- A buffer the block does not write keeps its contents through it. -/
theorem blk1_keep (V : Valuation τ sig (Elt F)) (r : Ref sig .tc) (h : r ∉ blk1_W) :
    after blk1 V (no_index (Proc.devRef .tc r)) = V (Proc.devRef .tc r) :=
  after_of_writes_sub blk1 V blk1_writes h

set_option maxRecDepth 8192 in
set_option maxHeartbeats 4000000 in
/-- The running sum plus relation 2's term. -/
theorem blk2_v84 (V : Valuation τ sig (Elt F)) :
    after blk2 V (no_index (Proc.devRef .tc main_v84))
      = addf (V (Proc.devRef .tc main_v57))
          (nbr1 (V (Proc.devRef .tc main_arg2)) (V (Proc.devRef .tc main_arg4)) (w1 ![2, 0, 0] slices_S4x64x128_S1x64x128_2_0_0 (V (Proc.devRef .tc main_arg5)))) := by
  simp only [blk2]
  after_results_simp
  rfl

/-- A buffer the block does not write keeps its contents through it. -/
theorem blk2_keep (V : Valuation τ sig (Elt F)) (r : Ref sig .tc) (h : r ∉ blk2_W) :
    after blk2 V (no_index (Proc.devRef .tc r)) = V (Proc.devRef .tc r) :=
  after_of_writes_sub blk2 V blk2_writes h

set_option maxRecDepth 8192 in
set_option maxHeartbeats 4000000 in
/-- The running sum plus relation 3's term. -/
theorem blk3_v111 (V : Valuation τ sig (Elt F)) :
    after blk3 V (no_index (Proc.devRef .tc main_v111))
      = addf (V (Proc.devRef .tc main_v84))
          (nbr1 (V (Proc.devRef .tc main_arg3)) (V (Proc.devRef .tc main_arg4)) (w1 ![3, 0, 0] slices_S4x64x128_S1x64x128_3_0_0 (V (Proc.devRef .tc main_arg5)))) := by
  simp only [blk3]
  after_results_simp
  rfl

/-- A buffer the block does not write keeps its contents through it. -/
theorem blk3_keep (V : Valuation τ sig (Elt F)) (r : Ref sig .tc) (h : r ∉ blk3_W) :
    after blk3 V (no_index (Proc.devRef .tc r)) = V (Proc.devRef .tc r) :=
  after_of_writes_sub blk3 V blk3_writes h

end Cert.ReferenceIdeal.RefRun

end
-- ==== Proof.RI.ValMid.lean ====
/- Between the layers: after the normalisation's block its last buffer holds the normalised table of what the block
   started with, and after the activation's block the exponential linear unit of that. -/
import proofs.«169502_j41412074668235_1_alg».proof.Proof.RI.Blocks
import proofs.«169502_j41412074668235_1_alg».proof.Proof.RI.BlockWrites
import proofs.«169502_j41412074668235_1_alg».proof.Proof.RI.Fns
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The normalisation of the first layer's output. -/
theorem blk4_v130 (V : Valuation τ sig (Elt F)) :
    after blk4 V (no_index (Proc.devRef .tc main_v130))
      = norm (V (Proc.devRef .tc main_v111)) (V (Proc.devRef .tc main_arg8)) (V (Proc.devRef .tc main_arg9)) := by
  simp only [blk4]
  after_results_simp
  rfl

/-- A buffer the block does not write keeps its contents through it. -/
theorem blk4_keep (V : Valuation τ sig (Elt F)) (r : Ref sig .tc) (h : r ∉ blk4_W) :
    after blk4 V (no_index (Proc.devRef .tc r)) = V (Proc.devRef .tc r) :=
  after_of_writes_sub blk4 V blk4_writes h

set_option maxRecDepth 8192 in
set_option maxHeartbeats 4000000 in
/-- The exponential linear unit of the normalised table. -/
theorem blk5_v131 (V : Valuation τ sig (Elt F)) :
    after blk5 V (no_index (Proc.devRef .tc main_v131))
      = elu (V (Proc.devRef .tc main_v130)) := by
  simp only [blk5]
  after_results_simp
  rfl

/-- A buffer the block does not write keeps its contents through it. -/
theorem blk5_keep (V : Valuation τ sig (Elt F)) (r : Ref sig .tc) (h : r ∉ blk5_W) :
    after blk5 V (no_index (Proc.devRef .tc r)) = V (Proc.devRef .tc r) :=
  after_of_writes_sub blk5 V blk5_writes h

end Cert.ReferenceIdeal.RefRun

end
-- ==== Proof.RI.Val2.lean ====
/- The second layer, block by block, as the first. -/
import proofs.«169502_j41412074668235_1_alg».proof.Proof.RI.Blocks
import proofs.«169502_j41412074668235_1_alg».proof.Proof.RI.BlockWrites
import proofs.«169502_j41412074668235_1_alg».proof.Proof.RI.Fns
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The root term plus the first relation's term. -/
theorem blk6_v162 (V : Valuation τ sig (Elt F)) :
    after blk6 V (no_index (Proc.devRef .tc main_v162))
      = addf (root2 (V (Proc.devRef .tc main_v131)) (V (Proc.devRef .tc main_arg11)) (V (Proc.devRef .tc main_arg12)))
          (nbr2 (V (Proc.devRef .tc main_arg0)) (V (Proc.devRef .tc main_v131)) (w2 ![0, 0, 0] slices_S4x128x64_S1x128x64_0_0_0 (V (Proc.devRef .tc main_arg10)))) := by
  simp only [blk6]
  after_results_simp
  rfl

/-- A buffer the block does not write keeps its contents through it. -/
theorem blk6_keep (V : Valuation τ sig (Elt F)) (r : Ref sig .tc) (h : r ∉ blk6_W) :
    after blk6 V (no_index (Proc.devRef .tc r)) = V (Proc.devRef .tc r) :=
  after_of_writes_sub blk6 V blk6_writes h

set_option maxRecDepth 8192 in
set_option maxHeartbeats 4000000 in
/-- The running sum plus relation 1's term. -/
theorem blk7_v189 (V : Valuation τ sig (Elt F)) :
    after blk7 V (no_index (Proc.devRef .tc main_v189))
      = addf (V (Proc.devRef .tc main_v162))
          (nbr2 (V (Proc.devRef .tc main_arg1)) (V (Proc.devRef .tc main_v131)) (w2 ![1, 0, 0] slices_S4x128x64_S1x128x64_1_0_0 (V (Proc.devRef .tc main_arg10)))) := by
  simp only [blk7]
  after_results_simp
  rfl

/-- A buffer the block does not write keeps its contents through it. -/
theorem blk7_keep (V : Valuation τ sig (Elt F)) (r : Ref sig .tc) (h : r ∉ blk7_W) :
    after blk7 V (no_index (Proc.devRef .tc r)) = V (Proc.devRef .tc r) :=
  after_of_writes_sub blk7 V blk7_writes h

set_option maxRecDepth 8192 in
set_option maxHeartbeats 4000000 in
/-- The running sum plus relation 2's term. -/
theorem blk8_v216 (V : Valuation τ sig (Elt F)) :
    after blk8 V (no_index (Proc.devRef .tc main_v216))
      = addf (V (Proc.devRef .tc main_v189))
          (nbr2 (V (Proc.devRef .tc main_arg2)) (V (Proc.devRef .tc main_v131)) (w2 ![2, 0, 0] slices_S4x128x64_S1x128x64_2_0_0 (V (Proc.devRef .tc main_arg10)))) := by
  simp only [blk8]
  after_results_simp
  rfl

/-- A buffer the block does not write keeps its contents through it. -/
theorem blk8_keep (V : Valuation τ sig (Elt F)) (r : Ref sig .tc) (h : r ∉ blk8_W) :
    after blk8 V (no_index (Proc.devRef .tc r)) = V (Proc.devRef .tc r) :=
  after_of_writes_sub blk8 V blk8_writes h

set_option maxRecDepth 8192 in
set_option maxHeartbeats 4000000 in
/-- The running sum plus relation 3's term. -/
theorem blk9_v243 (V : Valuation τ sig (Elt F)) :
    after blk9 V (no_index (Proc.devRef .tc main_v243))
      = addf (V (Proc.devRef .tc main_v216))
          (nbr2 (V (Proc.devRef .tc main_arg3)) (V (Proc.devRef .tc main_v131)) (w2 ![3, 0, 0] slices_S4x128x64_S1x128x64_3_0_0 (V (Proc.devRef .tc main_arg10)))) := by
  simp only [blk9]
  after_results_simp
  rfl

/-- A buffer the block does not write keeps its contents through it. -/
theorem blk9_keep (V : Valuation τ sig (Elt F)) (r : Ref sig .tc) (h : r ∉ blk9_W) :
    after blk9 V (no_index (Proc.devRef .tc r)) = V (Proc.devRef .tc r) :=
  after_of_writes_sub blk9 V blk9_writes h

end Cert.ReferenceIdeal.RefRun

end
-- ==== Proof.RI.Run.lean ====
/- The run of the reference program read back: every weakly fair execution of @main terminates without a fault, with the
   result buffer at the two-layer graph convolution of the thirteen arguments' launch contents and the arguments
   unchanged. The operations' fold is taken block by block: each block's value lemma rewrites its last buffer to the
   named function of what the block started from, the other buffers it reads being kept by the blocks between. -/
import proofs.«169502_j41412074668235_1_alg».proof.Proof.RI.Seq
import proofs.«169502_j41412074668235_1_alg».proof.Proof.RI.Keep
import proofs.«169502_j41412074668235_1_alg».proof.Proof.RI.Fns
import proofs.«169502_j41412074668235_1_alg».proof.Proof.RI.Blocks
import proofs.«169502_j41412074668235_1_alg».proof.Proof.RI.BlockWrites
import proofs.«169502_j41412074668235_1_alg».proof.Proof.RI.Val1
import proofs.«169502_j41412074668235_1_alg».proof.Proof.RI.ValMid
import proofs.«169502_j41412074668235_1_alg».proof.Proof.RI.Val2
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The ten blocks in order are @main's operations in order. -/
theorem ops_blocks : (ops : List (HloOp τ sig (Elt F)))
    = blk0 ++ (blk1 ++ (blk2 ++ (blk3 ++ (blk4 ++ (blk5 ++ (blk6 ++ (blk7 ++ (blk8 ++ blk9)))))))) := rfl

set_option maxRecDepth 8192 in
set_option maxHeartbeats 4000000 in
/-- After the whole line, from any contents, the result buffer holds the named function of the arguments' contents. -/
theorem after_ops_v243 (V : Valuation τ sig (Elt F)) :
    after ops V (Proc.devRef .tc main_v243)
      = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_blocks]
  simp only [after_app]
  simp (disch := decide) only [blk9_v243, blk8_v216, blk7_v189, blk6_v162, blk5_v131, blk4_v130, blk3_v111, blk2_v84,
    blk1_v57, blk0_v30, blk9_keep, blk8_keep, blk7_keep, blk6_keep, blk5_keep, blk4_keep, blk3_keep, blk2_keep, blk1_keep,
    blk0_keep]
  rfl

set_option maxRecDepth 8192 in
/-- On every device, for any float values, from any memory with zero counters: every weakly fair execution of @main
    terminates with the result at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v243)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v243).trans (after_ops_v243 (launchContents m c)),
      (h c main_arg0).trans (after_ops_keep _ main_arg0 (by decide) (by decide) (by decide) (by decide) (by decide)),
      (h c main_arg1).trans (after_ops_keep _ main_arg1 (by decide) (by decide) (by decide) (by decide) (by decide)),
      (h c main_arg2).trans (after_ops_keep _ main_arg2 (by decide) (by decide) (by decide) (by decide) (by decide)),
      (h c main_arg3).trans (after_ops_keep _ main_arg3 (by decide) (by decide) (by decide) (by decide) (by decide)),
      (h c main_arg4).trans (after_ops_keep _ main_arg4 (by decide) (by decide) (by decide) (by decide) (by decide)),
      (h c main_arg5).trans (after_ops_keep _ main_arg5 (by decide) (by decide) (by decide) (by decide) (by decide)),
      (h c main_arg6).trans (after_ops_keep _ main_arg6 (by decide) (by decide) (by decide) (by decide) (by decide)),
      (h c main_arg7).trans (after_ops_keep _ main_arg7 (by decide) (by decide) (by decide) (by decide) (by decide)),
      (h c main_arg8).trans (after_ops_keep _ main_arg8 (by decide) (by decide) (by decide) (by decide) (by decide)),
      (h c main_arg9).trans (after_ops_keep _ main_arg9 (by decide) (by decide) (by decide) (by decide) (by decide)),
      (h c main_arg10).trans (after_ops_keep _ main_arg10 (by decide) (by decide) (by decide) (by decide) (by decide)),
      (h c main_arg11).trans (after_ops_keep _ main_arg11 (by decide) (by decide) (by decide) (by decide) (by decide)),
      (h c main_arg12).trans (after_ops_keep _ main_arg12 (by decide) (by decide) (by decide) (by decide) (by decide))⟩)
    (run_all m ρ)

end Cert.ReferenceIdeal.RefRun

end
-- ==== Proof.Finite.lean ====
/-
  The precondition read back: when the printed predicate "every float input is finite" is all ones at the ideal
  values, every entry of the nine float inputs is (the coercion of) a real number.  The predicate is, per input,
  the conjunction over all entries of |x| < +∞, and the nine conjunctions chained by and; an extended real whose
  absolute value max x (−x) lies strictly below +∞ is neither infinity.
-/
import proofs.«169502_j41412074668235_1_alg».proof.Pre_finite_inputs
import proofs.«169502_j41412074668235_1_alg».proof.Proof.Gen.Pre_finite_inputs
import proofs.«169502_j41412074668235_1_alg».proof.Proof.LibLayerAlgebra
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value max x (−x) is strictly below +∞ is a real. -/
theorem isReal_of_abs_lt_top (x : EReal) (h : Ideal.cmp .olt (max x (-x)) ⊤ = 1#1) : Cert.Lib.IsReal x := by
  induction x using EReal.rec with
  | bot => simp [Ideal.cmp] at h
  | coe r => exact ⟨r, rfl⟩
  | top => simp [Ideal.cmp] at h

/-- One input's conjunct: when the and-reduction over all entries of |x| < +∞ (the bound broadcast from the scalar
    word of +∞) is 1, every entry of x is a real. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi (cmpf .olt (Host.absf x) (broadcastInDim s ![] hb (constant (F := Ideal) S_ .f32 0x7F800000#32)))
      init hr hu ix0 = 1#1) (i : s.Idx) : Cert.Lib.IsReal (x i) := by
  have hi := Host.reduce_andi_all _ init hr hu ix0 h i
  change Ideal.cmp .olt (max (x i) (-(x i))) (Ideal.ofBits .f32 0x7F800000#32) = 1#1 at hi
  rw [ofBits_inf] at hi
  exact isReal_of_abs_lt_top _ hi

/-- THE PRECONDITION READ BACK: when the printed predicate is all ones at the ideal values, every entry of each of
    the nine float inputs is a real. -/
theorem finite_of_pre (a0 a1 a2 a3 : IVec S2x800000 32) (a4 : FVec Ideal S100000x64 .f32)
    (a5 : FVec Ideal S4x64x128 .f32) (a6 : FVec Ideal S64x128 .f32) (a7 a8 a9 : FVec Ideal S128 .f32)
    (a10 : FVec Ideal S4x128x64 .f32) (a11 : FVec Ideal S128x64 .f32) (a12 : FVec Ideal S64 .f32)
    (h : Cert.Pre_finite_inputs.fn (F := Ideal) a0 a1 a2 a3 a4 a5 a6 a7 a8 a9 a10 a11 a12 = fun _ => 1#1) :
    (∀ i, Cert.Lib.IsReal (a4 i)) ∧ (∀ i, Cert.Lib.IsReal (a5 i)) ∧ (∀ i, Cert.Lib.IsReal (a6 i)) ∧
    (∀ i, Cert.Lib.IsReal (a7 i)) ∧ (∀ i, Cert.Lib.IsReal (a8 i)) ∧ (∀ i, Cert.Lib.IsReal (a9 i)) ∧
    (∀ i, Cert.Lib.IsReal (a10 i)) ∧ (∀ i, Cert.Lib.IsReal (a11 i)) ∧ (∀ i, Cert.Lib.IsReal (a12 i)) := by
  have h0 := congrFun h ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨h4, h5⟩, h6⟩, h7⟩, h8⟩, h9⟩, h10⟩, h11⟩, h12⟩ := h0
  exact ⟨all_real a4 _ _ _ _ h4, all_real a5 _ _ _ _ h5, all_real a6 _ _ _ _ h6, all_real a7 _ _ _ _ h7,
    all_real a8 _ _ _ _ h8, all_real a9 _ _ _ _ h9, all_real a10 _ _ _ _ h10, all_real a11 _ _ _ _ h11,
    all_real a12 _ _ _ _ h12⟩

end Cert.Finite

end
-- ==== Proof.RI.MidApply2.lean ====
/-
  The reference's normalisation and exponential linear unit read at an index, at the ideal values, in the spelling of the
  scalar algebra of a column normalisation: a vector repeated on every row reads its own entry; the normalised entry is
  the scale times the entry less its column's mean, times the reciprocal square root of the column's variance plus the
  small constant, plus the shift; the unit is the entry where positive, else one times the exponential less one.
-/
import proofs.«169502_j41412074668235_1_alg».proof.Proof.RI.Fns
import proofs.«169502_j41412074668235_1_alg».proof.Proof.LibNormAlgebra
import Idealize.ShloMosaic.Lib.ValueIdx
import Idealize.ShloMosaic.Lib.Pipeline.Value
import Idealize.ShloMosaic.Lib.ValueLayout
import Idealize.ShloMosaic.PureOps.Ideal

set_option maxRecDepth 16384

noncomputable section

namespace Cert.ReferenceIdeal.RefValue

open Cert.ReferenceIdeal Cert.ReferenceIdeal.Gen
open Idealize.ShloMosaic Idealize.ShloMosaic.ValueIdx

local notation "Zw" => Ideal.ofBits FTy.f32 0x00000000#32
local notation "εw" => Ideal.ofBits FTy.f32 0x3727C5AC#32
local notation "Ow" => Ideal.ofBits FTy.f32 0x3F800000#32

/-! ## Splats and repeated rows -/

/-- A 128-vector repeated on every row reads its own entry. -/
theorem rows_at (u : FVec Ideal S128 .f32) (v : Fin 100000) (j : Fin 128) :
    RefRun.rows (F := Ideal) u (ix2 v j) = u (ix1 j) := by
  unfold RefRun.rows
  exact (broadcastInDim_apply ![0, 1] bcast_S1x128_S100000x128_0_1
      (broadcastInDim S1x128 ![1] bcast_S128_S1x128_1 u) (ix2 v j) (ix2 0 j) (fun a => by
        match a with
        | ⟨0, _⟩ => rfl
        | ⟨1, _⟩ => rfl)).trans
    (broadcastInDim_apply ![1] bcast_S128_S1x128_1 u (ix2 0 j) (ix1 j) (fun a => by
        match a with
        | ⟨0, _⟩ => rfl))

/-- The splat of the small constant over a 128-vector reads it. -/
theorem epsSplat_apply (z : S128.Idx) :
    broadcastInDim S128 ![] bcast_S_S128 (constant (F := Ideal) S_ .f32 0x3727C5AC#32) z = εw :=
  (broadcastInDim_apply ![] bcast_S_S128 (constant (F := Ideal) S_ .f32 0x3727C5AC#32) z ix0 (fun a => a.elim0)).trans rfl

/-- The all-zero table reads zero's word. -/
theorem zeros_apply (i : S100000x128.Idx) : RefRun.zeros (F := Ideal) i = Zw := by
  unfold RefRun.zeros
  exact (broadcastInDim_apply ![] bcast_S_S100000x128 (constant (F := Ideal) S_ .f32 0x00000000#32) i ix0 (fun a => a.elim0)).trans rfl

/-- The splat of one over the table reads one's word. -/
theorem oneSplat_apply (i : S100000x128.Idx) :
    broadcastInDim S100000x128 ![] bcast_S_S100000x128 (constant (F := Ideal) S_ .f32 0x3F800000#32) i = Ow :=
  (broadcastInDim_apply ![] bcast_S_S100000x128 (constant (F := Ideal) S_ .f32 0x3F800000#32) i ix0 (fun a => a.elim0)).trans rfl

/-! ## The normalisation and the unit at an index -/

/-- The normalised entry `(v, j)`. -/
theorem norm_apply (h : FVec Ideal S100000x128 .f32) (γ β : FVec Ideal S128 .f32) (v : Fin 100000) (j : Fin 128) :
    RefRun.norm (F := Ideal) h γ β (ix2 v j)
      = Cert.Lib.normAt (h (ix2 v j)) (RefRun.mean (F := Ideal) h (ix1 j)) (RefRun.var (F := Ideal) h (ix1 j)) (γ (ix1 j)) (β (ix1 j)) := by
  unfold RefRun.norm
  show (RefRun.rows (F := Ideal) γ (ix2 v j) * (h (ix2 v j) - RefRun.rows (F := Ideal) (RefRun.mean (F := Ideal) h) (ix2 v j)))
        * RefRun.rows (F := Ideal) (Host.rsqrt (addf (RefRun.var (F := Ideal) h)
            (broadcastInDim S128 ![] bcast_S_S128 (constant (F := Ideal) S_ .f32 0x3727C5AC#32)))) (ix2 v j)
      + RefRun.rows (F := Ideal) β (ix2 v j) = _
  rw [rows_at, rows_at, rows_at, rows_at]
  show (γ (ix1 j) * (h (ix2 v j) - RefRun.mean (F := Ideal) h (ix1 j)))
        * Ideal.rsqrt (RefRun.var (F := Ideal) h (ix1 j)
            + broadcastInDim S128 ![] bcast_S_S128 (constant (F := Ideal) S_ .f32 0x3727C5AC#32) (ix1 j))
      + β (ix1 j) = _
  rw [epsSplat_apply]
  rfl

/-- The unit at entry `(v, j)`. -/
theorem elu_apply (y : FVec Ideal S100000x128 .f32) (v : Fin 100000) (j : Fin 128) :
    RefRun.elu (F := Ideal) y (ix2 v j) = Cert.Lib.eluRefAt (y (ix2 v j)) := by
  unfold RefRun.elu
  show Scalar.select (FloatOps.cmpf (F := Ideal) (φ := .f32) .ogt (y (ix2 v j)) (RefRun.zeros (F := Ideal) (ix2 v j))) (y (ix2 v j))
      (broadcastInDim S100000x128 ![] bcast_S_S100000x128 (constant (F := Ideal) S_ .f32 0x3F800000#32) (ix2 v j)
        * FloatOps.hostUnary (F := Ideal) (φ := .f32) .expm1
            (Scalar.select (FloatOps.cmpf (F := Ideal) (φ := .f32) .ogt (y (ix2 v j)) (RefRun.zeros (F := Ideal) (ix2 v j)))
              (RefRun.zeros (F := Ideal) (ix2 v j)) (y (ix2 v j)))) = _
  rw [zeros_apply, oneSplat_apply]
  rfl

end Cert.ReferenceIdeal.RefValue

end
-- ==== Proof.RI.MidApply.lean ====
/-
  The reference's functions between the two layers, read at an entry, at the ideal values: a column's sum over the
  nodes, its mean, its variance (the mean squared deviation, the divisor's guard holding), the normalised, scaled and
  shifted entry, and the exponential linear unit of an entry.
-/
import proofs.«169502_j41412074668235_1_alg».proof.Proof.RI.Fns
import proofs.«169502_j41412074668235_1_alg».proof.Proof.LibNormAlgebra
import proofs.«169502_j41412074668235_1_alg».proof.Proof.LibRealAlgebra
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

open scoped BigOperators

namespace Cert.ReferenceIdeal.RefValue

open Cert.ReferenceIdeal Cert.ReferenceIdeal.RefRun Idealize.ShloMosaic Idealize.ShloMosaic.ValueIdx

/-! ## Broadcasts read at an entry -/

/-- A vector laid as the one row of a one-row table reads, at column t, its entry t. -/
theorem bcast_row_apply {α : Type} {n : ℕ} (hb : (⟨1, ![n]⟩ : Shape).BroadcastsInDim ⟨2, ![1, n]⟩ ![1])
    (x : (⟨1, ![n]⟩ : Shape).Idx → α) (t : Fin n) :
    broadcastInDim ⟨2, ![1, n]⟩ ![1] hb x (ix2 (0 : Fin 1) t) = x (ix1 t) := by
  refine broadcastInDim_apply ![1] hb x (ix2 (0 : Fin 1) t) (ix1 t) ?_
  intro a
  match a with
  | ⟨0, _⟩ =>
    show t.val = if n = 1 then 0 else t.val
    split_ifs with hn
    · have := t.isLt; omega
    · rfl

/-- A one-row table repeated down m rows reads, at (r, t), the row's entry t. -/
theorem bcast_rows_apply {α : Type} {m n : ℕ} (hb : (⟨2, ![1, n]⟩ : Shape).BroadcastsInDim ⟨2, ![m, n]⟩ ![0, 1])
    (y : (⟨2, ![1, n]⟩ : Shape).Idx → α) (r : Fin m) (t : Fin n) :
    broadcastInDim ⟨2, ![m, n]⟩ ![0, 1] hb y (ix2 r t) = y (ix2 (0 : Fin 1) t) := by
  refine broadcastInDim_apply ![0, 1] hb y (ix2 r t) (ix2 (0 : Fin 1) t) ?_
  intro a
  match a with
  | ⟨0, _⟩ =>
    show (0 : ℕ) = if (1 : ℕ) = 1 then 0 else _
    simp
  | ⟨1, _⟩ =>
    show t.val = if n = 1 then 0 else t.val
    split_ifs with hn
    · have := t.isLt; omega
    · rfl

/-- A 128-vector repeated on every node's row reads, at (v, j), its entry j. -/
theorem rows_apply {F : FTy → Type} (x : FVec F S128 .f32) (v : Fin 100000) (j : Fin 128) :
    rows (F := F) x (ix2 v j) = x (ix1 j) := by
  unfold rows
  exact (bcast_rows_apply _ _ v j).trans (bcast_row_apply _ x j)

/-! ## The column statistics -/

/-- The witness that dropping axis 0 of the node table leaves the 128 columns. -/
private theorem red0 : S100000x128.Reduces [0] S128 := by decide

/-- The index that reduction inserts: node k on axis 0, column j on axis 1. -/
private theorem red0_lift (j : Fin 128) (k : Fin 100000) : red0.lift (ix1 j) k = ix2 k j := by
  funext a; refine Fin.ext ?_
  match a with
  | ⟨0, _⟩ => rfl
  | ⟨1, _⟩ => rfl

/-- A column's sum over the nodes, from the initial value: the host's add reduction over axis 0 read at column j. -/
theorem reduceAdd_col (x : FVec Ideal S100000x128 .f32) (init : FVec Ideal S_ .f32)
    (hr : S100000x128.ReducesTo [0] S128) (hu : 0 < S_.numel) (j : Fin 128) :
    Host.reduceAdd x init hr hu (ix1 j) = init ix0 + ∑ v : Fin 100000, x (ix2 v j) := by
  refine (hostReduceAdd_apply x init hr hu (ix1 j)).trans ?_
  refine (Ideal.hostReduceAdd_single hr red0 x _ (ix1 j)).trans ?_
  refine congrArg₂ (· + ·) (congrArg init (Subsingleton.elim _ _)) ?_
  exact Finset.sum_congr rfl fun k _ => congrArg x (red0_lift j k)

/-- THE COLUMN SUM AT j: zero plus the sum of column j over the 100000 nodes. -/
theorem colSum_apply (h : FVec Ideal S100000x128 .f32) (j : Fin 128) :
    colSum (F := Ideal) h (ix1 j) = Ideal.ofBits .f32 0x00000000#32 + ∑ v : Fin 100000, h (ix2 v j) := by
  unfold colSum
  exact reduceAdd_col h _ _ _ j

/-- THE COLUMN MEAN AT j: the column sum divided by the count's word. -/
theorem mean_apply (h : FVec Ideal S100000x128 .f32) (j : Fin 128) :
    mean (F := Ideal) h (ix1 j)
      = Ideal.div (Ideal.ofBits .f32 0x00000000#32 + ∑ v : Fin 100000, h (ix2 v j)) (Ideal.ofBits .f32 0x47C35000#32) := by
  unfold mean
  show Ideal.div (colSum (F := Ideal) h (ix1 j)) (broadcastInDim S128 ![] _ (constant (F := Ideal) S_ .f32 0x47C35000#32) (ix1 j)) = _
  rw [colSum_apply, broadcastInDim_scalar_apply]
  rfl

/-- AN ENTRY LESS ITS COLUMN'S MEAN. -/
theorem centred_apply (h : FVec Ideal S100000x128 .f32) (v : Fin 100000) (j : Fin 128) :
    centred (F := Ideal) h (ix2 v j)
      = h (ix2 v j) - Ideal.div (Ideal.ofBits .f32 0x00000000#32 + ∑ u : Fin 100000, h (ix2 u j))
          (Ideal.ofBits .f32 0x47C35000#32) := by
  unfold centred
  refine congrArg (h (ix2 v j) - ·) ?_
  refine (bcast_rows_apply _ _ v j).trans ?_
  show Ideal.div (broadcastInDim S1x128 ![1] _ (colSum (F := Ideal) h) (ix2 (0 : Fin 1) j))
    (broadcastInDim S1x128 ![] _ (constant (F := Ideal) S_ .f32 0x47C35000#32) (ix2 (0 : Fin 1) j)) = _
  rw [bcast_row_apply, colSum_apply, broadcastInDim_scalar_apply]
  rfl

/-- THE COLUMN VARIANCE AT j: the divisor (the count's word less the zero correction) is positive, so the guard's
    first branch is taken: zero plus the sum over the nodes of the squared deviations from the column's mean, divided
    by the divisor. -/
theorem var_apply (h : FVec Ideal S100000x128 .f32) (j : Fin 128) :
    var (F := Ideal) h (ix1 j)
      = Ideal.div
          (Ideal.ofBits .f32 0x00000000#32 + ∑ v : Fin 100000,
            (h (ix2 v j) - Ideal.div (Ideal.ofBits .f32 0x00000000#32 + ∑ u : Fin 100000, h (ix2 u j))
                (Ideal.ofBits .f32 0x47C35000#32))
              * (h (ix2 v j) - Ideal.div (Ideal.ofBits .f32 0x00000000#32 + ∑ u : Fin 100000, h (ix2 u j))
                (Ideal.ofBits .f32 0x47C35000#32)))
          (Ideal.ofBits .f32 0x47C35000#32 - FloatOps.sitofp (F := Ideal) .f32 (0#32 : BitVec 32)) := by
  have hg : cmpf .ogt (varN (F := Ideal)) (constant (F := Ideal) S_ .f32 0x00000000#32) ix0 = 1#1 := Cert.Lib.refGuard
  unfold var
  rw [select_apply]
  show Scalar.select
      (broadcastInDim S128 ![] _ (cmpf .ogt (varN (F := Ideal)) (constant (F := Ideal) S_ .f32 0x00000000#32)) (ix1 j))
      (Ideal.div
        (Host.reduceAdd (mulf (centred (F := Ideal) h) (centred (F := Ideal) h))
          (constant (F := Ideal) S_ .f32 0x00000000#32) _ _ (ix1 j))
        (broadcastInDim S128 ![] _ (varN (F := Ideal)) (ix1 j)))
      _ = _
  rw [broadcastInDim_scalar_apply, broadcastInDim_scalar_apply _ (varN (F := Ideal)), hg, select_one, reduceAdd_col]
  refine congrArg₂ Ideal.div (congrArg₂ (· + ·) rfl (Finset.sum_congr rfl fun v _ => ?_)) rfl
  show centred (F := Ideal) h (ix2 v j) * centred (F := Ideal) h (ix2 v j) = _
  rw [centred_apply]

end Cert.ReferenceIdeal.RefValue

end
-- ==== Proof.BridgeMid.lean ====
/-
  The middle section of the two programs agrees on real data, at the ideal values: the reference's exponential linear unit
  of its column normalisation is, entry by entry, the kernel's normalisation and unit at the column statistics the
  kernel's host stretch computes (the mean square less the squared mean is the mean squared deviation).
-/
import proofs.«169502_j41412074668235_1_alg».proof.Proof.KI.MidBridge
import proofs.«169502_j41412074668235_1_alg».proof.Proof.RI.MidApply2
import proofs.«169502_j41412074668235_1_alg».proof.Proof.RI.MidApply
import Idealize.ShloMosaic.Lib.ValueIdx

set_option maxRecDepth 16384

noncomputable section

namespace Cert.Bridge

open Idealize.ShloMosaic Idealize.ShloMosaic.ValueIdx

/-- THE MIDDLE: on a real table, the reference's unit of its normalisation is the kernel's, at the kernel's column
    statistics. -/
theorem mid_eq (h : FVec Ideal Cert.KernelIdeal.S100000x128 .f32) (γ β : FVec Ideal Cert.KernelIdeal.S128 .f32)
    (hh : ∀ i, Cert.Lib.IsReal (h i)) :
    Cert.ReferenceIdeal.RefRun.elu (F := Ideal) (Cert.ReferenceIdeal.RefRun.norm (F := Ideal) h γ β)
      = Cert.KernelIdeal.HandValue.bnElu h (Cert.KernelIdeal.HandValue.muK h) (Cert.KernelIdeal.HandValue.varK h) γ β := by
  funext i
  obtain ⟨v, j, rfl⟩ : ∃ (v : Fin 100000) (j : Fin 128), i = ix2 v j := ⟨i 0, i 1, eq_ix2 i⟩
  rw [Cert.ReferenceIdeal.RefValue.elu_apply, Cert.ReferenceIdeal.RefValue.norm_apply,
    Cert.ReferenceIdeal.RefValue.mean_apply, Cert.ReferenceIdeal.RefValue.var_apply]
  exact (Cert.KernelIdeal.HandValue.kernel_mid_apply h γ β hh v j).symm

end Cert.Bridge

end
-- ==== Proof.RI.ReadL1.lean ====
/- The first layer's named functions read at an index, at the ideal values: a relation's matrix is a slab of the stacked
   ones; the root term is the row-by-column sum plus the bias entry; a relation's term at (v, j) is the sum, over the
   edges into v, of the gathered source row's product with column j, divided by the clipped in-degree of v. -/
import proofs.«169502_j41412074668235_1_alg».proof.Proof.RI.Fns
import proofs.«169502_j41412074668235_1_alg».proof.Proof.LibGatherScatter

import Idealize.ShloMosaic.Lib.ValueLayout
import Idealize.ShloMosaic.Lib.StackMember
import Idealize.ShloMosaic.PureOps.Ideal.Laws

noncomputable section

open scoped BigOperators

namespace Cert.ReferenceIdeal.RefValueL1

open Cert.ReferenceIdeal Cert.ReferenceIdeal.Gen Cert.ReferenceIdeal.RefRun Idealize.ShloMosaic Idealize.ShloMosaic.ValueIdx
  Idealize.ShloMosaic.StackMember

variable {F : FTy → Type} [FloatOps F]

/-! ## Entry by entry, at the ideal values -/

/-- The entrywise maximum. -/
theorem maximumf_apply {s : Shape} (x y : FVec Ideal s .f32) (i : s.Idx) : maximumf x y i = max (x i) (y i) := rfl

/-- The host's entrywise quotient. -/
theorem hdivf_apply {s : Shape} (x y : FVec Ideal s .f32) (i : s.Idx) : Host.divf x y i = Ideal.div (x i) (y i) := rfl

/-- The entrywise sum. -/
theorem addf_apply {s : Shape} (x y : FVec Ideal s .f32) (i : s.Idx) : addf x y i = x i + y i := rfl

/-- A scalar constant spread over a shape is the constant's value at every entry. -/
theorem splat_apply {t : Shape} (h : S_.BroadcastsInDim t (![] : Fin 0 → Fin t.rank)) (b : BitVec FTy.f32.bits) (i : t.Idx) :
    broadcastInDim t ![] h (constant S_ .f32 b : FVec Ideal S_ .f32) i = Ideal.ofBits .f32 b := rfl

/-! ## Edge tables -/

/-- The source row of an edge table at edge a. -/
theorem srcOf_apply (e : IVec S2x800000 32) (a : Fin 800000) : srcOf e (ix1 a) = e (ix2 0 a) := by
  unfold srcOf
  rw [shapeCast_1a_a_apply]
  exact extractStridedSlice_apply _ e _ _ _ (fun c => by
    match c with
    | ⟨0, _⟩ => rfl
    | ⟨1, _⟩ => exact (Nat.zero_add _).symm)

/-- The destination row of an edge table at edge a. -/
theorem dstOf_apply (e : IVec S2x800000 32) (a : Fin 800000) : dstOf e (ix1 a) = e (ix2 1 a) := by
  unfold dstOf
  rw [shapeCast_1a_a_apply]
  exact extractStridedSlice_apply _ e _ _ _ (fun c => by
    match c with
    | ⟨0, _⟩ => rfl
    | ⟨1, _⟩ => exact (Nat.zero_add _).symm)

/-- The wrapped index, entry by entry. -/
theorem wrap_apply (s : IVec S800000 32) (i : S800000.Idx) : wrap s i = Cert.Lib.wrapWord (s i) := rfl

/-- The one-column index table at row a. -/
theorem col_apply (s : IVec S800000 32) (a : Fin 800000) (c : Fin 1) : col s (ix2 a c) = s (ix1 a) := by
  unfold col
  exact broadcastInDim_apply _ _ s _ (ix1 a) (fun q => by match q with | ⟨0, _⟩ => rfl)

/-- A per-node vector laid along the rows of a table with k columns, read at (v, j), is its entry v. -/
theorem nodeRows128_apply (d : FVec F S100000 .f32) (v : Fin 100000) (j : Fin 128) :
    broadcastInDim S100000x128 ![0, 1] bcast_S100000x1_S100000x128_0_1
      (broadcastInDim S100000x1 ![0] bcast_S100000_S100000x1_0 d) (ix2 v j) = d (ix1 v) := by
  rw [broadcastInDim_apply _ _ _ (ix2 v j) (ix2 v (0 : Fin 1)) (fun q => by match q with | ⟨0, _⟩ => rfl | ⟨1, _⟩ => rfl)]
  exact broadcastInDim_apply _ _ d _ (ix1 v) (fun q => by match q with | ⟨0, _⟩ => rfl)

/-- The clipped in-degree at node v, at the ideal values. -/
theorem deg_apply (e : IVec S2x800000 32) (v : Fin 100000) :
    deg (F := Ideal) (dstOf e) (ix1 v) = Cert.Lib.degAt e v := by
  unfold deg Cert.Lib.degAt Cert.Lib.inbox
  rw [maximumf_apply, Cert.Lib.scatterAdd1_apply _ rfl rfl rfl rfl]
  simp only [col_apply, dstOf_apply]
  rw [splat_apply, splat_apply, Finset.sum_congr rfl (fun a _ => splat_apply bcast_S_S800000 _ (ix1 a))]

/-! ## The first layer -/

/-- A relation's matrix is the slab of the stacked matrices the offset names. -/
theorem w1_apply (off : Fin 3 → Nat) (h : S4x64x128.Slices off S1x64x128) (w : FVec F S4x64x128 .f32) (r : Fin 4)
    (h0 : off 0 = r.val) (h1 : off 1 = 0) (h2 : off 2 = 0) (k : Fin 64) (j : Fin 128) :
    w1 off h w (ix2 k j) = w (ix3 r k j) := by
  unfold w1
  rw [shapeCast_1ab_ab_apply]
  exact extractStridedSlice_apply off w h (ix3 (0 : Fin 1) k j) (ix3 r k j) (fun c => by
    match c with
    | ⟨0, _⟩ => show r.val = off 0 + 0; omega
    | ⟨1, _⟩ => show k.val = off 1 + k.val; omega
    | ⟨2, _⟩ => show j.val = off 2 + j.val; omega)

/-- A 128-vector laid on every row, read at (v, j), is its entry j. -/
theorem rows_apply (b : FVec F S128 .f32) (v : Fin 100000) (j : Fin 128) : rows b (ix2 v j) = b (ix1 j) := by
  unfold rows
  rw [broadcastInDim_apply _ _ _ (ix2 v j) (ix2 (0 : Fin 1) j) (fun q => by match q with | ⟨0, _⟩ => rfl | ⟨1, _⟩ => rfl)]
  exact broadcastInDim_apply _ _ b _ (ix1 j) (fun q => by match q with | ⟨0, _⟩ => rfl)

/-- The two products' dimension records are the plain row-by-column ones. -/
theorem dotRoot1_eq : dot_S100000x64_S64x128_S100000x128_1_0_0_1_n_n = DotDims.plain 100000 64 128 := rfl
theorem dotMsg1_eq : dot_S800000x64_S64x128_S800000x128_1_0_0_1_n_n = DotDims.plain 800000 64 128 := rfl

/-- The root term at (v, j): row v of the features times column j of the root matrix, plus bias entry j. -/
theorem root1_apply (x : FVec Ideal S100000x64 .f32) (w : FVec Ideal S64x128 .f32) (b : FVec Ideal S128 .f32)
    (v : Fin 100000) (j : Fin 128) :
    root1 x w b (ix2 v j) = (∑ k : Fin 64, x (ix2 v k) * w (ix2 k j)) + b (ix1 j) := by
  unfold root1
  rw [addf_apply, rows_apply, dotRoot1_eq, dotGeneral_plain_apply]

/-- A relation's term at (v, j): the sum over the edges into v of the gathered source row times column j of the
    relation's matrix, from the word of zero, divided by the clipped in-degree of v. -/
theorem nbr1_apply (e : IVec S2x800000 32) (x : FVec Ideal S100000x64 .f32) (w : FVec Ideal S64x128 .f32)
    (v : Fin 100000) (j : Fin 128) :
    nbr1 e x w (ix2 v j)
      = Ideal.div (Ideal.ofBits .f32 0x00000000#32
          + ∑ a ∈ Cert.Lib.inbox e v, ∑ k : Fin 64, x (ix2 (Cert.Lib.srcRow e a) k) * w (ix2 k j))
        (Cert.Lib.degAt e v) := by
  have hterm : ∀ a : Fin 800000,
      Host.dotGeneral dot_S800000x64_S64x128_S800000x128_1_0_0_1_n_n none
          (Host.gather gather_S100000x64_S800000x1_S800000x64_1_0_n_n_0_1_164 x (col (wrap (srcOf e)))) w (ix2 a j)
        = ∑ k : Fin 64, x (ix2 (Cert.Lib.rowOf 100000 (by decide) (Cert.Lib.wrapWord (e (ix2 0 a)))) k) * w (ix2 k j) := by
    intro a
    rw [dotMsg1_eq, dotGeneral_plain_apply]
    refine Finset.sum_congr rfl fun k _ => ?_
    rw [Cert.Lib.gather_rows_apply (n := 100000) (e := 800000) (k := 64) (by decide) _ rfl rfl rfl rfl rfl rfl rfl,
      col_apply, wrap_apply, srcOf_apply]
  unfold nbr1 Cert.Lib.inbox Cert.Lib.srcRow
  rw [hdivf_apply, nodeRows128_apply, deg_apply, Cert.Lib.scatterAdd2_apply _ rfl rfl rfl rfl, splat_apply]
  simp only [col_apply, dstOf_apply, hterm]

/-- The first layer at (v, j): the root term and the four relations' terms, added in order. -/
theorem layer1_apply (e0 e1 e2 e3 : IVec S2x800000 32) (x : FVec Ideal S100000x64 .f32) (w : FVec Ideal S4x64x128 .f32)
    (wr : FVec Ideal S64x128 .f32) (b : FVec Ideal S128 .f32) (v : Fin 100000) (j : Fin 128) :
    layer1 e0 e1 e2 e3 x w wr b (ix2 v j)
      = ((((root1 x wr b (ix2 v j)
          + nbr1 e0 x (w1 ![0, 0, 0] slices_S4x64x128_S1x64x128_0_0_0 w) (ix2 v j))
          + nbr1 e1 x (w1 ![1, 0, 0] slices_S4x64x128_S1x64x128_1_0_0 w) (ix2 v j))
          + nbr1 e2 x (w1 ![2, 0, 0] slices_S4x64x128_S1x64x128_2_0_0 w) (ix2 v j))
          + nbr1 e3 x (w1 ![3, 0, 0] slices_S4x64x128_S1x64x128_3_0_0 w) (ix2 v j)) := by
  unfold layer1
  rw [addf_apply, addf_apply, addf_apply, addf_apply]

end Cert.ReferenceIdeal.RefValueL1

end
-- ==== Proof.BridgeLayer0.lean ====
/-
  The first layer of the two programs agrees on real data, at the ideal values. The reference divides each relation's
  sum of products, over a node's incoming edges, by the clipped in-degree after multiplying by the relation's matrix; the
  kernel multiplies the sum of the gathered rows by the reciprocal clipped in-degree first and by the matrix after. The
  root terms are the same sums.
-/
import proofs.«169502_j41412074668235_1_alg».proof.Proof.KI.Value0
import proofs.«169502_j41412074668235_1_alg».proof.Proof.KI.HostRead
import proofs.«169502_j41412074668235_1_alg».proof.Proof.RI.ReadL1
import proofs.«169502_j41412074668235_1_alg».proof.Proof.LibLayerAlgebra
import Idealize.ShloMosaic.Lib.ValueIdx

set_option maxRecDepth 16384

noncomputable section

namespace Cert.Bridge

open Idealize.ShloMosaic Idealize.ShloMosaic.ValueIdx
open scoped BigOperators

local notation "Zw" => Ideal.ofBits FTy.f32 0x00000000#32
local notation "Ow" => Ideal.ofBits FTy.f32 0x3F800000#32

/-- The layer, for ANY table of aggregates that reads, in each relation's band of columns, the sum of the gathered
    source rows over the node's incoming edges times the reciprocal clipped in-degree. -/
theorem layer0_eq_of (e0 e1 e2 e3 : IVec Cert.KernelIdeal.S2x800000 32) (x : FVec Ideal Cert.KernelIdeal.S100000x64 .f32) (w : FVec Ideal Cert.KernelIdeal.S4x64x128 .f32)
    (root : FVec Ideal Cert.KernelIdeal.S64x128 .f32) (b : FVec Ideal Cert.KernelIdeal.S128 .f32)
    (hx : ∀ i, Cert.Lib.IsReal (x i)) (hw : ∀ i, Cert.Lib.IsReal (w i))
    (A : FVec Ideal Cert.KernelIdeal.S100000x256 .f32)
    (hA0 : ∀ (v : Fin 100000) (k : Fin 64) (hk : k.val < 256),
      A (ix2 v (⟨k.val, hk⟩ : Fin 256))
        = (Zw + ∑ a ∈ Cert.Lib.inbox e0 v, x (ix2 (Cert.Lib.srcRow e0 a) k)) * Ideal.div Ow (Cert.Lib.degAt e0 v))
    (hA1 : ∀ (v : Fin 100000) (k : Fin 64) (hk : 64 + k.val < 256),
      A (ix2 v (⟨64 + k.val, hk⟩ : Fin 256))
        = (Zw + ∑ a ∈ Cert.Lib.inbox e1 v, x (ix2 (Cert.Lib.srcRow e1 a) k)) * Ideal.div Ow (Cert.Lib.degAt e1 v))
    (hA2 : ∀ (v : Fin 100000) (k : Fin 64) (hk : 128 + k.val < 256),
      A (ix2 v (⟨128 + k.val, hk⟩ : Fin 256))
        = (Zw + ∑ a ∈ Cert.Lib.inbox e2 v, x (ix2 (Cert.Lib.srcRow e2 a) k)) * Ideal.div Ow (Cert.Lib.degAt e2 v))
    (hA3 : ∀ (v : Fin 100000) (k : Fin 64) (hk : 192 + k.val < 256),
      A (ix2 v (⟨192 + k.val, hk⟩ : Fin 256))
        = (Zw + ∑ a ∈ Cert.Lib.inbox e3 v, x (ix2 (Cert.Lib.srcRow e3 a) k)) * Ideal.div Ow (Cert.Lib.degAt e3 v)) :
    Cert.ReferenceIdeal.RefRun.layer1 (F := Ideal) e0 e1 e2 e3 x w root b
      = Cert.KernelIdeal.HandValue.lin0 x A root w b := by
  funext i
  obtain ⟨v, j, rfl⟩ : ∃ (v : Fin 100000) (j : Fin 128), i = ix2 v j := ⟨i 0, i 1, eq_ix2 i⟩
  rw [Cert.ReferenceIdeal.RefValueL1.layer1_apply, Cert.ReferenceIdeal.RefValueL1.root1_apply, Cert.ReferenceIdeal.RefValueL1.nbr1_apply, Cert.ReferenceIdeal.RefValueL1.nbr1_apply, Cert.ReferenceIdeal.RefValueL1.nbr1_apply, Cert.ReferenceIdeal.RefValueL1.nbr1_apply]
  simp only [Cert.ReferenceIdeal.RefValueL1.w1_apply ![0, 0, 0] Cert.ReferenceIdeal.Facts₀.slices_S4x64x128_S1x64x128_0_0_0 w (0 : Fin 4) rfl rfl rfl,
    Cert.ReferenceIdeal.RefValueL1.w1_apply ![1, 0, 0] Cert.ReferenceIdeal.Facts₀.slices_S4x64x128_S1x64x128_1_0_0 w (1 : Fin 4) rfl rfl rfl,
    Cert.ReferenceIdeal.RefValueL1.w1_apply ![2, 0, 0] Cert.ReferenceIdeal.Facts₀.slices_S4x64x128_S1x64x128_2_0_0 w (2 : Fin 4) rfl rfl rfl,
    Cert.ReferenceIdeal.RefValueL1.w1_apply ![3, 0, 0] Cert.ReferenceIdeal.Facts₀.slices_S4x64x128_S1x64x128_3_0_0 w (3 : Fin 4) rfl rfl rfl]
  rw [Cert.KernelIdeal.HandValue.lin0_apply]
  unfold Cert.KernelIdeal.HandValue.lin0At
  simp only [hA0, hA1, hA2, hA3]
  rw [Cert.Lib.rel_term (Cert.Lib.inbox e0 v) (fun a k => x (ix2 (Cert.Lib.srcRow e0 a) k)) (fun k => w (ix3 (0 : Fin 4) k j))
        (Cert.Lib.degAt e0 v) (fun _ _ => hx _) (fun _ => hw _) (Cert.Lib.degAt_real e0 v),
    Cert.Lib.rel_term (Cert.Lib.inbox e1 v) (fun a k => x (ix2 (Cert.Lib.srcRow e1 a) k)) (fun k => w (ix3 (1 : Fin 4) k j))
        (Cert.Lib.degAt e1 v) (fun _ _ => hx _) (fun _ => hw _) (Cert.Lib.degAt_real e1 v),
    Cert.Lib.rel_term (Cert.Lib.inbox e2 v) (fun a k => x (ix2 (Cert.Lib.srcRow e2 a) k)) (fun k => w (ix3 (2 : Fin 4) k j))
        (Cert.Lib.degAt e2 v) (fun _ _ => hx _) (fun _ => hw _) (Cert.Lib.degAt_real e2 v),
    Cert.Lib.rel_term (Cert.Lib.inbox e3 v) (fun a k => x (ix2 (Cert.Lib.srcRow e3 a) k)) (fun k => w (ix3 (3 : Fin 4) k j))
        (Cert.Lib.degAt e3 v) (fun _ _ => hx _) (fun _ => hw _) (Cert.Lib.degAt_real e3 v)]

end Cert.Bridge

end
-- ==== Proof.RI.ReadL2.lean ====
/- The second layer's named functions read at an index, at the ideal values, as the first layer's: a relation's matrix is a
   slab of the stacked ones; the root term is the row-by-column sum plus the bias entry; a relation's term at (v, j) is the
   sum, over the edges into v, of the gathered source row's product with column j, divided by the clipped in-degree of v. -/
import proofs.«169502_j41412074668235_1_alg».proof.Proof.RI.Fns
import proofs.«169502_j41412074668235_1_alg».proof.Proof.LibGatherScatter

import Idealize.ShloMosaic.Lib.ValueLayout
import Idealize.ShloMosaic.Lib.StackMember
import Idealize.ShloMosaic.PureOps.Ideal.Laws

noncomputable section

open scoped BigOperators

namespace Cert.ReferenceIdeal.RefValueL2r

open Cert.ReferenceIdeal Cert.ReferenceIdeal.Gen Cert.ReferenceIdeal.RefRun Idealize.ShloMosaic Idealize.ShloMosaic.ValueIdx
  Idealize.ShloMosaic.StackMember

variable {F : FTy → Type} [FloatOps F]

/-! ## Entry by entry, at the ideal values -/

/-- The entrywise maximum. -/
theorem maximumf_apply {s : Shape} (x y : FVec Ideal s .f32) (i : s.Idx) : maximumf x y i = max (x i) (y i) := rfl

/-- The host's entrywise quotient. -/
theorem hdivf_apply {s : Shape} (x y : FVec Ideal s .f32) (i : s.Idx) : Host.divf x y i = Ideal.div (x i) (y i) := rfl

/-- The entrywise sum. -/
theorem addf_apply {s : Shape} (x y : FVec Ideal s .f32) (i : s.Idx) : addf x y i = x i + y i := rfl

/-- A scalar constant spread over a shape is the constant's value at every entry. -/
theorem splat_apply {t : Shape} (h : S_.BroadcastsInDim t (![] : Fin 0 → Fin t.rank)) (b : BitVec FTy.f32.bits) (i : t.Idx) :
    broadcastInDim t ![] h (constant S_ .f32 b : FVec Ideal S_ .f32) i = Ideal.ofBits .f32 b := rfl

/-! ## Edge tables -/

/-- The source row of an edge table at edge a. -/
theorem srcOf_apply (e : IVec S2x800000 32) (a : Fin 800000) : srcOf e (ix1 a) = e (ix2 0 a) := by
  unfold srcOf
  rw [shapeCast_1a_a_apply]
  exact extractStridedSlice_apply _ e _ _ _ (fun c => by
    match c with
    | ⟨0, _⟩ => rfl
    | ⟨1, _⟩ => exact (Nat.zero_add _).symm)

/-- The destination row of an edge table at edge a. -/
theorem dstOf_apply (e : IVec S2x800000 32) (a : Fin 800000) : dstOf e (ix1 a) = e (ix2 1 a) := by
  unfold dstOf
  rw [shapeCast_1a_a_apply]
  exact extractStridedSlice_apply _ e _ _ _ (fun c => by
    match c with
    | ⟨0, _⟩ => rfl
    | ⟨1, _⟩ => exact (Nat.zero_add _).symm)

/-- The wrapped index, entry by entry. -/
theorem wrap_apply (s : IVec S800000 32) (i : S800000.Idx) : wrap s i = Cert.Lib.wrapWord (s i) := rfl

/-- The one-column index table at row a. -/
theorem col_apply (s : IVec S800000 32) (a : Fin 800000) (c : Fin 1) : col s (ix2 a c) = s (ix1 a) := by
  unfold col
  exact broadcastInDim_apply _ _ s _ (ix1 a) (fun q => by match q with | ⟨0, _⟩ => rfl)

/-- A per-node vector laid along the rows of a table with k columns, read at (v, j), is its entry v. -/
theorem nodeRows64_apply (d : FVec F S100000 .f32) (v : Fin 100000) (j : Fin 64) :
    broadcastInDim S100000x64 ![0, 1] bcast_S100000x1_S100000x64_0_1
      (broadcastInDim S100000x1 ![0] bcast_S100000_S100000x1_0 d) (ix2 v j) = d (ix1 v) := by
  rw [broadcastInDim_apply _ _ _ (ix2 v j) (ix2 v (0 : Fin 1)) (fun q => by match q with | ⟨0, _⟩ => rfl | ⟨1, _⟩ => rfl)]
  exact broadcastInDim_apply _ _ d _ (ix1 v) (fun q => by match q with | ⟨0, _⟩ => rfl)

/-- The clipped in-degree at node v, at the ideal values. -/
theorem deg_apply (e : IVec S2x800000 32) (v : Fin 100000) :
    deg (F := Ideal) (dstOf e) (ix1 v) = Cert.Lib.degAt e v := by
  unfold deg Cert.Lib.degAt Cert.Lib.inbox
  rw [maximumf_apply, Cert.Lib.scatterAdd1_apply _ rfl rfl rfl rfl]
  simp only [col_apply, dstOf_apply]
  rw [splat_apply, splat_apply, Finset.sum_congr rfl (fun a _ => splat_apply bcast_S_S800000 _ (ix1 a))]

/-! ## The second layer -/

/-- A relation's matrix is the slab of the stacked matrices the offset names. -/
theorem w2_apply (off : Fin 3 → Nat) (h : S4x128x64.Slices off S1x128x64) (w : FVec F S4x128x64 .f32) (r : Fin 4)
    (h0 : off 0 = r.val) (h1 : off 1 = 0) (h2 : off 2 = 0) (k : Fin 128) (j : Fin 64) :
    w2 off h w (ix2 k j) = w (ix3 r k j) := by
  unfold w2
  rw [shapeCast_1ab_ab_apply]
  exact extractStridedSlice_apply off w h (ix3 (0 : Fin 1) k j) (ix3 r k j) (fun c => by
    match c with
    | ⟨0, _⟩ => show r.val = off 0 + 0; omega
    | ⟨1, _⟩ => show k.val = off 1 + k.val; omega
    | ⟨2, _⟩ => show j.val = off 2 + j.val; omega)

/-- A 64-vector laid on every row, read at (v, j), is its entry j. -/
theorem rows64_apply (b : FVec F S64 .f32) (v : Fin 100000) (j : Fin 64) :
    broadcastInDim S100000x64 ![0, 1] bcast_S1x64_S100000x64_0_1 (broadcastInDim S1x64 ![1] bcast_S64_S1x64_1 b) (ix2 v j)
      = b (ix1 j) := by
  rw [broadcastInDim_apply _ _ _ (ix2 v j) (ix2 (0 : Fin 1) j) (fun q => by match q with | ⟨0, _⟩ => rfl | ⟨1, _⟩ => rfl)]
  exact broadcastInDim_apply _ _ b _ (ix1 j) (fun q => by match q with | ⟨0, _⟩ => rfl)

/-- The two products' dimension records are the plain row-by-column ones. -/
theorem dotRoot2_eq : dot_S100000x128_S128x64_S100000x64_1_0_0_1_n_n = DotDims.plain 100000 128 64 := rfl
theorem dotMsg2_eq : dot_S800000x128_S128x64_S800000x64_1_0_0_1_n_n = DotDims.plain 800000 128 64 := rfl

/-- The root term at (v, j): row v of the activations times column j of the root matrix, plus bias entry j. -/
theorem root2_apply (z : FVec Ideal S100000x128 .f32) (w : FVec Ideal S128x64 .f32) (b : FVec Ideal S64 .f32)
    (v : Fin 100000) (j : Fin 64) :
    root2 z w b (ix2 v j) = (∑ k : Fin 128, z (ix2 v k) * w (ix2 k j)) + b (ix1 j) := by
  unfold root2
  rw [addf_apply, rows64_apply, dotRoot2_eq, dotGeneral_plain_apply]

/-- A relation's term at (v, j): the sum over the edges into v of the gathered source row times column j of the
    relation's matrix, from the word of zero, divided by the clipped in-degree of v. -/
theorem nbr2_apply (e : IVec S2x800000 32) (z : FVec Ideal S100000x128 .f32) (w : FVec Ideal S128x64 .f32)
    (v : Fin 100000) (j : Fin 64) :
    nbr2 e z w (ix2 v j)
      = Ideal.div (Ideal.ofBits .f32 0x00000000#32
          + ∑ a ∈ Cert.Lib.inbox e v, ∑ k : Fin 128, z (ix2 (Cert.Lib.srcRow e a) k) * w (ix2 k j))
        (Cert.Lib.degAt e v) := by
  have hterm : ∀ a : Fin 800000,
      Host.dotGeneral dot_S800000x128_S128x64_S800000x64_1_0_0_1_n_n none
          (Host.gather gather_S100000x128_S800000x1_S800000x128_1_0_n_n_0_1_1128 z (col (wrap (srcOf e)))) w (ix2 a j)
        = ∑ k : Fin 128, z (ix2 (Cert.Lib.rowOf 100000 (by decide) (Cert.Lib.wrapWord (e (ix2 0 a)))) k) * w (ix2 k j) := by
    intro a
    rw [dotMsg2_eq, dotGeneral_plain_apply]
    refine Finset.sum_congr rfl fun k _ => ?_
    rw [Cert.Lib.gather_rows_apply (n := 100000) (e := 800000) (k := 128) (by decide) _ rfl rfl rfl rfl rfl rfl rfl,
      col_apply, wrap_apply, srcOf_apply]
  unfold nbr2 Cert.Lib.inbox Cert.Lib.srcRow
  rw [hdivf_apply, nodeRows64_apply, deg_apply, Cert.Lib.scatterAdd2_apply _ rfl rfl rfl rfl, splat_apply]
  simp only [col_apply, dstOf_apply, hterm]

/-- The second layer at (v, j): the root term and the four relations' terms, added in order. -/
theorem layer2_apply (e0 e1 e2 e3 : IVec S2x800000 32) (z : FVec Ideal S100000x128 .f32) (w : FVec Ideal S4x128x64 .f32)
    (wr : FVec Ideal S128x64 .f32) (b : FVec Ideal S64 .f32) (v : Fin 100000) (j : Fin 64) :
    layer2 e0 e1 e2 e3 z w wr b (ix2 v j)
      = ((((root2 z wr b (ix2 v j)
          + nbr2 e0 z (w2 ![0, 0, 0] slices_S4x128x64_S1x128x64_0_0_0 w) (ix2 v j))
          + nbr2 e1 z (w2 ![1, 0, 0] slices_S4x128x64_S1x128x64_1_0_0 w) (ix2 v j))
          + nbr2 e2 z (w2 ![2, 0, 0] slices_S4x128x64_S1x128x64_2_0_0 w) (ix2 v j))
          + nbr2 e3 z (w2 ![3, 0, 0] slices_S4x128x64_S1x128x64_3_0_0 w) (ix2 v j)) := by
  unfold layer2
  rw [addf_apply, addf_apply, addf_apply, addf_apply]

end Cert.ReferenceIdeal.RefValueL2r

end
-- ==== Proof.BridgeLayer1.lean ====
/-
  The second layer of the two programs agrees on real data, at the ideal values. The reference divides each relation's
  sum of products, over a node's incoming edges, by the clipped in-degree after multiplying by the relation's matrix; the
  kernel multiplies the sum of the gathered rows by the reciprocal clipped in-degree first and by the matrix after. The
  root terms are the same sums.
-/
import proofs.«169502_j41412074668235_1_alg».proof.Proof.KI.Value3
import proofs.«169502_j41412074668235_1_alg».proof.Proof.KI.HostRead
import proofs.«169502_j41412074668235_1_alg».proof.Proof.RI.ReadL2
import proofs.«169502_j41412074668235_1_alg».proof.Proof.LibLayerAlgebra
import Idealize.ShloMosaic.Lib.ValueIdx

set_option maxRecDepth 16384

noncomputable section

namespace Cert.Bridge

open Idealize.ShloMosaic Idealize.ShloMosaic.ValueIdx
open scoped BigOperators

local notation "Zw" => Ideal.ofBits FTy.f32 0x00000000#32
local notation "Ow" => Ideal.ofBits FTy.f32 0x3F800000#32

/-- The layer, for ANY table of aggregates that reads, in each relation's band of columns, the sum of the gathered
    source rows over the node's incoming edges times the reciprocal clipped in-degree. -/
theorem layer1_eq_of (e0 e1 e2 e3 : IVec Cert.KernelIdeal.S2x800000 32) (x : FVec Ideal Cert.KernelIdeal.S100000x128 .f32) (w : FVec Ideal Cert.KernelIdeal.S4x128x64 .f32)
    (root : FVec Ideal Cert.KernelIdeal.S128x64 .f32) (b : FVec Ideal Cert.KernelIdeal.S64 .f32)
    (hx : ∀ i, Cert.Lib.IsReal (x i)) (hw : ∀ i, Cert.Lib.IsReal (w i))
    (A : FVec Ideal Cert.KernelIdeal.S100000x512 .f32)
    (hA0 : ∀ (v : Fin 100000) (k : Fin 128) (hk : k.val < 512),
      A (ix2 v (⟨k.val, hk⟩ : Fin 512))
        = (Zw + ∑ a ∈ Cert.Lib.inbox e0 v, x (ix2 (Cert.Lib.srcRow e0 a) k)) * Ideal.div Ow (Cert.Lib.degAt e0 v))
    (hA1 : ∀ (v : Fin 100000) (k : Fin 128) (hk : 128 + k.val < 512),
      A (ix2 v (⟨128 + k.val, hk⟩ : Fin 512))
        = (Zw + ∑ a ∈ Cert.Lib.inbox e1 v, x (ix2 (Cert.Lib.srcRow e1 a) k)) * Ideal.div Ow (Cert.Lib.degAt e1 v))
    (hA2 : ∀ (v : Fin 100000) (k : Fin 128) (hk : 256 + k.val < 512),
      A (ix2 v (⟨256 + k.val, hk⟩ : Fin 512))
        = (Zw + ∑ a ∈ Cert.Lib.inbox e2 v, x (ix2 (Cert.Lib.srcRow e2 a) k)) * Ideal.div Ow (Cert.Lib.degAt e2 v))
    (hA3 : ∀ (v : Fin 100000) (k : Fin 128) (hk : 384 + k.val < 512),
      A (ix2 v (⟨384 + k.val, hk⟩ : Fin 512))
        = (Zw + ∑ a ∈ Cert.Lib.inbox e3 v, x (ix2 (Cert.Lib.srcRow e3 a) k)) * Ideal.div Ow (Cert.Lib.degAt e3 v)) :
    Cert.ReferenceIdeal.RefRun.layer2 (F := Ideal) e0 e1 e2 e3 x w root b
      = Cert.KernelIdeal.HandValue.lin1 x A root w b := by
  funext i
  obtain ⟨v, j, rfl⟩ : ∃ (v : Fin 100000) (j : Fin 64), i = ix2 v j := ⟨i 0, i 1, eq_ix2 i⟩
  rw [Cert.ReferenceIdeal.RefValueL2r.layer2_apply, Cert.ReferenceIdeal.RefValueL2r.root2_apply, Cert.ReferenceIdeal.RefValueL2r.nbr2_apply, Cert.ReferenceIdeal.RefValueL2r.nbr2_apply, Cert.ReferenceIdeal.RefValueL2r.nbr2_apply, Cert.ReferenceIdeal.RefValueL2r.nbr2_apply]
  simp only [Cert.ReferenceIdeal.RefValueL2r.w2_apply ![0, 0, 0] Cert.ReferenceIdeal.Facts₀.slices_S4x128x64_S1x128x64_0_0_0 w (0 : Fin 4) rfl rfl rfl,
    Cert.ReferenceIdeal.RefValueL2r.w2_apply ![1, 0, 0] Cert.ReferenceIdeal.Facts₀.slices_S4x128x64_S1x128x64_1_0_0 w (1 : Fin 4) rfl rfl rfl,
    Cert.ReferenceIdeal.RefValueL2r.w2_apply ![2, 0, 0] Cert.ReferenceIdeal.Facts₀.slices_S4x128x64_S1x128x64_2_0_0 w (2 : Fin 4) rfl rfl rfl,
    Cert.ReferenceIdeal.RefValueL2r.w2_apply ![3, 0, 0] Cert.ReferenceIdeal.Facts₀.slices_S4x128x64_S1x128x64_3_0_0 w (3 : Fin 4) rfl rfl rfl]
  rw [Cert.KernelIdeal.HandValue.lin1_apply]
  unfold Cert.KernelIdeal.HandValue.lin1At
  simp only [hA0, hA1, hA2, hA3]
  rw [Cert.Lib.rel_term (Cert.Lib.inbox e0 v) (fun a k => x (ix2 (Cert.Lib.srcRow e0 a) k)) (fun k => w (ix3 (0 : Fin 4) k j))
        (Cert.Lib.degAt e0 v) (fun _ _ => hx _) (fun _ => hw _) (Cert.Lib.degAt_real e0 v),
    Cert.Lib.rel_term (Cert.Lib.inbox e1 v) (fun a k => x (ix2 (Cert.Lib.srcRow e1 a) k)) (fun k => w (ix3 (1 : Fin 4) k j))
        (Cert.Lib.degAt e1 v) (fun _ _ => hx _) (fun _ => hw _) (Cert.Lib.degAt_real e1 v),
    Cert.Lib.rel_term (Cert.Lib.inbox e2 v) (fun a k => x (ix2 (Cert.Lib.srcRow e2 a) k)) (fun k => w (ix3 (2 : Fin 4) k j))
        (Cert.Lib.degAt e2 v) (fun _ _ => hx _) (fun _ => hw _) (Cert.Lib.degAt_real e2 v),
    Cert.Lib.rel_term (Cert.Lib.inbox e3 v) (fun a k => x (ix2 (Cert.Lib.srcRow e3 a) k)) (fun k => w (ix3 (3 : Fin 4) k j))
        (Cert.Lib.degAt e3 v) (fun _ _ => hx _) (fun _ => hw _) (Cert.Lib.degAt_real e3 v)]

end Cert.Bridge

end
-- ==== Proof.Bridge.lean ====
/-
  The value equation of the certificate: on finite inputs the reference's result, as a function of the thirteen argument
  arrays, is what the kernel's program leaves in its result array. The precondition makes every float argument real-valued.
  The kernel's result array is the second layer's dense part of the normalised features and their aggregates; the
  reference's result is its second layer of its normalised first layer. Layer by layer the two agree: a relation's mean of
  gathered rows commutes with the right multiplication by its weights (real arithmetic, the clipped in-degree a real at
  least one); the kernel's mean square minus squared mean is the reference's mean squared deviation, and the two
  exponential linear units are one function; every intermediate array is real-valued, so the first layer's laws apply to
  the second.
-/
import proofs.«169502_j41412074668235_1_alg».proof.Proof.KI.Composite
import proofs.«169502_j41412074668235_1_alg».proof.Proof.KI.HostRead
import proofs.«169502_j41412074668235_1_alg».proof.Proof.KI.RealLin
import proofs.«169502_j41412074668235_1_alg».proof.Proof.RI.Run
import proofs.«169502_j41412074668235_1_alg».proof.Proof.Finite
import proofs.«169502_j41412074668235_1_alg».proof.Proof.BridgeMid
import proofs.«169502_j41412074668235_1_alg».proof.Proof.BridgeLayer0
import proofs.«169502_j41412074668235_1_alg».proof.Proof.BridgeLayer1

noncomputable section

namespace Cert.Bridge

open Idealize.ShloMosaic Idealize.ShloMosaic.TcCoe Idealize.SL.Sem Idealize.ShloMosaic.ValueIdx Cert.Lib
open Cert.KernelIdeal.HandValue

/-- The first layer: the reference's layer is the kernel's dense part of the features and their aggregates. -/
theorem layer0_eq (e0 e1 e2 e3 : IVec Cert.KernelIdeal.S2x800000 32) (x : FVec Ideal Cert.KernelIdeal.S100000x64 .f32)
    (w : FVec Ideal Cert.KernelIdeal.S4x64x128 .f32) (root : FVec Ideal Cert.KernelIdeal.S64x128 .f32) (b : FVec Ideal Cert.KernelIdeal.S128 .f32)
    (hx : ∀ i, IsReal (x i)) (hw : ∀ i, IsReal (w i)) :
    Cert.ReferenceIdeal.RefRun.layer1 (F := Ideal) e0 e1 e2 e3 x w root b
      = lin0 x (aggs0 (F := Ideal) e0 e1 e2 e3 x) root w b :=
  layer0_eq_of e0 e1 e2 e3 x w root b hx hw (aggs0 (F := Ideal) e0 e1 e2 e3 x)
    (fun v k _ => aggs0_apply_0 e0 e1 e2 e3 x v k) (fun v k _ => aggs0_apply_1 e0 e1 e2 e3 x v k)
    (fun v k _ => aggs0_apply_2 e0 e1 e2 e3 x v k) (fun v k _ => aggs0_apply_3 e0 e1 e2 e3 x v k)

/-- The second layer: the reference's layer is the kernel's dense part of the features and their aggregates. -/
theorem layer1_eq (e0 e1 e2 e3 : IVec Cert.KernelIdeal.S2x800000 32) (x : FVec Ideal Cert.KernelIdeal.S100000x128 .f32)
    (w : FVec Ideal Cert.KernelIdeal.S4x128x64 .f32) (root : FVec Ideal Cert.KernelIdeal.S128x64 .f32) (b : FVec Ideal Cert.KernelIdeal.S64 .f32)
    (hx : ∀ i, IsReal (x i)) (hw : ∀ i, IsReal (w i)) :
    Cert.ReferenceIdeal.RefRun.layer2 (F := Ideal) e0 e1 e2 e3 x w root b
      = lin1 x (aggs1 (F := Ideal) e0 e1 e2 e3 x) root w b :=
  layer1_eq_of e0 e1 e2 e3 x w root b hx hw (aggs1 (F := Ideal) e0 e1 e2 e3 x)
    (fun v k _ => aggs1_apply_0 e0 e1 e2 e3 x v k) (fun v k _ => aggs1_apply_1 e0 e1 e2 e3 x v k)
    (fun v k _ => aggs1_apply_2 e0 e1 e2 e3 x v k) (fun v k _ => aggs1_apply_3 e0 e1 e2 e3 x v k)

/-- On finite inputs the reference's result is the kernel program's result array. -/
theorem value_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) = fun _ => 1#1) :
    Cert.ReferenceIdeal.RefRun.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = Cert.KernelIdeal.Hand.W7 m ρ c (Proc.devRef .tc Cert.KernelIdeal.main_v160) := by
  obtain ⟨h4, h5, h6, h7, h8, h9, h10, h11, h12⟩ := Cert.Finite.finite_of_pre _ _ _ _ _ _ _ _ _ _ _ _ _ hpre
  -- the kernel's side, down to the named functions of the arguments
  rw [result_eq m ρ c _ (V1_v97 m ρ c) _ (V6_v159 m ρ c), Cert.KernelIdeal.Hand.V6_v106, h1n_eq m ρ c _ (V1_v97 m ρ c)]
  -- the reference's side, layer by layer
  unfold Cert.ReferenceIdeal.RefRun.result
  rw [layer0_eq _ _ _ _ _ _ _ _ h4 h5]
  have hH : ∀ i, IsReal (lin0 (m ((c.tc : Thread Cert.KernelIdeal.nD Cert.KernelIdeal.τ).loc Cert.KernelIdeal.main_arg4)) (aggs0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg6)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) i) :=
    fun i => lin0At_isReal h4 (aggs0_isReal _ _ _ _ _ h4) h6 h5 h7 (i 0) (i 1)
  rw [mid_eq _ _ _ hH]
  exact layer1_eq _ _ _ _ _ _ _ _ (kernel_mid_isReal _ _ _ hH h8 h9) h10

end Cert.Bridge

end
-- ==== Proof.lean ====
/-
  The certificate of a two-layer relational graph convolution with batch normalisation and ELU between the layers: the
  kernel's program (four kernel regions among host gathers and segment sums) against the plain reference.
  The three frames: each program terminates on every weakly fair execution, faults nowhere, and leaves its thirteen
  argument arrays as launched. The idealization rewrote nothing, so it preserves the program trivially. At the extended
  reals the two programs compute one function of finite inputs: a relation's mean of gathered rows commutes with the
  right multiplication by the relation's weights, and the variance is the mean square minus the squared mean.
-/
import proofs.«169502_j41412074668235_1_alg».proof.Defs
import proofs.«169502_j41412074668235_1_alg».proof.Proof.Gen.Kernel
import proofs.«169502_j41412074668235_1_alg».proof.Proof.Gen.KernelIdeal
import proofs.«169502_j41412074668235_1_alg».proof.Proof.Gen.ReferenceIdeal
import proofs.«169502_j41412074668235_1_alg».proof.Proof.Gen.Pre_finite_inputs
import proofs.«169502_j41412074668235_1_alg».proof.Proof.K.Frame
import proofs.«169502_j41412074668235_1_alg».proof.Proof.KI.Frame
import proofs.«169502_j41412074668235_1_alg».proof.Proof.RI.Frame
import proofs.«169502_j41412074668235_1_alg».proof.Proof.Bridge
import Idealize.ShloMosaic.Adequacy
import Idealize.ShloMosaic.Init

noncomputable section

namespace Cert.Proof

open Idealize.ShloMosaic Idealize.SL.Sem

/-- The word-level program runs to the end and leaves its arguments alone. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is a straight line of host operations, none of which writes an argument. -/
theorem frame_ri : Cert.frame_ReferenceIdeal (hReferenceIdeal := Cert.ReferenceIdeal.Gen.facts) (hPre_finite_inputs := Cert.Pre_finite_inputs.Gen.facts) :=
  Cert.ReferenceIdeal.RefRun.frame_ri

/-- The ideal pass rewrote no operation. -/
theorem preserves : Cert.preserves_Kernel_KernelIdeal := trivial

/-- At the extended reals, from memories agreeing on the arguments, both programs run and end with equal results: the
    kernel's run with its result array named, the reference's run with its result the named function of the arguments,
    and the value equation on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.W7 m ρ c (Proc.devRef .tc Cert.KernelIdeal.main_v160),
    Cert.KernelIdeal.Hand.run_value (F := Ideal) m ρ, ?_⟩
  refine (θ_run (Cert.ReferenceIdeal.defs (F := Ideal)) _ _).mono (fun r h c => ⟨(h c).1.trans ?_, (h c).2⟩)
    (Cert.ReferenceIdeal.RefRun.run (F := Ideal) m' ρ')
  obtain ⟨h0, h1, h2, h3, h4, h5, h6, h7, h8, h9, h10, h11, h12⟩ := hagree c
  rw [h0, h1, h2, h3, h4, h5, h6, h7, h8, h9, h10, h11, h12]
  exact Cert.Bridge.value_eq m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
